-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v181)) (v1 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181) = v0 c
          ∧ r.2.mem ((c.tc : Thread Cert.KernelIdeal.nD Cert.KernelIdeal.τ).loc Cert.KernelIdeal.main_v183) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_v253) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x980 : Shape := ⟨2, ![40000, 980]⟩
abbrev S15000x5 : Shape := ⟨2, ![15000, 5]⟩
abbrev S256x980 : Shape := ⟨2, ![256, 980]⟩
abbrev S256 : Shape := ⟨1, ![256]⟩
abbrev S256x5 : Shape := ⟨2, ![256, 5]⟩
abbrev S256x256 : Shape := ⟨2, ![256, 256]⟩
abbrev S64x256 : Shape := ⟨2, ![64, 256]⟩
abbrev S64 : Shape := ⟨1, ![64]⟩
abbrev S2x600000 : Shape := ⟨2, ![2, 600000]⟩
abbrev S250000 : Shape := ⟨1, ![250000]⟩
abbrev S_ : Shape := ⟨0, ![]⟩

class Facts : Prop where
  bcast_S_S40000x980 : S_.BroadcastsInDim S40000x980 (![] : Fin 0 → Fin S40000x980.rank)
  reducesTo_S40000x980_S_d0_1 : S40000x980.ReducesTo [0, 1] S_
  h_S_ : 0 < S_.numel
  bcast_S_S15000x5 : S_.BroadcastsInDim S15000x5 (![] : Fin 0 → Fin S15000x5.rank)
  reducesTo_S15000x5_S_d0_1 : S15000x5.ReducesTo [0, 1] S_
  bcast_S_S256x980 : S_.BroadcastsInDim S256x980 (![] : Fin 0 → Fin S256x980.rank)
  reducesTo_S256x980_S_d0_1 : S256x980.ReducesTo [0, 1] S_
  bcast_S_S256 : S_.BroadcastsInDim S256 (![] : Fin 0 → Fin S256.rank)
  reducesTo_S256_S_d0 : S256.ReducesTo [0] S_
  bcast_S_S256x5 : S_.BroadcastsInDim S256x5 (![] : Fin 0 → Fin S256x5.rank)
  reducesTo_S256x5_S_d0_1 : S256x5.ReducesTo [0, 1] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part8 {F : FTy → Type} [FloatOps F] (main_arg28 : FVec F S64x256 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64x256 .f32 := Host.absf main_arg28
  let main_cst_54 : FVec F S_ .f32 := constant S_ .f32 0x7F800000#32
  let main_v140 : FVec F S64x256 .f32 := broadcastInDim S64x256 ![] bcast_S_S64x256 main_cst_54
  let main_v141 : IVec S64x256 1 := cmpf .olt main_v139 main_v140
  let main_c_55 : IVec S_ 1 := constantI S_ 1 1#1
  let main_v142 : IVec S_ 1 := (fun x v => Host.reduce IntOp.andi x v reducesTo_S64x256_S_d0_1 h_S_) main_v141 main_c_55
  let main_v143 : IVec S_ 1 := andi main_v138 main_v142
  main_v143

def fn_part7 {F : FTy → Type} [FloatOps F] (main_arg25 : FVec F S64x256 .f32) (main_arg26 : FVec F S64x256 .f32) (main_arg27 : FVec F S64 .f32) (main_arg28 : FVec F S64x256 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x256 .f32 := Host.absf main_arg25
  let main_cst_48 : FVec F S_ .f32 := constant S_ .f32 0x7F800000#32
  let main_v125 : FVec F S64x256 .f32 := broadcastInDim S64x256 ![] bcast_S_S64x256 main_cst_48
  let main_v126 : IVec S64x256 1 := cmpf .olt main_v124 main_v125
  let main_c_49 : IVec S_ 1 := constantI S_ 1 1#1
  let main_v127 : IVec S_ 1 := (fun x v => Host.reduce IntOp.andi x v reducesTo_S64x256_S_d0_1 h_S_) main_v126 main_c_49
  let main_v128 : IVec S_ 1 := andi main_v123 main_v127
  let main_v129 : FVec F S64x256 .f32 := Host.absf main_arg26
  let main_cst_50 : FVec F S_ .f32 := constant S_ .f32 0x7F800000#32
  let main_v130 : FVec F S64x256 .f32 := broadcastInDim S64x256 ![] bcast_S_S64x256 main_cst_50
  let main_v131 : IVec S64x256 1 := cmpf .olt main_v129 main_v130
  let main_c_51 : IVec S_ 1 := constantI S_ 1 1#1
  let main_v132 : IVec S_ 1 := (fun x v => Host.reduce IntOp.andi x v reducesTo_S64x256_S_d0_1 h_S_) main_v131 main_c_51
  let main_v133 : IVec S_ 1 := andi main_v128 main_v132
  let main_v134 : FVec F S64 .f32 := Host.absf main_arg27
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg28 main_v133 main_v136

def fn_part6 {F : FTy → Type} [FloatOps F] (main_arg21 : FVec F S64 .f32) (main_arg22 : FVec F S64x256 .f32) (main_arg23 : FVec F S64x256 .f32) (main_arg24 : FVec F S64 .f32) (main_arg25 : FVec F S64x256 .f32) (main_arg26 : FVec F S64x256 .f32) (main_arg27 : FVec F S64 .f32) (main_arg28 : FVec F S64x256 .f32) (main_v98 : IVec S_ 1) (main_v101 : IVec S64x256 1) (main_c_39 : IVec S_ 1) : IVec S_ 1 :=
  let main_v102 : IVec S_ 1 := (fun x v => Host.reduce IntOp.andi x v reducesTo_S64x256_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x256 .f32 := Host.absf main_arg22
  let main_cst_42 : FVec F S_ .f32 := constant S_ .f32 0x7F800000#32
  let main_v110 : FVec F S64x256 .f32 := broadcastInDim S64x256 ![] bcast_S_S64x256 main_cst_42
  let main_v111 : IVec S64x256 1 := cmpf .olt main_v109 main_v110
  let main_c_43 : IVec S_ 1 := constantI S_ 1 1#1
  let main_v112 : IVec S_ 1 := (fun x v => Host.reduce IntOp.andi x v reducesTo_S64x256_S_d0_1 h_S_) main_v111 main_c_43
  let main_v113 : IVec S_ 1 := andi main_v108 main_v112
  let main_v114 : FVec F S64x256 .f32 := Host.absf main_arg23
  let main_cst_44 : FVec F S_ .f32 := constant S_ .f32 0x7F800000#32
  let main_v115 : FVec F S64x256 .f32 := broadcastInDim S64x256 ![] bcast_S_S64x256 main_cst_44
  let main_v116 : IVec S64x256 1 := cmpf .olt main_v114 main_v115
  let main_c_45 : IVec S_ 1 := constantI S_ 1 1#1
  let main_v117 : IVec S_ 1 := (fun x v => Host.reduce IntOp.andi x v reducesTo_S64x256_S_d0_1 h_S_) main_v116 main_c_45
  let main_v118 : IVec S_ 1 := andi main_v113 main_v117
  let main_v119 : FVec F S64 .f32 := Host.absf main_arg24
  fn_part7 (F := F) main_arg25 main_arg26 main_arg27 main_arg28 main_v118 main_v119

def fn_part5 {F : FTy → Type} [FloatOps F] (main_arg18 : FVec F S256 .f32) (main_arg19 : FVec F S256x256 .f32) (main_arg20 : FVec F S64x256 .f32) (main_arg21 : FVec F S64 .f32) (main_arg22 : FVec F S64x256 .f32) (main_arg23 : FVec F S64x256 .f32) (main_arg24 : FVec F S64 .f32) (main_arg25 : FVec F S64x256 .f32) (main_arg26 : FVec F S64x256 .f32) (main_arg27 : FVec F S64 .f32) (main_arg28 : FVec F S64x256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S64x256 .f32 := Host.absf main_arg20
  let main_cst_38 : FVec F S_ .f32 := constant S_ .f32 0x7F800000#32
  let main_v100 : FVec F S64x256 .f32 := broadcastInDim S64x256 ![] bcast_S_S64x256 main_cst_38
  let main_v101 : IVec S64x256 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S64x256 .f32) (main_arg21 : FVec F S64 .f32) (main_arg22 : FVec F S64x256 .f32) (main_arg23 : FVec F S64x256 .f32) (main_arg24 : FVec F S64 .f32) (main_arg25 : FVec F S64x256 .f32) (main_arg26 : FVec F S64x256 .f32) (main_arg27 : FVec F S64 .f32) (main_arg28 : FVec F S64x256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S64x256 .f32) (main_arg21 : FVec F S64 .f32) (main_arg22 : FVec F S64x256 .f32) (main_arg23 : FVec F S64x256 .f32) (main_arg24 : FVec F S64 .f32) (main_arg25 : FVec F S64x256 .f32) (main_arg26 : FVec F S64x256 .f32) (main_arg27 : FVec F S64 .f32) (main_arg28 : FVec F S64x256 .f32) (main_v48 : IVec S_ 1) (main_v49 : FVec F S256x980 .f32) (main_v50 : FVec F S256x980 .f32) : IVec S_ 1 :=
  let main_v51 : IVec S256x980 1 := cmpf .olt main_v49 main_v50
  let main_c_19 : IVec S_ 1 := constantI S_ 1 1#1
  let main_v52 : IVec S_ 1 := (fun x v => Host.reduce IntOp.andi x v reducesTo_S256x980_S_d0_1 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S256x5 .f32) (main_arg8 : FVec F S256x5 .f32) (main_arg9 : FVec F S256 .f32) (main_arg10 : FVec F S256x980 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S64x256 .f32) (main_arg21 : FVec F S64 .f32) (main_arg22 : FVec F S64x256 .f32) (main_arg23 : FVec F S64x256 .f32) (main_arg24 : FVec F S64 .f32) (main_arg25 : FVec F S64x256 .f32) (main_arg26 : FVec F S64x256 .f32) (main_arg27 : FVec F S64 .f32) (main_arg28 : FVec F S64x256 .f32) (main_v33 : IVec S_ 1) : IVec S_ 1 :=
  let main_v34 : FVec F S256x5 .f32 := Host.absf main_arg7
  let main_cst_12 : FVec F S_ .f32 := constant S_ .f32 0x7F800000#32
  let main_v35 : FVec F S256x5 .f32 := broadcastInDim S256x5 ![] bcast_S_S256x5 main_cst_12
  let main_v36 : IVec S256x5 1 := cmpf .olt main_v34 main_v35
  let main_c_13 : IVec S_ 1 := constantI S_ 1 1#1
  let main_v37 : IVec S_ 1 := (fun x v => Host.reduce IntOp.andi x v reducesTo_S256x5_S_d0_1 h_S_) main_v36 main_c_13
  let main_v38 : IVec S_ 1 := andi main_v33 main_v37
  let main_v39 : FVec F S256x5 .f32 := Host.absf main_arg8
  let main_cst_14 : FVec F S_ .f32 := constant S_ .f32 0x7F800000#32
  let main_v40 : FVec F S256x5 .f32 := broadcastInDim S256x5 ![] bcast_S_S256x5 main_cst_14
  let main_v41 : IVec S256x5 1 := cmpf .olt main_v39 main_v40
  let main_c_15 : IVec S_ 1 := constantI S_ 1 1#1
  let main_v42 : IVec S_ 1 := (fun x v => Host.reduce IntOp.andi x v reducesTo_S256x5_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x980 .f32 := Host.absf main_arg10
  let main_cst_18 : FVec F S_ .f32 := constant S_ .f32 0x7F800000#32
  let main_v50 : FVec F S256x980 .f32 := broadcastInDim S256x980 ![] bcast_S_S256x980 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S256x980 .f32) (main_arg5 : FVec F S256x980 .f32) (main_arg6 : FVec F S256 .f32) (main_arg7 : FVec F S256x5 .f32) (main_arg8 : FVec F S256x5 .f32) (main_arg9 : FVec F S256 .f32) (main_arg10 : FVec F S256x980 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S64x256 .f32) (main_arg21 : FVec F S64 .f32) (main_arg22 : FVec F S64x256 .f32) (main_arg23 : FVec F S64x256 .f32) (main_arg24 : FVec F S64 .f32) (main_arg25 : FVec F S64x256 .f32) (main_arg26 : FVec F S64x256 .f32) (main_arg27 : FVec F S64 .f32) (main_arg28 : FVec F S64x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x980 .f32 := Host.absf main_arg4
  let main_cst_6 : FVec F S_ .f32 := constant S_ .f32 0x7F800000#32
  let main_v20 : FVec F S256x980 .f32 := broadcastInDim S256x980 ![] bcast_S_S256x980 main_cst_6
  let main_v21 : IVec S256x980 1 := cmpf .olt main_v19 main_v20
  let main_c_7 : IVec S_ 1 := constantI S_ 1 1#1
  let main_v22 : IVec S_ 1 := (fun x v => Host.reduce IntOp.andi x v reducesTo_S256x980_S_d0_1 h_S_) main_v21 main_c_7
  let main_v23 : IVec S_ 1 := andi main_v18 main_v22
  let main_v24 : FVec F S256x980 .f32 := Host.absf main_arg5
  let main_cst_8 : FVec F S_ .f32 := constant S_ .f32 0x7F800000#32
  let main_v25 : FVec F S256x980 .f32 := broadcastInDim S256x980 ![] bcast_S_S256x980 main_cst_8
  let main_v26 : IVec S256x980 1 := cmpf .olt main_v24 main_v25
  let main_c_9 : IVec S_ 1 := constantI S_ 1 1#1
  let main_v27 : IVec S_ 1 := (fun x v => Host.reduce IntOp.andi x v reducesTo_S256x980_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S40000x980 .f32) (main_arg1 : FVec F S15000x5 .f32) (main_arg2 : FVec F S256x980 .f32) (main_arg3 : FVec F S256 .f32) (main_arg4 : FVec F S256x980 .f32) (main_arg5 : FVec F S256x980 .f32) (main_arg6 : FVec F S256 .f32) (main_arg7 : FVec F S256x5 .f32) (main_arg8 : FVec F S256x5 .f32) (main_arg9 : FVec F S256 .f32) (main_arg10 : FVec F S256x980 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S64x256 .f32) (main_arg21 : FVec F S64 .f32) (main_arg22 : FVec F S64x256 .f32) (main_arg23 : FVec F S64x256 .f32) (main_arg24 : FVec F S64 .f32) (main_arg25 : FVec F S64x256 .f32) (main_arg26 : FVec F S64x256 .f32) (main_arg27 : FVec F S64 .f32) (main_arg28 : FVec F S64x256 .f32) (main_arg29 : IVec S2x600000 32) (main_arg30 : IVec S250000 32) (main_arg31 : IVec S250000 32) : IVec S_ 1 :=
  let main_v0 : FVec F S40000x980 .f32 := Host.absf main_arg0
  let main_cst : FVec F S_ .f32 := constant S_ .f32 0x7F800000#32
  let main_v1 : FVec F S40000x980 .f32 := broadcastInDim S40000x980 ![] bcast_S_S40000x980 main_cst
  let main_v2 : IVec S40000x980 1 := cmpf .olt main_v0 main_v1
  let main_c : IVec S_ 1 := constantI S_ 1 1#1
  let main_v3 : IVec S_ 1 := (fun x v => Host.reduce IntOp.andi x v reducesTo_S40000x980_S_d0_1 h_S_) main_v2 main_c
  let main_v4 : FVec F S15000x5 .f32 := Host.absf main_arg1
  let main_cst_0 : FVec F S_ .f32 := constant S_ .f32 0x7F800000#32
  let main_v5 : FVec F S15000x5 .f32 := broadcastInDim S15000x5 ![] bcast_S_S15000x5 main_cst_0
  let main_v6 : IVec S15000x5 1 := cmpf .olt main_v4 main_v5
  let main_c_1 : IVec S_ 1 := constantI S_ 1 1#1
  let main_v7 : IVec S_ 1 := (fun x v => Host.reduce IntOp.andi x v reducesTo_S15000x5_S_d0_1 h_S_) main_v6 main_c_1
  let main_v8 : IVec S_ 1 := andi main_v3 main_v7
  let main_v9 : FVec F S256x980 .f32 := Host.absf main_arg2
  let main_cst_2 : FVec F S_ .f32 := constant S_ .f32 0x7F800000#32
  let main_v10 : FVec F S256x980 .f32 := broadcastInDim S256x980 ![] bcast_S_S256x980 main_cst_2
  let main_v11 : IVec S256x980 1 := cmpf .olt main_v9 main_v10
  let main_c_3 : IVec S_ 1 := constantI S_ 1 1#1
  let main_v12 : IVec S_ 1 := (fun x v => Host.reduce IntOp.andi x v reducesTo_S256x980_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S40000x980 : Shape := ⟨2, ![40000, 980]⟩
abbrev S15000x5 : Shape := ⟨2, ![15000, 5]⟩
abbrev S256x980 : Shape := ⟨2, ![256, 980]⟩
abbrev S256 : Shape := ⟨1, ![256]⟩
abbrev S256x5 : Shape := ⟨2, ![256, 5]⟩
abbrev S256x256 : Shape := ⟨2, ![256, 256]⟩
abbrev S64x256 : Shape := ⟨2, ![64, 256]⟩
abbrev S64 : Shape := ⟨1, ![64]⟩
abbrev S2x600000 : Shape := ⟨2, ![2, 600000]⟩
abbrev S250000 : Shape := ⟨1, ![250000]⟩
abbrev S1x600000 : Shape := ⟨2, ![1, 600000]⟩
abbrev S600000 : Shape := ⟨1, ![600000]⟩
abbrev S_ : Shape := ⟨0, ![]⟩
abbrev S40000 : Shape := ⟨1, ![40000]⟩
abbrev S600000x1 : Shape := ⟨2, ![600000, 1]⟩
abbrev S250000x1 : Shape := ⟨2, ![250000, 1]⟩
abbrev S15000 : Shape := ⟨1, ![15000]⟩
abbrev S40000x1 : Shape := ⟨2, ![40000, 1]⟩
abbrev S15000x1 : Shape := ⟨2, ![15000, 1]⟩
abbrev S1024x980 : Shape := ⟨2, ![1024, 980]⟩
abbrev S512x5 : Shape := ⟨2, ![512, 5]⟩
abbrev S40000x1024 : Shape := ⟨2, ![40000, 1024]⟩
abbrev S2000x980 : Shape := ⟨2, ![2000, 980]⟩
abbrev S2000x1024 : Shape := ⟨2, ![2000, 1024]⟩
abbrev S15000x512 : Shape := ⟨2, ![15000, 512]⟩
abbrev S3000x5 : Shape := ⟨2, ![3000, 5]⟩
abbrev S3000x512 : Shape := ⟨2, ![3000, 512]⟩
abbrev S40000x256 : Shape := ⟨2, ![40000, 256]⟩
abbrev S15000x256 : Shape := ⟨2, ![15000, 256]⟩
abbrev S600000x256 : Shape := ⟨2, ![600000, 256]⟩
abbrev S250000x256 : Shape := ⟨2, ![250000, 256]⟩
abbrev S1x256 : Shape := ⟨2, ![1, 256]⟩
abbrev S2000x256 : Shape := ⟨2, ![2000, 256]⟩
abbrev S3000x256 : Shape := ⟨2, ![3000, 256]⟩
abbrev S1024x256 : Shape := ⟨2, ![1024, 256]⟩
abbrev S512x256 : Shape := ⟨2, ![512, 256]⟩
abbrev S128x256 : Shape := ⟨2, ![128, 256]⟩
abbrev S15000x128 : Shape := ⟨2, ![15000, 128]⟩
abbrev S3000x128 : Shape := ⟨2, ![3000, 128]⟩
abbrev S40000x64 : Shape := ⟨2, ![40000, 64]⟩
abbrev S15000x64 : Shape := ⟨2, ![15000, 64]⟩
abbrev S600000x64 : Shape := ⟨2, ![600000, 64]⟩
abbrev S250000x64 : Shape := ⟨2, ![250000, 64]⟩
abbrev S1x64 : Shape := ⟨2, ![1, 64]⟩
abbrev S2000x64 : Shape := ⟨2, ![2000, 64]⟩
abbrev S3000x64 : Shape := ⟨2, ![3000, 64]⟩

abbrev nBuf : Space → Nat
  | .hbm => 255
  | .vmem => 87
  | .smem => 0
  | _ => 0

abbrev hbmTy0_0 (i : Nat) : BufTy := match i % 128 with
  | 0 => ⟨S40000x980, .f32⟩
  | 1 => ⟨S15000x5, .f32⟩
  | 2 => ⟨S256x980, .f32⟩
  | 3 => ⟨S256, .f32⟩
  | 4 => ⟨S256x980, .f32⟩
  | 5 => ⟨S256x980, .f32⟩
  | 6 => ⟨S256, .f32⟩
  | 7 => ⟨S256x5, .f32⟩
  | 8 => ⟨S256x5, .f32⟩
  | 9 => ⟨S256, .f32⟩
  | 10 => ⟨S256x980, .f32⟩
  | 11 => ⟨S256x256, .f32⟩
  | 12 => ⟨S256, .f32⟩
  | 13 => ⟨S256x256, .f32⟩
  | 14 => ⟨S256x256, .f32⟩
  | 15 => ⟨S256, .f32⟩
  | 16 => ⟨S256x256, .f32⟩
  | 17 => ⟨S256x256, .f32⟩
  | 18 => ⟨S256, .f32⟩
  | 19 => ⟨S256x256, .f32⟩
  | 20 => ⟨S64x256, .f32⟩
  | 21 => ⟨S64, .f32⟩
  | 22 => ⟨S64x256, .f32⟩
  | 23 => ⟨S64x256, .f32⟩
  | 24 => ⟨S64, .f32⟩
  | 25 => ⟨S64x256, .f32⟩
  | 26 => ⟨S64x256, .f32⟩
  | 27 => ⟨S64, .f32⟩
  | 28 => ⟨S64x256, .f32⟩
  | 29 => ⟨S2x600000, .i32⟩
  | 30 => ⟨S250000, .i32⟩
  | 31 => ⟨S250000, .i32⟩
  | 32 => ⟨S1x600000, .i32⟩
  | 33 => ⟨S600000, .i32⟩
  | 34 => ⟨S1x600000, .i32⟩
  | 35 => ⟨S600000, .i32⟩
  | 36 => ⟨S_, .f32⟩
  | 37 => ⟨S600000, .f32⟩
  | 38 => ⟨S_, .f32⟩
  | 39 => ⟨S40000, .f32⟩
  | 40 => ⟨S600000x1, .i32⟩
  | 41 => ⟨S40000, .f32⟩
  | 42 => ⟨S_, .f32⟩
  | 43 => ⟨S250000, .f32⟩
  | 44 => ⟨S_, .f32⟩
  | 45 => ⟨S40000, .f32⟩
  | 46 => ⟨S250000x1, .i32⟩
  | 47 => ⟨S40000, .f32⟩
  | 48 => ⟨S_, .f32⟩
  | 49 => ⟨S250000, .f32⟩
  | 50 => ⟨S_, .f32⟩
  | 51 => ⟨S15000, .f32⟩
  | 52 => ⟨S250000x1, .i32⟩
  | 53 => ⟨S15000, .f32⟩
  | 54 => ⟨S_, .f32⟩
  | 55 => ⟨S40000, .f32⟩
  | 56 => ⟨S40000, .f32⟩
  | 57 => ⟨S_, .f32⟩
  | 58 => ⟨S40000, .f32⟩
  | 59 => ⟨S40000, .f32⟩
  | 60 => ⟨S40000x1, .f32⟩
  | 61 => ⟨S_, .f32⟩
  | 62 => ⟨S40000, .f32⟩
  | 63 => ⟨S40000, .f32⟩
  | 64 => ⟨S_, .f32⟩
  | 65 => ⟨S40000, .f32⟩
  | 66 => ⟨S40000, .f32⟩
  | 67 => ⟨S40000x1, .f32⟩
  | 68 => ⟨S_, .f32⟩
  | 69 => ⟨S15000, .f32⟩
  | 70 => ⟨S15000, .f32⟩
  | 71 => ⟨S_, .f32⟩
  | 72 => ⟨S15000, .f32⟩
  | 73 => ⟨S15000, .f32⟩
  | 74 => ⟨S15000x1, .f32⟩
  | 75 => ⟨S1024x980, .f32⟩
  | 76 => ⟨S512x5, .f32⟩
  | 77 => ⟨S40000x1024, .f32⟩
  | 78 => ⟨S15000x512, .f32⟩
  | 79 => ⟨S40000x256, .f32⟩
  | 80 => ⟨S40000x256, .f32⟩
  | 81 => ⟨S40000x256, .f32⟩
  | 82 => ⟨S40000x256, .f32⟩
  | 83 => ⟨S15000x256, .f32⟩
  | 84 => ⟨S15000x256, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x256, .f32⟩
  | 94 => ⟨S_, .f32⟩
  | 95 => ⟨S40000x256, .f32⟩
  | 96 => ⟨S600000x1, .i32⟩
  | 97 => ⟨S40000x256, .f32⟩
  | 98 => ⟨S40000x256, .f32⟩
  | 99 => ⟨S40000x256, .f32⟩
  | 100 => ⟨S_, .i32⟩
  | 101 => ⟨S250000, .i32⟩
  | 102 => ⟨S250000, .i1⟩
  | 103 => ⟨S_, .i32⟩
  | 104 => ⟨S250000, .i32⟩
  | 105 => ⟨S250000, .i32⟩
  | 106 => ⟨S250000, .i32⟩
  | 107 => ⟨S250000x1, .i32⟩
  | 108 => ⟨S250000x256, .f32⟩
  | 109 => ⟨S_, .f32⟩
  | 110 => ⟨S40000x256, .f32⟩
  | 111 => ⟨S250000x1, .i32⟩
  | 112 => ⟨S40000x256, .f32⟩
  | 113 => ⟨S40000x256, .f32⟩
  | 114 => ⟨S40000x256, .f32⟩
  | 115 => ⟨S_, .i32⟩
  | 116 => ⟨S250000, .i32⟩
  | 117 => ⟨S250000, .i1⟩
  | 118 => ⟨S_, .i32⟩
  | 119 => ⟨S250000, .i32⟩
  | 120 => ⟨S250000, .i32⟩
  | 121 => ⟨S250000, .i32⟩
  | 122 => ⟨S250000x1, .i32⟩
  | 123 => ⟨S250000x256, .f32⟩
  | 124 => ⟨S_, .f32⟩
  | 125 => ⟨S15000x256, .f32⟩
  | 126 => ⟨S250000x1, .i32⟩
  | 127 => ⟨S15000x256, .f32⟩
  | _ => ⟨S40000x980, .f32⟩

abbrev hbmTy0_1 (i : Nat) : BufTy := match i % 128 with
  | 0 => ⟨S15000x256, .f32⟩
  | 1 => ⟨S15000x256, .f32⟩
  | 2 => ⟨S1x256, .f32⟩
  | 3 => ⟨S1x256, .f32⟩
  | 4 => ⟨S40000x256, .f32⟩
  | 5 => ⟨S1x256, .f32⟩
  | 6 => ⟨S15000x256, .f32⟩
  | 7 => ⟨S1024x256, .f32⟩
  | 8 => ⟨S512x256, .f32⟩
  | 9 => ⟨S40000x1024, .f32⟩
  | 10 => ⟨S15000x512, .f32⟩
  | 11 => ⟨S40000x256, .f32⟩
  | 12 => ⟨S40000x256, .f32⟩
  | 13 => ⟨S40000x256, .f32⟩
  | 14 => ⟨S40000x256, .f32⟩
  | 15 => ⟨S15000x256, .f32⟩
  | 16 => ⟨S15000x256, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x256, .f32⟩
  | 26 => ⟨S_, .f32⟩
  | 27 => ⟨S40000x256, .f32⟩
  | 28 => ⟨S600000x1, .i32⟩
  | 29 => ⟨S40000x256, .f32⟩
  | 30 => ⟨S40000x256, .f32⟩
  | 31 => ⟨S40000x256, .f32⟩
  | 32 => ⟨S_, .i32⟩
  | 33 => ⟨S250000, .i32⟩
  | 34 => ⟨S250000, .i1⟩
  | 35 => ⟨S_, .i32⟩
  | 36 => ⟨S250000, .i32⟩
  | 37 => ⟨S250000, .i32⟩
  | 38 => ⟨S250000, .i32⟩
  | 39 => ⟨S250000x1, .i32⟩
  | 40 => ⟨S250000x256, .f32⟩
  | 41 => ⟨S_, .f32⟩
  | 42 => ⟨S40000x256, .f32⟩
  | 43 => ⟨S250000x1, .i32⟩
  | 44 => ⟨S40000x256, .f32⟩
  | 45 => ⟨S40000x256, .f32⟩
  | 46 => ⟨S40000x256, .f32⟩
  | 47 => ⟨S_, .i32⟩
  | 48 => ⟨S250000, .i32⟩
  | 49 => ⟨S250000, .i1⟩
  | 50 => ⟨S_, .i32⟩
  | 51 => ⟨S250000, .i32⟩
  | 52 => ⟨S250000, .i32⟩
  | 53 => ⟨S250000, .i32⟩
  | 54 => ⟨S250000x1, .i32⟩
  | 55 => ⟨S250000x256, .f32⟩
  | 56 => ⟨S_, .f32⟩
  | 57 => ⟨S15000x256, .f32⟩
  | 58 => ⟨S250000x1, .i32⟩
  | 59 => ⟨S15000x256, .f32⟩
  | 60 => ⟨S15000x256, .f32⟩
  | 61 => ⟨S15000x256, .f32⟩
  | 62 => ⟨S1x256, .f32⟩
  | 63 => ⟨S1x256, .f32⟩
  | 64 => ⟨S40000x256, .f32⟩
  | 65 => ⟨S1x256, .f32⟩
  | 66 => ⟨S15000x256, .f32⟩
  | 67 => ⟨S256x256, .f32⟩
  | 68 => ⟨S128x256, .f32⟩
  | 69 => ⟨S40000x256, .f32⟩
  | 70 => ⟨S15000x128, .f32⟩
  | 71 => ⟨S40000x64, .f32⟩
  | 72 => ⟨S40000x64, .f32⟩
  | 73 => ⟨S40000x64, .f32⟩
  | 74 => ⟨S40000x64, .f32⟩
  | 75 => ⟨S15000x64, .f32⟩
  | 76 => ⟨S15000x64, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x64, .f32⟩
  | 86 => ⟨S_, .f32⟩
  | 87 => ⟨S40000x64, .f32⟩
  | 88 => ⟨S600000x1, .i32⟩
  | 89 => ⟨S40000x64, .f32⟩
  | 90 => ⟨S40000x64, .f32⟩
  | 91 => ⟨S40000x64, .f32⟩
  | 92 => ⟨S_, .i32⟩
  | 93 => ⟨S250000, .i32⟩
  | 94 => ⟨S250000, .i1⟩
  | 95 => ⟨S_, .i32⟩
  | 96 => ⟨S250000, .i32⟩
  | 97 => ⟨S250000, .i32⟩
  | 98 => ⟨S250000, .i32⟩
  | 99 => ⟨S250000x1, .i32⟩
  | 100 => ⟨S250000x64, .f32⟩
  | 101 => ⟨S_, .f32⟩
  | 102 => ⟨S40000x64, .f32⟩
  | 103 => ⟨S250000x1, .i32⟩
  | 104 => ⟨S40000x64, .f32⟩
  | 105 => ⟨S40000x64, .f32⟩
  | 106 => ⟨S40000x64, .f32⟩
  | 107 => ⟨S_, .i32⟩
  | 108 => ⟨S250000, .i32⟩
  | 109 => ⟨S250000, .i1⟩
  | 110 => ⟨S_, .i32⟩
  | 111 => ⟨S250000, .i32⟩
  | 112 => ⟨S250000, .i32⟩
  | 113 => ⟨S250000, .i32⟩
  | 114 => ⟨S250000x1, .i32⟩
  | 115 => ⟨S250000x64, .f32⟩
  | 116 => ⟨S_, .f32⟩
  | 117 => ⟨S15000x64, .f32⟩
  | 118 => ⟨S250000x1, .i32⟩
  | 119 => ⟨S15000x64, .f32⟩
  | 120 => ⟨S15000x64, .f32⟩
  | 121 => ⟨S15000x64, .f32⟩
  | 122 => ⟨S1x64, .f32⟩
  | 123 => ⟨S1x64, .f32⟩
  | 124 => ⟨S40000x64, .f32⟩
  | 125 => ⟨S1x64, .f32⟩
  | 126 => ⟨S15000x64, .f32⟩
  | _ => ⟨S40000x980, .f32⟩

abbrev hbmTy (i : Nat) : BufTy := match i / 128 with
  | 0 => hbmTy0_0 i
  | 1 => hbmTy0_1 i
  | _ => ⟨S40000x980, .f32⟩

abbrev bufTy : (tb : Table) → Fin (tcTables nBuf tb) → BufTy
  | .hbm, ⟨i, _⟩ => hbmTy i
  | .local _ .vmem, ⟨0, _⟩ => ⟨S2000x980, .f32⟩
  | .local _ .vmem, ⟨1, _⟩ => ⟨S2000x980, .f32⟩
  | .local _ .vmem, ⟨2, _⟩ => ⟨S1024x980, .f32⟩
  | .local _ .vmem, ⟨3, _⟩ => ⟨S2000x1024, .f32⟩
  | .local _ .vmem, ⟨4, _⟩ => ⟨S2000x1024, .f32⟩
  | .local _ .vmem, ⟨5, _⟩ => ⟨S3000x5, .f32⟩
  | .local _ .vmem, ⟨6, _⟩ => ⟨S3000x5, .f32⟩
  | .local _ .vmem, ⟨7, _⟩ => ⟨S512x5, .f32⟩
  | .local _ .vmem, ⟨8, _⟩ => ⟨S3000x512, .f32⟩
  | .local _ .vmem, ⟨9, _⟩ => ⟨S3000x512, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S3000x256, .f32⟩
  | .local _ .vmem, ⟨23, _⟩ => ⟨S3000x256, .f32⟩
  | .local _ .vmem, ⟨24, _⟩ => ⟨S3000x256, .f32⟩
  | .local _ .vmem, ⟨25, _⟩ => ⟨S3000x256, .f32⟩
  | .local _ .vmem, ⟨26, _⟩ => ⟨S1x256, .f32⟩
  | .local _ .vmem, ⟨27, _⟩ => ⟨S3000x256, .f32⟩
  | .local _ .vmem, ⟨28, _⟩ => ⟨S3000x256, .f32⟩
  | .local _ .vmem, ⟨29, _⟩ => ⟨S2000x256, .f32⟩
  | .local _ .vmem, ⟨30, _⟩ => ⟨S2000x256, .f32⟩
  | .local _ .vmem, ⟨31, _⟩ => ⟨S1024x256, .f32⟩
  | .local _ .vmem, ⟨32, _⟩ => ⟨S2000x1024, .f32⟩
  | .local _ .vmem, ⟨33, _⟩ => ⟨S2000x1024, .f32⟩
  | .local _ .vmem, ⟨34, _⟩ => ⟨S3000x256, .f32⟩
  | .local _ .vmem, ⟨35, _⟩ => ⟨S3000x256, .f32⟩
  | .local _ .vmem, ⟨36, _⟩ => ⟨S512x256, .f32⟩
  | .local _ .vmem, ⟨37, _⟩ => ⟨S3000x512, .f32⟩
  | .local _ .vmem, ⟨38, _⟩ => ⟨S3000x512, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S1x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S1x256, .f32⟩
  | .local _ .vmem, ⟨49, _⟩ => ⟨S2000x256, .f32⟩
  | .local _ .vmem, ⟨50, _⟩ => ⟨S2000x256, .f32⟩
  | .local _ .vmem, ⟨51, _⟩ => ⟨S3000x256, .f32⟩
  | .local _ .vmem, ⟨52, _⟩ => ⟨S3000x256, .f32⟩
  | .local _ .vmem, ⟨53, _⟩ => ⟨S3000x256, .f32⟩
  | .local _ .vmem, ⟨54, _⟩ => ⟨S3000x256, .f32⟩
  | .local _ .vmem, ⟨55, _⟩ => ⟨S1x256, .f32⟩
  | .local _ .vmem, ⟨56, _⟩ => ⟨S3000x256, .f32⟩
  | .local _ .vmem, ⟨57, _⟩ => ⟨S3000x256, .f32⟩
  | .local _ .vmem, ⟨58, _⟩ => ⟨S2000x256, .f32⟩
  | .local _ .vmem, ⟨59, _⟩ => ⟨S2000x256, .f32⟩
  | .local _ .vmem, ⟨60, _⟩ => ⟨S256x256, .f32⟩
  | .local _ .vmem, ⟨61, _⟩ => ⟨S2000x256, .f32⟩
  | .local _ .vmem, ⟨62, _⟩ => ⟨S2000x256, .f32⟩
  | .local _ .vmem, ⟨63, _⟩ => ⟨S3000x256, .f32⟩
  | .local _ .vmem, ⟨64, _⟩ => ⟨S3000x256, .f32⟩
  | .local _ .vmem, ⟨65, _⟩ => ⟨S128x256, .f32⟩
  | .local _ .vmem, ⟨66, _⟩ => ⟨S3000x128, .f32⟩
  | .local _ .vmem, ⟨67, _⟩ => ⟨S3000x128, .f32⟩
  | .local _ .vmem, ⟨68, _⟩ => ⟨S2000x64, .f32⟩
  | .local _ .vmem, ⟨69, _⟩ => ⟨S2000x64, .f32⟩
  | .local _ .vmem, ⟨70, _⟩ => ⟨S2000x64, .f32⟩
  | .local _ .vmem, ⟨71, _⟩ => ⟨S2000x64, .f32⟩
  | .local _ .vmem, ⟨72, _⟩ => ⟨S1x64, .f32⟩
  | .local _ .vmem, ⟨73, _⟩ => ⟨S2000x64, .f32⟩
  | .local _ .vmem, ⟨74, _⟩ => ⟨S2000x64, .f32⟩
  | .local _ .vmem, ⟨75, _⟩ => ⟨S2000x64, .f32⟩
  | .local _ .vmem, ⟨76, _⟩ => ⟨S2000x64, .f32⟩
  | .local _ .vmem, ⟨77, _⟩ => ⟨S1x64, .f32⟩
  | .local _ .vmem, ⟨78, _⟩ => ⟨S2000x64, .f32⟩
  | .local _ .vmem, ⟨79, _⟩ => ⟨S2000x64, .f32⟩
  | .local _ .vmem, ⟨80, _⟩ => ⟨S3000x64, .f32⟩
  | .local _ .vmem, ⟨81, _⟩ => ⟨S3000x64, .f32⟩
  | .local _ .vmem, ⟨82, _⟩ => ⟨S3000x64, .f32⟩
  | .local _ .vmem, ⟨83, _⟩ => ⟨S3000x64, .f32⟩
  | .local _ .vmem, ⟨84, _⟩ => ⟨S1x64, .f32⟩
  | .local _ .vmem, ⟨85, _⟩ => ⟨S3000x64, .f32⟩
  | .local _ .vmem, ⟨86, _⟩ => ⟨S3000x64, .f32⟩
  | _, _ => ⟨S40000x980, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst : Ref sig .tc := ⟨.hbm, 36, rfl⟩
abbrev main_v4 : Ref sig .tc := ⟨.hbm, 37, rfl⟩
abbrev main_cst_0 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_1 : Ref sig .tc := ⟨.hbm, 42, rfl⟩
abbrev main_v8 : Ref sig .tc := ⟨.hbm, 43, rfl⟩
abbrev main_cst_2 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_3 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_cst_6 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_7 : Ref sig .tc := ⟨.hbm, 61, rfl⟩
abbrev main_v21 : Ref sig .tc := ⟨.hbm, 62, rfl⟩
abbrev main_v22 : Ref sig .tc := ⟨.hbm, 63, rfl⟩
abbrev main_cst_8 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_cst_10 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_c : Ref sig .tc := ⟨.hbm, 85, rfl⟩
abbrev main_v41 : Ref sig .tc := ⟨.hbm, 86, rfl⟩
abbrev main_v42 : Ref sig .tc := ⟨.hbm, 87, rfl⟩
abbrev main_c_11 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_12 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_c_13 : Ref sig .tc := ⟨.hbm, 100, rfl⟩
abbrev main_v53 : Ref sig .tc := ⟨.hbm, 101, rfl⟩
abbrev main_v54 : Ref sig .tc := ⟨.hbm, 102, rfl⟩
abbrev main_c_14 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_15 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_c_16 : Ref sig .tc := ⟨.hbm, 115, rfl⟩
abbrev main_v65 : Ref sig .tc := ⟨.hbm, 116, rfl⟩
abbrev main_v66 : Ref sig .tc := ⟨.hbm, 117, rfl⟩
abbrev main_c_17 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_18 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_c_19 : Ref sig .tc := ⟨.hbm, 145, rfl⟩
abbrev main_v92 : Ref sig .tc := ⟨.hbm, 146, rfl⟩
abbrev main_v93 : Ref sig .tc := ⟨.hbm, 147, rfl⟩
abbrev main_c_20 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_21 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_c_22 : Ref sig .tc := ⟨.hbm, 160, rfl⟩
abbrev main_v104 : Ref sig .tc := ⟨.hbm, 161, rfl⟩
abbrev main_v105 : Ref sig .tc := ⟨.hbm, 162, rfl⟩
abbrev main_c_23 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_24 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_c_25 : Ref sig .tc := ⟨.hbm, 175, rfl⟩
abbrev main_v116 : Ref sig .tc := ⟨.hbm, 176, rfl⟩
abbrev main_v117 : Ref sig .tc := ⟨.hbm, 177, rfl⟩
abbrev main_c_26 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_cst_27 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_c_28 : Ref sig .tc := ⟨.hbm, 205, rfl⟩
abbrev main_v143 : Ref sig .tc := ⟨.hbm, 206, rfl⟩
abbrev main_v144 : Ref sig .tc := ⟨.hbm, 207, rfl⟩
abbrev main_c_29 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_cst_30 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_c_31 : Ref sig .tc := ⟨.hbm, 220, rfl⟩
abbrev main_v155 : Ref sig .tc := ⟨.hbm, 221, rfl⟩
abbrev main_v156 : Ref sig .tc := ⟨.hbm, 222, rfl⟩
abbrev main_c_32 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_33 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_c_34 : Ref sig .tc := ⟨.hbm, 235, rfl⟩
abbrev main_v167 : Ref sig .tc := ⟨.hbm, 236, rfl⟩
abbrev main_v168 : Ref sig .tc := ⟨.hbm, 237, rfl⟩
abbrev main_c_35 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_cst_36 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc6_stg5_0 : Ref sig .tc := ⟨.vmem, 48, rfl⟩
abbrev cc6_stg6_0 : Ref sig .tc := ⟨.vmem, 49, rfl⟩
abbrev cc6_stg6_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg3_1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg2_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg2_0 : Ref sig .tc := ⟨.vmem, 66, rfl⟩
abbrev cc9_stg2_1 : Ref sig .tc := ⟨.vmem, 67, rfl⟩
abbrev cc10_stg0_0 : Ref sig .tc := ⟨.vmem, 68, rfl⟩
abbrev cc10_stg0_1 : Ref sig .tc := ⟨.vmem, 69, rfl⟩
abbrev cc10_stg1_0 : Ref sig .tc := ⟨.vmem, 70, rfl⟩
abbrev cc10_stg1_1 : Ref sig .tc := ⟨.vmem, 71, rfl⟩
abbrev cc10_stg2_0 : Ref sig .tc := ⟨.vmem, 72, rfl⟩
abbrev cc10_stg3_0 : Ref sig .tc := ⟨.vmem, 73, rfl⟩
abbrev cc10_stg3_1 : Ref sig .tc := ⟨.vmem, 74, rfl⟩
abbrev cc10_stg4_0 : Ref sig .tc := ⟨.vmem, 75, rfl⟩
abbrev cc10_stg4_1 : Ref sig .tc := ⟨.vmem, 76, rfl⟩
abbrev cc10_stg5_0 : Ref sig .tc := ⟨.vmem, 77, rfl⟩
abbrev cc10_stg6_0 : Ref sig .tc := ⟨.vmem, 78, rfl⟩
abbrev cc10_stg6_1 : Ref sig .tc := ⟨.vmem, 79, rfl⟩
abbrev cc11_stg0_0 : Ref sig .tc := ⟨.vmem, 80, rfl⟩
abbrev cc11_stg0_1 : Ref sig .tc := ⟨.vmem, 81, rfl⟩
abbrev cc11_stg1_0 : Ref sig .tc := ⟨.vmem, 82, rfl⟩
abbrev cc11_stg1_1 : Ref sig .tc := ⟨.vmem, 83, rfl⟩
abbrev cc11_stg2_0 : Ref sig .tc := ⟨.vmem, 84, rfl⟩
abbrev cc11_stg3_0 : Ref sig .tc := ⟨.vmem, 85, rfl⟩
abbrev cc11_stg3_1 : Ref sig .tc := ⟨.vmem, 86, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem3_0 : DmaSem sig := 44
abbrev cc6_sem3_1 : DmaSem sig := 45
abbrev cc6_sem4_0 : DmaSem sig := 46
abbrev cc6_sem4_1 : DmaSem sig := 47
abbrev cc6_sem5_0 : DmaSem sig := 48
abbrev cc6_sem6_0 : DmaSem sig := 49
abbrev cc6_sem6_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem3_0 : DmaSem sig := 56
abbrev cc7_sem3_1 : DmaSem sig := 57
abbrev cc8_sem0_0 : DmaSem sig := 58
abbrev cc8_sem0_1 : DmaSem sig := 59
abbrev cc8_sem1_0 : DmaSem sig := 60
abbrev cc8_sem2_0 : DmaSem sig := 61
abbrev cc8_sem2_1 : DmaSem sig := 62
abbrev cc9_sem0_0 : DmaSem sig := 63
abbrev cc9_sem0_1 : DmaSem sig := 64
abbrev cc9_sem1_0 : DmaSem sig := 65
abbrev cc9_sem2_0 : DmaSem sig := 66
abbrev cc9_sem2_1 : DmaSem sig := 67
abbrev cc10_sem0_0 : DmaSem sig := 68
abbrev cc10_sem0_1 : DmaSem sig := 69
abbrev cc10_sem1_0 : DmaSem sig := 70
abbrev cc10_sem1_1 : DmaSem sig := 71
abbrev cc10_sem2_0 : DmaSem sig := 72
abbrev cc10_sem3_0 : DmaSem sig := 73
abbrev cc10_sem3_1 : DmaSem sig := 74
abbrev cc10_sem4_0 : DmaSem sig := 75
abbrev cc10_sem4_1 : DmaSem sig := 76
abbrev cc10_sem5_0 : DmaSem sig := 77
abbrev cc10_sem6_0 : DmaSem sig := 78
abbrev cc10_sem6_1 : DmaSem sig := 79
abbrev cc11_sem0_0 : DmaSem sig := 80
abbrev cc11_sem0_1 : DmaSem sig := 81
abbrev cc11_sem1_0 : DmaSem sig := 82
abbrev cc11_sem1_1 : DmaSem sig := 83
abbrev cc11_sem2_0 : DmaSem sig := 84
abbrev cc11_sem3_0 : DmaSem sig := 85
abbrev cc11_sem3_1 : DmaSem sig := 86

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x980 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x980 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x5 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S3000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S3000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S3000x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S3000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S3000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S3000x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S3000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S3000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S2000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S2000x64 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S3000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S3000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S3000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S40000 : S_.BroadcastsInDim S40000 (![] : Fin 0 → Fin S40000.rank)
  bcast_S600000_S600000x1_0 : S600000.BroadcastsInDim S600000x1 (![0] : Fin 1 → Fin S600000x1.rank)
  bcast_S_S250000 : S_.BroadcastsInDim S250000 (![] : Fin 0 → Fin S250000.rank)
  bcast_S250000_S250000x1_0 : S250000.BroadcastsInDim S250000x1 (![0] : Fin 1 → Fin S250000x1.rank)
  bcast_S_S15000 : S_.BroadcastsInDim S15000 (![] : Fin 0 → Fin S15000.rank)
  bcast_S40000_S40000x1_0 : S40000.BroadcastsInDim S40000x1 (![0] : Fin 1 → Fin S40000x1.rank)
  bcast_S15000_S15000x1_0 : S15000.BroadcastsInDim S15000x1 (![0] : Fin 1 → Fin S15000x1.rank)
  concatenates_S256x980_S256x980_S256x980_S256x980_S1024x980_d0 : Shape.Concatenates [S256x980, S256x980, S256x980, S256x980] S1024x980 0
  concatenates_S256x5_S256x5_S512x5_d0 : Shape.Concatenates [S256x5, S256x5] S512x5 0
  inb_S2000x980_S2000x980_0_0 : ∀ a, (![0, 0] : Fin 2 → Nat) a + S2000x980.size a ≤ S2000x980.size a
  h_S2000x980 : 0 < S2000x980.numel
  bitsLt_bf16_f32 : FTy.bits .bf16 < FTy.bits .f32
  inb_S1024x980_S1024x980_0_0 : ∀ a, (![0, 0] : Fin 2 → Nat) a + S1024x980.size a ≤ S1024x980.size a
  h_S1024x980 : 0 < S1024x980.numel
  shapeCasts_S1024x980_S1024x980 : S1024x980.ShapeCasts S1024x980
  inb_S2000x1024_S2000x1024_0_0 : ∀ a, (![0, 0] : Fin 2 → Nat) a + S2000x1024.size a ≤ S2000x1024.size a
  h_S2000x1024 : 0 < S2000x1024.numel
  inb_S3000x5_S3000x5_0_0 : ∀ a, (![0, 0] : Fin 2 → Nat) a + S3000x5.size a ≤ S3000x5.size a
  h_S3000x5 : 0 < S3000x5.numel
  inb_S512x5_S512x5_0_0 : ∀ a, (![0, 0] : Fin 2 → Nat) a + S512x5.size a ≤ S512x5.size a
  h_S512x5 : 0 < S512x5.numel
  shapeCasts_S512x5_S512x5 : S512x5.ShapeCasts S512x5
  inb_S3000x512_S3000x512_0_0 : ∀ a, (![0, 0] : Fin 2 → Nat) a + S3000x512.size a ≤ S3000x512.size a
  h_S3000x512 : 0 < S3000x512.numel
  slices_S40000x1024_S40000x256_0_0 : S40000x1024.Slices ![0, 0] S40000x256
  slices_S40000x1024_S40000x256_0_256 : S40000x1024.Slices ![0, 256] S40000x256
  slices_S40000x1024_S40000x256_0_512 : S40000x1024.Slices ![0, 512] S40000x256
  slices_S40000x1024_S40000x256_0_768 : S40000x1024.Slices ![0, 768] S40000x256
  slices_S15000x512_S15000x256_0_0 : S15000x512.Slices ![0, 0] S15000x256
  slices_S15000x512_S15000x256_0_256 : S15000x512.Slices ![0, 256] S15000x256
  bcast_S_S40000x256 : S_.BroadcastsInDim S40000x256 (![] : Fin 0 → Fin S40000x256.rank)
  bcast_S40000x1_S40000x256_0_1 : S40000x1.BroadcastsInDim S40000x256 (![0, 1] : Fin 2 → Fin S40000x256.rank)
  bcast_S_S15000x256 : S_.BroadcastsInDim S15000x256 (![] : Fin 0 → Fin S15000x256.rank)
  bcast_S15000x1_S15000x256_0_1 : S15000x1.BroadcastsInDim S15000x256 (![0, 1] : Fin 2 → Fin S15000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  broadcasts_S1x256_S3000x256 : S1x256.Broadcasts S3000x256
  concatenates_S256x256_S256x256_S256x256_S256x256_S1024x256_d0 : Shape.Concatenates [S256x256, S256x256, S256x256, S256x256] S1024x256 0
  concatenates_S256x256_S256x256_S512x256_d0 : Shape.Concatenates [S256x256, S256x256] S512x256 0
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  concatenates_S64x256_S64x256_S64x256_S64x256_S256x256_d0 : Shape.Concatenates [S64x256, S64x256, S64x256, S64x256] S256x256 0
  concatenates_S64x256_S64x256_S128x256_d0 : Shape.Concatenates [S64x256, S64x256] S128x256 0
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S3000x128_S3000x128_0_0 : ∀ a, (![0, 0] : Fin 2 → Nat) a + S3000x128.size a ≤ S3000x128.size a
  h_S3000x128 : 0 < S3000x128.numel
  slices_S40000x256_S40000x64_0_0 : S40000x256.Slices ![0, 0] S40000x64
  slices_S40000x256_S40000x64_0_64 : S40000x256.Slices ![0, 64] S40000x64
  slices_S40000x256_S40000x64_0_128 : S40000x256.Slices ![0, 128] S40000x64
  slices_S40000x256_S40000x64_0_192 : S40000x256.Slices ![0, 192] S40000x64
  slices_S15000x128_S15000x64_0_0 : S15000x128.Slices ![0, 0] S15000x64
  slices_S15000x128_S15000x64_0_64 : S15000x128.Slices ![0, 64] S15000x64
  bcast_S_S40000x64 : S_.BroadcastsInDim S40000x64 (![] : Fin 0 → Fin S40000x64.rank)
  bcast_S40000x1_S40000x64_0_1 : S40000x1.BroadcastsInDim S40000x64 (![0, 1] : Fin 2 → Fin S40000x64.rank)
  bcast_S_S15000x64 : S_.BroadcastsInDim S15000x64 (![] : Fin 0 → Fin S15000x64.rank)
  bcast_S15000x1_S15000x64_0_1 : S15000x1.BroadcastsInDim S15000x64 (![0, 1] : Fin 2 → Fin S15000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  broadcasts_S1x64_S3000x64 : S1x64.Broadcasts S3000x64
  scatter_S40000_S600000x1_S600000_n_0_0_1_wf : ScatterDims.WF S40000 S600000x1 S600000 [] [0] [0] 1
  scatter_S40000_S250000x1_S250000_n_0_0_1_wf : ScatterDims.WF S40000 S250000x1 S250000 [] [0] [0] 1
  scatter_S15000_S250000x1_S250000_n_0_0_1_wf : ScatterDims.WF S15000 S250000x1 S250000 [] [0] [0] 1
  dot_S2000x980_S1024x980_S2000x1024_1_1_0_0_n_n_wf : DotDims.WF S2000x980 S1024x980 S2000x1024 [1] [1] [0] [0] [] []
  dot_S3000x5_S512x5_S3000x512_1_1_0_0_n_n_wf : DotDims.WF S3000x5 S512x5 S3000x512 [1] [1] [0] [0] [] []
  gather_S40000x256_S600000x1_S600000x256_1_0_n_n_0_1_1256_wf : GatherDims.WF S40000x256 S600000x1 S600000x256 [1] [0] [] [0] [] 1 ![1, 256]
  scatter_S40000x256_S600000x1_S600000x256_1_0_0_1_wf : ScatterDims.WF S40000x256 S600000x1 S600000x256 [1] [0] [0] 1
  gather_S15000x256_S250000x1_S250000x256_1_0_n_n_0_1_1256_wf : GatherDims.WF S15000x256 S250000x1 S250000x256 [1] [0] [] [0] [] 1 ![1, 256]
  scatter_S40000x256_S250000x1_S250000x256_1_0_0_1_wf : ScatterDims.WF S40000x256 S250000x1 S250000x256 [1] [0] [0] 1
  gather_S40000x256_S250000x1_S250000x256_1_0_n_n_0_1_1256_wf : GatherDims.WF S40000x256 S250000x1 S250000x256 [1] [0] [] [0] [] 1 ![1, 256]
  scatter_S15000x256_S250000x1_S250000x256_1_0_0_1_wf : ScatterDims.WF S15000x256 S250000x1 S250000x256 [1] [0] [0] 1
  dot_S2000x256_S1024x256_S2000x1024_1_1_0_0_n_n_wf : DotDims.WF S2000x256 S1024x256 S2000x1024 [1] [1] [0] [0] [] []
  dot_S3000x256_S512x256_S3000x512_1_1_0_0_n_n_wf : DotDims.WF S3000x256 S512x256 S3000x512 [1] [1] [0] [0] [] []
  dot_S2000x256_S256x256_S2000x256_1_1_0_0_n_n_wf : DotDims.WF S2000x256 S256x256 S2000x256 [1] [1] [0] [0] [] []
  dot_S3000x256_S128x256_S3000x128_1_1_0_0_n_n_wf : DotDims.WF S3000x256 S128x256 S3000x128 [1] [1] [0] [0] [] []
  gather_S40000x64_S600000x1_S600000x64_1_0_n_n_0_1_164_wf : GatherDims.WF S40000x64 S600000x1 S600000x64 [1] [0] [] [0] [] 1 ![1, 64]
  scatter_S40000x64_S600000x1_S600000x64_1_0_0_1_wf : ScatterDims.WF S40000x64 S600000x1 S600000x64 [1] [0] [0] 1
  gather_S15000x64_S250000x1_S250000x64_1_0_n_n_0_1_164_wf : GatherDims.WF S15000x64 S250000x1 S250000x64 [1] [0] [] [0] [] 1 ![1, 64]
  scatter_S40000x64_S250000x1_S250000x64_1_0_0_1_wf : ScatterDims.WF S40000x64 S250000x1 S250000x64 [1] [0] [0] 1
  gather_S40000x64_S250000x1_S250000x64_1_0_n_n_0_1_164_wf : GatherDims.WF S40000x64 S250000x1 S250000x64 [1] [0] [] [0] [] 1 ![1, 64]
  scatter_S15000x64_S250000x1_S250000x64_1_0_0_1_wf : ScatterDims.WF S15000x64 S250000x1 S250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x980.size a ≤ S40000x980.size a
  hwx0_0 : ∀ i : grid0.Coords, EltTy.bits .f32 = 32 ∨ (Rect.block (s := S40000x980) S2000x980.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x980.size a ≤ S1024x980.size a
  hwx0_1 : ∀ i : grid0.Coords, EltTy.bits .f32 = 32 ∨ (Rect.block (s := S1024x980) S1024x980.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1024.size a ≤ S40000x1024.size a
  hwx0_2 : ∀ i : grid0.Coords, EltTy.bits .f32 = 32 ∨ (Rect.block (s := S40000x1024) S2000x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x5.size a ≤ S15000x5.size a
  hwx1_0 : ∀ i : grid1.Coords, EltTy.bits .f32 = 32 ∨ (Rect.block (s := S15000x5) S3000x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x5.size a ≤ S512x5.size a
  hwx1_1 : ∀ i : grid1.Coords, EltTy.bits .f32 = 32 ∨ (Rect.block (s := S512x5) S512x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x512.size a ≤ S15000x512.size a
  hwx1_2 : ∀ i : grid1.Coords, EltTy.bits .f32 = 32 ∨ (Rect.block (s := S15000x512) S3000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S40000x256.size a
  hwx2_0 : ∀ i : grid2.Coords, EltTy.bits .f32 = 32 ∨ (Rect.block (s := S40000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S40000x256.size a
  hwx2_1 : ∀ i : grid2.Coords, EltTy.bits .f32 = 32 ∨ (Rect.block (s := S40000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S40000x256.size a
  hwx2_3 : ∀ i : grid2.Coords, EltTy.bits .f32 = 32 ∨ (Rect.block (s := S40000x256) S2000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S40000x256.size a
  hwx2_4 : ∀ i : grid2.Coords, EltTy.bits .f32 = 32 ∨ (Rect.block (s := S40000x256) S2000x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S40000x256.size a
  hwx2_6 : ∀ i : grid2.Coords, EltTy.bits .f32 = 32 ∨ (Rect.block (s := S40000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x256.size a ≤ S15000x256.size a
  hwx3_0 : ∀ i : grid3.Coords, EltTy.bits .f32 = 32 ∨ (Rect.block (s := S15000x256) S3000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3000x256.size a ≤ S15000x256.size a
  hwx3_1 : ∀ i : grid3.Coords, EltTy.bits .f32 = 32 ∨ (Rect.block (s := S15000x256) S3000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S3000x256.size a ≤ S15000x256.size a
  hwx3_3 : ∀ i : grid3.Coords, EltTy.bits .f32 = 32 ∨ (Rect.block (s := S15000x256) S3000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S40000x256.size a
  hwx4_0 : ∀ i : grid4.Coords, EltTy.bits .f32 = 32 ∨ (Rect.block (s := S40000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S1024x256.size a
  hwx4_1 : ∀ i : grid4.Coords, EltTy.bits .f32 = 32 ∨ (Rect.block (s := S1024x256) S1024x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1024.size a ≤ S40000x1024.size a
  hwx4_2 : ∀ i : grid4.Coords, EltTy.bits .f32 = 32 ∨ (Rect.block (s := S40000x1024) S2000x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3000x256.size a ≤ S15000x256.size a
  hwx5_0 : ∀ i : grid5.Coords, EltTy.bits .f32 = 32 ∨ (Rect.block (s := S15000x256) S3000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S512x256.size a
  hwx5_1 : ∀ i : grid5.Coords, EltTy.bits .f32 = 32 ∨ (Rect.block (s := S512x256) S512x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S3000x512.size a ≤ S15000x512.size a
  hwx5_2 : ∀ i : grid5.Coords, EltTy.bits .f32 = 32 ∨ (Rect.block (s := S15000x512) S3000x512.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S40000x256.size a
  hwx6_0 : ∀ i : grid6.Coords, EltTy.bits .f32 = 32 ∨ (Rect.block (s := S40000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S40000x256.size a
  hwx6_1 : ∀ i : grid6.Coords, EltTy.bits .f32 = 32 ∨ (Rect.block (s := S40000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x256.size a ≤ S40000x256.size a
  hwx6_3 : ∀ i : grid6.Coords, EltTy.bits .f32 = 32 ∨ (Rect.block (s := S40000x256) S2000x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x256.size a ≤ S40000x256.size a
  hwx6_4 : ∀ i : grid6.Coords, EltTy.bits .f32 = 32 ∨ (Rect.block (s := S40000x256) S2000x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x256.size a ≤ S40000x256.size a
  hwx6_6 : ∀ i : grid6.Coords, EltTy.bits .f32 = 32 ∨ (Rect.block (s := S40000x256) S2000x256.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S3000x256.size a ≤ S15000x256.size a
  hwx7_0 : ∀ i : grid7.Coords, EltTy.bits .f32 = 32 ∨ (Rect.block (s := S15000x256) S3000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S3000x256.size a ≤ S15000x256.size a
  hwx7_1 : ∀ i : grid7.Coords, EltTy.bits .f32 = 32 ∨ (Rect.block (s := S15000x256) S3000x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S3000x256.size a ≤ S15000x256.size a
  hwx7_3 : ∀ i : grid7.Coords, EltTy.bits .f32 = 32 ∨ (Rect.block (s := S15000x256) S3000x256.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S40000x256.size a
  hwx8_0 : ∀ i : grid8.Coords, EltTy.bits .f32 = 32 ∨ (Rect.block (s := S40000x256) S2000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x256.size a ≤ S256x256.size a
  hwx8_1 : ∀ i : grid8.Coords, EltTy.bits .f32 = 32 ∨ (Rect.block (s := S256x256) S256x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x256.size a ≤ S40000x256.size a
  hwx8_2 : ∀ i : grid8.Coords, EltTy.bits .f32 = 32 ∨ (Rect.block (s := S40000x256) S2000x256.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S3000x256.size a ≤ S15000x256.size a
  hwx9_0 : ∀ i : grid9.Coords, EltTy.bits .f32 = 32 ∨ (Rect.block (s := S15000x256) S3000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x256.size a ≤ S128x256.size a
  hwx9_1 : ∀ i : grid9.Coords, EltTy.bits .f32 = 32 ∨ (Rect.block (s := S128x256) S128x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S3000x128.size a ≤ S15000x128.size a
  hwx9_2 : ∀ i : grid9.Coords, EltTy.bits .f32 = 32 ∨ (Rect.block (s := S15000x128) S3000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x64.size a ≤ S40000x64.size a
  hwx10_0 : ∀ i : grid10.Coords, EltTy.bits .f32 = 32 ∨ (Rect.block (s := S40000x64) S2000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x64.size a ≤ S40000x64.size a
  hwx10_1 : ∀ i : grid10.Coords, EltTy.bits .f32 = 32 ∨ (Rect.block (s := S40000x64) S2000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x64.size a ≤ S40000x64.size a
  hwx10_3 : ∀ i : grid10.Coords, EltTy.bits .f32 = 32 ∨ (Rect.block (s := S40000x64) S2000x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x64.size a ≤ S40000x64.size a
  hwx10_4 : ∀ i : grid10.Coords, EltTy.bits .f32 = 32 ∨ (Rect.block (s := S40000x64) S2000x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x64.size a ≤ S1x64.size a
  hwx10_5 : ∀ i : grid10.Coords, EltTy.bits .f32 = 32 ∨ (Rect.block (s := S1x64) S1x64.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S2000x64.size a ≤ S40000x64.size a
  hwx10_6 : ∀ i : grid10.Coords, EltTy.bits .f32 = 32 ∨ (Rect.block (s := S40000x64) S2000x64.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S3000x64.size a ≤ S15000x64.size a
  hwx11_0 : ∀ i : grid11.Coords, EltTy.bits .f32 = 32 ∨ (Rect.block (s := S15000x64) S3000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S3000x64.size a ≤ S15000x64.size a
  hwx11_1 : ∀ i : grid11.Coords, EltTy.bits .f32 = 32 ∨ (Rect.block (s := S15000x64) S3000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S3000x64.size a ≤ S15000x64.size a
  hwx11_3 : ∀ i : grid11.Coords, EltTy.bits .f32 = 32 ∨ (Rect.block (s := S15000x64) S3000x64.size (cc11_transform_3 i) (hinb11_3 i)).WholeWords (EltTy.packing .f32)

variable [Facts₀]

def scatter_S40000_S600000x1_S600000_n_0_0_1 : ScatterDims S40000 S600000x1 S600000 where
  updateWindowDims := []
  insertedWindowDims := [0]
  scatterDimsToOperandDims := [0]
  indexVectorDim := 1
  wf := scatter_S40000_S600000x1_S600000_n_0_0_1_wf
def scatter_S40000_S250000x1_S250000_n_0_0_1 : ScatterDims S40000 S250000x1 S250000 where
  updateWindowDims := []
  insertedWindowDims := [0]
  scatterDimsToOperandDims := [0]
  indexVectorDim := 1
  wf := scatter_S40000_S250000x1_S250000_n_0_0_1_wf
def scatter_S15000_S250000x1_S250000_n_0_0_1 : ScatterDims S15000 S250000x1 S250000 where
  updateWindowDims := []
  insertedWindowDims := [0]
  scatterDimsToOperandDims := [0]
  indexVectorDim := 1
  wf := scatter_S15000_S250000x1_S250000_n_0_0_1_wf
def dot_S2000x980_S1024x980_S2000x1024_1_1_0_0_n_n : DotDims S2000x980 S1024x980 S2000x1024 where
  lhsContracting := [1]
  rhsContracting := [1]
  lhsNonContracting := [0]
  rhsNonContracting := [0]
  lhsBatch := []
  rhsBatch := []
  wf := dot_S2000x980_S1024x980_S2000x1024_1_1_0_0_n_n_wf
def dot_S3000x5_S512x5_S3000x512_1_1_0_0_n_n : DotDims S3000x5 S512x5 S3000x512 where
  lhsContracting := [1]
  rhsContracting := [1]
  lhsNonContracting := [0]
  rhsNonContracting := [0]
  lhsBatch := []
  rhsBatch := []
  wf := dot_S3000x5_S512x5_S3000x512_1_1_0_0_n_n_wf
def gather_S40000x256_S600000x1_S600000x256_1_0_n_n_0_1_1256 : GatherDims S40000x256 S600000x1 S600000x256 where
  offsetDims := [1]
  collapsedSliceDims := [0]
  operandBatchingDims := []
  startIndicesBatchingDims := []
  startIndexMap := [0]
  indexVectorDim := 1
  sliceSizes := ![1, 256]
  wf := gather_S40000x256_S600000x1_S600000x256_1_0_n_n_0_1_1256_wf
def scatter_S40000x256_S600000x1_S600000x256_1_0_0_1 : ScatterDims S40000x256 S600000x1 S600000x256 where
  updateWindowDims := [1]
  insertedWindowDims := [0]
  scatterDimsToOperandDims := [0]
  indexVectorDim := 1
  wf := scatter_S40000x256_S600000x1_S600000x256_1_0_0_1_wf
def gather_S15000x256_S250000x1_S250000x256_1_0_n_n_0_1_1256 : GatherDims S15000x256 S250000x1 S250000x256 where
  offsetDims := [1]
  collapsedSliceDims := [0]
  operandBatchingDims := []
  startIndicesBatchingDims := []
  startIndexMap := [0]
  indexVectorDim := 1
  sliceSizes := ![1, 256]
  wf := gather_S15000x256_S250000x1_S250000x256_1_0_n_n_0_1_1256_wf
def scatter_S40000x256_S250000x1_S250000x256_1_0_0_1 : ScatterDims S40000x256 S250000x1 S250000x256 where
  updateWindowDims := [1]
  insertedWindowDims := [0]
  scatterDimsToOperandDims := [0]
  indexVectorDim := 1
  wf := scatter_S40000x256_S250000x1_S250000x256_1_0_0_1_wf
def gather_S40000x256_S250000x1_S250000x256_1_0_n_n_0_1_1256 : GatherDims S40000x256 S250000x1 S250000x256 where
  offsetDims := [1]
  collapsedSliceDims := [0]
  operandBatchingDims := []
  startIndicesBatchingDims := []
  startIndexMap := [0]
  indexVectorDim := 1
  sliceSizes := ![1, 256]
  wf := gather_S40000x256_S250000x1_S250000x256_1_0_n_n_0_1_1256_wf
def scatter_S15000x256_S250000x1_S250000x256_1_0_0_1 : ScatterDims S15000x256 S250000x1 S250000x256 where
  updateWindowDims := [1]
  insertedWindowDims := [0]
  scatterDimsToOperandDims := [0]
  indexVectorDim := 1
  wf := scatter_S15000x256_S250000x1_S250000x256_1_0_0_1_wf
def dot_S2000x256_S1024x256_S2000x1024_1_1_0_0_n_n : DotDims S2000x256 S1024x256 S2000x1024 where
  lhsContracting := [1]
  rhsContracting := [1]
  lhsNonContracting := [0]
  rhsNonContracting := [0]
  lhsBatch := []
  rhsBatch := []
  wf := dot_S2000x256_S1024x256_S2000x1024_1_1_0_0_n_n_wf
def dot_S3000x256_S512x256_S3000x512_1_1_0_0_n_n : DotDims S3000x256 S512x256 S3000x512 where
  lhsContracting := [1]
  rhsContracting := [1]
  lhsNonContracting := [0]
  rhsNonContracting := [0]
  lhsBatch := []
  rhsBatch := []
  wf := dot_S3000x256_S512x256_S3000x512_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S3000x256_S128x256_S3000x128_1_1_0_0_n_n : DotDims S3000x256 S128x256 S3000x128 where
  lhsContracting := [1]
  rhsContracting := [1]
  lhsNonContracting := [0]
  rhsNonContracting := [0]
  lhsBatch := []
  rhsBatch := []
  wf := dot_S3000x256_S128x256_S3000x128_1_1_0_0_n_n_wf
def gather_S40000x64_S600000x1_S600000x64_1_0_n_n_0_1_164 : GatherDims S40000x64 S600000x1 S600000x64 where
  offsetDims := [1]
  collapsedSliceDims := [0]
  operandBatchingDims := []
  startIndicesBatchingDims := []
  startIndexMap := [0]
  indexVectorDim := 1
  sliceSizes := ![1, 64]
  wf := gather_S40000x64_S600000x1_S600000x64_1_0_n_n_0_1_164_wf
def scatter_S40000x64_S600000x1_S600000x64_1_0_0_1 : ScatterDims S40000x64 S600000x1 S600000x64 where
  updateWindowDims := [1]
  insertedWindowDims := [0]
  scatterDimsToOperandDims := [0]
  indexVectorDim := 1
  wf := scatter_S40000x64_S600000x1_S600000x64_1_0_0_1_wf
def gather_S15000x64_S250000x1_S250000x64_1_0_n_n_0_1_164 : GatherDims S15000x64 S250000x1 S250000x64 where
  offsetDims := [1]
  collapsedSliceDims := [0]
  operandBatchingDims := []
  startIndicesBatchingDims := []
  startIndexMap := [0]
  indexVectorDim := 1
  sliceSizes := ![1, 64]
  wf := gather_S15000x64_S250000x1_S250000x64_1_0_n_n_0_1_164_wf
def scatter_S40000x64_S250000x1_S250000x64_1_0_0_1 : ScatterDims S40000x64 S250000x1 S250000x64 where
  updateWindowDims := [1]
  insertedWindowDims := [0]
  scatterDimsToOperandDims := [0]
  indexVectorDim := 1
  wf := scatter_S40000x64_S250000x1_S250000x64_1_0_0_1_wf
def gather_S40000x64_S250000x1_S250000x64_1_0_n_n_0_1_164 : GatherDims S40000x64 S250000x1 S250000x64 where
  offsetDims := [1]
  collapsedSliceDims := [0]
  operandBatchingDims := []
  startIndicesBatchingDims := []
  startIndexMap := [0]
  indexVectorDim := 1
  sliceSizes := ![1, 64]
  wf := gather_S40000x64_S250000x1_S250000x64_1_0_n_n_0_1_164_wf
def scatter_S15000x64_S250000x1_S250000x64_1_0_0_1 : ScatterDims S15000x64 S250000x1 S250000x64 where
  updateWindowDims := [1]
  insertedWindowDims := [0]
  scatterDimsToOperandDims := [0]
  indexVectorDim := 1
  wf := scatter_S15000x64_S250000x1_S250000x64_1_0_0_1_wf

abbrev win0_0 : Pipeline.Window sig grid0 :=
  Pipeline.Window.ofSpec (Memref.whole main_arg0) S2000x980.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1024x980.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S3000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S512x5.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S3000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S2000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38) S2000x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v78) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v79) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v76) S3000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S3000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S3000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S1024x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S2000x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S3000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S512x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S3000x512.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v103) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v128) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v115) S2000x256.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v89) S2000x256.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v129) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v130) S2000x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v127) S3000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v91) S3000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v131) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v132) S3000x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v130) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v133) S256x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v135) S2000x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v132) S3000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v134) S128x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v136) S3000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v154) S2000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v138) S2000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v179) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v166) S2000x64.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v140) S2000x64.size cc10_transform_4 reads10_4 false false 2 stage10_4 sem10_4
    hrank10 hreads10_4 hinb10_4 nbuf10_4 (Memref.isWhole_whole _) hwx10_4 hstage10_4

abbrev win10_5 : Pipeline.Window sig grid10 :=
  Pipeline.Window.ofSpec (Memref.whole main_v180) S1x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v181) S2000x64.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v178) S3000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v142) S3000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v182) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v183) S3000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S40000x980 : Shape := ⟨2, ![40000, 980]⟩
abbrev S15000x5 : Shape := ⟨2, ![15000, 5]⟩
abbrev S256x980 : Shape := ⟨2, ![256, 980]⟩
abbrev S256 : Shape := ⟨1, ![256]⟩
abbrev S256x5 : Shape := ⟨2, ![256, 5]⟩
abbrev S256x256 : Shape := ⟨2, ![256, 256]⟩
abbrev S64x256 : Shape := ⟨2, ![64, 256]⟩
abbrev S64 : Shape := ⟨1, ![64]⟩
abbrev S2x600000 : Shape := ⟨2, ![2, 600000]⟩
abbrev S250000 : Shape := ⟨1, ![250000]⟩
abbrev S1x600000 : Shape := ⟨2, ![1, 600000]⟩
abbrev S600000 : Shape := ⟨1, ![600000]⟩
abbrev S980x256 : Shape := ⟨2, ![980, 256]⟩
abbrev S40000x256 : Shape := ⟨2, ![40000, 256]⟩
abbrev S_ : Shape := ⟨0, ![]⟩
abbrev S600000x1 : Shape := ⟨2, ![600000, 1]⟩
abbrev S600000x256 : Shape := ⟨2, ![600000, 256]⟩
abbrev S40000 : Shape := ⟨1, ![40000]⟩
abbrev S40000x1 : Shape := ⟨2, ![40000, 1]⟩
abbrev S1x256 : Shape := ⟨2, ![1, 256]⟩
abbrev S5x256 : Shape := ⟨2, ![5, 256]⟩
abbrev S15000x256 : Shape := ⟨2, ![15000, 256]⟩
abbrev S250000x1 : Shape := ⟨2, ![250000, 1]⟩
abbrev S250000x256 : Shape := ⟨2, ![250000, 256]⟩
abbrev S15000 : Shape := ⟨1, ![15000]⟩
abbrev S15000x1 : Shape := ⟨2, ![15000, 1]⟩
abbrev S256x64 : Shape := ⟨2, ![256, 64]⟩
abbrev S40000x64 : Shape := ⟨2, ![40000, 64]⟩
abbrev S600000x64 : Shape := ⟨2, ![600000, 64]⟩
abbrev S1x64 : Shape := ⟨2, ![1, 64]⟩
abbrev S15000x64 : Shape := ⟨2, ![15000, 64]⟩
abbrev S250000x64 : Shape := ⟨2, ![250000, 64]⟩

abbrev nBuf : Space → Nat
  | .hbm => 348
  | .vmem => 0
  | .smem => 0
  | _ => 0

abbrev hbmTy0_0 (i : Nat) : BufTy := match i % 128 with
  | 0 => ⟨S40000x980, .f32⟩
  | 1 => ⟨S15000x5, .f32⟩
  | 2 => ⟨S256x980, .f32⟩
  | 3 => ⟨S256, .f32⟩
  | 4 => ⟨S256x980, .f32⟩
  | 5 => ⟨S256x980, .f32⟩
  | 6 => ⟨S256, .f32⟩
  | 7 => ⟨S256x5, .f32⟩
  | 8 => ⟨S256x5, .f32⟩
  | 9 => ⟨S256, .f32⟩
  | 10 => ⟨S256x980, .f32⟩
  | 11 => ⟨S256x256, .f32⟩
  | 12 => ⟨S256, .f32⟩
  | 13 => ⟨S256x256, .f32⟩
  | 14 => ⟨S256x256, .f32⟩
  | 15 => ⟨S256, .f32⟩
  | 16 => ⟨S256x256, .f32⟩
  | 17 => ⟨S256x256, .f32⟩
  | 18 => ⟨S256, .f32⟩
  | 19 => ⟨S256x256, .f32⟩
  | 20 => ⟨S64x256, .f32⟩
  | 21 => ⟨S64, .f32⟩
  | 22 => ⟨S64x256, .f32⟩
  | 23 => ⟨S64x256, .f32⟩
  | 24 => ⟨S64, .f32⟩
  | 25 => ⟨S64x256, .f32⟩
  | 26 => ⟨S64x256, .f32⟩
  | 27 => ⟨S64, .f32⟩
  | 28 => ⟨S64x256, .f32⟩
  | 29 => ⟨S2x600000, .i32⟩
  | 30 => ⟨S250000, .i32⟩
  | 31 => ⟨S250000, .i32⟩
  | 32 => ⟨S1x600000, .i32⟩
  | 33 => ⟨S600000, .i32⟩
  | 34 => ⟨S1x600000, .i32⟩
  | 35 => ⟨S600000, .i32⟩
  | 36 => ⟨S980x256, .f32⟩
  | 37 => ⟨S40000x256, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x256, .f32⟩
  | 47 => ⟨S_, .f32⟩
  | 48 => ⟨S40000x256, .f32⟩
  | 49 => ⟨S600000x1, .i32⟩
  | 50 => ⟨S40000x256, .f32⟩
  | 51 => ⟨S_, .f32⟩
  | 52 => ⟨S600000, .f32⟩
  | 53 => ⟨S_, .f32⟩
  | 54 => ⟨S40000, .f32⟩
  | 55 => ⟨S600000x1, .i32⟩
  | 56 => ⟨S40000, .f32⟩
  | 57 => ⟨S_, .f32⟩
  | 58 => ⟨S40000, .f32⟩
  | 59 => ⟨S40000, .f32⟩
  | 60 => ⟨S40000x1, .f32⟩
  | 61 => ⟨S40000x256, .f32⟩
  | 62 => ⟨S40000x256, .f32⟩
  | 63 => ⟨S1x256, .f32⟩
  | 64 => ⟨S40000x256, .f32⟩
  | 65 => ⟨S40000x256, .f32⟩
  | 66 => ⟨S980x256, .f32⟩
  | 67 => ⟨S40000x256, .f32⟩
  | 68 => ⟨S40000x256, .f32⟩
  | 69 => ⟨S5x256, .f32⟩
  | 70 => ⟨S15000x256, .f32⟩
  | 71 => ⟨S_, .i32⟩
  | 72 => ⟨S250000, .i32⟩
  | 73 => ⟨S250000, .i1⟩
  | 74 => ⟨S_, .i32⟩
  | 75 => ⟨S250000, .i32⟩
  | 76 => ⟨S250000, .i32⟩
  | 77 => ⟨S250000, .i32⟩
  | 78 => ⟨S250000x1, .i32⟩
  | 79 => ⟨S250000x256, .f32⟩
  | 80 => ⟨S_, .f32⟩
  | 81 => ⟨S40000x256, .f32⟩
  | 82 => ⟨S250000x1, .i32⟩
  | 83 => ⟨S40000x256, .f32⟩
  | 84 => ⟨S_, .f32⟩
  | 85 => ⟨S250000, .f32⟩
  | 86 => ⟨S_, .f32⟩
  | 87 => ⟨S40000, .f32⟩
  | 88 => ⟨S250000x1, .i32⟩
  | 89 => ⟨S40000, .f32⟩
  | 90 => ⟨S_, .f32⟩
  | 91 => ⟨S40000, .f32⟩
  | 92 => ⟨S40000, .f32⟩
  | 93 => ⟨S40000x1, .f32⟩
  | 94 => ⟨S40000x256, .f32⟩
  | 95 => ⟨S40000x256, .f32⟩
  | 96 => ⟨S1x256, .f32⟩
  | 97 => ⟨S40000x256, .f32⟩
  | 98 => ⟨S40000x256, .f32⟩
  | 99 => ⟨S980x256, .f32⟩
  | 100 => ⟨S40000x256, .f32⟩
  | 101 => ⟨S40000x256, .f32⟩
  | 102 => ⟨S40000x256, .f32⟩
  | 103 => ⟨S980x256, .f32⟩
  | 104 => ⟨S40000x256, .f32⟩
  | 105 => ⟨S_, .i32⟩
  | 106 => ⟨S250000, .i32⟩
  | 107 => ⟨S250000, .i1⟩
  | 108 => ⟨S_, .i32⟩
  | 109 => ⟨S250000, .i32⟩
  | 110 => ⟨S250000, .i32⟩
  | 111 => ⟨S250000, .i32⟩
  | 112 => ⟨S250000x1, .i32⟩
  | 113 => ⟨S250000x256, .f32⟩
  | 114 => ⟨S_, .f32⟩
  | 115 => ⟨S15000x256, .f32⟩
  | 116 => ⟨S250000x1, .i32⟩
  | 117 => ⟨S15000x256, .f32⟩
  | 118 => ⟨S_, .f32⟩
  | 119 => ⟨S250000, .f32⟩
  | 120 => ⟨S_, .f32⟩
  | 121 => ⟨S15000, .f32⟩
  | 122 => ⟨S250000x1, .i32⟩
  | 123 => ⟨S15000, .f32⟩
  | 124 => ⟨S_, .f32⟩
  | 125 => ⟨S15000, .f32⟩
  | 126 => ⟨S15000, .f32⟩
  | 127 => ⟨S15000x1, .f32⟩
  | _ => ⟨S40000x980, .f32⟩

abbrev hbmTy0_1 (i : Nat) : BufTy := match i % 128 with
  | 0 => ⟨S15000x256, .f32⟩
  | 1 => ⟨S15000x256, .f32⟩
  | 2 => ⟨S1x256, .f32⟩
  | 3 => ⟨S15000x256, .f32⟩
  | 4 => ⟨S15000x256, .f32⟩
  | 5 => ⟨S5x256, .f32⟩
  | 6 => ⟨S15000x256, .f32⟩
  | 7 => ⟨S15000x256, .f32⟩
  | 8 => ⟨S_, .f32⟩
  | 9 => ⟨S40000x256, .f32⟩
  | 10 => ⟨S40000x256, .f32⟩
  | 11 => ⟨S_, .f32⟩
  | 12 => ⟨S15000x256, .f32⟩
  | 13 => ⟨S15000x256, .f32⟩
  | 14 => ⟨S256x256, .f32⟩
  | 15 => ⟨S40000x256, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x256, .f32⟩
  | 25 => ⟨S_, .f32⟩
  | 26 => ⟨S40000x256, .f32⟩
  | 27 => ⟨S600000x1, .i32⟩
  | 28 => ⟨S40000x256, .f32⟩
  | 29 => ⟨S_, .f32⟩
  | 30 => ⟨S600000, .f32⟩
  | 31 => ⟨S_, .f32⟩
  | 32 => ⟨S40000, .f32⟩
  | 33 => ⟨S600000x1, .i32⟩
  | 34 => ⟨S40000, .f32⟩
  | 35 => ⟨S_, .f32⟩
  | 36 => ⟨S40000, .f32⟩
  | 37 => ⟨S40000, .f32⟩
  | 38 => ⟨S40000x1, .f32⟩
  | 39 => ⟨S40000x256, .f32⟩
  | 40 => ⟨S40000x256, .f32⟩
  | 41 => ⟨S1x256, .f32⟩
  | 42 => ⟨S40000x256, .f32⟩
  | 43 => ⟨S40000x256, .f32⟩
  | 44 => ⟨S256x256, .f32⟩
  | 45 => ⟨S40000x256, .f32⟩
  | 46 => ⟨S40000x256, .f32⟩
  | 47 => ⟨S256x256, .f32⟩
  | 48 => ⟨S15000x256, .f32⟩
  | 49 => ⟨S_, .i32⟩
  | 50 => ⟨S250000, .i32⟩
  | 51 => ⟨S250000, .i1⟩
  | 52 => ⟨S_, .i32⟩
  | 53 => ⟨S250000, .i32⟩
  | 54 => ⟨S250000, .i32⟩
  | 55 => ⟨S250000, .i32⟩
  | 56 => ⟨S250000x1, .i32⟩
  | 57 => ⟨S250000x256, .f32⟩
  | 58 => ⟨S_, .f32⟩
  | 59 => ⟨S40000x256, .f32⟩
  | 60 => ⟨S250000x1, .i32⟩
  | 61 => ⟨S40000x256, .f32⟩
  | 62 => ⟨S_, .f32⟩
  | 63 => ⟨S250000, .f32⟩
  | 64 => ⟨S_, .f32⟩
  | 65 => ⟨S40000, .f32⟩
  | 66 => ⟨S250000x1, .i32⟩
  | 67 => ⟨S40000, .f32⟩
  | 68 => ⟨S_, .f32⟩
  | 69 => ⟨S40000, .f32⟩
  | 70 => ⟨S40000, .f32⟩
  | 71 => ⟨S40000x1, .f32⟩
  | 72 => ⟨S40000x256, .f32⟩
  | 73 => ⟨S40000x256, .f32⟩
  | 74 => ⟨S1x256, .f32⟩
  | 75 => ⟨S40000x256, .f32⟩
  | 76 => ⟨S40000x256, .f32⟩
  | 77 => ⟨S256x256, .f32⟩
  | 78 => ⟨S40000x256, .f32⟩
  | 79 => ⟨S40000x256, .f32⟩
  | 80 => ⟨S40000x256, .f32⟩
  | 81 => ⟨S256x256, .f32⟩
  | 82 => ⟨S40000x256, .f32⟩
  | 83 => ⟨S_, .i32⟩
  | 84 => ⟨S250000, .i32⟩
  | 85 => ⟨S250000, .i1⟩
  | 86 => ⟨S_, .i32⟩
  | 87 => ⟨S250000, .i32⟩
  | 88 => ⟨S250000, .i32⟩
  | 89 => ⟨S250000, .i32⟩
  | 90 => ⟨S250000x1, .i32⟩
  | 91 => ⟨S250000x256, .f32⟩
  | 92 => ⟨S_, .f32⟩
  | 93 => ⟨S15000x256, .f32⟩
  | 94 => ⟨S250000x1, .i32⟩
  | 95 => ⟨S15000x256, .f32⟩
  | 96 => ⟨S_, .f32⟩
  | 97 => ⟨S250000, .f32⟩
  | 98 => ⟨S_, .f32⟩
  | 99 => ⟨S15000, .f32⟩
  | 100 => ⟨S250000x1, .i32⟩
  | 101 => ⟨S15000, .f32⟩
  | 102 => ⟨S_, .f32⟩
  | 103 => ⟨S15000, .f32⟩
  | 104 => ⟨S15000, .f32⟩
  | 105 => ⟨S15000x1, .f32⟩
  | 106 => ⟨S15000x256, .f32⟩
  | 107 => ⟨S15000x256, .f32⟩
  | 108 => ⟨S1x256, .f32⟩
  | 109 => ⟨S15000x256, .f32⟩
  | 110 => ⟨S15000x256, .f32⟩
  | 111 => ⟨S256x256, .f32⟩
  | 112 => ⟨S15000x256, .f32⟩
  | 113 => ⟨S15000x256, .f32⟩
  | 114 => ⟨S_, .f32⟩
  | 115 => ⟨S40000x256, .f32⟩
  | 116 => ⟨S40000x256, .f32⟩
  | 117 => ⟨S_, .f32⟩
  | 118 => ⟨S15000x256, .f32⟩
  | 119 => ⟨S15000x256, .f32⟩
  | 120 => ⟨S256x64, .f32⟩
  | 121 => ⟨S40000x64, .f32⟩
  | 122 => ⟨S_, .i32⟩
  | 123 => ⟨S600000, .i32⟩
  | 124 => ⟨S600000, .i1⟩
  | 125 => ⟨S_, .i32⟩
  | 126 => ⟨S600000, .i32⟩
  | 127 => ⟨S600000, .i32⟩
  | _ => ⟨S40000x980, .f32⟩

abbrev hbmTy0_2 (i : Nat) : BufTy := match i % 128 with
  | 0 => ⟨S600000, .i32⟩
  | 1 => ⟨S600000x1, .i32⟩
  | 2 => ⟨S600000x64, .f32⟩
  | 3 => ⟨S_, .f32⟩
  | 4 => ⟨S40000x64, .f32⟩
  | 5 => ⟨S600000x1, .i32⟩
  | 6 => ⟨S40000x64, .f32⟩
  | 7 => ⟨S_, .f32⟩
  | 8 => ⟨S600000, .f32⟩
  | 9 => ⟨S_, .f32⟩
  | 10 => ⟨S40000, .f32⟩
  | 11 => ⟨S600000x1, .i32⟩
  | 12 => ⟨S40000, .f32⟩
  | 13 => ⟨S_, .f32⟩
  | 14 => ⟨S40000, .f32⟩
  | 15 => ⟨S40000, .f32⟩
  | 16 => ⟨S40000x1, .f32⟩
  | 17 => ⟨S40000x64, .f32⟩
  | 18 => ⟨S40000x64, .f32⟩
  | 19 => ⟨S1x64, .f32⟩
  | 20 => ⟨S40000x64, .f32⟩
  | 21 => ⟨S40000x64, .f32⟩
  | 22 => ⟨S256x64, .f32⟩
  | 23 => ⟨S40000x64, .f32⟩
  | 24 => ⟨S40000x64, .f32⟩
  | 25 => ⟨S256x64, .f32⟩
  | 26 => ⟨S15000x64, .f32⟩
  | 27 => ⟨S_, .i32⟩
  | 28 => ⟨S250000, .i32⟩
  | 29 => ⟨S250000, .i1⟩
  | 30 => ⟨S_, .i32⟩
  | 31 => ⟨S250000, .i32⟩
  | 32 => ⟨S250000, .i32⟩
  | 33 => ⟨S250000, .i32⟩
  | 34 => ⟨S250000x1, .i32⟩
  | 35 => ⟨S250000x64, .f32⟩
  | 36 => ⟨S_, .f32⟩
  | 37 => ⟨S40000x64, .f32⟩
  | 38 => ⟨S250000x1, .i32⟩
  | 39 => ⟨S40000x64, .f32⟩
  | 40 => ⟨S_, .f32⟩
  | 41 => ⟨S250000, .f32⟩
  | 42 => ⟨S_, .f32⟩
  | 43 => ⟨S40000, .f32⟩
  | 44 => ⟨S250000x1, .i32⟩
  | 45 => ⟨S40000, .f32⟩
  | 46 => ⟨S_, .f32⟩
  | 47 => ⟨S40000, .f32⟩
  | 48 => ⟨S40000, .f32⟩
  | 49 => ⟨S40000x1, .f32⟩
  | 50 => ⟨S40000x64, .f32⟩
  | 51 => ⟨S40000x64, .f32⟩
  | 52 => ⟨S1x64, .f32⟩
  | 53 => ⟨S40000x64, .f32⟩
  | 54 => ⟨S40000x64, .f32⟩
  | 55 => ⟨S256x64, .f32⟩
  | 56 => ⟨S40000x64, .f32⟩
  | 57 => ⟨S40000x64, .f32⟩
  | 58 => ⟨S40000x64, .f32⟩
  | 59 => ⟨S256x64, .f32⟩
  | 60 => ⟨S40000x64, .f32⟩
  | 61 => ⟨S_, .i32⟩
  | 62 => ⟨S250000, .i32⟩
  | 63 => ⟨S250000, .i1⟩
  | 64 => ⟨S_, .i32⟩
  | 65 => ⟨S250000, .i32⟩
  | 66 => ⟨S250000, .i32⟩
  | 67 => ⟨S250000, .i32⟩
  | 68 => ⟨S250000x1, .i32⟩
  | 69 => ⟨S250000x64, .f32⟩
  | 70 => ⟨S_, .f32⟩
  | 71 => ⟨S15000x64, .f32⟩
  | 72 => ⟨S250000x1, .i32⟩
  | 73 => ⟨S15000x64, .f32⟩
  | 74 => ⟨S_, .f32⟩
  | 75 => ⟨S250000, .f32⟩
  | 76 => ⟨S_, .f32⟩
  | 77 => ⟨S15000, .f32⟩
  | 78 => ⟨S250000x1, .i32⟩
  | 79 => ⟨S15000, .f32⟩
  | 80 => ⟨S_, .f32⟩
  | 81 => ⟨S15000, .f32⟩
  | 82 => ⟨S15000, .f32⟩
  | 83 => ⟨S15000x1, .f32⟩
  | 84 => ⟨S15000x64, .f32⟩
  | 85 => ⟨S15000x64, .f32⟩
  | 86 => ⟨S1x64, .f32⟩
  | 87 => ⟨S15000x64, .f32⟩
  | 88 => ⟨S15000x64, .f32⟩
  | 89 => ⟨S256x64, .f32⟩
  | 90 => ⟨S15000x64, .f32⟩
  | 91 => ⟨S15000x64, .f32⟩
  | _ => ⟨S40000x980, .f32⟩

abbrev hbmTy (i : Nat) : BufTy := match i / 128 with
  | 0 => hbmTy0_0 i
  | 1 => hbmTy0_1 i
  | 2 => hbmTy0_2 i
  | _ => ⟨S40000x980, .f32⟩

abbrev bufTy : (tb : Table) → Fin (tcTables nBuf tb) → BufTy
  | .hbm, ⟨i, _⟩ => hbmTy i
  | _, _ => ⟨S40000x980, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_c : Ref sig .tc := ⟨.hbm, 38, rfl⟩
abbrev main_v6 : Ref sig .tc := ⟨.hbm, 39, rfl⟩
abbrev main_v7 : Ref sig .tc := ⟨.hbm, 40, rfl⟩
abbrev main_c_0 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_1 : Ref sig .tc := ⟨.hbm, 51, rfl⟩
abbrev main_v16 : Ref sig .tc := ⟨.hbm, 52, rfl⟩
abbrev main_cst_2 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_3 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_4 : Ref sig .tc := ⟨.hbm, 71, rfl⟩
abbrev main_v33 : Ref sig .tc := ⟨.hbm, 72, rfl⟩
abbrev main_v34 : Ref sig .tc := ⟨.hbm, 73, rfl⟩
abbrev main_c_5 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_6 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_7 : Ref sig .tc := ⟨.hbm, 84, rfl⟩
abbrev main_v43 : Ref sig .tc := ⟨.hbm, 85, rfl⟩
abbrev main_cst_8 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_9 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_c_10 : Ref sig .tc := ⟨.hbm, 105, rfl⟩
abbrev main_v61 : Ref sig .tc := ⟨.hbm, 106, rfl⟩
abbrev main_v62 : Ref sig .tc := ⟨.hbm, 107, rfl⟩
abbrev main_c_11 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_12 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_13 : Ref sig .tc := ⟨.hbm, 118, rfl⟩
abbrev main_v71 : Ref sig .tc := ⟨.hbm, 119, rfl⟩
abbrev main_cst_14 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_15 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_call0_cst : Ref sig .tc := ⟨.hbm, 136, rfl⟩
abbrev main_call0_v0 : Ref sig .tc := ⟨.hbm, 137, rfl⟩
abbrev main_v86 : Ref sig .tc := ⟨.hbm, 138, rfl⟩
abbrev main_call1_cst : Ref sig .tc := ⟨.hbm, 139, rfl⟩
abbrev main_call1_v0 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_c_16 : Ref sig .tc := ⟨.hbm, 144, rfl⟩
abbrev main_v90 : Ref sig .tc := ⟨.hbm, 145, rfl⟩
abbrev main_v91 : Ref sig .tc := ⟨.hbm, 146, rfl⟩
abbrev main_c_17 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_18 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_19 : Ref sig .tc := ⟨.hbm, 157, rfl⟩
abbrev main_v100 : Ref sig .tc := ⟨.hbm, 158, rfl⟩
abbrev main_cst_20 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_21 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_c_22 : Ref sig .tc := ⟨.hbm, 177, rfl⟩
abbrev main_v117 : Ref sig .tc := ⟨.hbm, 178, rfl⟩
abbrev main_v118 : Ref sig .tc := ⟨.hbm, 179, rfl⟩
abbrev main_c_23 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_cst_24 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_25 : Ref sig .tc := ⟨.hbm, 190, rfl⟩
abbrev main_v127 : Ref sig .tc := ⟨.hbm, 191, rfl⟩
abbrev main_cst_26 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_cst_27 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_c_28 : Ref sig .tc := ⟨.hbm, 211, rfl⟩
abbrev main_v145 : Ref sig .tc := ⟨.hbm, 212, rfl⟩
abbrev main_v146 : Ref sig .tc := ⟨.hbm, 213, rfl⟩
abbrev main_c_29 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_cst_30 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_cst_31 : Ref sig .tc := ⟨.hbm, 224, rfl⟩
abbrev main_v155 : Ref sig .tc := ⟨.hbm, 225, rfl⟩
abbrev main_cst_32 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_cst_33 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_call2_cst : Ref sig .tc := ⟨.hbm, 242, rfl⟩
abbrev main_call2_v0 : Ref sig .tc := ⟨.hbm, 243, rfl⟩
abbrev main_v170 : Ref sig .tc := ⟨.hbm, 244, rfl⟩
abbrev main_call3_cst : Ref sig .tc := ⟨.hbm, 245, rfl⟩
abbrev main_call3_v0 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_c_34 : Ref sig .tc := ⟨.hbm, 250, rfl⟩
abbrev main_v174 : Ref sig .tc := ⟨.hbm, 251, rfl⟩
abbrev main_v175 : Ref sig .tc := ⟨.hbm, 252, rfl⟩
abbrev main_c_35 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_cst_36 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_cst_37 : Ref sig .tc := ⟨.hbm, 263, rfl⟩
abbrev main_v184 : Ref sig .tc := ⟨.hbm, 264, rfl⟩
abbrev main_cst_38 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_cst_39 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_c_40 : Ref sig .tc := ⟨.hbm, 283, rfl⟩
abbrev main_v201 : Ref sig .tc := ⟨.hbm, 284, rfl⟩
abbrev main_v202 : Ref sig .tc := ⟨.hbm, 285, rfl⟩
abbrev main_c_41 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_cst_42 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_cst_43 : Ref sig .tc := ⟨.hbm, 296, rfl⟩
abbrev main_v211 : Ref sig .tc := ⟨.hbm, 297, rfl⟩
abbrev main_cst_44 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_cst_45 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_v225 : Ref sig .tc := ⟨.hbm, 313, rfl⟩
abbrev main_v226 : Ref sig .tc := ⟨.hbm, 314, rfl⟩
abbrev main_v227 : Ref sig .tc := ⟨.hbm, 315, rfl⟩
abbrev main_v228 : Ref sig .tc := ⟨.hbm, 316, rfl⟩
abbrev main_c_46 : Ref sig .tc := ⟨.hbm, 317, rfl⟩
abbrev main_v229 : Ref sig .tc := ⟨.hbm, 318, rfl⟩
abbrev main_v230 : Ref sig .tc := ⟨.hbm, 319, rfl⟩
abbrev main_c_47 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_cst_48 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_cst_49 : Ref sig .tc := ⟨.hbm, 330, rfl⟩
abbrev main_v239 : Ref sig .tc := ⟨.hbm, 331, rfl⟩
abbrev main_cst_50 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_cst_51 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S256x980_S980x256_1_0 : S256x980.Transposes [1, 0] S980x256
  bcast_S_S600000 : S_.BroadcastsInDim S600000 (![] : Fin 0 → Fin S600000.rank)
  bcast_S600000_S600000x1_0 : S600000.BroadcastsInDim S600000x1 (![0] : Fin 1 → Fin S600000x1.rank)
  bcast_S_S40000x256 : S_.BroadcastsInDim S40000x256 (![] : Fin 0 → Fin S40000x256.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x256_0_1 : S40000x1.BroadcastsInDim S40000x256 (![0, 1] : Fin 2 → Fin S40000x256.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  transposes_S256x5_S5x256_1_0 : S256x5.Transposes [1, 0] S5x256
  bcast_S_S250000 : S_.BroadcastsInDim S250000 (![] : Fin 0 → Fin S250000.rank)
  bcast_S250000_S250000x1_0 : S250000.BroadcastsInDim S250000x1 (![0] : Fin 1 → Fin S250000x1.rank)
  bcast_S_S15000x256 : S_.BroadcastsInDim S15000x256 (![] : Fin 0 → Fin S15000x256.rank)
  bcast_S_S15000 : S_.BroadcastsInDim S15000 (![] : Fin 0 → Fin S15000.rank)
  bcast_S15000_S15000x1_0 : S15000.BroadcastsInDim S15000x1 (![0] : Fin 1 → Fin S15000x1.rank)
  bcast_S15000x1_S15000x256_0_1 : S15000x1.BroadcastsInDim S15000x256 (![0, 1] : Fin 2 → Fin S15000x256.rank)
  bcast_S1x256_S15000x256_0_1 : S1x256.BroadcastsInDim S15000x256 (![0, 1] : Fin 2 → Fin S15000x256.rank)
  transposes_S256x256_S256x256_1_0 : S256x256.Transposes [1, 0] S256x256
  transposes_S64x256_S256x64_1_0 : S64x256.Transposes [1, 0] S256x64
  bcast_S_S40000x64 : S_.BroadcastsInDim S40000x64 (![] : Fin 0 → Fin S40000x64.rank)
  bcast_S40000x1_S40000x64_0_1 : S40000x1.BroadcastsInDim S40000x64 (![0, 1] : Fin 2 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S_S15000x64 : S_.BroadcastsInDim S15000x64 (![] : Fin 0 → Fin S15000x64.rank)
  bcast_S15000x1_S15000x64_0_1 : S15000x1.BroadcastsInDim S15000x64 (![0, 1] : Fin 2 → Fin S15000x64.rank)
  bcast_S1x64_S15000x64_0_1 : S1x64.BroadcastsInDim S15000x64 (![0, 1] : Fin 2 → Fin S15000x64.rank)
  dot_S40000x980_S980x256_S40000x256_1_0_0_1_n_n_wf : DotDims.WF S40000x980 S980x256 S40000x256 [1] [0] [0] [1] [] []
  gather_S40000x256_S600000x1_S600000x256_1_0_n_n_0_1_1256_wf : GatherDims.WF S40000x256 S600000x1 S600000x256 [1] [0] [] [0] [] 1 ![1, 256]
  scatter_S40000x256_S600000x1_S600000x256_1_0_0_1_wf : ScatterDims.WF S40000x256 S600000x1 S600000x256 [1] [0] [0] 1
  scatter_S40000_S600000x1_S600000_n_0_0_1_wf : ScatterDims.WF S40000 S600000x1 S600000 [] [0] [0] 1
  dot_S15000x5_S5x256_S15000x256_1_0_0_1_n_n_wf : DotDims.WF S15000x5 S5x256 S15000x256 [1] [0] [0] [1] [] []
  gather_S15000x256_S250000x1_S250000x256_1_0_n_n_0_1_1256_wf : GatherDims.WF S15000x256 S250000x1 S250000x256 [1] [0] [] [0] [] 1 ![1, 256]
  scatter_S40000x256_S250000x1_S250000x256_1_0_0_1_wf : ScatterDims.WF S40000x256 S250000x1 S250000x256 [1] [0] [0] 1
  scatter_S40000_S250000x1_S250000_n_0_0_1_wf : ScatterDims.WF S40000 S250000x1 S250000 [] [0] [0] 1
  gather_S40000x256_S250000x1_S250000x256_1_0_n_n_0_1_1256_wf : GatherDims.WF S40000x256 S250000x1 S250000x256 [1] [0] [] [0] [] 1 ![1, 256]
  scatter_S15000x256_S250000x1_S250000x256_1_0_0_1_wf : ScatterDims.WF S15000x256 S250000x1 S250000x256 [1] [0] [0] 1
  scatter_S15000_S250000x1_S250000_n_0_0_1_wf : ScatterDims.WF S15000 S250000x1 S250000 [] [0] [0] 1
  dot_S40000x256_S256x256_S40000x256_1_0_0_1_n_n_wf : DotDims.WF S40000x256 S256x256 S40000x256 [1] [0] [0] [1] [] []
  dot_S15000x256_S256x256_S15000x256_1_0_0_1_n_n_wf : DotDims.WF S15000x256 S256x256 S15000x256 [1] [0] [0] [1] [] []
  dot_S40000x256_S256x64_S40000x64_1_0_0_1_n_n_wf : DotDims.WF S40000x256 S256x64 S40000x64 [1] [0] [0] [1] [] []
  gather_S40000x64_S600000x1_S600000x64_1_0_n_n_0_1_164_wf : GatherDims.WF S40000x64 S600000x1 S600000x64 [1] [0] [] [0] [] 1 ![1, 64]
  scatter_S40000x64_S600000x1_S600000x64_1_0_0_1_wf : ScatterDims.WF S40000x64 S600000x1 S600000x64 [1] [0] [0] 1
  dot_S15000x256_S256x64_S15000x64_1_0_0_1_n_n_wf : DotDims.WF S15000x256 S256x64 S15000x64 [1] [0] [0] [1] [] []
  gather_S15000x64_S250000x1_S250000x64_1_0_n_n_0_1_164_wf : GatherDims.WF S15000x64 S250000x1 S250000x64 [1] [0] [] [0] [] 1 ![1, 64]
  scatter_S40000x64_S250000x1_S250000x64_1_0_0_1_wf : ScatterDims.WF S40000x64 S250000x1 S250000x64 [1] [0] [0] 1
  gather_S40000x64_S250000x1_S250000x64_1_0_n_n_0_1_164_wf : GatherDims.WF S40000x64 S250000x1 S250000x64 [1] [0] [] [0] [] 1 ![1, 64]
  scatter_S15000x64_S250000x1_S250000x64_1_0_0_1_wf : ScatterDims.WF S15000x64 S250000x1 S250000x64 [1] [0] [0] 1

variable [Facts₀]

def dot_S40000x980_S980x256_S40000x256_1_0_0_1_n_n : DotDims S40000x980 S980x256 S40000x256 where
  lhsContracting := [1]
  rhsContracting := [0]
  lhsNonContracting := [0]
  rhsNonContracting := [1]
  lhsBatch := []
  rhsBatch := []
  wf := dot_S40000x980_S980x256_S40000x256_1_0_0_1_n_n_wf
def gather_S40000x256_S600000x1_S600000x256_1_0_n_n_0_1_1256 : GatherDims S40000x256 S600000x1 S600000x256 where
  offsetDims := [1]
  collapsedSliceDims := [0]
  operandBatchingDims := []
  startIndicesBatchingDims := []
  startIndexMap := [0]
  indexVectorDim := 1
  sliceSizes := ![1, 256]
  wf := gather_S40000x256_S600000x1_S600000x256_1_0_n_n_0_1_1256_wf
def scatter_S40000x256_S600000x1_S600000x256_1_0_0_1 : ScatterDims S40000x256 S600000x1 S600000x256 where
  updateWindowDims := [1]
  insertedWindowDims := [0]
  scatterDimsToOperandDims := [0]
  indexVectorDim := 1
  wf := scatter_S40000x256_S600000x1_S600000x256_1_0_0_1_wf
def scatter_S40000_S600000x1_S600000_n_0_0_1 : ScatterDims S40000 S600000x1 S600000 where
  updateWindowDims := []
  insertedWindowDims := [0]
  scatterDimsToOperandDims := [0]
  indexVectorDim := 1
  wf := scatter_S40000_S600000x1_S600000_n_0_0_1_wf
def dot_S15000x5_S5x256_S15000x256_1_0_0_1_n_n : DotDims S15000x5 S5x256 S15000x256 where
  lhsContracting := [1]
  rhsContracting := [0]
  lhsNonContracting := [0]
  rhsNonContracting := [1]
  lhsBatch := []
  rhsBatch := []
  wf := dot_S15000x5_S5x256_S15000x256_1_0_0_1_n_n_wf
def gather_S15000x256_S250000x1_S250000x256_1_0_n_n_0_1_1256 : GatherDims S15000x256 S250000x1 S250000x256 where
  offsetDims := [1]
  collapsedSliceDims := [0]
  operandBatchingDims := []
  startIndicesBatchingDims := []
  startIndexMap := [0]
  indexVectorDim := 1
  sliceSizes := ![1, 256]
  wf := gather_S15000x256_S250000x1_S250000x256_1_0_n_n_0_1_1256_wf
def scatter_S40000x256_S250000x1_S250000x256_1_0_0_1 : ScatterDims S40000x256 S250000x1 S250000x256 where
  updateWindowDims := [1]
  insertedWindowDims := [0]
  scatterDimsToOperandDims := [0]
  indexVectorDim := 1
  wf := scatter_S40000x256_S250000x1_S250000x256_1_0_0_1_wf
def scatter_S40000_S250000x1_S250000_n_0_0_1 : ScatterDims S40000 S250000x1 S250000 where
  updateWindowDims := []
  insertedWindowDims := [0]
  scatterDimsToOperandDims := [0]
  indexVectorDim := 1
  wf := scatter_S40000_S250000x1_S250000_n_0_0_1_wf
def gather_S40000x256_S250000x1_S250000x256_1_0_n_n_0_1_1256 : GatherDims S40000x256 S250000x1 S250000x256 where
  offsetDims := [1]
  collapsedSliceDims := [0]
  operandBatchingDims := []
  startIndicesBatchingDims := []
  startIndexMap := [0]
  indexVectorDim := 1
  sliceSizes := ![1, 256]
  wf := gather_S40000x256_S250000x1_S250000x256_1_0_n_n_0_1_1256_wf
def scatter_S15000x256_S250000x1_S250000x256_1_0_0_1 : ScatterDims S15000x256 S250000x1 S250000x256 where
  updateWindowDims := [1]
  insertedWindowDims := [0]
  scatterDimsToOperandDims := [0]
  indexVectorDim := 1
  wf := scatter_S15000x256_S250000x1_S250000x256_1_0_0_1_wf
def scatter_S15000_S250000x1_S250000_n_0_0_1 : ScatterDims S15000 S250000x1 S250000 where
  updateWindowDims := []
  insertedWindowDims := [0]
  scatterDimsToOperandDims := [0]
  indexVectorDim := 1
  wf := scatter_S15000_S250000x1_S250000_n_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def dot_S15000x256_S256x256_S15000x256_1_0_0_1_n_n : DotDims S15000x256 S256x256 S15000x256 where
  lhsContracting := [1]
  rhsContracting := [0]
  lhsNonContracting := [0]
  rhsNonContracting := [1]
  lhsBatch := []
  rhsBatch := []
  wf := dot_S15000x256_S256x256_S15000x256_1_0_0_1_n_n_wf
def dot_S40000x256_S256x64_S40000x64_1_0_0_1_n_n : DotDims S40000x256 S256x64 S40000x64 where
  lhsContracting := [1]
  rhsContracting := [0]
  lhsNonContracting := [0]
  rhsNonContracting := [1]
  lhsBatch := []
  rhsBatch := []
  wf := dot_S40000x256_S256x64_S40000x64_1_0_0_1_n_n_wf
def gather_S40000x64_S600000x1_S600000x64_1_0_n_n_0_1_164 : GatherDims S40000x64 S600000x1 S600000x64 where
  offsetDims := [1]
  collapsedSliceDims := [0]
  operandBatchingDims := []
  startIndicesBatchingDims := []
  startIndexMap := [0]
  indexVectorDim := 1
  sliceSizes := ![1, 64]
  wf := gather_S40000x64_S600000x1_S600000x64_1_0_n_n_0_1_164_wf
def scatter_S40000x64_S600000x1_S600000x64_1_0_0_1 : ScatterDims S40000x64 S600000x1 S600000x64 where
  updateWindowDims := [1]
  insertedWindowDims := [0]
  scatterDimsToOperandDims := [0]
  indexVectorDim := 1
  wf := scatter_S40000x64_S600000x1_S600000x64_1_0_0_1_wf
def dot_S15000x256_S256x64_S15000x64_1_0_0_1_n_n : DotDims S15000x256 S256x64 S15000x64 where
  lhsContracting := [1]
  rhsContracting := [0]
  lhsNonContracting := [0]
  rhsNonContracting := [1]
  lhsBatch := []
  rhsBatch := []
  wf := dot_S15000x256_S256x64_S15000x64_1_0_0_1_n_n_wf
def gather_S15000x64_S250000x1_S250000x64_1_0_n_n_0_1_164 : GatherDims S15000x64 S250000x1 S250000x64 where
  offsetDims := [1]
  collapsedSliceDims := [0]
  operandBatchingDims := []
  startIndicesBatchingDims := []
  startIndexMap := [0]
  indexVectorDim := 1
  sliceSizes := ![1, 64]
  wf := gather_S15000x64_S250000x1_S250000x64_1_0_n_n_0_1_164_wf
def scatter_S40000x64_S250000x1_S250000x64_1_0_0_1 : ScatterDims S40000x64 S250000x1 S250000x64 where
  updateWindowDims := [1]
  insertedWindowDims := [0]
  scatterDimsToOperandDims := [0]
  indexVectorDim := 1
  wf := scatter_S40000x64_S250000x1_S250000x64_1_0_0_1_wf
def gather_S40000x64_S250000x1_S250000x64_1_0_n_n_0_1_164 : GatherDims S40000x64 S250000x1 S250000x64 where
  offsetDims := [1]
  collapsedSliceDims := [0]
  operandBatchingDims := []
  startIndicesBatchingDims := []
  startIndexMap := [0]
  indexVectorDim := 1
  sliceSizes := ![1, 64]
  wf := gather_S40000x64_S250000x1_S250000x64_1_0_n_n_0_1_164_wf
def scatter_S15000x64_S250000x1_S250000x64_1_0_0_1 : ScatterDims S15000x64 S250000x1 S250000x64 where
  updateWindowDims := [1]
  insertedWindowDims := [0]
  scatterDimsToOperandDims := [0]
  indexVectorDim := 1
  wf := scatter_S15000x64_S250000x1_S250000x64_1_0_0_1_wf

class Facts : Prop extends Facts₀ where

variable [Facts]
-- ==== Proof.KB.Base.lean ====
import proofs.«102211_j33681133535938_1_alg».proof.Proof.Gen.Kernel.Regions

noncomputable section

namespace Cert.Kernel.Fr

open Idealize.ShloMosaic Idealize.ShloMosaic.TcCoe Idealize.SL.Sem
open Cert.Kernel Cert.Kernel.Gen

variable {F : FTy → Type} [FloatOps F]

/-- A valuation read at the TensorCore's references. -/
abbrev Vr (W : Dev nD → Valuation τ sig (Elt F)) : (c : Dev nD) → (b : Ref sig .tc) → Buf (Elt F) ((c : Thread nD τ).loc b) :=
  fun c b => W c b

end Cert.Kernel.Fr

end
-- ==== Proof.KB.R0.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a row-blocked matrix product `X · Wᵀ`.
    Window 0 is the block of rows of the left operand `X` at the grid point (`S2000x980`), window 1 the whole
    right operand `W` (`S1024x980`, fetched once), window 2 the same rows of the product (`S2000x1024`): entry
    `(p, q)` of a block is the sum over `k` of `X(p, k) · W(q, k)`. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched
    the block index has not moved, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each staging buffer whole. -/
abbrev rin0_0 : Rect S2000x980 := Rect.unit (s := S2000x980) ![0, 0] S2000x980.size inb_S2000x980_S2000x980_0_0
abbrev rin0_1 : Rect S1024x980 := Rect.unit (s := S1024x980) ![0, 0] S1024x980.size inb_S1024x980_S1024x980_0_0
abbrev ro0 : Rect S2000x1024 := Rect.unit (s := S2000x1024) ![0, 0] S2000x1024.size inb_S2000x1024_S2000x1024_0_0

/-- The output block's staging buffer after the body: one store of the whole block, the body's arithmetic of the loads. -/
def out0_2 (x0 : Vec F S2000x980 .f32) (x1 : Vec F S1024x980 .f32) : Vec F S2000x1024 .f32 :=
  View.canon [⟨ro0, k0_pay1 (View.ld x0 rin0_0) (View.ld x1 rin0_1)⟩]

/-- The one store is of the whole block, so it covers it. -/
theorem cover0_2 (p0 : Vec F S2000x1024 .f32) (y : S2000x1024.Idx) :
    ∃ pc ∈ ([⟨ro0, p0⟩] : List (View.Piece (Elt F) S2000x1024 .f32)), y ∈ pc.1.set :=
  View.cover_of_tiled [⟨ro0, p0⟩] S2000x1024.size (by rfl) y

set_option maxHeartbeats 1000000 in
/-- The body on whole staging buffers: every input keeps its contents and the output ends at `out0_2` of them. -/
theorem sound_kernel0 (c : Dev nD) (E : Set ℕ) (i : grid0.Coords)
    (arg1 : Memref sig .tc .vmem S2000x980 .f32) (harg1 : arg1.IsWhole)
    (arg2 : Memref sig .tc .vmem S1024x980 .f32) (harg2 : arg2.IsWhole)
    (arg3 : Memref sig .tc .vmem S2000x1024 .f32) (harg3 : arg3.IsWhole)
    (x0 : Vec F S2000x980 .f32) (x1 : Vec F S1024x980 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region: the arrays as the region finds them; after the body each input's buffer still at
    its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.X0.lean ====
import proofs.«102211_j33681133535938_1_alg».proof.Proof.KB.Base
import proofs.«102211_j33681133535938_1_alg».proof.Proof.KB.R0

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 0 at its exit: each input array is as the region found it (an input window writes nothing back, and the
    region may change only its output), and the output array is what its write-backs leave, which is what `outs` holds
    there; every other buffer is as at entry. -/

set_option maxHeartbeats 2000000 in
theorem hF0 (h : ∀ c, outs 2 main_v33 c = (dat0 (Vr (V1 m)) c).arrAt 2 cfg0.N) (c : Dev nD) (w : Fin cfg0.W) :
    (dat0 (Vr (V1 m)) c).arrAt w cfg0.N = Vr (V2 m outs) c (Pipeline.arrRef spec0 w) := by
  match w with
  | ⟨0, _⟩ => exact ((dat0 (Vr (V1 m)) c).arrAt_in 0 rfl _).trans (V2_of m outs c main_arg0 (by decide)).symm
  | ⟨1, _⟩ => exact ((dat0 (Vr (V1 m)) c).arrAt_in 1 rfl _).trans (V2_of m outs c main_v31 (by decide)).symm
  | ⟨2, _⟩ => exact (h c).symm.trans (Function.update_self (Proc.devRef .tc main_v33 : DevRef τ sig) (outs 2 main_v33 c) (V1 m c)).symm

theorem hrest0 (c : Dev nD) : ∀ b, b ∉ Finset.univ.image (Pipeline.arrRef spec0) → Vr (V2 m outs) c b = Vr (V1 m) c b :=
  fun b hb => V2_of m outs c b fun hm => hb (by
    rw [List.mem_singleton] at hm; subst hm
    exact Finset.mem_image.mpr ⟨⟨2, by decide⟩, Finset.mem_univ _, rfl⟩)

end Cert.Kernel.Fr

end
-- ==== Proof.KB.R1.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: a row-blocked matrix product `X · Wᵀ`.
    Window 0 is the block of rows of the left operand `X` at the grid point (`S3000x5`), window 1 the whole
    right operand `W` (`S512x5`, fetched once), window 2 the same rows of the product (`S3000x512`): entry
    `(p, q)` of a block is the sum over `k` of `X(p, k) · W(q, k)`. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not fetched
    the block index has not moved, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each staging buffer whole. -/
abbrev rin1_0 : Rect S3000x5 := Rect.unit (s := S3000x5) ![0, 0] S3000x5.size inb_S3000x5_S3000x5_0_0
abbrev rin1_1 : Rect S512x5 := Rect.unit (s := S512x5) ![0, 0] S512x5.size inb_S512x5_S512x5_0_0
abbrev ro1 : Rect S3000x512 := Rect.unit (s := S3000x512) ![0, 0] S3000x512.size inb_S3000x512_S3000x512_0_0

/-- The output block's staging buffer after the body: one store of the whole block, the body's arithmetic of the loads. -/
def out1_2 (x0 : Vec F S3000x5 .f32) (x1 : Vec F S512x5 .f32) : Vec F S3000x512 .f32 :=
  View.canon [⟨ro1, k1_pay1 (View.ld x0 rin1_0) (View.ld x1 rin1_1)⟩]

/-- The one store is of the whole block, so it covers it. -/
theorem cover1_2 (p0 : Vec F S3000x512 .f32) (y : S3000x512.Idx) :
    ∃ pc ∈ ([⟨ro1, p0⟩] : List (View.Piece (Elt F) S3000x512 .f32)), y ∈ pc.1.set :=
  View.cover_of_tiled [⟨ro1, p0⟩] S3000x512.size (by rfl) y

set_option maxHeartbeats 1000000 in
/-- The body on whole staging buffers: every input keeps its contents and the output ends at `out1_2` of them. -/
theorem sound_kernel1 (c : Dev nD) (E : Set ℕ) (i : grid1.Coords)
    (arg1 : Memref sig .tc .vmem S3000x5 .f32) (harg1 : arg1.IsWhole)
    (arg2 : Memref sig .tc .vmem S512x5 .f32) (harg2 : arg2.IsWhole)
    (arg3 : Memref sig .tc .vmem S3000x512 .f32) (harg3 : arg3.IsWhole)
    (x0 : Vec F S3000x5 .f32) (x1 : Vec F S512x5 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region: the arrays as the region finds them; after the body each input's buffer still at
    its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.X1.lean ====
import proofs.«102211_j33681133535938_1_alg».proof.Proof.KB.Base
import proofs.«102211_j33681133535938_1_alg».proof.Proof.KB.R1

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 1 at its exit: each input array is as the region found it (an input window writes nothing back, and the
    region may change only its output), and the output array is what its write-backs leave, which is what `outs` holds
    there; every other buffer is as at entry. -/

set_option maxHeartbeats 2000000 in
theorem hF1 (h : ∀ c, outs 3 main_v34 c = (dat1 (Vr (V2 m outs)) c).arrAt 2 cfg1.N) (c : Dev nD) (w : Fin cfg1.W) :
    (dat1 (Vr (V2 m outs)) c).arrAt w cfg1.N = Vr (V3 m outs) c (Pipeline.arrRef spec1 w) := by
  match w with
  | ⟨0, _⟩ => exact ((dat1 (Vr (V2 m outs)) c).arrAt_in 0 rfl _).trans (V3_of m outs c main_arg1 (by decide)).symm
  | ⟨1, _⟩ => exact ((dat1 (Vr (V2 m outs)) c).arrAt_in 1 rfl _).trans (V3_of m outs c main_v32 (by decide)).symm
  | ⟨2, _⟩ => exact (h c).symm.trans (Function.update_self (Proc.devRef .tc main_v34 : DevRef τ sig) (outs 3 main_v34 c) (V2 m outs c)).symm

theorem hrest1 (c : Dev nD) : ∀ b, b ∉ Finset.univ.image (Pipeline.arrRef spec1) → Vr (V3 m outs) c b = Vr (V2 m outs) c b :=
  fun b hb => V3_of m outs c b fun hm => hb (by
    rw [List.mem_singleton] at hm; subst hm
    exact Finset.mem_image.mpr ⟨⟨2, by decide⟩, Finset.mem_univ _, rfl⟩)

end Cert.Kernel.Fr

end
-- ==== Proof.KB.R2.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the drug-side combination `a + aw + ab + b + bw + bb` (followed by `max · 0` in the first two layers).
    Windows 0, 1, 3, 4 are the blocks of rows of the two aggregated messages `a`, `b` and the two self terms `aw`,
    `bw` at the grid point (`S2000x256`), windows 2 and 5 the bias rows `ab`, `bb` (`S1x256`, whole, added
    to every row), window 6 the same rows of the result. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not fetched
    the block index has not moved, and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each staging buffer whole. -/
abbrev rin2_0 : Rect S2000x256 := Rect.unit (s := S2000x256) ![0, 0] S2000x256.size inb_S2000x256_S2000x256_0_0
abbrev rin2_1 : Rect S2000x256 := Rect.unit (s := S2000x256) ![0, 0] S2000x256.size inb_S2000x256_S2000x256_0_0
abbrev rin2_2 : Rect S1x256 := Rect.unit (s := S1x256) ![0, 0] S1x256.size inb_S1x256_S1x256_0_0
abbrev rin2_3 : Rect S2000x256 := Rect.unit (s := S2000x256) ![0, 0] S2000x256.size inb_S2000x256_S2000x256_0_0
abbrev rin2_4 : Rect S2000x256 := Rect.unit (s := S2000x256) ![0, 0] S2000x256.size inb_S2000x256_S2000x256_0_0
abbrev rin2_5 : Rect S1x256 := Rect.unit (s := S1x256) ![0, 0] S1x256.size inb_S1x256_S1x256_0_0
abbrev ro2 : Rect S2000x256 := Rect.unit (s := S2000x256) ![0, 0] S2000x256.size inb_S2000x256_S2000x256_0_0

/-- The output block's staging buffer after the body: one store of the whole block, the body's arithmetic of the loads. -/
def out2_6 (x0 : Vec F S2000x256 .f32) (x1 : Vec F S2000x256 .f32) (x2 : Vec F S1x256 .f32) (x3 : Vec F S2000x256 .f32) (x4 : Vec F S2000x256 .f32) (x5 : Vec F S1x256 .f32) : Vec F S2000x256 .f32 :=
  View.canon [⟨ro2, k2_pay1 (View.ld x0 rin2_0) (View.ld x1 rin2_1) (View.ld x2 rin2_2) (View.ld x3 rin2_3) (View.ld x4 rin2_4) (View.ld x5 rin2_5)⟩]

/-- The one store is of the whole block, so it covers it. -/
theorem cover2_6 (p0 : Vec F S2000x256 .f32) (y : S2000x256.Idx) :
    ∃ pc ∈ ([⟨ro2, p0⟩] : List (View.Piece (Elt F) S2000x256 .f32)), y ∈ pc.1.set :=
  View.cover_of_tiled [⟨ro2, p0⟩] S2000x256.size (by rfl) y

set_option maxHeartbeats 1000000 in
/-- The body on whole staging buffers: every input keeps its contents and the output ends at `out2_6` of them. -/
theorem sound_kernel2 (c : Dev nD) (E : Set ℕ) (i : grid2.Coords)
    (arg1 : Memref sig .tc .vmem S2000x256 .f32) (harg1 : arg1.IsWhole)
    (arg2 : Memref sig .tc .vmem S2000x256 .f32) (harg2 : arg2.IsWhole)
    (arg3 : Memref sig .tc .vmem S1x256 .f32) (harg3 : arg3.IsWhole)
    (arg4 : Memref sig .tc .vmem S2000x256 .f32) (harg4 : arg4.IsWhole)
    (arg5 : Memref sig .tc .vmem S2000x256 .f32) (harg5 : arg5.IsWhole)
    (arg6 : Memref sig .tc .vmem S1x256 .f32) (harg6 : arg6.IsWhole)
    (arg7 : Memref sig .tc .vmem S2000x256 .f32) (harg7 : arg7.IsWhole)
    (x0 : Vec F S2000x256 .f32) (x1 : Vec F S2000x256 .f32) (x2 : Vec F S1x256 .f32) (x3 : Vec F S2000x256 .f32) (x4 : Vec F S2000x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__nd_combine_kernel i arg1 harg1 arg2 harg2 arg3 harg3 arg4 harg4 arg5 harg5 arg6 harg6 arg7 harg7) K := by
  simp only [cc2__nd_combine_kernel_eq_skeleton]; unfold cc2__nd_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of the region: the arrays as the region finds them; after the body each input's buffer still at
    its block and the output's at `out2_6` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.X2.lean ====
import proofs.«102211_j33681133535938_1_alg».proof.Proof.KB.Base
import proofs.«102211_j33681133535938_1_alg».proof.Proof.KB.R2

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 2 at its exit: each input array is as the region found it (an input window writes nothing back, and the
    region may change only its output), and the output array is what its write-backs leave, which is what `outs` holds
    there; every other buffer is as at entry. -/

set_option maxHeartbeats 2000000 in
theorem hF2 (h : ∀ c, outs 5 main_v79 c = (dat2 (Vr (V4 m outs)) c).arrAt 6 cfg2.N) (c : Dev nD) (w : Fin cfg2.W) :
    (dat2 (Vr (V4 m outs)) c).arrAt w cfg2.N = Vr (V5 m outs) c (Pipeline.arrRef spec2 w) := by
  match w with
  | ⟨0, _⟩ => exact ((dat2 (Vr (V4 m outs)) c).arrAt_in 0 rfl _).trans (V5_of m outs c main_v52 (by decide)).symm
  | ⟨1, _⟩ => exact ((dat2 (Vr (V4 m outs)) c).arrAt_in 1 rfl _).trans (V5_of m outs c main_v36 (by decide)).symm
  | ⟨2, _⟩ => exact ((dat2 (Vr (V4 m outs)) c).arrAt_in 2 rfl _).trans (V5_of m outs c main_v77 (by decide)).symm
  | ⟨3, _⟩ => exact ((dat2 (Vr (V4 m outs)) c).arrAt_in 3 rfl _).trans (V5_of m outs c main_v64 (by decide)).symm
  | ⟨4, _⟩ => exact ((dat2 (Vr (V4 m outs)) c).arrAt_in 4 rfl _).trans (V5_of m outs c main_v38 (by decide)).symm
  | ⟨5, _⟩ => exact ((dat2 (Vr (V4 m outs)) c).arrAt_in 5 rfl _).trans (V5_of m outs c main_v78 (by decide)).symm
  | ⟨6, _⟩ => exact (h c).symm.trans (Function.update_self (Proc.devRef .tc main_v79 : DevRef τ sig) (outs 5 main_v79 c) (V4 m outs c)).symm

theorem hrest2 (c : Dev nD) : ∀ b, b ∉ Finset.univ.image (Pipeline.arrRef spec2) → Vr (V5 m outs) c b = Vr (V4 m outs) c b :=
  fun b hb => V5_of m outs c b fun hm => hb (by
    rw [List.mem_singleton] at hm; subst hm
    exact Finset.mem_image.mpr ⟨⟨6, by decide⟩, Finset.mem_univ _, rfl⟩)

end Cert.Kernel.Fr

end
-- ==== Proof.KB.R3.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the protein-side combination `a + aw + ab` (followed by `max · 0` in the first two layers).
    Windows 0 and 1 are the blocks of rows of the aggregated messages `a` and of the self term `aw` at the grid
    point (`S3000x256`), window 2 the bias row `ab` (`S1x256`, whole, added to every row), window 3 the
    same rows of the result. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: where it is not fetched
    the block index has not moved, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body reads and writes: each staging buffer whole. -/
abbrev rin3_0 : Rect S3000x256 := Rect.unit (s := S3000x256) ![0, 0] S3000x256.size inb_S3000x256_S3000x256_0_0
abbrev rin3_1 : Rect S3000x256 := Rect.unit (s := S3000x256) ![0, 0] S3000x256.size inb_S3000x256_S3000x256_0_0
abbrev rin3_2 : Rect S1x256 := Rect.unit (s := S1x256) ![0, 0] S1x256.size inb_S1x256_S1x256_0_0
abbrev ro3 : Rect S3000x256 := Rect.unit (s := S3000x256) ![0, 0] S3000x256.size inb_S3000x256_S3000x256_0_0

/-- The output block's staging buffer after the body: one store of the whole block, the body's arithmetic of the loads. -/
def out3_3 (x0 : Vec F S3000x256 .f32) (x1 : Vec F S3000x256 .f32) (x2 : Vec F S1x256 .f32) : Vec F S3000x256 .f32 :=
  View.canon [⟨ro3, k3_pay1 (View.ld x0 rin3_0) (View.ld x1 rin3_1) (View.ld x2 rin3_2)⟩]

/-- The one store is of the whole block, so it covers it. -/
theorem cover3_3 (p0 : Vec F S3000x256 .f32) (y : S3000x256.Idx) :
    ∃ pc ∈ ([⟨ro3, p0⟩] : List (View.Piece (Elt F) S3000x256 .f32)), y ∈ pc.1.set :=
  View.cover_of_tiled [⟨ro3, p0⟩] S3000x256.size (by rfl) y

set_option maxHeartbeats 1000000 in
/-- The body on whole staging buffers: every input keeps its contents and the output ends at `out3_3` of them. -/
theorem sound_kernel3 (c : Dev nD) (E : Set ℕ) (i : grid3.Coords)
    (arg1 : Memref sig .tc .vmem S3000x256 .f32) (harg1 : arg1.IsWhole)
    (arg2 : Memref sig .tc .vmem S3000x256 .f32) (harg2 : arg2.IsWhole)
    (arg3 : Memref sig .tc .vmem S1x256 .f32) (harg3 : arg3.IsWhole)
    (arg4 : Memref sig .tc .vmem S3000x256 .f32) (harg4 : arg4.IsWhole)
    (x0 : Vec F S3000x256 .f32) (x1 : Vec F S3000x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__npo_combine_kernel i arg1 harg1 arg2 harg2 arg3 harg3 arg4 harg4) K := by
  simp only [cc3__npo_combine_kernel_eq_skeleton]; unfold cc3__npo_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the region: the arrays as the region finds them; after the body each input's buffer still at
    its block and the output's at `out3_3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.X3.lean ====
import proofs.«102211_j33681133535938_1_alg».proof.Proof.KB.Base
import proofs.«102211_j33681133535938_1_alg».proof.Proof.KB.R3

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 3 at its exit: each input array is as the region found it (an input window writes nothing back, and the
    region may change only its output), and the output array is what its write-backs leave, which is what `outs` holds
    there; every other buffer is as at entry. -/

set_option maxHeartbeats 2000000 in
theorem hF3 (h : ∀ c, outs 7 main_v81 c = (dat3 (Vr (V6 m outs)) c).arrAt 3 cfg3.N) (c : Dev nD) (w : Fin cfg3.W) :
    (dat3 (Vr (V6 m outs)) c).arrAt w cfg3.N = Vr (V7 m outs) c (Pipeline.arrRef spec3 w) := by
  match w with
  | ⟨0, _⟩ => exact ((dat3 (Vr (V6 m outs)) c).arrAt_in 0 rfl _).trans (V7_of m outs c main_v76 (by decide)).symm
  | ⟨1, _⟩ => exact ((dat3 (Vr (V6 m outs)) c).arrAt_in 1 rfl _).trans (V7_of m outs c main_v40 (by decide)).symm
  | ⟨2, _⟩ => exact ((dat3 (Vr (V6 m outs)) c).arrAt_in 2 rfl _).trans (V7_of m outs c main_v80 (by decide)).symm
  | ⟨3, _⟩ => exact (h c).symm.trans (Function.update_self (Proc.devRef .tc main_v81 : DevRef τ sig) (outs 7 main_v81 c) (V6 m outs c)).symm

theorem hrest3 (c : Dev nD) : ∀ b, b ∉ Finset.univ.image (Pipeline.arrRef spec3) → Vr (V7 m outs) c b = Vr (V6 m outs) c b :=
  fun b hb => V7_of m outs c b fun hm => hb (by
    rw [List.mem_singleton] at hm; subst hm
    exact Finset.mem_image.mpr ⟨⟨3, by decide⟩, Finset.mem_univ _, rfl⟩)

end Cert.Kernel.Fr

end
-- ==== Proof.KB.R4.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: a row-blocked matrix product `X · Wᵀ`.
    Window 0 is the block of rows of the left operand `X` at the grid point (`S2000x256`), window 1 the whole
    right operand `W` (`S1024x256`, fetched once), window 2 the same rows of the product (`S2000x1024`): entry
    `(p, q)` of a block is the sum over `k` of `X(p, k) · W(q, k)`. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not: where it is not fetched
    the block index has not moved, and the body leaves the buffer as it found it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body reads and writes: each staging buffer whole. -/
abbrev rin4_0 : Rect S2000x256 := Rect.unit (s := S2000x256) ![0, 0] S2000x256.size inb_S2000x256_S2000x256_0_0
abbrev rin4_1 : Rect S1024x256 := Rect.unit (s := S1024x256) ![0, 0] S1024x256.size inb_S1024x256_S1024x256_0_0
abbrev ro4 : Rect S2000x1024 := Rect.unit (s := S2000x1024) ![0, 0] S2000x1024.size inb_S2000x1024_S2000x1024_0_0

/-- The output block's staging buffer after the body: one store of the whole block, the body's arithmetic of the loads. -/
def out4_2 (x0 : Vec F S2000x256 .f32) (x1 : Vec F S1024x256 .f32) : Vec F S2000x1024 .f32 :=
  View.canon [⟨ro4, k4_pay1 (View.ld x0 rin4_0) (View.ld x1 rin4_1)⟩]

/-- The one store is of the whole block, so it covers it. -/
theorem cover4_2 (p0 : Vec F S2000x1024 .f32) (y : S2000x1024.Idx) :
    ∃ pc ∈ ([⟨ro4, p0⟩] : List (View.Piece (Elt F) S2000x1024 .f32)), y ∈ pc.1.set :=
  View.cover_of_tiled [⟨ro4, p0⟩] S2000x1024.size (by rfl) y

set_option maxHeartbeats 1000000 in
/-- The body on whole staging buffers: every input keeps its contents and the output ends at `out4_2` of them. -/
theorem sound_kernel4 (c : Dev nD) (E : Set ℕ) (i : grid4.Coords)
    (arg1 : Memref sig .tc .vmem S2000x256 .f32) (harg1 : arg1.IsWhole)
    (arg2 : Memref sig .tc .vmem S1024x256 .f32) (harg2 : arg2.IsWhole)
    (arg3 : Memref sig .tc .vmem S2000x1024 .f32) (harg3 : arg3.IsWhole)
    (x0 : Vec F S2000x256 .f32) (x1 : Vec F S1024x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region: the arrays as the region finds them; after the body each input's buffer still at
    its block and the output's at `out4_2` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so `sound_kernel4` applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KB.X4.lean ====
import proofs.«102211_j33681133535938_1_alg».proof.Proof.KB.Base
import proofs.«102211_j33681133535938_1_alg».proof.Proof.KB.R4

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 4 at its exit: each input array is as the region found it (an input window writes nothing back, and the
    region may change only its output), and the output array is what its write-backs leave, which is what `outs` holds
    there; every other buffer is as at entry. -/

set_option maxHeartbeats 2000000 in
theorem hF4 (h : ∀ c, outs 9 main_v84 c = (dat4 (Vr (V8 m outs)) c).arrAt 2 cfg4.N) (c : Dev nD) (w : Fin cfg4.W) :
    (dat4 (Vr (V8 m outs)) c).arrAt w cfg4.N = Vr (V9 m outs) c (Pipeline.arrRef spec4 w) := by
  match w with
  | ⟨0, _⟩ => exact ((dat4 (Vr (V8 m outs)) c).arrAt_in 0 rfl _).trans (V9_of m outs c main_v79 (by decide)).symm
  | ⟨1, _⟩ => exact ((dat4 (Vr (V8 m outs)) c).arrAt_in 1 rfl _).trans (V9_of m outs c main_v82 (by decide)).symm
  | ⟨2, _⟩ => exact (h c).symm.trans (Function.update_self (Proc.devRef .tc main_v84 : DevRef τ sig) (outs 9 main_v84 c) (V8 m outs c)).symm

theorem hrest4 (c : Dev nD) : ∀ b, b ∉ Finset.univ.image (Pipeline.arrRef spec4) → Vr (V9 m outs) c b = Vr (V8 m outs) c b :=
  fun b hb => V9_of m outs c b fun hm => hb (by
    rw [List.mem_singleton] at hm; subst hm
    exact Finset.mem_image.mpr ⟨⟨2, by decide⟩, Finset.mem_univ _, rfl⟩)

end Cert.Kernel.Fr

end
-- ==== Proof.KB.R5.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: a row-blocked matrix product `X · Wᵀ`.
    Window 0 is the block of rows of the left operand `X` at the grid point (`S3000x256`), window 1 the whole
    right operand `W` (`S512x256`, fetched once), window 2 the same rows of the product (`S3000x512`): entry
    `(p, q)` of a block is the sum over `k` of `X(p, k) · W(q, k)`. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not: where it is not fetched
    the block index has not moved, and the body leaves the buffer as it found it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body reads and writes: each staging buffer whole. -/
abbrev rin5_0 : Rect S3000x256 := Rect.unit (s := S3000x256) ![0, 0] S3000x256.size inb_S3000x256_S3000x256_0_0
abbrev rin5_1 : Rect S512x256 := Rect.unit (s := S512x256) ![0, 0] S512x256.size inb_S512x256_S512x256_0_0
abbrev ro5 : Rect S3000x512 := Rect.unit (s := S3000x512) ![0, 0] S3000x512.size inb_S3000x512_S3000x512_0_0

/-- The output block's staging buffer after the body: one store of the whole block, the body's arithmetic of the loads. -/
def out5_2 (x0 : Vec F S3000x256 .f32) (x1 : Vec F S512x256 .f32) : Vec F S3000x512 .f32 :=
  View.canon [⟨ro5, k5_pay1 (View.ld x0 rin5_0) (View.ld x1 rin5_1)⟩]

/-- The one store is of the whole block, so it covers it. -/
theorem cover5_2 (p0 : Vec F S3000x512 .f32) (y : S3000x512.Idx) :
    ∃ pc ∈ ([⟨ro5, p0⟩] : List (View.Piece (Elt F) S3000x512 .f32)), y ∈ pc.1.set :=
  View.cover_of_tiled [⟨ro5, p0⟩] S3000x512.size (by rfl) y

set_option maxHeartbeats 1000000 in
/-- The body on whole staging buffers: every input keeps its contents and the output ends at `out5_2` of them. -/
theorem sound_kernel5 (c : Dev nD) (E : Set ℕ) (i : grid5.Coords)
    (arg1 : Memref sig .tc .vmem S3000x256 .f32) (harg1 : arg1.IsWhole)
    (arg2 : Memref sig .tc .vmem S512x256 .f32) (harg2 : arg2.IsWhole)
    (arg3 : Memref sig .tc .vmem S3000x512 .f32) (harg3 : arg3.IsWhole)
    (x0 : Vec F S3000x256 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the region: the arrays as the region finds them; after the body each input's buffer still at
    its block and the output's at `out5_2` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so `sound_kernel5` applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.X5.lean ====
import proofs.«102211_j33681133535938_1_alg».proof.Proof.KB.Base
import proofs.«102211_j33681133535938_1_alg».proof.Proof.KB.R5

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 5 at its exit: each input array is as the region found it (an input window writes nothing back, and the
    region may change only its output), and the output array is what its write-backs leave, which is what `outs` holds
    there; every other buffer is as at entry. -/

set_option maxHeartbeats 2000000 in
theorem hF5 (h : ∀ c, outs 10 main_v85 c = (dat5 (Vr (V9 m outs)) c).arrAt 2 cfg5.N) (c : Dev nD) (w : Fin cfg5.W) :
    (dat5 (Vr (V9 m outs)) c).arrAt w cfg5.N = Vr (V10 m outs) c (Pipeline.arrRef spec5 w) := by
  match w with
  | ⟨0, _⟩ => exact ((dat5 (Vr (V9 m outs)) c).arrAt_in 0 rfl _).trans (V10_of m outs c main_v81 (by decide)).symm
  | ⟨1, _⟩ => exact ((dat5 (Vr (V9 m outs)) c).arrAt_in 1 rfl _).trans (V10_of m outs c main_v83 (by decide)).symm
  | ⟨2, _⟩ => exact (h c).symm.trans (Function.update_self (Proc.devRef .tc main_v85 : DevRef τ sig) (outs 10 main_v85 c) (V9 m outs c)).symm

theorem hrest5 (c : Dev nD) : ∀ b, b ∉ Finset.univ.image (Pipeline.arrRef spec5) → Vr (V10 m outs) c b = Vr (V9 m outs) c b :=
  fun b hb => V10_of m outs c b fun hm => hb (by
    rw [List.mem_singleton] at hm; subst hm
    exact Finset.mem_image.mpr ⟨⟨2, by decide⟩, Finset.mem_univ _, rfl⟩)

end Cert.Kernel.Fr

end
-- ==== Proof.KB.R6.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the drug-side combination `a + aw + ab + b + bw + bb` (followed by `max · 0` in the first two layers).
    Windows 0, 1, 3, 4 are the blocks of rows of the two aggregated messages `a`, `b` and the two self terms `aw`,
    `bw` at the grid point (`S2000x256`), windows 2 and 5 the bias rows `ab`, `bb` (`S1x256`, whole, added
    to every row), window 6 the same rows of the result. -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not: where it is not fetched
    the block index has not moved, and the body leaves the buffer as it found it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- The rectangles the body reads and writes: each staging buffer whole. -/
abbrev rin6_0 : Rect S2000x256 := Rect.unit (s := S2000x256) ![0, 0] S2000x256.size inb_S2000x256_S2000x256_0_0
abbrev rin6_1 : Rect S2000x256 := Rect.unit (s := S2000x256) ![0, 0] S2000x256.size inb_S2000x256_S2000x256_0_0
abbrev rin6_2 : Rect S1x256 := Rect.unit (s := S1x256) ![0, 0] S1x256.size inb_S1x256_S1x256_0_0
abbrev rin6_3 : Rect S2000x256 := Rect.unit (s := S2000x256) ![0, 0] S2000x256.size inb_S2000x256_S2000x256_0_0
abbrev rin6_4 : Rect S2000x256 := Rect.unit (s := S2000x256) ![0, 0] S2000x256.size inb_S2000x256_S2000x256_0_0
abbrev rin6_5 : Rect S1x256 := Rect.unit (s := S1x256) ![0, 0] S1x256.size inb_S1x256_S1x256_0_0
abbrev ro6 : Rect S2000x256 := Rect.unit (s := S2000x256) ![0, 0] S2000x256.size inb_S2000x256_S2000x256_0_0

/-- The output block's staging buffer after the body: one store of the whole block, the body's arithmetic of the loads. -/
def out6_6 (x0 : Vec F S2000x256 .f32) (x1 : Vec F S2000x256 .f32) (x2 : Vec F S1x256 .f32) (x3 : Vec F S2000x256 .f32) (x4 : Vec F S2000x256 .f32) (x5 : Vec F S1x256 .f32) : Vec F S2000x256 .f32 :=
  View.canon [⟨ro6, k6_pay1 (View.ld x0 rin6_0) (View.ld x1 rin6_1) (View.ld x2 rin6_2) (View.ld x3 rin6_3) (View.ld x4 rin6_4) (View.ld x5 rin6_5)⟩]

/-- The one store is of the whole block, so it covers it. -/
theorem cover6_6 (p0 : Vec F S2000x256 .f32) (y : S2000x256.Idx) :
    ∃ pc ∈ ([⟨ro6, p0⟩] : List (View.Piece (Elt F) S2000x256 .f32)), y ∈ pc.1.set :=
  View.cover_of_tiled [⟨ro6, p0⟩] S2000x256.size (by rfl) y

set_option maxHeartbeats 1000000 in
/-- The body on whole staging buffers: every input keeps its contents and the output ends at `out6_6` of them. -/
theorem sound_kernel6 (c : Dev nD) (E : Set ℕ) (i : grid6.Coords)
    (arg1 : Memref sig .tc .vmem S2000x256 .f32) (harg1 : arg1.IsWhole)
    (arg2 : Memref sig .tc .vmem S2000x256 .f32) (harg2 : arg2.IsWhole)
    (arg3 : Memref sig .tc .vmem S1x256 .f32) (harg3 : arg3.IsWhole)
    (arg4 : Memref sig .tc .vmem S2000x256 .f32) (harg4 : arg4.IsWhole)
    (arg5 : Memref sig .tc .vmem S2000x256 .f32) (harg5 : arg5.IsWhole)
    (arg6 : Memref sig .tc .vmem S1x256 .f32) (harg6 : arg6.IsWhole)
    (arg7 : Memref sig .tc .vmem S2000x256 .f32) (harg7 : arg7.IsWhole)
    (x0 : Vec F S2000x256 .f32) (x1 : Vec F S2000x256 .f32) (x2 : Vec F S1x256 .f32) (x3 : Vec F S2000x256 .f32) (x4 : Vec F S2000x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E (cc6__nd_combine_kernel i arg1 harg1 arg2 harg2 arg3 harg3 arg4 harg4 arg5 harg5 arg6 harg6 arg7 harg7) K := by
  simp only [cc6__nd_combine_kernel_eq_skeleton]; unfold cc6__nd_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-- The proof data of the region: the arrays as the region finds them; after the body each input's buffer still at
    its block and the output's at `out6_6` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' buffers hold their blocks, so `sound_kernel6` applies. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.KB.X6.lean ====
import proofs.«102211_j33681133535938_1_alg».proof.Proof.KB.Base
import proofs.«102211_j33681133535938_1_alg».proof.Proof.KB.R6

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 6 at its exit: each input array is as the region found it (an input window writes nothing back, and the
    region may change only its output), and the output array is what its write-backs leave, which is what `outs` holds
    there; every other buffer is as at entry. -/

set_option maxHeartbeats 2000000 in
theorem hF6 (h : ∀ c, outs 12 main_v130 c = (dat6 (Vr (V11 m outs)) c).arrAt 6 cfg6.N) (c : Dev nD) (w : Fin cfg6.W) :
    (dat6 (Vr (V11 m outs)) c).arrAt w cfg6.N = Vr (V12 m outs) c (Pipeline.arrRef spec6 w) := by
  match w with
  | ⟨0, _⟩ => exact ((dat6 (Vr (V11 m outs)) c).arrAt_in 0 rfl _).trans (V12_of m outs c main_v103 (by decide)).symm
  | ⟨1, _⟩ => exact ((dat6 (Vr (V11 m outs)) c).arrAt_in 1 rfl _).trans (V12_of m outs c main_v87 (by decide)).symm
  | ⟨2, _⟩ => exact ((dat6 (Vr (V11 m outs)) c).arrAt_in 2 rfl _).trans (V12_of m outs c main_v128 (by decide)).symm
  | ⟨3, _⟩ => exact ((dat6 (Vr (V11 m outs)) c).arrAt_in 3 rfl _).trans (V12_of m outs c main_v115 (by decide)).symm
  | ⟨4, _⟩ => exact ((dat6 (Vr (V11 m outs)) c).arrAt_in 4 rfl _).trans (V12_of m outs c main_v89 (by decide)).symm
  | ⟨5, _⟩ => exact ((dat6 (Vr (V11 m outs)) c).arrAt_in 5 rfl _).trans (V12_of m outs c main_v129 (by decide)).symm
  | ⟨6, _⟩ => exact (h c).symm.trans (Function.update_self (Proc.devRef .tc main_v130 : DevRef τ sig) (outs 12 main_v130 c) (V11 m outs c)).symm

theorem hrest6 (c : Dev nD) : ∀ b, b ∉ Finset.univ.image (Pipeline.arrRef spec6) → Vr (V12 m outs) c b = Vr (V11 m outs) c b :=
  fun b hb => V12_of m outs c b fun hm => hb (by
    rw [List.mem_singleton] at hm; subst hm
    exact Finset.mem_image.mpr ⟨⟨6, by decide⟩, Finset.mem_univ _, rfl⟩)

end Cert.Kernel.Fr

end
-- ==== Proof.KB.R7.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the protein-side combination `a + aw + ab` (followed by `max · 0` in the first two layers).
    Windows 0 and 1 are the blocks of rows of the aggregated messages `a` and of the self term `aw` at the grid
    point (`S3000x256`), window 2 the bias row `ab` (`S1x256`, whole, added to every row), window 3 the
    same rows of the result. -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not: where it is not fetched
    the block index has not moved, and the body leaves the buffer as it found it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The rectangles the body reads and writes: each staging buffer whole. -/
abbrev rin7_0 : Rect S3000x256 := Rect.unit (s := S3000x256) ![0, 0] S3000x256.size inb_S3000x256_S3000x256_0_0
abbrev rin7_1 : Rect S3000x256 := Rect.unit (s := S3000x256) ![0, 0] S3000x256.size inb_S3000x256_S3000x256_0_0
abbrev rin7_2 : Rect S1x256 := Rect.unit (s := S1x256) ![0, 0] S1x256.size inb_S1x256_S1x256_0_0
abbrev ro7 : Rect S3000x256 := Rect.unit (s := S3000x256) ![0, 0] S3000x256.size inb_S3000x256_S3000x256_0_0

/-- The output block's staging buffer after the body: one store of the whole block, the body's arithmetic of the loads. -/
def out7_3 (x0 : Vec F S3000x256 .f32) (x1 : Vec F S3000x256 .f32) (x2 : Vec F S1x256 .f32) : Vec F S3000x256 .f32 :=
  View.canon [⟨ro7, k7_pay1 (View.ld x0 rin7_0) (View.ld x1 rin7_1) (View.ld x2 rin7_2)⟩]

/-- The one store is of the whole block, so it covers it. -/
theorem cover7_3 (p0 : Vec F S3000x256 .f32) (y : S3000x256.Idx) :
    ∃ pc ∈ ([⟨ro7, p0⟩] : List (View.Piece (Elt F) S3000x256 .f32)), y ∈ pc.1.set :=
  View.cover_of_tiled [⟨ro7, p0⟩] S3000x256.size (by rfl) y

set_option maxHeartbeats 1000000 in
/-- The body on whole staging buffers: every input keeps its contents and the output ends at `out7_3` of them. -/
theorem sound_kernel7 (c : Dev nD) (E : Set ℕ) (i : grid7.Coords)
    (arg1 : Memref sig .tc .vmem S3000x256 .f32) (harg1 : arg1.IsWhole)
    (arg2 : Memref sig .tc .vmem S3000x256 .f32) (harg2 : arg2.IsWhole)
    (arg3 : Memref sig .tc .vmem S1x256 .f32) (harg3 : arg3.IsWhole)
    (arg4 : Memref sig .tc .vmem S3000x256 .f32) (harg4 : arg4.IsWhole)
    (x0 : Vec F S3000x256 .f32) (x1 : Vec F S3000x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__npo_combine_kernel i arg1 harg1 arg2 harg2 arg3 harg3 arg4 harg4) K := by
  simp only [cc7__npo_combine_kernel_eq_skeleton]; unfold cc7__npo_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The proof data of the region: the arrays as the region finds them; after the body each input's buffer still at
    its block and the output's at `out7_3` of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so `sound_kernel7` applies. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.KB.X7.lean ====
import proofs.«102211_j33681133535938_1_alg».proof.Proof.KB.Base
import proofs.«102211_j33681133535938_1_alg».proof.Proof.KB.R7

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 7 at its exit: each input array is as the region found it (an input window writes nothing back, and the
    region may change only its output), and the output array is what its write-backs leave, which is what `outs` holds
    there; every other buffer is as at entry. -/

set_option maxHeartbeats 2000000 in
theorem hF7 (h : ∀ c, outs 14 main_v132 c = (dat7 (Vr (V13 m outs)) c).arrAt 3 cfg7.N) (c : Dev nD) (w : Fin cfg7.W) :
    (dat7 (Vr (V13 m outs)) c).arrAt w cfg7.N = Vr (V14 m outs) c (Pipeline.arrRef spec7 w) := by
  match w with
  | ⟨0, _⟩ => exact ((dat7 (Vr (V13 m outs)) c).arrAt_in 0 rfl _).trans (V14_of m outs c main_v127 (by decide)).symm
  | ⟨1, _⟩ => exact ((dat7 (Vr (V13 m outs)) c).arrAt_in 1 rfl _).trans (V14_of m outs c main_v91 (by decide)).symm
  | ⟨2, _⟩ => exact ((dat7 (Vr (V13 m outs)) c).arrAt_in 2 rfl _).trans (V14_of m outs c main_v131 (by decide)).symm
  | ⟨3, _⟩ => exact (h c).symm.trans (Function.update_self (Proc.devRef .tc main_v132 : DevRef τ sig) (outs 14 main_v132 c) (V13 m outs c)).symm

theorem hrest7 (c : Dev nD) : ∀ b, b ∉ Finset.univ.image (Pipeline.arrRef spec7) → Vr (V14 m outs) c b = Vr (V13 m outs) c b :=
  fun b hb => V14_of m outs c b fun hm => hb (by
    rw [List.mem_singleton] at hm; subst hm
    exact Finset.mem_image.mpr ⟨⟨3, by decide⟩, Finset.mem_univ _, rfl⟩)

end Cert.Kernel.Fr

end
-- ==== Proof.KB.R8.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: a row-blocked matrix product `X · Wᵀ`.
    Window 0 is the block of rows of the left operand `X` at the grid point (`S2000x256`), window 1 the whole
    right operand `W` (`S256x256`, fetched once), window 2 the same rows of the product (`S2000x256`): entry
    `(p, q)` of a block is the sum over `k` of `X(p, k) · W(q, k)`. -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, fetched there or not: where it is not fetched
    the block index has not moved, and the body leaves the buffer as it found it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The rectangles the body reads and writes: each staging buffer whole. -/
abbrev rin8_0 : Rect S2000x256 := Rect.unit (s := S2000x256) ![0, 0] S2000x256.size inb_S2000x256_S2000x256_0_0
abbrev rin8_1 : Rect S256x256 := Rect.unit (s := S256x256) ![0, 0] S256x256.size inb_S256x256_S256x256_0_0
abbrev ro8 : Rect S2000x256 := Rect.unit (s := S2000x256) ![0, 0] S2000x256.size inb_S2000x256_S2000x256_0_0

/-- The output block's staging buffer after the body: one store of the whole block, the body's arithmetic of the loads. -/
def out8_2 (x0 : Vec F S2000x256 .f32) (x1 : Vec F S256x256 .f32) : Vec F S2000x256 .f32 :=
  View.canon [⟨ro8, k8_pay1 (View.ld x0 rin8_0) (View.ld x1 rin8_1)⟩]

/-- The one store is of the whole block, so it covers it. -/
theorem cover8_2 (p0 : Vec F S2000x256 .f32) (y : S2000x256.Idx) :
    ∃ pc ∈ ([⟨ro8, p0⟩] : List (View.Piece (Elt F) S2000x256 .f32)), y ∈ pc.1.set :=
  View.cover_of_tiled [⟨ro8, p0⟩] S2000x256.size (by rfl) y

set_option maxHeartbeats 1000000 in
/-- The body on whole staging buffers: every input keeps its contents and the output ends at `out8_2` of them. -/
theorem sound_kernel8 (c : Dev nD) (E : Set ℕ) (i : grid8.Coords)
    (arg1 : Memref sig .tc .vmem S2000x256 .f32) (harg1 : arg1.IsWhole)
    (arg2 : Memref sig .tc .vmem S256x256 .f32) (harg2 : arg2.IsWhole)
    (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__matmul_kernel i arg1 harg1 arg2 harg2 arg3 harg3) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The proof data of the region: the arrays as the region finds them; after the body each input's buffer still at
    its block and the output's at `out8_2` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so `sound_kernel8` applies. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (c : Dev nD) : BodyObligation (dat8 (F := F) V c) (defs₀ (F := F)) Variants.none () Set.univ := fun t => by
  rw [bigSep_W8, bigSep_W8]
  exact sound_body8 V c t

end Cert.Kernel.Fr

end
-- ==== Proof.KB.X8.lean ====
import proofs.«102211_j33681133535938_1_alg».proof.Proof.KB.Base
import proofs.«102211_j33681133535938_1_alg».proof.Proof.KB.R8

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 8 at its exit: each input array is as the region found it (an input window writes nothing back, and the
    region may change only its output), and the output array is what its write-backs leave, which is what `outs` holds
    there; every other buffer is as at entry. -/

set_option maxHeartbeats 2000000 in
theorem hF8 (h : ∀ c, outs 16 main_v135 c = (dat8 (Vr (V15 m outs)) c).arrAt 2 cfg8.N) (c : Dev nD) (w : Fin cfg8.W) :
    (dat8 (Vr (V15 m outs)) c).arrAt w cfg8.N = Vr (V16 m outs) c (Pipeline.arrRef spec8 w) := by
  match w with
  | ⟨0, _⟩ => exact ((dat8 (Vr (V15 m outs)) c).arrAt_in 0 rfl _).trans (V16_of m outs c main_v130 (by decide)).symm
  | ⟨1, _⟩ => exact ((dat8 (Vr (V15 m outs)) c).arrAt_in 1 rfl _).trans (V16_of m outs c main_v133 (by decide)).symm
  | ⟨2, _⟩ => exact (h c).symm.trans (Function.update_self (Proc.devRef .tc main_v135 : DevRef τ sig) (outs 16 main_v135 c) (V15 m outs c)).symm

theorem hrest8 (c : Dev nD) : ∀ b, b ∉ Finset.univ.image (Pipeline.arrRef spec8) → Vr (V16 m outs) c b = Vr (V15 m outs) c b :=
  fun b hb => V16_of m outs c b fun hm => hb (by
    rw [List.mem_singleton] at hm; subst hm
    exact Finset.mem_image.mpr ⟨⟨2, by decide⟩, Finset.mem_univ _, rfl⟩)

end Cert.Kernel.Fr

end
-- ==== Proof.KB.R9.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: a row-blocked matrix product `X · Wᵀ`.
    Window 0 is the block of rows of the left operand `X` at the grid point (`S3000x256`), window 1 the whole
    right operand `W` (`S128x256`, fetched once), window 2 the same rows of the product (`S3000x128`): entry
    `(p, q)` of a block is the sum over `k` of `X(p, k) · W(q, k)`. -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, fetched there or not: where it is not fetched
    the block index has not moved, and the body leaves the buffer as it found it. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The rectangles the body reads and writes: each staging buffer whole. -/
abbrev rin9_0 : Rect S3000x256 := Rect.unit (s := S3000x256) ![0, 0] S3000x256.size inb_S3000x256_S3000x256_0_0
abbrev rin9_1 : Rect S128x256 := Rect.unit (s := S128x256) ![0, 0] S128x256.size inb_S128x256_S128x256_0_0
abbrev ro9 : Rect S3000x128 := Rect.unit (s := S3000x128) ![0, 0] S3000x128.size inb_S3000x128_S3000x128_0_0

/-- The output block's staging buffer after the body: one store of the whole block, the body's arithmetic of the loads. -/
def out9_2 (x0 : Vec F S3000x256 .f32) (x1 : Vec F S128x256 .f32) : Vec F S3000x128 .f32 :=
  View.canon [⟨ro9, k9_pay1 (View.ld x0 rin9_0) (View.ld x1 rin9_1)⟩]

/-- The one store is of the whole block, so it covers it. -/
theorem cover9_2 (p0 : Vec F S3000x128 .f32) (y : S3000x128.Idx) :
    ∃ pc ∈ ([⟨ro9, p0⟩] : List (View.Piece (Elt F) S3000x128 .f32)), y ∈ pc.1.set :=
  View.cover_of_tiled [⟨ro9, p0⟩] S3000x128.size (by rfl) y

set_option maxHeartbeats 1000000 in
/-- The body on whole staging buffers: every input keeps its contents and the output ends at `out9_2` of them. -/
theorem sound_kernel9 (c : Dev nD) (E : Set ℕ) (i : grid9.Coords)
    (arg1 : Memref sig .tc .vmem S3000x256 .f32) (harg1 : arg1.IsWhole)
    (arg2 : Memref sig .tc .vmem S128x256 .f32) (harg2 : arg2.IsWhole)
    (arg3 : Memref sig .tc .vmem S3000x128 .f32) (harg3 : arg3.IsWhole)
    (x0 : Vec F S3000x256 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The proof data of the region: the arrays as the region finds them; after the body each input's buffer still at
    its block and the output's at `out9_2` of the input blocks; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' buffers hold their blocks, so `sound_kernel9` applies. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.Kernel.Fr

end
-- ==== Proof.KB.X9.lean ====
import proofs.«102211_j33681133535938_1_alg».proof.Proof.KB.Base
import proofs.«102211_j33681133535938_1_alg».proof.Proof.KB.R9

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 9 at its exit: each input array is as the region found it (an input window writes nothing back, and the
    region may change only its output), and the output array is what its write-backs leave, which is what `outs` holds
    there; every other buffer is as at entry. -/

set_option maxHeartbeats 2000000 in
theorem hF9 (h : ∀ c, outs 17 main_v136 c = (dat9 (Vr (V16 m outs)) c).arrAt 2 cfg9.N) (c : Dev nD) (w : Fin cfg9.W) :
    (dat9 (Vr (V16 m outs)) c).arrAt w cfg9.N = Vr (V17 m outs) c (Pipeline.arrRef spec9 w) := by
  match w with
  | ⟨0, _⟩ => exact ((dat9 (Vr (V16 m outs)) c).arrAt_in 0 rfl _).trans (V17_of m outs c main_v132 (by decide)).symm
  | ⟨1, _⟩ => exact ((dat9 (Vr (V16 m outs)) c).arrAt_in 1 rfl _).trans (V17_of m outs c main_v134 (by decide)).symm
  | ⟨2, _⟩ => exact (h c).symm.trans (Function.update_self (Proc.devRef .tc main_v136 : DevRef τ sig) (outs 17 main_v136 c) (V16 m outs c)).symm

theorem hrest9 (c : Dev nD) : ∀ b, b ∉ Finset.univ.image (Pipeline.arrRef spec9) → Vr (V17 m outs) c b = Vr (V16 m outs) c b :=
  fun b hb => V17_of m outs c b fun hm => hb (by
    rw [List.mem_singleton] at hm; subst hm
    exact Finset.mem_image.mpr ⟨⟨2, by decide⟩, Finset.mem_univ _, rfl⟩)

end Cert.Kernel.Fr

end
-- ==== Proof.KB.R10.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10: the drug-side combination `a + aw + ab + b + bw + bb` (followed by `max · 0` in the first two layers).
    Windows 0, 1, 3, 4 are the blocks of rows of the two aggregated messages `a`, `b` and the two self terms `aw`,
    `bw` at the grid point (`S2000x64`), windows 2 and 5 the bias rows `ab`, `bb` (`S1x64`, whole, added
    to every row), window 6 the same rows of the result. -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, fetched there or not: where it is not fetched
    the block index has not moved, and the body leaves the buffer as it found it. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- The rectangles the body reads and writes: each staging buffer whole. -/
abbrev rin10_0 : Rect S2000x64 := Rect.unit (s := S2000x64) ![0, 0] S2000x64.size inb_S2000x64_S2000x64_0_0
abbrev rin10_1 : Rect S2000x64 := Rect.unit (s := S2000x64) ![0, 0] S2000x64.size inb_S2000x64_S2000x64_0_0
abbrev rin10_2 : Rect S1x64 := Rect.unit (s := S1x64) ![0, 0] S1x64.size inb_S1x64_S1x64_0_0
abbrev rin10_3 : Rect S2000x64 := Rect.unit (s := S2000x64) ![0, 0] S2000x64.size inb_S2000x64_S2000x64_0_0
abbrev rin10_4 : Rect S2000x64 := Rect.unit (s := S2000x64) ![0, 0] S2000x64.size inb_S2000x64_S2000x64_0_0
abbrev rin10_5 : Rect S1x64 := Rect.unit (s := S1x64) ![0, 0] S1x64.size inb_S1x64_S1x64_0_0
abbrev ro10 : Rect S2000x64 := Rect.unit (s := S2000x64) ![0, 0] S2000x64.size inb_S2000x64_S2000x64_0_0

/-- The output block's staging buffer after the body: one store of the whole block, the body's arithmetic of the loads. -/
def out10_6 (x0 : Vec F S2000x64 .f32) (x1 : Vec F S2000x64 .f32) (x2 : Vec F S1x64 .f32) (x3 : Vec F S2000x64 .f32) (x4 : Vec F S2000x64 .f32) (x5 : Vec F S1x64 .f32) : Vec F S2000x64 .f32 :=
  View.canon [⟨ro10, k10_pay1 (View.ld x0 rin10_0) (View.ld x1 rin10_1) (View.ld x2 rin10_2) (View.ld x3 rin10_3) (View.ld x4 rin10_4) (View.ld x5 rin10_5)⟩]

/-- The one store is of the whole block, so it covers it. -/
theorem cover10_6 (p0 : Vec F S2000x64 .f32) (y : S2000x64.Idx) :
    ∃ pc ∈ ([⟨ro10, p0⟩] : List (View.Piece (Elt F) S2000x64 .f32)), y ∈ pc.1.set :=
  View.cover_of_tiled [⟨ro10, p0⟩] S2000x64.size (by rfl) y

set_option maxHeartbeats 1000000 in
/-- The body on whole staging buffers: every input keeps its contents and the output ends at `out10_6` of them. -/
theorem sound_kernel10 (c : Dev nD) (E : Set ℕ) (i : grid10.Coords)
    (arg1 : Memref sig .tc .vmem S2000x64 .f32) (harg1 : arg1.IsWhole)
    (arg2 : Memref sig .tc .vmem S2000x64 .f32) (harg2 : arg2.IsWhole)
    (arg3 : Memref sig .tc .vmem S1x64 .f32) (harg3 : arg3.IsWhole)
    (arg4 : Memref sig .tc .vmem S2000x64 .f32) (harg4 : arg4.IsWhole)
    (arg5 : Memref sig .tc .vmem S2000x64 .f32) (harg5 : arg5.IsWhole)
    (arg6 : Memref sig .tc .vmem S1x64 .f32) (harg6 : arg6.IsWhole)
    (arg7 : Memref sig .tc .vmem S2000x64 .f32) (harg7 : arg7.IsWhole)
    (x0 : Vec F S2000x64 .f32) (x1 : Vec F S2000x64 .f32) (x2 : Vec F S1x64 .f32) (x3 : Vec F S2000x64 .f32) (x4 : Vec F S2000x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out10_6 x0 x1 x2 x3 x4 x5)) -∗ K ⟨⟩))
      ⊢ wp frame (wpE (defs₀ (F := F)) Variants.none c none) E (cc10__nd_combine_kernel i arg1 harg1 arg2 harg2 arg3 harg3 arg4 harg4 arg5 harg5 arg6 harg6 arg7 harg7) K := by
  simp only [cc10__nd_combine_kernel_eq_skeleton]; unfold cc10__nd_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10_6 _)

/-- The proof data of the region: the arrays as the region finds them; after the body each input's buffer still at
    its block and the output's at `out10_6` of the input blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' buffers hold their blocks, so `sound_kernel10` applies. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation10 (c : Dev nD) : BodyObligation (dat10 (F := F) V c) (defs₀ (F := F)) Variants.none () Set.univ := fun t => by
  rw [bigSep_W10, bigSep_W10]
  exact sound_body10 V c t

end Cert.Kernel.Fr

end
-- ==== Proof.KB.X10.lean ====
import proofs.«102211_j33681133535938_1_alg».proof.Proof.KB.Base
import proofs.«102211_j33681133535938_1_alg».proof.Proof.KB.R10

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 10 at its exit: each input array is as the region found it (an input window writes nothing back, and the
    region may change only its output), and the output array is what its write-backs leave, which is what `outs` holds
    there; every other buffer is as at entry. -/

set_option maxHeartbeats 2000000 in
theorem hF10 (h : ∀ c, outs 19 main_v181 c = (dat10 (Vr (V18 m outs)) c).arrAt 6 cfg10.N) (c : Dev nD) (w : Fin cfg10.W) :
    (dat10 (Vr (V18 m outs)) c).arrAt w cfg10.N = Vr (V19 m outs) c (Pipeline.arrRef spec10 w) := by
  match w with
  | ⟨0, _⟩ => exact ((dat10 (Vr (V18 m outs)) c).arrAt_in 0 rfl _).trans (V19_of m outs c main_v154 (by decide)).symm
  | ⟨1, _⟩ => exact ((dat10 (Vr (V18 m outs)) c).arrAt_in 1 rfl _).trans (V19_of m outs c main_v138 (by decide)).symm
  | ⟨2, _⟩ => exact ((dat10 (Vr (V18 m outs)) c).arrAt_in 2 rfl _).trans (V19_of m outs c main_v179 (by decide)).symm
  | ⟨3, _⟩ => exact ((dat10 (Vr (V18 m outs)) c).arrAt_in 3 rfl _).trans (V19_of m outs c main_v166 (by decide)).symm
  | ⟨4, _⟩ => exact ((dat10 (Vr (V18 m outs)) c).arrAt_in 4 rfl _).trans (V19_of m outs c main_v140 (by decide)).symm
  | ⟨5, _⟩ => exact ((dat10 (Vr (V18 m outs)) c).arrAt_in 5 rfl _).trans (V19_of m outs c main_v180 (by decide)).symm
  | ⟨6, _⟩ => exact (h c).symm.trans (Function.update_self (Proc.devRef .tc main_v181 : DevRef τ sig) (outs 19 main_v181 c) (V18 m outs c)).symm

theorem hrest10 (c : Dev nD) : ∀ b, b ∉ Finset.univ.image (Pipeline.arrRef spec10) → Vr (V19 m outs) c b = Vr (V18 m outs) c b :=
  fun b hb => V19_of m outs c b fun hm => hb (by
    rw [List.mem_singleton] at hm; subst hm
    exact Finset.mem_image.mpr ⟨⟨6, by decide⟩, Finset.mem_univ _, rfl⟩)

end Cert.Kernel.Fr

end
-- ==== Proof.KB.R11.lean ====
import proofs.«102211_j33681133535938_1_alg».proof.Proof.Gen.Kernel.Launch
import proofs.«102211_j33681133535938_1_alg».proof.Proof.Gen.Kernel.Skeleton
import proofs.«102211_j33681133535938_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: the protein-side combination `a + aw + ab` (followed by `max · 0` in the first two layers).
    Windows 0 and 1 are the blocks of rows of the aggregated messages `a` and of the self term `aw` at the grid
    point (`S3000x64`), window 2 the bias row `ab` (`S1x64`, whole, added to every row), window 3 the
    same rows of the result. -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's staging buffer holds its block at every point, fetched there or not: where it is not fetched
    the block index has not moved, and the body leaves the buffer as it found it. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The rectangles the body reads and writes: each staging buffer whole. -/
abbrev rin11_0 : Rect S3000x64 := Rect.unit (s := S3000x64) ![0, 0] S3000x64.size inb_S3000x64_S3000x64_0_0
abbrev rin11_1 : Rect S3000x64 := Rect.unit (s := S3000x64) ![0, 0] S3000x64.size inb_S3000x64_S3000x64_0_0
abbrev rin11_2 : Rect S1x64 := Rect.unit (s := S1x64) ![0, 0] S1x64.size inb_S1x64_S1x64_0_0
abbrev ro11 : Rect S3000x64 := Rect.unit (s := S3000x64) ![0, 0] S3000x64.size inb_S3000x64_S3000x64_0_0

/-- The output block's staging buffer after the body: one store of the whole block, the body's arithmetic of the loads. -/
def out11_3 (x0 : Vec F S3000x64 .f32) (x1 : Vec F S3000x64 .f32) (x2 : Vec F S1x64 .f32) : Vec F S3000x64 .f32 :=
  View.canon [⟨ro11, k11_pay1 (View.ld x0 rin11_0) (View.ld x1 rin11_1) (View.ld x2 rin11_2)⟩]

/-- The one store is of the whole block, so it covers it. -/
theorem cover11_3 (p0 : Vec F S3000x64 .f32) (y : S3000x64.Idx) :
    ∃ pc ∈ ([⟨ro11, p0⟩] : List (View.Piece (Elt F) S3000x64 .f32)), y ∈ pc.1.set :=
  View.cover_of_tiled [⟨ro11, p0⟩] S3000x64.size (by rfl) y

set_option maxHeartbeats 1000000 in
/-- The body on whole staging buffers: every input keeps its contents and the output ends at `out11_3` of them. -/
theorem sound_kernel11 (c : Dev nD) (E : Set ℕ) (i : grid11.Coords)
    (arg1 : Memref sig .tc .vmem S3000x64 .f32) (harg1 : arg1.IsWhole)
    (arg2 : Memref sig .tc .vmem S3000x64 .f32) (harg2 : arg2.IsWhole)
    (arg3 : Memref sig .tc .vmem S1x64 .f32) (harg3 : arg3.IsWhole)
    (arg4 : Memref sig .tc .vmem S3000x64 .f32) (harg4 : arg4.IsWhole)
    (x0 : Vec F S3000x64 .f32) (x1 : Vec F S3000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__npo_combine_kernel i arg1 harg1 arg2 harg2 arg3 harg3 arg4 harg4) K := by
  simp only [cc11__npo_combine_kernel_eq_skeleton]; unfold cc11__npo_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of the region: the arrays as the region finds them; after the body each input's buffer still at
    its block and the output's at `out11_3` of the input blocks; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' buffers hold their blocks, so `sound_kernel11` applies. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation11 (c : Dev nD) : BodyObligation (dat11 (F := F) V c) (defs₀ (F := F)) Variants.none () Set.univ := fun t => by
  rw [bigSep_W11, bigSep_W11]
  exact sound_body11 V c t

end Cert.Kernel.Fr

end
-- ==== Proof.KB.X11.lean ====
import proofs.«102211_j33681133535938_1_alg».proof.Proof.KB.Base
import proofs.«102211_j33681133535938_1_alg».proof.Proof.KB.R11

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]
variable {m : (ℓ : Loc nD τ sig) → Buf (Elt F) ℓ} {outs : Outs (F := F)}

/-! Region 11 at its exit: each input array is as the region found it (an input window writes nothing back, and the
    region may change only its output), and the output array is what its write-backs leave, which is what `outs` holds
    there; every other buffer is as at entry. -/

set_option maxHeartbeats 2000000 in
theorem hF11 (h : ∀ c, outs 21 main_v183 c = (dat11 (Vr (V20 m outs)) c).arrAt 3 cfg11.N) (c : Dev nD) (w : Fin cfg11.W) :
    (dat11 (Vr (V20 m outs)) c).arrAt w cfg11.N = Vr (V21 m outs) c (Pipeline.arrRef spec11 w) := by
  match w with
  | ⟨0, _⟩ => exact ((dat11 (Vr (V20 m outs)) c).arrAt_in 0 rfl _).trans (V21_of m outs c main_v178 (by decide)).symm
  | ⟨1, _⟩ => exact ((dat11 (Vr (V20 m outs)) c).arrAt_in 1 rfl _).trans (V21_of m outs c main_v142 (by decide)).symm
  | ⟨2, _⟩ => exact ((dat11 (Vr (V20 m outs)) c).arrAt_in 2 rfl _).trans (V21_of m outs c main_v182 (by decide)).symm
  | ⟨3, _⟩ => exact (h c).symm.trans (Function.update_self (Proc.devRef .tc main_v183 : DevRef τ sig) (outs 21 main_v183 c) (V20 m outs c)).symm

theorem hrest11 (c : Dev nD) : ∀ b, b ∉ Finset.univ.image (Pipeline.arrRef spec11) → Vr (V21 m outs) c b = Vr (V20 m outs) c b :=
  fun b hb => V21_of m outs c b fun hm => hb (by
    rw [List.mem_singleton] at hm; subst hm
    exact Finset.mem_image.mpr ⟨⟨3, by decide⟩, Finset.mem_univ _, rfl⟩)

end Cert.Kernel.Fr

end
-- ==== Proof.KB.Vals.lean ====
import proofs.«102211_j33681133535938_1_alg».proof.Proof.KB.X0
import proofs.«102211_j33681133535938_1_alg».proof.Proof.KB.X1
import proofs.«102211_j33681133535938_1_alg».proof.Proof.KB.X2
import proofs.«102211_j33681133535938_1_alg».proof.Proof.KB.X3
import proofs.«102211_j33681133535938_1_alg».proof.Proof.KB.X4
import proofs.«102211_j33681133535938_1_alg».proof.Proof.KB.X5
import proofs.«102211_j33681133535938_1_alg».proof.Proof.KB.X6
import proofs.«102211_j33681133535938_1_alg».proof.Proof.KB.X7
import proofs.«102211_j33681133535938_1_alg».proof.Proof.KB.X8
import proofs.«102211_j33681133535938_1_alg».proof.Proof.KB.X9
import proofs.«102211_j33681133535938_1_alg».proof.Proof.KB.X10
import proofs.«102211_j33681133535938_1_alg».proof.Proof.KB.X11

set_option maxRecDepth 16384

noncomputable section

namespace Cert.Kernel.Fr

open Idealize.ShloMosaic Idealize.ShloMosaic.TcCoe Idealize.SL.Sem
open Idealize.ShloMosaic.Pipeline (Dat)
open Cert.Kernel Cert.Kernel.Gen

variable {F : FTy → Type} [FloatOps F]

/-! # Every region's proof data at its entry contents

The contents after each item are the generated valuations `V0 … V21`: a host stretch applies its operations, a region
replaces its output array by `outs`. Here `outs` is ANY family; `OutsOk` says that at each region's output it is what
that region's write-backs leave of the output array, computed from the region's entry contents. -/

variable (m : (ℓ : Loc nD τ sig) → Buf (Elt F) ℓ) (outs : Outs (F := F))

/-- Every region's proof data, each at its entry contents. -/
def pdats : (p : Fin 12) → (c : Dev nD) → Dat τ (Elt F) Unit ℕ (UR sig nD τ) ℕ (cfgs p) c
  | ⟨0, _⟩ => fun c => dat0 (Vr (V1 m)) c
  | ⟨1, _⟩ => fun c => dat1 (Vr (V2 m outs)) c
  | ⟨2, _⟩ => fun c => dat2 (Vr (V4 m outs)) c
  | ⟨3, _⟩ => fun c => dat3 (Vr (V6 m outs)) c
  | ⟨4, _⟩ => fun c => dat4 (Vr (V8 m outs)) c
  | ⟨5, _⟩ => fun c => dat5 (Vr (V9 m outs)) c
  | ⟨6, _⟩ => fun c => dat6 (Vr (V11 m outs)) c
  | ⟨7, _⟩ => fun c => dat7 (Vr (V13 m outs)) c
  | ⟨8, _⟩ => fun c => dat8 (Vr (V15 m outs)) c
  | ⟨9, _⟩ => fun c => dat9 (Vr (V16 m outs)) c
  | ⟨10, _⟩ => fun c => dat10 (Vr (V18 m outs)) c
  | ⟨11, _⟩ => fun c => dat11 (Vr (V20 m outs)) c

/-- At each region's output, `outs` is what the region leaves there. -/
structure OutsOk : Prop where
  h0 : ∀ c, outs 2 main_v33 c = (dat0 (Vr (V1 m)) c).arrAt 2 cfg0.N
  h1 : ∀ c, outs 3 main_v34 c = (dat1 (Vr (V2 m outs)) c).arrAt 2 cfg1.N
  h2 : ∀ c, outs 5 main_v79 c = (dat2 (Vr (V4 m outs)) c).arrAt 6 cfg2.N
  h3 : ∀ c, outs 7 main_v81 c = (dat3 (Vr (V6 m outs)) c).arrAt 3 cfg3.N
  h4 : ∀ c, outs 9 main_v84 c = (dat4 (Vr (V8 m outs)) c).arrAt 2 cfg4.N
  h5 : ∀ c, outs 10 main_v85 c = (dat5 (Vr (V9 m outs)) c).arrAt 2 cfg5.N
  h6 : ∀ c, outs 12 main_v130 c = (dat6 (Vr (V11 m outs)) c).arrAt 6 cfg6.N
  h7 : ∀ c, outs 14 main_v132 c = (dat7 (Vr (V13 m outs)) c).arrAt 3 cfg7.N
  h8 : ∀ c, outs 16 main_v135 c = (dat8 (Vr (V15 m outs)) c).arrAt 2 cfg8.N
  h9 : ∀ c, outs 17 main_v136 c = (dat9 (Vr (V16 m outs)) c).arrAt 2 cfg9.N
  h10 : ∀ c, outs 19 main_v181 c = (dat10 (Vr (V18 m outs)) c).arrAt 6 cfg10.N
  h11 : ∀ c, outs 21 main_v183 c = (dat11 (Vr (V20 m outs)) c).arrAt 3 cfg11.N

end Cert.Kernel.Fr

end
-- ==== Proof.KB.SegsBase.lean ====
import proofs.«102211_j33681133535938_1_alg».proof.Proof.KB.Vals

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-! # The regions as segments of the program's run

Beside the buffers every segment carries the core's generator register at some state and its debts, at nothing. -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)

variable {m : (ℓ : Loc nD τ sig) → Buf (Elt F) ℓ} {outs : Outs (F := F)}

end Cert.Kernel.Fr

end
-- ==== Proof.KB.SegsA.lean ====
import proofs.«102211_j33681133535938_1_alg».proof.Proof.KB.SegsBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable {m : (ℓ : Loc nD τ sig) → Buf (Elt F) ℓ} {outs : Outs (F := F)}

set_option backward.isDefEq.respectTransparency.types false in
/-- Region 0 over the thread state: entered from every unscoped buffer at `V1`, left at `V2`. Its arrays are
    split out of the unscoped buffers and put back at the exit contents; the generator register goes into the
    pipeline's invariant and comes back; nothing is owed; the kernel has no semaphore of its own. -/
def reg0 (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (Vr (V1 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (Vr (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (Vr (V1 m) c) (Vr (V2 m outs) c) ((pdats m outs 0 c).arrAt · cfg0.N) (hF0 h.h0 c) (hrest0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `V2`, left at `V3`. Its arrays are
    split out of the unscoped buffers and put back at the exit contents; the generator register goes into the
    pipeline's invariant and comes back; nothing is owed; the kernel has no semaphore of its own. -/
def reg1 (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (V2 m outs)) c).loose
  hwaits := Pipeline.hwaits_of_owed_zero _ _ _ _ L lv 1 fun _ _ => rfl
  pre c := iprop(StableHlo.held (c : Thread nD τ) (Pipeline.ucRefs τ sig) (V2 m outs c) ∗ R c)
  post c := iprop(StableHlo.held (c : Thread nD τ) (Pipeline.ucRefs τ sig) (V3 m outs c) ∗ R c)
  X c := iprop(∃ r, prngReg c r)
  Y c := iprop(∃ r, prngReg c r)
  Z c := Pipeline.unscopedRest (Ix := Unit) (Name := ℕ) (U := UR sig nD τ) (Lvl := ℕ) spec1 c (Vr (V2 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (Vr (V2 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (Vr (V2 m outs) c) (Vr (V3 m outs) c) ((pdats m outs 1 c).arrAt · cfg1.N) (hF1 h.h1 c) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `V4`, left at `V5`. Its arrays are
    split out of the unscoped buffers and put back at the exit contents; the generator register goes into the
    pipeline's invariant and comes back; nothing is owed; the kernel has no semaphore of its own. -/
def reg2 (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr (V4 m outs)) c).loose
  hwaits := Pipeline.hwaits_of_owed_zero _ _ _ _ L lv 2 fun _ _ => rfl
  pre c := iprop(StableHlo.held (c : Thread nD τ) (Pipeline.ucRefs τ sig) (V4 m outs c) ∗ R c)
  post c := iprop(StableHlo.held (c : Thread nD τ) (Pipeline.ucRefs τ sig) (V5 m outs c) ∗ R c)
  X c := iprop(∃ r, prngReg c r)
  Y c := iprop(∃ r, prngReg c r)
  Z c := Pipeline.unscopedRest (Ix := Unit) (Name := ℕ) (U := UR sig nD τ) (Lvl := ℕ) spec2 c (Vr (V4 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (Vr (V4 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (Vr (V4 m outs) c) (Vr (V5 m outs) c) ((pdats m outs 2 c).arrAt · cfg2.N) (hF2 h.h2 c) (hrest2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `V6`, left at `V7`. Its arrays are
    split out of the unscoped buffers and put back at the exit contents; the generator register goes into the
    pipeline's invariant and comes back; nothing is owed; the kernel has no semaphore of its own. -/
def reg3 (h : OutsOk m outs) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr (V6 m outs)) c).loose
  hwaits := Pipeline.hwaits_of_owed_zero _ _ _ _ L lv 3 fun _ _ => rfl
  pre c := iprop(StableHlo.held (c : Thread nD τ) (Pipeline.ucRefs τ sig) (V6 m outs c) ∗ R c)
  post c := iprop(StableHlo.held (c : Thread nD τ) (Pipeline.ucRefs τ sig) (V7 m outs c) ∗ R c)
  X c := iprop(∃ r, prngReg c r)
  Y c := iprop(∃ r, prngReg c r)
  Z c := Pipeline.unscopedRest (Ix := Unit) (Name := ℕ) (U := UR sig nD τ) (Lvl := ℕ) spec3 c (Vr (V6 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (Vr (V6 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (Vr (V6 m outs) c) (Vr (V7 m outs) c) ((pdats m outs 3 c).arrAt · cfg3.N) (hF3 h.h3 c) (hrest3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.SegsB.lean ====
import proofs.«102211_j33681133535938_1_alg».proof.Proof.KB.SegsBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable {m : (ℓ : Loc nD τ sig) → Buf (Elt F) ℓ} {outs : Outs (F := F)}

set_option backward.isDefEq.respectTransparency.types false in
/-- Region 4 over the thread state: entered from every unscoped buffer at `V8`, left at `V9`. Its arrays are
    split out of the unscoped buffers and put back at the exit contents; the generator register goes into the
    pipeline's invariant and comes back; nothing is owed; the kernel has no semaphore of its own. -/
def reg4 (h : OutsOk m outs) : Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr (V8 m outs)) c).loose
  hwaits := Pipeline.hwaits_of_owed_zero _ _ _ _ L lv 4 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec4 c (Vr (V8 m outs) c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (Vr (V8 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (Vr (V8 m outs) c) (Vr (V9 m outs) c) ((pdats m outs 4 c).arrAt · cfg4.N) (hF4 h.h4 c) (hrest4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `V9`, left at `V10`. Its arrays are
    split out of the unscoped buffers and put back at the exit contents; the generator register goes into the
    pipeline's invariant and comes back; nothing is owed; the kernel has no semaphore of its own. -/
def reg5 (h : OutsOk m outs) : Pipeline.RegionSeg (pcfgs (F := F)) adm (pdats m outs) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr (V9 m outs)) c).loose
  hwaits := Pipeline.hwaits_of_owed_zero _ _ _ _ L lv 5 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec5 c (Vr (V9 m outs) c)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (Vr (V9 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (Vr (V9 m outs) c) (Vr (V10 m outs) c) ((pdats m outs 5 c).arrAt · cfg5.N) (hF5 h.h5 c) (hrest5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `V11`, left at `V12`. Its arrays are
    split out of the unscoped buffers and put back at the exit contents; the generator register goes into the
    pipeline's invariant and comes back; nothing is owed; the kernel has no semaphore of its own. -/
def reg6 (h : OutsOk m outs) : Pipeline.RegionSeg (pcfgs (F := F)) adm (pdats m outs) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vr (V11 m outs)) c).loose
  hwaits := Pipeline.hwaits_of_owed_zero _ _ _ _ L lv 6 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec6 c (Vr (V11 m outs) c)
  hentry c := by
    rw [Pipeline.ownSems0_none]
    have hsplit := Pipeline.arrays_of_unscopedBufs (p := 6) (pcfgs (F := F)) adm (pdats m outs) launch6.win launch6.arr_whole c
      ((pdats m outs 6 c).share_full fun _ => rfl) (Vr (V11 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun _ => rfl)
      (Vr (V11 m outs) c) (Vr (V12 m outs) c) ((pdats m outs 6 c).arrAt · cfg6.N) (hF6 h.h6 c) (hrest6 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `V13`, left at `V14`. Its arrays are
    split out of the unscoped buffers and put back at the exit contents; the generator register goes into the
    pipeline's invariant and comes back; nothing is owed; the kernel has no semaphore of its own. -/
def reg7 (h : OutsOk m outs) : Pipeline.RegionSeg (pcfgs (F := F)) adm (pdats m outs) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vr (V13 m outs)) c).loose
  hwaits := Pipeline.hwaits_of_owed_zero _ _ _ _ L lv 7 fun _ _ => rfl
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec7 c (Vr (V13 m outs) c)
  hentry c := by
    rw [Pipeline.ownSems0_none]
    have hsplit := Pipeline.arrays_of_unscopedBufs (p := 7) (pcfgs (F := F)) adm (pdats m outs) launch7.win launch7.arr_whole c
      ((pdats m outs 7 c).share_full fun _ => rfl) (Vr (V13 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun _ => rfl)
      (Vr (V13 m outs) c) (Vr (V14 m outs) c) ((pdats m outs 7 c).arrAt · cfg7.N) (hF7 h.h7 c) (hrest7 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.SegsC.lean ====
import proofs.«102211_j33681133535938_1_alg».proof.Proof.KB.SegsBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable {m : (ℓ : Loc nD τ sig) → Buf (Elt F) ℓ} {outs : Outs (F := F)}

set_option backward.isDefEq.respectTransparency.types false in
/-- Region 8 over the thread state: entered from every unscoped buffer at `V15`, left at `V16`. Its arrays are
    split out of the unscoped buffers and put back at the exit contents; the generator register goes into the
    pipeline's invariant and comes back; nothing is owed; the kernel has no semaphore of its own. -/
def reg8 (h : OutsOk m outs) : Pipeline.RegionSeg (pcfgs (F := F)) adm (pdats m outs) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vr (V15 m outs)) c).loose
  hwaits := Pipeline.hwaits_of_owed_zero _ _ _ _ L lv 8 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec8 c (Vr (V15 m outs) c)
  hentry c := by
    rw [Pipeline.ownSems0_none]
    have hsplit := Pipeline.arrays_of_unscopedBufs (p := 8) (pcfgs (F := F)) adm (pdats m outs) launch8.win launch8.arr_whole c
      ((pdats m outs 8 c).share_full fun _ => rfl) (Vr (V15 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m outs 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m outs) ((pdats m outs 8 c).share_full fun _ => rfl)
      (Vr (V15 m outs) c) (Vr (V16 m outs) c) ((pdats m outs 8 c).arrAt · cfg8.N) (hF8 h.h8 c) (hrest8 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `V16`, left at `V17`. Its arrays are
    split out of the unscoped buffers and put back at the exit contents; the generator register goes into the
    pipeline's invariant and comes back; nothing is owed; the kernel has no semaphore of its own. -/
def reg9 (h : OutsOk m outs) : Pipeline.RegionSeg (pcfgs (F := F)) adm (pdats m outs) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vr (V16 m outs)) c).loose
  hwaits := Pipeline.hwaits_of_owed_zero _ _ _ _ L lv 9 fun _ _ => rfl
  pre c := iprop(StableHlo.held (c : Thread nD τ) (Pipeline.ucRefs τ sig) (V16 m outs c) ∗ R c)
  post c := iprop(StableHlo.held (c : Thread nD τ) (Pipeline.ucRefs τ sig) (V17 m outs c) ∗ R c)
  X c := iprop(∃ r, prngReg c r)
  Y c := iprop(∃ r, prngReg c r)
  Z c := Pipeline.unscopedRest (Ix := Unit) (Name := ℕ) (U := UR sig nD τ) (Lvl := ℕ) spec9 c (Vr (V16 m outs) c)
  hentry c := by
    rw [Pipeline.ownSems0_none]
    have hsplit := Pipeline.arrays_of_unscopedBufs (p := 9) (pcfgs (F := F)) adm (pdats m outs) launch9.win launch9.arr_whole c
      ((pdats m outs 9 c).share_full fun _ => rfl) (Vr (V16 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m outs 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m outs) ((pdats m outs 9 c).share_full fun _ => rfl)
      (Vr (V16 m outs) c) (Vr (V17 m outs) c) ((pdats m outs 9 c).arrAt · cfg9.N) (hF9 h.h9 c) (hrest9 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `V18`, left at `V19`. Its arrays are
    split out of the unscoped buffers and put back at the exit contents; the generator register goes into the
    pipeline's invariant and comes back; nothing is owed; the kernel has no semaphore of its own. -/
def reg10 (h : OutsOk m outs) : Pipeline.RegionSeg (pcfgs (F := F)) adm (pdats m outs) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vr (V18 m outs)) c).loose
  hwaits := Pipeline.hwaits_of_owed_zero _ _ _ _ L lv 10 fun _ _ => rfl
  pre c := iprop(StableHlo.held (c : Thread nD τ) (Pipeline.ucRefs τ sig) (V18 m outs c) ∗ R c)
  post c := iprop(StableHlo.held (c : Thread nD τ) (Pipeline.ucRefs τ sig) (V19 m outs c) ∗ R c)
  X c := iprop(∃ r, prngReg c r)
  Y c := iprop(∃ r, prngReg c r)
  Z c := Pipeline.unscopedRest (Ix := Unit) (Name := ℕ) (U := UR sig nD τ) (Lvl := ℕ) spec10 c (Vr (V18 m outs) c)
  hentry c := by
    rw [Pipeline.ownSems0_none]
    have hsplit := Pipeline.arrays_of_unscopedBufs (p := 10) (pcfgs (F := F)) adm (pdats m outs) launch10.win launch10.arr_whole c
      ((pdats m outs 10 c).share_full fun _ => rfl) (Vr (V18 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m outs 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m outs) ((pdats m outs 10 c).share_full fun _ => rfl)
      (Vr (V18 m outs) c) (Vr (V19 m outs) c) ((pdats m outs 10 c).arrAt · cfg10.N) (hF10 h.h10 c) (hrest10 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at `V20`, left at `V21`. Its arrays are
    split out of the unscoped buffers and put back at the exit contents; the generator register goes into the
    pipeline's invariant and comes back; nothing is owed; the kernel has no semaphore of its own. -/
def reg11 (h : OutsOk m outs) : Pipeline.RegionSeg (pcfgs (F := F)) adm (pdats m outs) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vr (V20 m outs)) c).loose
  hwaits := Pipeline.hwaits_of_owed_zero _ _ _ _ L lv 11 fun _ _ => rfl
  pre c := iprop(StableHlo.held (c : Thread nD τ) (Pipeline.ucRefs τ sig) (V20 m outs c) ∗ R c)
  post c := iprop(StableHlo.held (c : Thread nD τ) (Pipeline.ucRefs τ sig) (V21 m outs c) ∗ R c)
  X c := iprop(∃ r, prngReg c r)
  Y c := iprop(∃ r, prngReg c r)
  Z c := Pipeline.unscopedRest (Ix := Unit) (Name := ℕ) (U := UR sig nD τ) (Lvl := ℕ) spec11 c (Vr (V20 m outs) c)
  hentry c := by
    rw [Pipeline.ownSems0_none]
    have hsplit := Pipeline.arrays_of_unscopedBufs (p := 11) (pcfgs (F := F)) adm (pdats m outs) launch11.win launch11.arr_whole c
      ((pdats m outs 11 c).share_full fun _ => rfl) (Vr (V20 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m outs 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m outs) ((pdats m outs 11 c).share_full fun _ => rfl)
      (Vr (V20 m outs) c) (Vr (V21 m outs) c) ((pdats m outs 11 c).arrAt · cfg11.N) (hF11 h.h11 c) (hrest11 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Run.lean ====
import proofs.«102211_j33681133535938_1_alg».proof.Proof.KB.SegsA
import proofs.«102211_j33681133535938_1_alg».proof.Proof.KB.SegsB
import proofs.«102211_j33681133535938_1_alg».proof.Proof.KB.SegsC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable {m : (ℓ : Loc nD τ sig) → Buf (Elt F) ℓ} {outs : Outs (F := F)}

/-! # The run of the whole program

Every weakly fair execution of the program from memory `m` terminates, and every final memory holds each unscoped
buffer at the last valuation `V21`: the launch, the host stretches and the twelve regions chained as segments. -/

/-- The last region's exit state, regrouped: the buffers and the generator register beside the core's debts. -/
theorem last_state (c : Dev nD) (W : Valuation τ sig (Elt F)) :
    (iprop(StableHlo.held (c : Thread nD τ) (Pipeline.ucRefs τ sig) W ∗ R c) : sProp 𝕄)
      ⊢ iprop((StableHlo.held (c : Thread nD τ) (Pipeline.ucRefs τ sig) W ∗ ∃ r, prngReg c r)
          ∗ ∃ W', owes (c : Thread nD τ) (0 : CellTallies nD τ sig Unit) W') := by
  iintro ⟨Hh, Hp, HO⟩
  isplitl [Hh Hp]
  · isplitl [Hh]; · iexact Hh
    iexact Hp
  iexact HO

set_option backward.isDefEq.respectTransparency.types false in
theorem run_all (ρ : Dev nD → PrngReg) (h : OutsOk m outs) :
    θ_run defs (onTc (τ := τ) (main (F := F))) ⟨m, fun _ => 0, ρ⟩
      (fun r => ∀ c : Dev nD, ∀ b ∈ Pipeline.ucRefs τ sig, r.2.mem (((c : Thread nD τ)).1, b) = V21 m outs c b) := by
  refine Pipeline.θ_run_regions_kit_dev (pcfgs (F := F)) adm (pdats m outs) () cellOf_inj emb₁ defs₀ 𝒱₀ L lv m ρ main
    (segs m outs 𝒱₀ L lv (fun _ => R) () (pdats m outs) (reg0 h) (reg1 h) (reg2 h) (reg3 h) (reg4 h) (reg5 h) (reg6 h) (reg7 h) (reg8 h) (reg9 h) (reg10 h) (reg11 h))
    (fun c Q => by
      rewrite [main_chain c, Seg.run_eq_chain,
        show (segs m outs 𝒱₀ L lv (fun _ => R) () (pdats m outs) (reg0 h) (reg1 h) (reg2 h) (reg3 h) (reg4 h) (reg5 h) (reg6 h) (reg7 h) (reg8 h) (reg9 h) (reg10 h) (reg11 h) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          Prog.lift (.customCall (Pipeline.entry 10) ()),
          StableHlo.seq hostOps11,
          Prog.lift (.customCall (Pipeline.entry 11) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V21 m outs c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, .rfl, last_state c _⟩)
    (hinit := ?_)
    (QY := fun c s => ∀ b ∈ Pipeline.ucRefs τ sig, s.mem (((c : Thread nD τ)).1, b) = V21 m outs c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (V21 m outs c) s')
    isplitl [Hh] <;> iassumption

end Cert.Kernel.Fr

end
-- ==== Proof.KB.Outs.lean ====
import proofs.«102211_j33681133535938_1_alg».proof.Proof.KB.Vals

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! # The contents the regions leave, concretely

`U0 … U21` are the buffers' contents after each item of the program: a host stretch applies its operations; a region
replaces its output array by what its write-backs leave of it, computed from the contents the region is entered
from. `outs` reads them back, and with it the generated valuations `V0 … V21` ARE these. -/

abbrev U0 (c : Dev nD) : Valuation τ sig (Elt F) := fun b => m (c, b)
abbrev U1 (c : Dev nD) : Valuation τ sig (Elt F) := StableHlo.after hostOps0 (U0 m c)
def U2 (c : Dev nD) : Valuation τ sig (Elt F) :=
  Function.update (U1 m c) main_v33 ((dat0 (Vr (U1 m)) c).arrAt 2 cfg0.N)
def U3 (c : Dev nD) : Valuation τ sig (Elt F) :=
  Function.update (U2 m c) main_v34 ((dat1 (Vr (U2 m)) c).arrAt 2 cfg1.N)
abbrev U4 (c : Dev nD) : Valuation τ sig (Elt F) := StableHlo.after hostOps2 (U3 m c)
def U5 (c : Dev nD) : Valuation τ sig (Elt F) :=
  Function.update (U4 m c) main_v79 ((dat2 (Vr (U4 m)) c).arrAt 6 cfg2.N)
abbrev U6 (c : Dev nD) : Valuation τ sig (Elt F) := StableHlo.after hostOps3 (U5 m c)
def U7 (c : Dev nD) : Valuation τ sig (Elt F) :=
  Function.update (U6 m c) main_v81 ((dat3 (Vr (U6 m)) c).arrAt 3 cfg3.N)
abbrev U8 (c : Dev nD) : Valuation τ sig (Elt F) := StableHlo.after hostOps4 (U7 m c)
def U9 (c : Dev nD) : Valuation τ sig (Elt F) :=
  Function.update (U8 m c) main_v84 ((dat4 (Vr (U8 m)) c).arrAt 2 cfg4.N)
def U10 (c : Dev nD) : Valuation τ sig (Elt F) :=
  Function.update (U9 m c) main_v85 ((dat5 (Vr (U9 m)) c).arrAt 2 cfg5.N)
abbrev U11 (c : Dev nD) : Valuation τ sig (Elt F) := StableHlo.after hostOps6 (U10 m c)
def U12 (c : Dev nD) : Valuation τ sig (Elt F) :=
  Function.update (U11 m c) main_v130 ((dat6 (Vr (U11 m)) c).arrAt 6 cfg6.N)
abbrev U13 (c : Dev nD) : Valuation τ sig (Elt F) := StableHlo.after hostOps7 (U12 m c)
def U14 (c : Dev nD) : Valuation τ sig (Elt F) :=
  Function.update (U13 m c) main_v132 ((dat7 (Vr (U13 m)) c).arrAt 3 cfg7.N)
abbrev U15 (c : Dev nD) : Valuation τ sig (Elt F) := StableHlo.after hostOps8 (U14 m c)
def U16 (c : Dev nD) : Valuation τ sig (Elt F) :=
  Function.update (U15 m c) main_v135 ((dat8 (Vr (U15 m)) c).arrAt 2 cfg8.N)
def U17 (c : Dev nD) : Valuation τ sig (Elt F) :=
  Function.update (U16 m c) main_v136 ((dat9 (Vr (U16 m)) c).arrAt 2 cfg9.N)
abbrev U18 (c : Dev nD) : Valuation τ sig (Elt F) := StableHlo.after hostOps10 (U17 m c)
def U19 (c : Dev nD) : Valuation τ sig (Elt F) :=
  Function.update (U18 m c) main_v181 ((dat10 (Vr (U18 m)) c).arrAt 6 cfg10.N)
abbrev U20 (c : Dev nD) : Valuation τ sig (Elt F) := StableHlo.after hostOps11 (U19 m c)
def U21 (c : Dev nD) : Valuation τ sig (Elt F) :=
  Function.update (U20 m c) main_v183 ((dat11 (Vr (U20 m)) c).arrAt 3 cfg11.N)

/-- The contents after item `J − 1`, read at a reference. -/
def outs : Outs (F := F) := fun J r c =>
  match J with
  | 2 => U2 m c r
  | 3 => U3 m c r
  | 5 => U5 m c r
  | 7 => U7 m c r
  | 9 => U9 m c r
  | 10 => U10 m c r
  | 12 => U12 m c r
  | 14 => U14 m c r
  | 16 => U16 m c r
  | 17 => U17 m c r
  | 19 => U19 m c r
  | 21 => U21 m c r
  | _ => U0 m c r

theorem V1_eq : V1 m = U1 m := rfl
theorem V2_eq : V2 m (outs m) = U2 m := by
  funext c; show Function.update (V1 m c) main_v33 (U2 m c main_v33) = _
  rw [V1_eq]; simp only [U2, Function.update_self]
theorem V3_eq : V3 m (outs m) = U3 m := by
  funext c; show Function.update (V2 m (outs m) c) main_v34 (U3 m c main_v34) = _
  rw [V2_eq]; simp only [U3, Function.update_self]
theorem V4_eq : V4 m (outs m) = U4 m := by
  funext c; show StableHlo.after hostOps2 (V3 m (outs m) c) = _; rw [V3_eq]
theorem V5_eq : V5 m (outs m) = U5 m := by
  funext c; show Function.update (V4 m (outs m) c) main_v79 (U5 m c main_v79) = _
  rw [V4_eq]; simp only [U5, Function.update_self]
theorem V6_eq : V6 m (outs m) = U6 m := by
  funext c; show StableHlo.after hostOps3 (V5 m (outs m) c) = _; rw [V5_eq]
theorem V7_eq : V7 m (outs m) = U7 m := by
  funext c; show Function.update (V6 m (outs m) c) main_v81 (U7 m c main_v81) = _
  rw [V6_eq]; simp only [U7, Function.update_self]
theorem V8_eq : V8 m (outs m) = U8 m := by
  funext c; show StableHlo.after hostOps4 (V7 m (outs m) c) = _; rw [V7_eq]
theorem V9_eq : V9 m (outs m) = U9 m := by
  funext c; show Function.update (V8 m (outs m) c) main_v84 (U9 m c main_v84) = _
  rw [V8_eq]; simp only [U9, Function.update_self]
theorem V10_eq : V10 m (outs m) = U10 m := by
  funext c; show Function.update (V9 m (outs m) c) main_v85 (U10 m c main_v85) = _
  rw [V9_eq]; simp only [U10, Function.update_self]
theorem V11_eq : V11 m (outs m) = U11 m := by
  funext c; show StableHlo.after hostOps6 (V10 m (outs m) c) = _; rw [V10_eq]
theorem V12_eq : V12 m (outs m) = U12 m := by
  funext c; show Function.update (V11 m (outs m) c) main_v130 (U12 m c main_v130) = _
  rw [V11_eq]; simp only [U12, Function.update_self]
theorem V13_eq : V13 m (outs m) = U13 m := by
  funext c; show StableHlo.after hostOps7 (V12 m (outs m) c) = _; rw [V12_eq]
theorem V14_eq : V14 m (outs m) = U14 m := by
  funext c; show Function.update (V13 m (outs m) c) main_v132 (U14 m c main_v132) = _
  rw [V13_eq]; simp only [U14, Function.update_self]
theorem V15_eq : V15 m (outs m) = U15 m := by
  funext c; show StableHlo.after hostOps8 (V14 m (outs m) c) = _; rw [V14_eq]
theorem V16_eq : V16 m (outs m) = U16 m := by
  funext c; show Function.update (V15 m (outs m) c) main_v135 (U16 m c main_v135) = _
  rw [V15_eq]; simp only [U16, Function.update_self]
theorem V17_eq : V17 m (outs m) = U17 m := by
  funext c; show Function.update (V16 m (outs m) c) main_v136 (U17 m c main_v136) = _
  rw [V16_eq]; simp only [U17, Function.update_self]
theorem V18_eq : V18 m (outs m) = U18 m := by
  funext c; show StableHlo.after hostOps10 (V17 m (outs m) c) = _; rw [V17_eq]
theorem V19_eq : V19 m (outs m) = U19 m := by
  funext c; show Function.update (V18 m (outs m) c) main_v181 (U19 m c main_v181) = _
  rw [V18_eq]; simp only [U19, Function.update_self]
theorem V20_eq : V20 m (outs m) = U20 m := by
  funext c; show StableHlo.after hostOps11 (V19 m (outs m) c) = _; rw [V19_eq]
theorem V21_eq : V21 m (outs m) = U21 m := by
  funext c; show Function.update (V20 m (outs m) c) main_v183 (U21 m c main_v183) = _
  rw [V20_eq]; simp only [U21, Function.update_self]

/-- `outs` is, at each region's output, what that region leaves there. -/
theorem outsOk : OutsOk m (outs m) where
  h0 c := by
    show U2 m c main_v33 = _
    rw [V1_eq]; simp only [U2, Function.update_self]
  h1 c := by
    show U3 m c main_v34 = _
    rw [V2_eq]; simp only [U3, Function.update_self]
  h2 c := by
    show U5 m c main_v79 = _
    rw [V4_eq]; simp only [U5, Function.update_self]
  h3 c := by
    show U7 m c main_v81 = _
    rw [V6_eq]; simp only [U7, Function.update_self]
  h4 c := by
    show U9 m c main_v84 = _
    rw [V8_eq]; simp only [U9, Function.update_self]
  h5 c := by
    show U10 m c main_v85 = _
    rw [V9_eq]; simp only [U10, Function.update_self]
  h6 c := by
    show U12 m c main_v130 = _
    rw [V11_eq]; simp only [U12, Function.update_self]
  h7 c := by
    show U14 m c main_v132 = _
    rw [V13_eq]; simp only [U14, Function.update_self]
  h8 c := by
    show U16 m c main_v135 = _
    rw [V15_eq]; simp only [U16, Function.update_self]
  h9 c := by
    show U17 m c main_v136 = _
    rw [V16_eq]; simp only [U17, Function.update_self]
  h10 c := by
    show U19 m c main_v181 = _
    rw [V18_eq]; simp only [U19, Function.update_self]
  h11 c := by
    show U21 m c main_v183 = _
    rw [V20_eq]; simp only [U21, Function.update_self]

end Cert.Kernel.Fr

end
-- ==== Proof.KB.Frames.lean ====
import proofs.«102211_j33681133535938_1_alg».proof.Proof.KB.Run
import proofs.«102211_j33681133535938_1_alg».proof.Proof.KB.Outs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, and every argument array ends as launched:
    no host stretch writes an argument and no region may change one, so the last valuation at an argument walks back
    to the launch memory. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c =>
    ⟨(h c (Proc.devRef .tc main_arg0) (mem_uc main_arg0 (by decide))).trans (V21_main_arg0 m (outs m) c),
     (h c (Proc.devRef .tc main_arg1) (mem_uc main_arg1 (by decide))).trans (V21_main_arg1 m (outs m) c),
     (h c (Proc.devRef .tc main_arg2) (mem_uc main_arg2 (by decide))).trans (V21_main_arg2 m (outs m) c),
     (h c (Proc.devRef .tc main_arg3) (mem_uc main_arg3 (by decide))).trans (V21_main_arg3 m (outs m) c),
     (h c (Proc.devRef .tc main_arg4) (mem_uc main_arg4 (by decide))).trans (V21_main_arg4 m (outs m) c),
     (h c (Proc.devRef .tc main_arg5) (mem_uc main_arg5 (by decide))).trans (V21_main_arg5 m (outs m) c),
     (h c (Proc.devRef .tc main_arg6) (mem_uc main_arg6 (by decide))).trans (V21_main_arg6 m (outs m) c),
     (h c (Proc.devRef .tc main_arg7) (mem_uc main_arg7 (by decide))).trans (V21_main_arg7 m (outs m) c),
     (h c (Proc.devRef .tc main_arg8) (mem_uc main_arg8 (by decide))).trans (V21_main_arg8 m (outs m) c),
     (h c (Proc.devRef .tc main_arg9) (mem_uc main_arg9 (by decide))).trans (V21_main_arg9 m (outs m) c),
     (h c (Proc.devRef .tc main_arg10) (mem_uc main_arg10 (by decide))).trans (V21_main_arg10 m (outs m) c),
     (h c (Proc.devRef .tc main_arg11) (mem_uc main_arg11 (by decide))).trans (V21_main_arg11 m (outs m) c),
     (h c (Proc.devRef .tc main_arg12) (mem_uc main_arg12 (by decide))).trans (V21_main_arg12 m (outs m) c),
     (h c (Proc.devRef .tc main_arg13) (mem_uc main_arg13 (by decide))).trans (V21_main_arg13 m (outs m) c),
     (h c (Proc.devRef .tc main_arg14) (mem_uc main_arg14 (by decide))).trans (V21_main_arg14 m (outs m) c),
     (h c (Proc.devRef .tc main_arg15) (mem_uc main_arg15 (by decide))).trans (V21_main_arg15 m (outs m) c),
     (h c (Proc.devRef .tc main_arg16) (mem_uc main_arg16 (by decide))).trans (V21_main_arg16 m (outs m) c),
     (h c (Proc.devRef .tc main_arg17) (mem_uc main_arg17 (by decide))).trans (V21_main_arg17 m (outs m) c),
     (h c (Proc.devRef .tc main_arg18) (mem_uc main_arg18 (by decide))).trans (V21_main_arg18 m (outs m) c),
     (h c (Proc.devRef .tc main_arg19) (mem_uc main_arg19 (by decide))).trans (V21_main_arg19 m (outs m) c),
     (h c (Proc.devRef .tc main_arg20) (mem_uc main_arg20 (by decide))).trans (V21_main_arg20 m (outs m) c),
     (h c (Proc.devRef .tc main_arg21) (mem_uc main_arg21 (by decide))).trans (V21_main_arg21 m (outs m) c),
     (h c (Proc.devRef .tc main_arg22) (mem_uc main_arg22 (by decide))).trans (V21_main_arg22 m (outs m) c),
     (h c (Proc.devRef .tc main_arg23) (mem_uc main_arg23 (by decide))).trans (V21_main_arg23 m (outs m) c),
     (h c (Proc.devRef .tc main_arg24) (mem_uc main_arg24 (by decide))).trans (V21_main_arg24 m (outs m) c),
     (h c (Proc.devRef .tc main_arg25) (mem_uc main_arg25 (by decide))).trans (V21_main_arg25 m (outs m) c),
     (h c (Proc.devRef .tc main_arg26) (mem_uc main_arg26 (by decide))).trans (V21_main_arg26 m (outs m) c),
     (h c (Proc.devRef .tc main_arg27) (mem_uc main_arg27 (by decide))).trans (V21_main_arg27 m (outs m) c),
     (h c (Proc.devRef .tc main_arg28) (mem_uc main_arg28 (by decide))).trans (V21_main_arg28 m (outs m) c),
     (h c (Proc.devRef .tc main_arg29) (mem_uc main_arg29 (by decide))).trans (V21_main_arg29 m (outs m) c),
     (h c (Proc.devRef .tc main_arg30) (mem_uc main_arg30 (by decide))).trans (V21_main_arg30 m (outs m) c),
     (h c (Proc.devRef .tc main_arg31) (mem_uc main_arg31 (by decide))).trans (V21_main_arg31 m (outs m) c)⟩)
    (run_all ρ (outsOk m))

end Cert.Kernel.Fr

end
-- ==== Proof.KI.Base.lean ====
import proofs.«102211_j33681133535938_1_alg».proof.Proof.Gen.KernelIdeal.Regions

noncomputable section

namespace Cert.KernelIdeal.Fr

open Idealize.ShloMosaic Idealize.ShloMosaic.TcCoe Idealize.SL.Sem
open Cert.KernelIdeal Cert.KernelIdeal.Gen

variable {F : FTy → Type} [FloatOps F]

/-- A valuation read at the TensorCore's references. -/
abbrev Vr (W : Dev nD → Valuation τ sig (Elt F)) : (c : Dev nD) → (b : Ref sig .tc) → Buf (Elt F) ((c : Thread nD τ).loc b) :=
  fun c b => W c b

end Cert.KernelIdeal.Fr

end
-- ==== Proof.KI.R0.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a row-blocked matrix product `X · Wᵀ`.
    Window 0 is the block of rows of the left operand `X` at the grid point (`S2000x980`), window 1 the whole
    right operand `W` (`S1024x980`, fetched once), window 2 the same rows of the product (`S2000x1024`): entry
    `(p, q)` of a block is the sum over `k` of `X(p, k) · W(q, k)`. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched
    the block index has not moved, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each staging buffer whole. -/
abbrev rin0_0 : Rect S2000x980 := Rect.unit (s := S2000x980) ![0, 0] S2000x980.size inb_S2000x980_S2000x980_0_0
abbrev rin0_1 : Rect S1024x980 := Rect.unit (s := S1024x980) ![0, 0] S1024x980.size inb_S1024x980_S1024x980_0_0
abbrev ro0 : Rect S2000x1024 := Rect.unit (s := S2000x1024) ![0, 0] S2000x1024.size inb_S2000x1024_S2000x1024_0_0

/-- The output block's staging buffer after the body: one store of the whole block, the body's arithmetic of the loads. -/
def out0_2 (x0 : Vec F S2000x980 .f32) (x1 : Vec F S1024x980 .f32) : Vec F S2000x1024 .f32 :=
  View.canon [⟨ro0, k0_pay1 (View.ld x0 rin0_0) (View.ld x1 rin0_1)⟩]

/-- The one store is of the whole block, so it covers it. -/
theorem cover0_2 (p0 : Vec F S2000x1024 .f32) (y : S2000x1024.Idx) :
    ∃ pc ∈ ([⟨ro0, p0⟩] : List (View.Piece (Elt F) S2000x1024 .f32)), y ∈ pc.1.set :=
  View.cover_of_tiled [⟨ro0, p0⟩] S2000x1024.size (by rfl) y

set_option maxHeartbeats 1000000 in
/-- The body on whole staging buffers: every input keeps its contents and the output ends at `out0_2` of them. -/
theorem sound_kernel0 (c : Dev nD) (E : Set ℕ) (i : grid0.Coords)
    (arg1 : Memref sig .tc .vmem S2000x980 .f32) (harg1 : arg1.IsWhole)
    (arg2 : Memref sig .tc .vmem S1024x980 .f32) (harg2 : arg2.IsWhole)
    (arg3 : Memref sig .tc .vmem S2000x1024 .f32) (harg3 : arg3.IsWhole)
    (x0 : Vec F S2000x980 .f32) (x1 : Vec F S1024x980 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region: the arrays as the region finds them; after the body each input's buffer still at
    its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.X0.lean ====
import proofs.«102211_j33681133535938_1_alg».proof.Proof.KI.Base
import proofs.«102211_j33681133535938_1_alg».proof.Proof.KI.R0

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 0 at its exit: each input array is as the region found it (an input window writes nothing back, and the
    region may change only its output), and the output array is what its write-backs leave, which is what `outs` holds
    there; every other buffer is as at entry. -/

set_option maxHeartbeats 2000000 in
theorem hF0 (h : ∀ c, outs 2 main_v33 c = (dat0 (Vr (V1 m)) c).arrAt 2 cfg0.N) (c : Dev nD) (w : Fin cfg0.W) :
    (dat0 (Vr (V1 m)) c).arrAt w cfg0.N = Vr (V2 m outs) c (Pipeline.arrRef spec0 w) := by
  match w with
  | ⟨0, _⟩ => exact ((dat0 (Vr (V1 m)) c).arrAt_in 0 rfl _).trans (V2_of m outs c main_arg0 (by decide)).symm
  | ⟨1, _⟩ => exact ((dat0 (Vr (V1 m)) c).arrAt_in 1 rfl _).trans (V2_of m outs c main_v31 (by decide)).symm
  | ⟨2, _⟩ => exact (h c).symm.trans (Function.update_self (Proc.devRef .tc main_v33 : DevRef τ sig) (outs 2 main_v33 c) (V1 m c)).symm

theorem hrest0 (c : Dev nD) : ∀ b, b ∉ Finset.univ.image (Pipeline.arrRef spec0) → Vr (V2 m outs) c b = Vr (V1 m) c b :=
  fun b hb => V2_of m outs c b fun hm => hb (by
    rw [List.mem_singleton] at hm; subst hm
    exact Finset.mem_image.mpr ⟨⟨2, by decide⟩, Finset.mem_univ _, rfl⟩)

end Cert.KernelIdeal.Fr

end
-- ==== Proof.KI.R1.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: a row-blocked matrix product `X · Wᵀ`.
    Window 0 is the block of rows of the left operand `X` at the grid point (`S3000x5`), window 1 the whole
    right operand `W` (`S512x5`, fetched once), window 2 the same rows of the product (`S3000x512`): entry
    `(p, q)` of a block is the sum over `k` of `X(p, k) · W(q, k)`. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not fetched
    the block index has not moved, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each staging buffer whole. -/
abbrev rin1_0 : Rect S3000x5 := Rect.unit (s := S3000x5) ![0, 0] S3000x5.size inb_S3000x5_S3000x5_0_0
abbrev rin1_1 : Rect S512x5 := Rect.unit (s := S512x5) ![0, 0] S512x5.size inb_S512x5_S512x5_0_0
abbrev ro1 : Rect S3000x512 := Rect.unit (s := S3000x512) ![0, 0] S3000x512.size inb_S3000x512_S3000x512_0_0

/-- The output block's staging buffer after the body: one store of the whole block, the body's arithmetic of the loads. -/
def out1_2 (x0 : Vec F S3000x5 .f32) (x1 : Vec F S512x5 .f32) : Vec F S3000x512 .f32 :=
  View.canon [⟨ro1, k1_pay1 (View.ld x0 rin1_0) (View.ld x1 rin1_1)⟩]

/-- The one store is of the whole block, so it covers it. -/
theorem cover1_2 (p0 : Vec F S3000x512 .f32) (y : S3000x512.Idx) :
    ∃ pc ∈ ([⟨ro1, p0⟩] : List (View.Piece (Elt F) S3000x512 .f32)), y ∈ pc.1.set :=
  View.cover_of_tiled [⟨ro1, p0⟩] S3000x512.size (by rfl) y

set_option maxHeartbeats 1000000 in
/-- The body on whole staging buffers: every input keeps its contents and the output ends at `out1_2` of them. -/
theorem sound_kernel1 (c : Dev nD) (E : Set ℕ) (i : grid1.Coords)
    (arg1 : Memref sig .tc .vmem S3000x5 .f32) (harg1 : arg1.IsWhole)
    (arg2 : Memref sig .tc .vmem S512x5 .f32) (harg2 : arg2.IsWhole)
    (arg3 : Memref sig .tc .vmem S3000x512 .f32) (harg3 : arg3.IsWhole)
    (x0 : Vec F S3000x5 .f32) (x1 : Vec F S512x5 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region: the arrays as the region finds them; after the body each input's buffer still at
    its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.X1.lean ====
import proofs.«102211_j33681133535938_1_alg».proof.Proof.KI.Base
import proofs.«102211_j33681133535938_1_alg».proof.Proof.KI.R1

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 1 at its exit: each input array is as the region found it (an input window writes nothing back, and the
    region may change only its output), and the output array is what its write-backs leave, which is what `outs` holds
    there; every other buffer is as at entry. -/

set_option maxHeartbeats 2000000 in
theorem hF1 (h : ∀ c, outs 3 main_v34 c = (dat1 (Vr (V2 m outs)) c).arrAt 2 cfg1.N) (c : Dev nD) (w : Fin cfg1.W) :
    (dat1 (Vr (V2 m outs)) c).arrAt w cfg1.N = Vr (V3 m outs) c (Pipeline.arrRef spec1 w) := by
  match w with
  | ⟨0, _⟩ => exact ((dat1 (Vr (V2 m outs)) c).arrAt_in 0 rfl _).trans (V3_of m outs c main_arg1 (by decide)).symm
  | ⟨1, _⟩ => exact ((dat1 (Vr (V2 m outs)) c).arrAt_in 1 rfl _).trans (V3_of m outs c main_v32 (by decide)).symm
  | ⟨2, _⟩ => exact (h c).symm.trans (Function.update_self (Proc.devRef .tc main_v34 : DevRef τ sig) (outs 3 main_v34 c) (V2 m outs c)).symm

theorem hrest1 (c : Dev nD) : ∀ b, b ∉ Finset.univ.image (Pipeline.arrRef spec1) → Vr (V3 m outs) c b = Vr (V2 m outs) c b :=
  fun b hb => V3_of m outs c b fun hm => hb (by
    rw [List.mem_singleton] at hm; subst hm
    exact Finset.mem_image.mpr ⟨⟨2, by decide⟩, Finset.mem_univ _, rfl⟩)

end Cert.KernelIdeal.Fr

end
-- ==== Proof.KI.R2.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the drug-side combination `a + aw + ab + b + bw + bb` (followed by `max · 0` in the first two layers).
    Windows 0, 1, 3, 4 are the blocks of rows of the two aggregated messages `a`, `b` and the two self terms `aw`,
    `bw` at the grid point (`S2000x256`), windows 2 and 5 the bias rows `ab`, `bb` (`S1x256`, whole, added
    to every row), window 6 the same rows of the result. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not fetched
    the block index has not moved, and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each staging buffer whole. -/
abbrev rin2_0 : Rect S2000x256 := Rect.unit (s := S2000x256) ![0, 0] S2000x256.size inb_S2000x256_S2000x256_0_0
abbrev rin2_1 : Rect S2000x256 := Rect.unit (s := S2000x256) ![0, 0] S2000x256.size inb_S2000x256_S2000x256_0_0
abbrev rin2_2 : Rect S1x256 := Rect.unit (s := S1x256) ![0, 0] S1x256.size inb_S1x256_S1x256_0_0
abbrev rin2_3 : Rect S2000x256 := Rect.unit (s := S2000x256) ![0, 0] S2000x256.size inb_S2000x256_S2000x256_0_0
abbrev rin2_4 : Rect S2000x256 := Rect.unit (s := S2000x256) ![0, 0] S2000x256.size inb_S2000x256_S2000x256_0_0
abbrev rin2_5 : Rect S1x256 := Rect.unit (s := S1x256) ![0, 0] S1x256.size inb_S1x256_S1x256_0_0
abbrev ro2 : Rect S2000x256 := Rect.unit (s := S2000x256) ![0, 0] S2000x256.size inb_S2000x256_S2000x256_0_0

/-- The output block's staging buffer after the body: one store of the whole block, the body's arithmetic of the loads. -/
def out2_6 (x0 : Vec F S2000x256 .f32) (x1 : Vec F S2000x256 .f32) (x2 : Vec F S1x256 .f32) (x3 : Vec F S2000x256 .f32) (x4 : Vec F S2000x256 .f32) (x5 : Vec F S1x256 .f32) : Vec F S2000x256 .f32 :=
  View.canon [⟨ro2, k2_pay1 (View.ld x0 rin2_0) (View.ld x1 rin2_1) (View.ld x2 rin2_2) (View.ld x3 rin2_3) (View.ld x4 rin2_4) (View.ld x5 rin2_5)⟩]

/-- The one store is of the whole block, so it covers it. -/
theorem cover2_6 (p0 : Vec F S2000x256 .f32) (y : S2000x256.Idx) :
    ∃ pc ∈ ([⟨ro2, p0⟩] : List (View.Piece (Elt F) S2000x256 .f32)), y ∈ pc.1.set :=
  View.cover_of_tiled [⟨ro2, p0⟩] S2000x256.size (by rfl) y

set_option maxHeartbeats 1000000 in
/-- The body on whole staging buffers: every input keeps its contents and the output ends at `out2_6` of them. -/
theorem sound_kernel2 (c : Dev nD) (E : Set ℕ) (i : grid2.Coords)
    (arg1 : Memref sig .tc .vmem S2000x256 .f32) (harg1 : arg1.IsWhole)
    (arg2 : Memref sig .tc .vmem S2000x256 .f32) (harg2 : arg2.IsWhole)
    (arg3 : Memref sig .tc .vmem S1x256 .f32) (harg3 : arg3.IsWhole)
    (arg4 : Memref sig .tc .vmem S2000x256 .f32) (harg4 : arg4.IsWhole)
    (arg5 : Memref sig .tc .vmem S2000x256 .f32) (harg5 : arg5.IsWhole)
    (arg6 : Memref sig .tc .vmem S1x256 .f32) (harg6 : arg6.IsWhole)
    (arg7 : Memref sig .tc .vmem S2000x256 .f32) (harg7 : arg7.IsWhole)
    (x0 : Vec F S2000x256 .f32) (x1 : Vec F S2000x256 .f32) (x2 : Vec F S1x256 .f32) (x3 : Vec F S2000x256 .f32) (x4 : Vec F S2000x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__nd_combine_kernel i arg1 harg1 arg2 harg2 arg3 harg3 arg4 harg4 arg5 harg5 arg6 harg6 arg7 harg7) K := by
  simp only [cc2__nd_combine_kernel_eq_skeleton]; unfold cc2__nd_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of the region: the arrays as the region finds them; after the body each input's buffer still at
    its block and the output's at `out2_6` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.X2.lean ====
import proofs.«102211_j33681133535938_1_alg».proof.Proof.KI.Base
import proofs.«102211_j33681133535938_1_alg».proof.Proof.KI.R2

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 2 at its exit: each input array is as the region found it (an input window writes nothing back, and the
    region may change only its output), and the output array is what its write-backs leave, which is what `outs` holds
    there; every other buffer is as at entry. -/

set_option maxHeartbeats 2000000 in
theorem hF2 (h : ∀ c, outs 5 main_v79 c = (dat2 (Vr (V4 m outs)) c).arrAt 6 cfg2.N) (c : Dev nD) (w : Fin cfg2.W) :
    (dat2 (Vr (V4 m outs)) c).arrAt w cfg2.N = Vr (V5 m outs) c (Pipeline.arrRef spec2 w) := by
  match w with
  | ⟨0, _⟩ => exact ((dat2 (Vr (V4 m outs)) c).arrAt_in 0 rfl _).trans (V5_of m outs c main_v52 (by decide)).symm
  | ⟨1, _⟩ => exact ((dat2 (Vr (V4 m outs)) c).arrAt_in 1 rfl _).trans (V5_of m outs c main_v36 (by decide)).symm
  | ⟨2, _⟩ => exact ((dat2 (Vr (V4 m outs)) c).arrAt_in 2 rfl _).trans (V5_of m outs c main_v77 (by decide)).symm
  | ⟨3, _⟩ => exact ((dat2 (Vr (V4 m outs)) c).arrAt_in 3 rfl _).trans (V5_of m outs c main_v64 (by decide)).symm
  | ⟨4, _⟩ => exact ((dat2 (Vr (V4 m outs)) c).arrAt_in 4 rfl _).trans (V5_of m outs c main_v38 (by decide)).symm
  | ⟨5, _⟩ => exact ((dat2 (Vr (V4 m outs)) c).arrAt_in 5 rfl _).trans (V5_of m outs c main_v78 (by decide)).symm
  | ⟨6, _⟩ => exact (h c).symm.trans (Function.update_self (Proc.devRef .tc main_v79 : DevRef τ sig) (outs 5 main_v79 c) (V4 m outs c)).symm

theorem hrest2 (c : Dev nD) : ∀ b, b ∉ Finset.univ.image (Pipeline.arrRef spec2) → Vr (V5 m outs) c b = Vr (V4 m outs) c b :=
  fun b hb => V5_of m outs c b fun hm => hb (by
    rw [List.mem_singleton] at hm; subst hm
    exact Finset.mem_image.mpr ⟨⟨6, by decide⟩, Finset.mem_univ _, rfl⟩)

end Cert.KernelIdeal.Fr

end
-- ==== Proof.KI.R3.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the protein-side combination `a + aw + ab` (followed by `max · 0` in the first two layers).
    Windows 0 and 1 are the blocks of rows of the aggregated messages `a` and of the self term `aw` at the grid
    point (`S3000x256`), window 2 the bias row `ab` (`S1x256`, whole, added to every row), window 3 the
    same rows of the result. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: where it is not fetched
    the block index has not moved, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body reads and writes: each staging buffer whole. -/
abbrev rin3_0 : Rect S3000x256 := Rect.unit (s := S3000x256) ![0, 0] S3000x256.size inb_S3000x256_S3000x256_0_0
abbrev rin3_1 : Rect S3000x256 := Rect.unit (s := S3000x256) ![0, 0] S3000x256.size inb_S3000x256_S3000x256_0_0
abbrev rin3_2 : Rect S1x256 := Rect.unit (s := S1x256) ![0, 0] S1x256.size inb_S1x256_S1x256_0_0
abbrev ro3 : Rect S3000x256 := Rect.unit (s := S3000x256) ![0, 0] S3000x256.size inb_S3000x256_S3000x256_0_0

/-- The output block's staging buffer after the body: one store of the whole block, the body's arithmetic of the loads. -/
def out3_3 (x0 : Vec F S3000x256 .f32) (x1 : Vec F S3000x256 .f32) (x2 : Vec F S1x256 .f32) : Vec F S3000x256 .f32 :=
  View.canon [⟨ro3, k3_pay1 (View.ld x0 rin3_0) (View.ld x1 rin3_1) (View.ld x2 rin3_2)⟩]

/-- The one store is of the whole block, so it covers it. -/
theorem cover3_3 (p0 : Vec F S3000x256 .f32) (y : S3000x256.Idx) :
    ∃ pc ∈ ([⟨ro3, p0⟩] : List (View.Piece (Elt F) S3000x256 .f32)), y ∈ pc.1.set :=
  View.cover_of_tiled [⟨ro3, p0⟩] S3000x256.size (by rfl) y

set_option maxHeartbeats 1000000 in
/-- The body on whole staging buffers: every input keeps its contents and the output ends at `out3_3` of them. -/
theorem sound_kernel3 (c : Dev nD) (E : Set ℕ) (i : grid3.Coords)
    (arg1 : Memref sig .tc .vmem S3000x256 .f32) (harg1 : arg1.IsWhole)
    (arg2 : Memref sig .tc .vmem S3000x256 .f32) (harg2 : arg2.IsWhole)
    (arg3 : Memref sig .tc .vmem S1x256 .f32) (harg3 : arg3.IsWhole)
    (arg4 : Memref sig .tc .vmem S3000x256 .f32) (harg4 : arg4.IsWhole)
    (x0 : Vec F S3000x256 .f32) (x1 : Vec F S3000x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__npo_combine_kernel i arg1 harg1 arg2 harg2 arg3 harg3 arg4 harg4) K := by
  simp only [cc3__npo_combine_kernel_eq_skeleton]; unfold cc3__npo_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the region: the arrays as the region finds them; after the body each input's buffer still at
    its block and the output's at `out3_3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.X3.lean ====
import proofs.«102211_j33681133535938_1_alg».proof.Proof.KI.Base
import proofs.«102211_j33681133535938_1_alg».proof.Proof.KI.R3

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 3 at its exit: each input array is as the region found it (an input window writes nothing back, and the
    region may change only its output), and the output array is what its write-backs leave, which is what `outs` holds
    there; every other buffer is as at entry. -/

set_option maxHeartbeats 2000000 in
theorem hF3 (h : ∀ c, outs 7 main_v81 c = (dat3 (Vr (V6 m outs)) c).arrAt 3 cfg3.N) (c : Dev nD) (w : Fin cfg3.W) :
    (dat3 (Vr (V6 m outs)) c).arrAt w cfg3.N = Vr (V7 m outs) c (Pipeline.arrRef spec3 w) := by
  match w with
  | ⟨0, _⟩ => exact ((dat3 (Vr (V6 m outs)) c).arrAt_in 0 rfl _).trans (V7_of m outs c main_v76 (by decide)).symm
  | ⟨1, _⟩ => exact ((dat3 (Vr (V6 m outs)) c).arrAt_in 1 rfl _).trans (V7_of m outs c main_v40 (by decide)).symm
  | ⟨2, _⟩ => exact ((dat3 (Vr (V6 m outs)) c).arrAt_in 2 rfl _).trans (V7_of m outs c main_v80 (by decide)).symm
  | ⟨3, _⟩ => exact (h c).symm.trans (Function.update_self (Proc.devRef .tc main_v81 : DevRef τ sig) (outs 7 main_v81 c) (V6 m outs c)).symm

theorem hrest3 (c : Dev nD) : ∀ b, b ∉ Finset.univ.image (Pipeline.arrRef spec3) → Vr (V7 m outs) c b = Vr (V6 m outs) c b :=
  fun b hb => V7_of m outs c b fun hm => hb (by
    rw [List.mem_singleton] at hm; subst hm
    exact Finset.mem_image.mpr ⟨⟨3, by decide⟩, Finset.mem_univ _, rfl⟩)

end Cert.KernelIdeal.Fr

end
-- ==== Proof.KI.R4.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: a row-blocked matrix product `X · Wᵀ`.
    Window 0 is the block of rows of the left operand `X` at the grid point (`S2000x256`), window 1 the whole
    right operand `W` (`S1024x256`, fetched once), window 2 the same rows of the product (`S2000x1024`): entry
    `(p, q)` of a block is the sum over `k` of `X(p, k) · W(q, k)`. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not: where it is not fetched
    the block index has not moved, and the body leaves the buffer as it found it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body reads and writes: each staging buffer whole. -/
abbrev rin4_0 : Rect S2000x256 := Rect.unit (s := S2000x256) ![0, 0] S2000x256.size inb_S2000x256_S2000x256_0_0
abbrev rin4_1 : Rect S1024x256 := Rect.unit (s := S1024x256) ![0, 0] S1024x256.size inb_S1024x256_S1024x256_0_0
abbrev ro4 : Rect S2000x1024 := Rect.unit (s := S2000x1024) ![0, 0] S2000x1024.size inb_S2000x1024_S2000x1024_0_0

/-- The output block's staging buffer after the body: one store of the whole block, the body's arithmetic of the loads. -/
def out4_2 (x0 : Vec F S2000x256 .f32) (x1 : Vec F S1024x256 .f32) : Vec F S2000x1024 .f32 :=
  View.canon [⟨ro4, k4_pay1 (View.ld x0 rin4_0) (View.ld x1 rin4_1)⟩]

/-- The one store is of the whole block, so it covers it. -/
theorem cover4_2 (p0 : Vec F S2000x1024 .f32) (y : S2000x1024.Idx) :
    ∃ pc ∈ ([⟨ro4, p0⟩] : List (View.Piece (Elt F) S2000x1024 .f32)), y ∈ pc.1.set :=
  View.cover_of_tiled [⟨ro4, p0⟩] S2000x1024.size (by rfl) y

set_option maxHeartbeats 1000000 in
/-- The body on whole staging buffers: every input keeps its contents and the output ends at `out4_2` of them. -/
theorem sound_kernel4 (c : Dev nD) (E : Set ℕ) (i : grid4.Coords)
    (arg1 : Memref sig .tc .vmem S2000x256 .f32) (harg1 : arg1.IsWhole)
    (arg2 : Memref sig .tc .vmem S1024x256 .f32) (harg2 : arg2.IsWhole)
    (arg3 : Memref sig .tc .vmem S2000x1024 .f32) (harg3 : arg3.IsWhole)
    (x0 : Vec F S2000x256 .f32) (x1 : Vec F S1024x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region: the arrays as the region finds them; after the body each input's buffer still at
    its block and the output's at `out4_2` of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so `sound_kernel4` applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.X4.lean ====
import proofs.«102211_j33681133535938_1_alg».proof.Proof.KI.Base
import proofs.«102211_j33681133535938_1_alg».proof.Proof.KI.R4

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 4 at its exit: each input array is as the region found it (an input window writes nothing back, and the
    region may change only its output), and the output array is what its write-backs leave, which is what `outs` holds
    there; every other buffer is as at entry. -/

set_option maxHeartbeats 2000000 in
theorem hF4 (h : ∀ c, outs 9 main_v84 c = (dat4 (Vr (V8 m outs)) c).arrAt 2 cfg4.N) (c : Dev nD) (w : Fin cfg4.W) :
    (dat4 (Vr (V8 m outs)) c).arrAt w cfg4.N = Vr (V9 m outs) c (Pipeline.arrRef spec4 w) := by
  match w with
  | ⟨0, _⟩ => exact ((dat4 (Vr (V8 m outs)) c).arrAt_in 0 rfl _).trans (V9_of m outs c main_v79 (by decide)).symm
  | ⟨1, _⟩ => exact ((dat4 (Vr (V8 m outs)) c).arrAt_in 1 rfl _).trans (V9_of m outs c main_v82 (by decide)).symm
  | ⟨2, _⟩ => exact (h c).symm.trans (Function.update_self (Proc.devRef .tc main_v84 : DevRef τ sig) (outs 9 main_v84 c) (V8 m outs c)).symm

theorem hrest4 (c : Dev nD) : ∀ b, b ∉ Finset.univ.image (Pipeline.arrRef spec4) → Vr (V9 m outs) c b = Vr (V8 m outs) c b :=
  fun b hb => V9_of m outs c b fun hm => hb (by
    rw [List.mem_singleton] at hm; subst hm
    exact Finset.mem_image.mpr ⟨⟨2, by decide⟩, Finset.mem_univ _, rfl⟩)

end Cert.KernelIdeal.Fr

end
-- ==== Proof.KI.R5.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: a row-blocked matrix product `X · Wᵀ`.
    Window 0 is the block of rows of the left operand `X` at the grid point (`S3000x256`), window 1 the whole
    right operand `W` (`S512x256`, fetched once), window 2 the same rows of the product (`S3000x512`): entry
    `(p, q)` of a block is the sum over `k` of `X(p, k) · W(q, k)`. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not: where it is not fetched
    the block index has not moved, and the body leaves the buffer as it found it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body reads and writes: each staging buffer whole. -/
abbrev rin5_0 : Rect S3000x256 := Rect.unit (s := S3000x256) ![0, 0] S3000x256.size inb_S3000x256_S3000x256_0_0
abbrev rin5_1 : Rect S512x256 := Rect.unit (s := S512x256) ![0, 0] S512x256.size inb_S512x256_S512x256_0_0
abbrev ro5 : Rect S3000x512 := Rect.unit (s := S3000x512) ![0, 0] S3000x512.size inb_S3000x512_S3000x512_0_0

/-- The output block's staging buffer after the body: one store of the whole block, the body's arithmetic of the loads. -/
def out5_2 (x0 : Vec F S3000x256 .f32) (x1 : Vec F S512x256 .f32) : Vec F S3000x512 .f32 :=
  View.canon [⟨ro5, k5_pay1 (View.ld x0 rin5_0) (View.ld x1 rin5_1)⟩]

/-- The one store is of the whole block, so it covers it. -/
theorem cover5_2 (p0 : Vec F S3000x512 .f32) (y : S3000x512.Idx) :
    ∃ pc ∈ ([⟨ro5, p0⟩] : List (View.Piece (Elt F) S3000x512 .f32)), y ∈ pc.1.set :=
  View.cover_of_tiled [⟨ro5, p0⟩] S3000x512.size (by rfl) y

set_option maxHeartbeats 1000000 in
/-- The body on whole staging buffers: every input keeps its contents and the output ends at `out5_2` of them. -/
theorem sound_kernel5 (c : Dev nD) (E : Set ℕ) (i : grid5.Coords)
    (arg1 : Memref sig .tc .vmem S3000x256 .f32) (harg1 : arg1.IsWhole)
    (arg2 : Memref sig .tc .vmem S512x256 .f32) (harg2 : arg2.IsWhole)
    (arg3 : Memref sig .tc .vmem S3000x512 .f32) (harg3 : arg3.IsWhole)
    (x0 : Vec F S3000x256 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the region: the arrays as the region finds them; after the body each input's buffer still at
    its block and the output's at `out5_2` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so `sound_kernel5` applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.X5.lean ====
import proofs.«102211_j33681133535938_1_alg».proof.Proof.KI.Base
import proofs.«102211_j33681133535938_1_alg».proof.Proof.KI.R5

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 5 at its exit: each input array is as the region found it (an input window writes nothing back, and the
    region may change only its output), and the output array is what its write-backs leave, which is what `outs` holds
    there; every other buffer is as at entry. -/

set_option maxHeartbeats 2000000 in
theorem hF5 (h : ∀ c, outs 10 main_v85 c = (dat5 (Vr (V9 m outs)) c).arrAt 2 cfg5.N) (c : Dev nD) (w : Fin cfg5.W) :
    (dat5 (Vr (V9 m outs)) c).arrAt w cfg5.N = Vr (V10 m outs) c (Pipeline.arrRef spec5 w) := by
  match w with
  | ⟨0, _⟩ => exact ((dat5 (Vr (V9 m outs)) c).arrAt_in 0 rfl _).trans (V10_of m outs c main_v81 (by decide)).symm
  | ⟨1, _⟩ => exact ((dat5 (Vr (V9 m outs)) c).arrAt_in 1 rfl _).trans (V10_of m outs c main_v83 (by decide)).symm
  | ⟨2, _⟩ => exact (h c).symm.trans (Function.update_self (Proc.devRef .tc main_v85 : DevRef τ sig) (outs 10 main_v85 c) (V9 m outs c)).symm

theorem hrest5 (c : Dev nD) : ∀ b, b ∉ Finset.univ.image (Pipeline.arrRef spec5) → Vr (V10 m outs) c b = Vr (V9 m outs) c b :=
  fun b hb => V10_of m outs c b fun hm => hb (by
    rw [List.mem_singleton] at hm; subst hm
    exact Finset.mem_image.mpr ⟨⟨2, by decide⟩, Finset.mem_univ _, rfl⟩)

end Cert.KernelIdeal.Fr

end
-- ==== Proof.KI.R6.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the drug-side combination `a + aw + ab + b + bw + bb` (followed by `max · 0` in the first two layers).
    Windows 0, 1, 3, 4 are the blocks of rows of the two aggregated messages `a`, `b` and the two self terms `aw`,
    `bw` at the grid point (`S2000x256`), windows 2 and 5 the bias rows `ab`, `bb` (`S1x256`, whole, added
    to every row), window 6 the same rows of the result. -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not: where it is not fetched
    the block index has not moved, and the body leaves the buffer as it found it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- The rectangles the body reads and writes: each staging buffer whole. -/
abbrev rin6_0 : Rect S2000x256 := Rect.unit (s := S2000x256) ![0, 0] S2000x256.size inb_S2000x256_S2000x256_0_0
abbrev rin6_1 : Rect S2000x256 := Rect.unit (s := S2000x256) ![0, 0] S2000x256.size inb_S2000x256_S2000x256_0_0
abbrev rin6_2 : Rect S1x256 := Rect.unit (s := S1x256) ![0, 0] S1x256.size inb_S1x256_S1x256_0_0
abbrev rin6_3 : Rect S2000x256 := Rect.unit (s := S2000x256) ![0, 0] S2000x256.size inb_S2000x256_S2000x256_0_0
abbrev rin6_4 : Rect S2000x256 := Rect.unit (s := S2000x256) ![0, 0] S2000x256.size inb_S2000x256_S2000x256_0_0
abbrev rin6_5 : Rect S1x256 := Rect.unit (s := S1x256) ![0, 0] S1x256.size inb_S1x256_S1x256_0_0
abbrev ro6 : Rect S2000x256 := Rect.unit (s := S2000x256) ![0, 0] S2000x256.size inb_S2000x256_S2000x256_0_0

/-- The output block's staging buffer after the body: one store of the whole block, the body's arithmetic of the loads. -/
def out6_6 (x0 : Vec F S2000x256 .f32) (x1 : Vec F S2000x256 .f32) (x2 : Vec F S1x256 .f32) (x3 : Vec F S2000x256 .f32) (x4 : Vec F S2000x256 .f32) (x5 : Vec F S1x256 .f32) : Vec F S2000x256 .f32 :=
  View.canon [⟨ro6, k6_pay1 (View.ld x0 rin6_0) (View.ld x1 rin6_1) (View.ld x2 rin6_2) (View.ld x3 rin6_3) (View.ld x4 rin6_4) (View.ld x5 rin6_5)⟩]

/-- The one store is of the whole block, so it covers it. -/
theorem cover6_6 (p0 : Vec F S2000x256 .f32) (y : S2000x256.Idx) :
    ∃ pc ∈ ([⟨ro6, p0⟩] : List (View.Piece (Elt F) S2000x256 .f32)), y ∈ pc.1.set :=
  View.cover_of_tiled [⟨ro6, p0⟩] S2000x256.size (by rfl) y

set_option maxHeartbeats 1000000 in
/-- The body on whole staging buffers: every input keeps its contents and the output ends at `out6_6` of them. -/
theorem sound_kernel6 (c : Dev nD) (E : Set ℕ) (i : grid6.Coords)
    (arg1 : Memref sig .tc .vmem S2000x256 .f32) (harg1 : arg1.IsWhole)
    (arg2 : Memref sig .tc .vmem S2000x256 .f32) (harg2 : arg2.IsWhole)
    (arg3 : Memref sig .tc .vmem S1x256 .f32) (harg3 : arg3.IsWhole)
    (arg4 : Memref sig .tc .vmem S2000x256 .f32) (harg4 : arg4.IsWhole)
    (arg5 : Memref sig .tc .vmem S2000x256 .f32) (harg5 : arg5.IsWhole)
    (arg6 : Memref sig .tc .vmem S1x256 .f32) (harg6 : arg6.IsWhole)
    (arg7 : Memref sig .tc .vmem S2000x256 .f32) (harg7 : arg7.IsWhole)
    (x0 : Vec F S2000x256 .f32) (x1 : Vec F S2000x256 .f32) (x2 : Vec F S1x256 .f32) (x3 : Vec F S2000x256 .f32) (x4 : Vec F S2000x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E (cc6__nd_combine_kernel i arg1 harg1 arg2 harg2 arg3 harg3 arg4 harg4 arg5 harg5 arg6 harg6 arg7 harg7) K := by
  simp only [cc6__nd_combine_kernel_eq_skeleton]; unfold cc6__nd_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-- The proof data of the region: the arrays as the region finds them; after the body each input's buffer still at
    its block and the output's at `out6_6` of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' buffers hold their blocks, so `sound_kernel6` applies. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.X6.lean ====
import proofs.«102211_j33681133535938_1_alg».proof.Proof.KI.Base
import proofs.«102211_j33681133535938_1_alg».proof.Proof.KI.R6

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 6 at its exit: each input array is as the region found it (an input window writes nothing back, and the
    region may change only its output), and the output array is what its write-backs leave, which is what `outs` holds
    there; every other buffer is as at entry. -/

set_option maxHeartbeats 2000000 in
theorem hF6 (h : ∀ c, outs 12 main_v130 c = (dat6 (Vr (V11 m outs)) c).arrAt 6 cfg6.N) (c : Dev nD) (w : Fin cfg6.W) :
    (dat6 (Vr (V11 m outs)) c).arrAt w cfg6.N = Vr (V12 m outs) c (Pipeline.arrRef spec6 w) := by
  match w with
  | ⟨0, _⟩ => exact ((dat6 (Vr (V11 m outs)) c).arrAt_in 0 rfl _).trans (V12_of m outs c main_v103 (by decide)).symm
  | ⟨1, _⟩ => exact ((dat6 (Vr (V11 m outs)) c).arrAt_in 1 rfl _).trans (V12_of m outs c main_v87 (by decide)).symm
  | ⟨2, _⟩ => exact ((dat6 (Vr (V11 m outs)) c).arrAt_in 2 rfl _).trans (V12_of m outs c main_v128 (by decide)).symm
  | ⟨3, _⟩ => exact ((dat6 (Vr (V11 m outs)) c).arrAt_in 3 rfl _).trans (V12_of m outs c main_v115 (by decide)).symm
  | ⟨4, _⟩ => exact ((dat6 (Vr (V11 m outs)) c).arrAt_in 4 rfl _).trans (V12_of m outs c main_v89 (by decide)).symm
  | ⟨5, _⟩ => exact ((dat6 (Vr (V11 m outs)) c).arrAt_in 5 rfl _).trans (V12_of m outs c main_v129 (by decide)).symm
  | ⟨6, _⟩ => exact (h c).symm.trans (Function.update_self (Proc.devRef .tc main_v130 : DevRef τ sig) (outs 12 main_v130 c) (V11 m outs c)).symm

theorem hrest6 (c : Dev nD) : ∀ b, b ∉ Finset.univ.image (Pipeline.arrRef spec6) → Vr (V12 m outs) c b = Vr (V11 m outs) c b :=
  fun b hb => V12_of m outs c b fun hm => hb (by
    rw [List.mem_singleton] at hm; subst hm
    exact Finset.mem_image.mpr ⟨⟨6, by decide⟩, Finset.mem_univ _, rfl⟩)

end Cert.KernelIdeal.Fr

end
-- ==== Proof.KI.R7.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the protein-side combination `a + aw + ab` (followed by `max · 0` in the first two layers).
    Windows 0 and 1 are the blocks of rows of the aggregated messages `a` and of the self term `aw` at the grid
    point (`S3000x256`), window 2 the bias row `ab` (`S1x256`, whole, added to every row), window 3 the
    same rows of the result. -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not: where it is not fetched
    the block index has not moved, and the body leaves the buffer as it found it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The rectangles the body reads and writes: each staging buffer whole. -/
abbrev rin7_0 : Rect S3000x256 := Rect.unit (s := S3000x256) ![0, 0] S3000x256.size inb_S3000x256_S3000x256_0_0
abbrev rin7_1 : Rect S3000x256 := Rect.unit (s := S3000x256) ![0, 0] S3000x256.size inb_S3000x256_S3000x256_0_0
abbrev rin7_2 : Rect S1x256 := Rect.unit (s := S1x256) ![0, 0] S1x256.size inb_S1x256_S1x256_0_0
abbrev ro7 : Rect S3000x256 := Rect.unit (s := S3000x256) ![0, 0] S3000x256.size inb_S3000x256_S3000x256_0_0

/-- The output block's staging buffer after the body: one store of the whole block, the body's arithmetic of the loads. -/
def out7_3 (x0 : Vec F S3000x256 .f32) (x1 : Vec F S3000x256 .f32) (x2 : Vec F S1x256 .f32) : Vec F S3000x256 .f32 :=
  View.canon [⟨ro7, k7_pay1 (View.ld x0 rin7_0) (View.ld x1 rin7_1) (View.ld x2 rin7_2)⟩]

/-- The one store is of the whole block, so it covers it. -/
theorem cover7_3 (p0 : Vec F S3000x256 .f32) (y : S3000x256.Idx) :
    ∃ pc ∈ ([⟨ro7, p0⟩] : List (View.Piece (Elt F) S3000x256 .f32)), y ∈ pc.1.set :=
  View.cover_of_tiled [⟨ro7, p0⟩] S3000x256.size (by rfl) y

set_option maxHeartbeats 1000000 in
/-- The body on whole staging buffers: every input keeps its contents and the output ends at `out7_3` of them. -/
theorem sound_kernel7 (c : Dev nD) (E : Set ℕ) (i : grid7.Coords)
    (arg1 : Memref sig .tc .vmem S3000x256 .f32) (harg1 : arg1.IsWhole)
    (arg2 : Memref sig .tc .vmem S3000x256 .f32) (harg2 : arg2.IsWhole)
    (arg3 : Memref sig .tc .vmem S1x256 .f32) (harg3 : arg3.IsWhole)
    (arg4 : Memref sig .tc .vmem S3000x256 .f32) (harg4 : arg4.IsWhole)
    (x0 : Vec F S3000x256 .f32) (x1 : Vec F S3000x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__npo_combine_kernel i arg1 harg1 arg2 harg2 arg3 harg3 arg4 harg4) K := by
  simp only [cc7__npo_combine_kernel_eq_skeleton]; unfold cc7__npo_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The proof data of the region: the arrays as the region finds them; after the body each input's buffer still at
    its block and the output's at `out7_3` of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so `sound_kernel7` applies. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.X7.lean ====
import proofs.«102211_j33681133535938_1_alg».proof.Proof.KI.Base
import proofs.«102211_j33681133535938_1_alg».proof.Proof.KI.R7

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 7 at its exit: each input array is as the region found it (an input window writes nothing back, and the
    region may change only its output), and the output array is what its write-backs leave, which is what `outs` holds
    there; every other buffer is as at entry. -/

set_option maxHeartbeats 2000000 in
theorem hF7 (h : ∀ c, outs 14 main_v132 c = (dat7 (Vr (V13 m outs)) c).arrAt 3 cfg7.N) (c : Dev nD) (w : Fin cfg7.W) :
    (dat7 (Vr (V13 m outs)) c).arrAt w cfg7.N = Vr (V14 m outs) c (Pipeline.arrRef spec7 w) := by
  match w with
  | ⟨0, _⟩ => exact ((dat7 (Vr (V13 m outs)) c).arrAt_in 0 rfl _).trans (V14_of m outs c main_v127 (by decide)).symm
  | ⟨1, _⟩ => exact ((dat7 (Vr (V13 m outs)) c).arrAt_in 1 rfl _).trans (V14_of m outs c main_v91 (by decide)).symm
  | ⟨2, _⟩ => exact ((dat7 (Vr (V13 m outs)) c).arrAt_in 2 rfl _).trans (V14_of m outs c main_v131 (by decide)).symm
  | ⟨3, _⟩ => exact (h c).symm.trans (Function.update_self (Proc.devRef .tc main_v132 : DevRef τ sig) (outs 14 main_v132 c) (V13 m outs c)).symm

theorem hrest7 (c : Dev nD) : ∀ b, b ∉ Finset.univ.image (Pipeline.arrRef spec7) → Vr (V14 m outs) c b = Vr (V13 m outs) c b :=
  fun b hb => V14_of m outs c b fun hm => hb (by
    rw [List.mem_singleton] at hm; subst hm
    exact Finset.mem_image.mpr ⟨⟨3, by decide⟩, Finset.mem_univ _, rfl⟩)

end Cert.KernelIdeal.Fr

end
-- ==== Proof.KI.R8.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: a row-blocked matrix product `X · Wᵀ`.
    Window 0 is the block of rows of the left operand `X` at the grid point (`S2000x256`), window 1 the whole
    right operand `W` (`S256x256`, fetched once), window 2 the same rows of the product (`S2000x256`): entry
    `(p, q)` of a block is the sum over `k` of `X(p, k) · W(q, k)`. -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, fetched there or not: where it is not fetched
    the block index has not moved, and the body leaves the buffer as it found it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The rectangles the body reads and writes: each staging buffer whole. -/
abbrev rin8_0 : Rect S2000x256 := Rect.unit (s := S2000x256) ![0, 0] S2000x256.size inb_S2000x256_S2000x256_0_0
abbrev rin8_1 : Rect S256x256 := Rect.unit (s := S256x256) ![0, 0] S256x256.size inb_S256x256_S256x256_0_0
abbrev ro8 : Rect S2000x256 := Rect.unit (s := S2000x256) ![0, 0] S2000x256.size inb_S2000x256_S2000x256_0_0

/-- The output block's staging buffer after the body: one store of the whole block, the body's arithmetic of the loads. -/
def out8_2 (x0 : Vec F S2000x256 .f32) (x1 : Vec F S256x256 .f32) : Vec F S2000x256 .f32 :=
  View.canon [⟨ro8, k8_pay1 (View.ld x0 rin8_0) (View.ld x1 rin8_1)⟩]

/-- The one store is of the whole block, so it covers it. -/
theorem cover8_2 (p0 : Vec F S2000x256 .f32) (y : S2000x256.Idx) :
    ∃ pc ∈ ([⟨ro8, p0⟩] : List (View.Piece (Elt F) S2000x256 .f32)), y ∈ pc.1.set :=
  View.cover_of_tiled [⟨ro8, p0⟩] S2000x256.size (by rfl) y

set_option maxHeartbeats 1000000 in
/-- The body on whole staging buffers: every input keeps its contents and the output ends at `out8_2` of them. -/
theorem sound_kernel8 (c : Dev nD) (E : Set ℕ) (i : grid8.Coords)
    (arg1 : Memref sig .tc .vmem S2000x256 .f32) (harg1 : arg1.IsWhole)
    (arg2 : Memref sig .tc .vmem S256x256 .f32) (harg2 : arg2.IsWhole)
    (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__matmul_kernel i arg1 harg1 arg2 harg2 arg3 harg3) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The proof data of the region: the arrays as the region finds them; after the body each input's buffer still at
    its block and the output's at `out8_2` of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so `sound_kernel8` applies. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (c : Dev nD) : BodyObligation (dat8 (F := F) V c) (defs₀ (F := F)) Variants.none () Set.univ := fun t => by
  rw [bigSep_W8, bigSep_W8]
  exact sound_body8 V c t

end Cert.KernelIdeal.Fr

end
-- ==== Proof.KI.X8.lean ====
import proofs.«102211_j33681133535938_1_alg».proof.Proof.KI.Base
import proofs.«102211_j33681133535938_1_alg».proof.Proof.KI.R8

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 8 at its exit: each input array is as the region found it (an input window writes nothing back, and the
    region may change only its output), and the output array is what its write-backs leave, which is what `outs` holds
    there; every other buffer is as at entry. -/

set_option maxHeartbeats 2000000 in
theorem hF8 (h : ∀ c, outs 16 main_v135 c = (dat8 (Vr (V15 m outs)) c).arrAt 2 cfg8.N) (c : Dev nD) (w : Fin cfg8.W) :
    (dat8 (Vr (V15 m outs)) c).arrAt w cfg8.N = Vr (V16 m outs) c (Pipeline.arrRef spec8 w) := by
  match w with
  | ⟨0, _⟩ => exact ((dat8 (Vr (V15 m outs)) c).arrAt_in 0 rfl _).trans (V16_of m outs c main_v130 (by decide)).symm
  | ⟨1, _⟩ => exact ((dat8 (Vr (V15 m outs)) c).arrAt_in 1 rfl _).trans (V16_of m outs c main_v133 (by decide)).symm
  | ⟨2, _⟩ => exact (h c).symm.trans (Function.update_self (Proc.devRef .tc main_v135 : DevRef τ sig) (outs 16 main_v135 c) (V15 m outs c)).symm

theorem hrest8 (c : Dev nD) : ∀ b, b ∉ Finset.univ.image (Pipeline.arrRef spec8) → Vr (V16 m outs) c b = Vr (V15 m outs) c b :=
  fun b hb => V16_of m outs c b fun hm => hb (by
    rw [List.mem_singleton] at hm; subst hm
    exact Finset.mem_image.mpr ⟨⟨2, by decide⟩, Finset.mem_univ _, rfl⟩)

end Cert.KernelIdeal.Fr

end
-- ==== Proof.KI.R9.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: a row-blocked matrix product `X · Wᵀ`.
    Window 0 is the block of rows of the left operand `X` at the grid point (`S3000x256`), window 1 the whole
    right operand `W` (`S128x256`, fetched once), window 2 the same rows of the product (`S3000x128`): entry
    `(p, q)` of a block is the sum over `k` of `X(p, k) · W(q, k)`. -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, fetched there or not: where it is not fetched
    the block index has not moved, and the body leaves the buffer as it found it. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The rectangles the body reads and writes: each staging buffer whole. -/
abbrev rin9_0 : Rect S3000x256 := Rect.unit (s := S3000x256) ![0, 0] S3000x256.size inb_S3000x256_S3000x256_0_0
abbrev rin9_1 : Rect S128x256 := Rect.unit (s := S128x256) ![0, 0] S128x256.size inb_S128x256_S128x256_0_0
abbrev ro9 : Rect S3000x128 := Rect.unit (s := S3000x128) ![0, 0] S3000x128.size inb_S3000x128_S3000x128_0_0

/-- The output block's staging buffer after the body: one store of the whole block, the body's arithmetic of the loads. -/
def out9_2 (x0 : Vec F S3000x256 .f32) (x1 : Vec F S128x256 .f32) : Vec F S3000x128 .f32 :=
  View.canon [⟨ro9, k9_pay1 (View.ld x0 rin9_0) (View.ld x1 rin9_1)⟩]

/-- The one store is of the whole block, so it covers it. -/
theorem cover9_2 (p0 : Vec F S3000x128 .f32) (y : S3000x128.Idx) :
    ∃ pc ∈ ([⟨ro9, p0⟩] : List (View.Piece (Elt F) S3000x128 .f32)), y ∈ pc.1.set :=
  View.cover_of_tiled [⟨ro9, p0⟩] S3000x128.size (by rfl) y

set_option maxHeartbeats 1000000 in
/-- The body on whole staging buffers: every input keeps its contents and the output ends at `out9_2` of them. -/
theorem sound_kernel9 (c : Dev nD) (E : Set ℕ) (i : grid9.Coords)
    (arg1 : Memref sig .tc .vmem S3000x256 .f32) (harg1 : arg1.IsWhole)
    (arg2 : Memref sig .tc .vmem S128x256 .f32) (harg2 : arg2.IsWhole)
    (arg3 : Memref sig .tc .vmem S3000x128 .f32) (harg3 : arg3.IsWhole)
    (x0 : Vec F S3000x256 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The proof data of the region: the arrays as the region finds them; after the body each input's buffer still at
    its block and the output's at `out9_2` of the input blocks; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' buffers hold their blocks, so `sound_kernel9` applies. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.KernelIdeal.Fr

end
-- ==== Proof.KI.X9.lean ====
import proofs.«102211_j33681133535938_1_alg».proof.Proof.KI.Base
import proofs.«102211_j33681133535938_1_alg».proof.Proof.KI.R9

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 9 at its exit: each input array is as the region found it (an input window writes nothing back, and the
    region may change only its output), and the output array is what its write-backs leave, which is what `outs` holds
    there; every other buffer is as at entry. -/

set_option maxHeartbeats 2000000 in
theorem hF9 (h : ∀ c, outs 17 main_v136 c = (dat9 (Vr (V16 m outs)) c).arrAt 2 cfg9.N) (c : Dev nD) (w : Fin cfg9.W) :
    (dat9 (Vr (V16 m outs)) c).arrAt w cfg9.N = Vr (V17 m outs) c (Pipeline.arrRef spec9 w) := by
  match w with
  | ⟨0, _⟩ => exact ((dat9 (Vr (V16 m outs)) c).arrAt_in 0 rfl _).trans (V17_of m outs c main_v132 (by decide)).symm
  | ⟨1, _⟩ => exact ((dat9 (Vr (V16 m outs)) c).arrAt_in 1 rfl _).trans (V17_of m outs c main_v134 (by decide)).symm
  | ⟨2, _⟩ => exact (h c).symm.trans (Function.update_self (Proc.devRef .tc main_v136 : DevRef τ sig) (outs 17 main_v136 c) (V16 m outs c)).symm

theorem hrest9 (c : Dev nD) : ∀ b, b ∉ Finset.univ.image (Pipeline.arrRef spec9) → Vr (V17 m outs) c b = Vr (V16 m outs) c b :=
  fun b hb => V17_of m outs c b fun hm => hb (by
    rw [List.mem_singleton] at hm; subst hm
    exact Finset.mem_image.mpr ⟨⟨2, by decide⟩, Finset.mem_univ _, rfl⟩)

end Cert.KernelIdeal.Fr

end
-- ==== Proof.KI.R10.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10: the drug-side combination `a + aw + ab + b + bw + bb` (followed by `max · 0` in the first two layers).
    Windows 0, 1, 3, 4 are the blocks of rows of the two aggregated messages `a`, `b` and the two self terms `aw`,
    `bw` at the grid point (`S2000x64`), windows 2 and 5 the bias rows `ab`, `bb` (`S1x64`, whole, added
    to every row), window 6 the same rows of the result. -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, fetched there or not: where it is not fetched
    the block index has not moved, and the body leaves the buffer as it found it. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- The rectangles the body reads and writes: each staging buffer whole. -/
abbrev rin10_0 : Rect S2000x64 := Rect.unit (s := S2000x64) ![0, 0] S2000x64.size inb_S2000x64_S2000x64_0_0
abbrev rin10_1 : Rect S2000x64 := Rect.unit (s := S2000x64) ![0, 0] S2000x64.size inb_S2000x64_S2000x64_0_0
abbrev rin10_2 : Rect S1x64 := Rect.unit (s := S1x64) ![0, 0] S1x64.size inb_S1x64_S1x64_0_0
abbrev rin10_3 : Rect S2000x64 := Rect.unit (s := S2000x64) ![0, 0] S2000x64.size inb_S2000x64_S2000x64_0_0
abbrev rin10_4 : Rect S2000x64 := Rect.unit (s := S2000x64) ![0, 0] S2000x64.size inb_S2000x64_S2000x64_0_0
abbrev rin10_5 : Rect S1x64 := Rect.unit (s := S1x64) ![0, 0] S1x64.size inb_S1x64_S1x64_0_0
abbrev ro10 : Rect S2000x64 := Rect.unit (s := S2000x64) ![0, 0] S2000x64.size inb_S2000x64_S2000x64_0_0

/-- The output block's staging buffer after the body: one store of the whole block, the body's arithmetic of the loads. -/
def out10_6 (x0 : Vec F S2000x64 .f32) (x1 : Vec F S2000x64 .f32) (x2 : Vec F S1x64 .f32) (x3 : Vec F S2000x64 .f32) (x4 : Vec F S2000x64 .f32) (x5 : Vec F S1x64 .f32) : Vec F S2000x64 .f32 :=
  View.canon [⟨ro10, k10_pay1 (View.ld x0 rin10_0) (View.ld x1 rin10_1) (View.ld x2 rin10_2) (View.ld x3 rin10_3) (View.ld x4 rin10_4) (View.ld x5 rin10_5)⟩]

/-- The one store is of the whole block, so it covers it. -/
theorem cover10_6 (p0 : Vec F S2000x64 .f32) (y : S2000x64.Idx) :
    ∃ pc ∈ ([⟨ro10, p0⟩] : List (View.Piece (Elt F) S2000x64 .f32)), y ∈ pc.1.set :=
  View.cover_of_tiled [⟨ro10, p0⟩] S2000x64.size (by rfl) y

set_option maxHeartbeats 1000000 in
/-- The body on whole staging buffers: every input keeps its contents and the output ends at `out10_6` of them. -/
theorem sound_kernel10 (c : Dev nD) (E : Set ℕ) (i : grid10.Coords)
    (arg1 : Memref sig .tc .vmem S2000x64 .f32) (harg1 : arg1.IsWhole)
    (arg2 : Memref sig .tc .vmem S2000x64 .f32) (harg2 : arg2.IsWhole)
    (arg3 : Memref sig .tc .vmem S1x64 .f32) (harg3 : arg3.IsWhole)
    (arg4 : Memref sig .tc .vmem S2000x64 .f32) (harg4 : arg4.IsWhole)
    (arg5 : Memref sig .tc .vmem S2000x64 .f32) (harg5 : arg5.IsWhole)
    (arg6 : Memref sig .tc .vmem S1x64 .f32) (harg6 : arg6.IsWhole)
    (arg7 : Memref sig .tc .vmem S2000x64 .f32) (harg7 : arg7.IsWhole)
    (x0 : Vec F S2000x64 .f32) (x1 : Vec F S2000x64 .f32) (x2 : Vec F S1x64 .f32) (x3 : Vec F S2000x64 .f32) (x4 : Vec F S2000x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out10_6 x0 x1 x2 x3 x4 x5)) -∗ K ⟨⟩))
      ⊢ wp frame (wpE (defs₀ (F := F)) Variants.none c none) E (cc10__nd_combine_kernel i arg1 harg1 arg2 harg2 arg3 harg3 arg4 harg4 arg5 harg5 arg6 harg6 arg7 harg7) K := by
  simp only [cc10__nd_combine_kernel_eq_skeleton]; unfold cc10__nd_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10_6 _)

/-- The proof data of the region: the arrays as the region finds them; after the body each input's buffer still at
    its block and the output's at `out10_6` of the input blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' buffers hold their blocks, so `sound_kernel10` applies. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation10 (c : Dev nD) : BodyObligation (dat10 (F := F) V c) (defs₀ (F := F)) Variants.none () Set.univ := fun t => by
  rw [bigSep_W10, bigSep_W10]
  exact sound_body10 V c t

end Cert.KernelIdeal.Fr

end
-- ==== Proof.KI.X10.lean ====
import proofs.«102211_j33681133535938_1_alg».proof.Proof.KI.Base
import proofs.«102211_j33681133535938_1_alg».proof.Proof.KI.R10

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 10 at its exit: each input array is as the region found it (an input window writes nothing back, and the
    region may change only its output), and the output array is what its write-backs leave, which is what `outs` holds
    there; every other buffer is as at entry. -/

set_option maxHeartbeats 2000000 in
theorem hF10 (h : ∀ c, outs 19 main_v181 c = (dat10 (Vr (V18 m outs)) c).arrAt 6 cfg10.N) (c : Dev nD) (w : Fin cfg10.W) :
    (dat10 (Vr (V18 m outs)) c).arrAt w cfg10.N = Vr (V19 m outs) c (Pipeline.arrRef spec10 w) := by
  match w with
  | ⟨0, _⟩ => exact ((dat10 (Vr (V18 m outs)) c).arrAt_in 0 rfl _).trans (V19_of m outs c main_v154 (by decide)).symm
  | ⟨1, _⟩ => exact ((dat10 (Vr (V18 m outs)) c).arrAt_in 1 rfl _).trans (V19_of m outs c main_v138 (by decide)).symm
  | ⟨2, _⟩ => exact ((dat10 (Vr (V18 m outs)) c).arrAt_in 2 rfl _).trans (V19_of m outs c main_v179 (by decide)).symm
  | ⟨3, _⟩ => exact ((dat10 (Vr (V18 m outs)) c).arrAt_in 3 rfl _).trans (V19_of m outs c main_v166 (by decide)).symm
  | ⟨4, _⟩ => exact ((dat10 (Vr (V18 m outs)) c).arrAt_in 4 rfl _).trans (V19_of m outs c main_v140 (by decide)).symm
  | ⟨5, _⟩ => exact ((dat10 (Vr (V18 m outs)) c).arrAt_in 5 rfl _).trans (V19_of m outs c main_v180 (by decide)).symm
  | ⟨6, _⟩ => exact (h c).symm.trans (Function.update_self (Proc.devRef .tc main_v181 : DevRef τ sig) (outs 19 main_v181 c) (V18 m outs c)).symm

theorem hrest10 (c : Dev nD) : ∀ b, b ∉ Finset.univ.image (Pipeline.arrRef spec10) → Vr (V19 m outs) c b = Vr (V18 m outs) c b :=
  fun b hb => V19_of m outs c b fun hm => hb (by
    rw [List.mem_singleton] at hm; subst hm
    exact Finset.mem_image.mpr ⟨⟨6, by decide⟩, Finset.mem_univ _, rfl⟩)

end Cert.KernelIdeal.Fr

end
-- ==== Proof.KI.R11.lean ====
import proofs.«102211_j33681133535938_1_alg».proof.Proof.Gen.KernelIdeal.Launch
import proofs.«102211_j33681133535938_1_alg».proof.Proof.Gen.KernelIdeal.Skeleton
import proofs.«102211_j33681133535938_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: the protein-side combination `a + aw + ab` (followed by `max · 0` in the first two layers).
    Windows 0 and 1 are the blocks of rows of the aggregated messages `a` and of the self term `aw` at the grid
    point (`S3000x64`), window 2 the bias row `ab` (`S1x64`, whole, added to every row), window 3 the
    same rows of the result. -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's staging buffer holds its block at every point, fetched there or not: where it is not fetched
    the block index has not moved, and the body leaves the buffer as it found it. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The rectangles the body reads and writes: each staging buffer whole. -/
abbrev rin11_0 : Rect S3000x64 := Rect.unit (s := S3000x64) ![0, 0] S3000x64.size inb_S3000x64_S3000x64_0_0
abbrev rin11_1 : Rect S3000x64 := Rect.unit (s := S3000x64) ![0, 0] S3000x64.size inb_S3000x64_S3000x64_0_0
abbrev rin11_2 : Rect S1x64 := Rect.unit (s := S1x64) ![0, 0] S1x64.size inb_S1x64_S1x64_0_0
abbrev ro11 : Rect S3000x64 := Rect.unit (s := S3000x64) ![0, 0] S3000x64.size inb_S3000x64_S3000x64_0_0

/-- The output block's staging buffer after the body: one store of the whole block, the body's arithmetic of the loads. -/
def out11_3 (x0 : Vec F S3000x64 .f32) (x1 : Vec F S3000x64 .f32) (x2 : Vec F S1x64 .f32) : Vec F S3000x64 .f32 :=
  View.canon [⟨ro11, k11_pay1 (View.ld x0 rin11_0) (View.ld x1 rin11_1) (View.ld x2 rin11_2)⟩]

/-- The one store is of the whole block, so it covers it. -/
theorem cover11_3 (p0 : Vec F S3000x64 .f32) (y : S3000x64.Idx) :
    ∃ pc ∈ ([⟨ro11, p0⟩] : List (View.Piece (Elt F) S3000x64 .f32)), y ∈ pc.1.set :=
  View.cover_of_tiled [⟨ro11, p0⟩] S3000x64.size (by rfl) y

set_option maxHeartbeats 1000000 in
/-- The body on whole staging buffers: every input keeps its contents and the output ends at `out11_3` of them. -/
theorem sound_kernel11 (c : Dev nD) (E : Set ℕ) (i : grid11.Coords)
    (arg1 : Memref sig .tc .vmem S3000x64 .f32) (harg1 : arg1.IsWhole)
    (arg2 : Memref sig .tc .vmem S3000x64 .f32) (harg2 : arg2.IsWhole)
    (arg3 : Memref sig .tc .vmem S1x64 .f32) (harg3 : arg3.IsWhole)
    (arg4 : Memref sig .tc .vmem S3000x64 .f32) (harg4 : arg4.IsWhole)
    (x0 : Vec F S3000x64 .f32) (x1 : Vec F S3000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__npo_combine_kernel i arg1 harg1 arg2 harg2 arg3 harg3 arg4 harg4) K := by
  simp only [cc11__npo_combine_kernel_eq_skeleton]; unfold cc11__npo_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of the region: the arrays as the region finds them; after the body each input's buffer still at
    its block and the output's at `out11_3` of the input blocks; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' buffers hold their blocks, so `sound_kernel11` applies. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation11 (c : Dev nD) : BodyObligation (dat11 (F := F) V c) (defs₀ (F := F)) Variants.none () Set.univ := fun t => by
  rw [bigSep_W11, bigSep_W11]
  exact sound_body11 V c t

end Cert.KernelIdeal.Fr

end
-- ==== Proof.KI.X11.lean ====
import proofs.«102211_j33681133535938_1_alg».proof.Proof.KI.Base
import proofs.«102211_j33681133535938_1_alg».proof.Proof.KI.R11

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]
variable {m : (ℓ : Loc nD τ sig) → Buf (Elt F) ℓ} {outs : Outs (F := F)}

/-! Region 11 at its exit: each input array is as the region found it (an input window writes nothing back, and the
    region may change only its output), and the output array is what its write-backs leave, which is what `outs` holds
    there; every other buffer is as at entry. -/

set_option maxHeartbeats 2000000 in
theorem hF11 (h : ∀ c, outs 21 main_v183 c = (dat11 (Vr (V20 m outs)) c).arrAt 3 cfg11.N) (c : Dev nD) (w : Fin cfg11.W) :
    (dat11 (Vr (V20 m outs)) c).arrAt w cfg11.N = Vr (V21 m outs) c (Pipeline.arrRef spec11 w) := by
  match w with
  | ⟨0, _⟩ => exact ((dat11 (Vr (V20 m outs)) c).arrAt_in 0 rfl _).trans (V21_of m outs c main_v178 (by decide)).symm
  | ⟨1, _⟩ => exact ((dat11 (Vr (V20 m outs)) c).arrAt_in 1 rfl _).trans (V21_of m outs c main_v142 (by decide)).symm
  | ⟨2, _⟩ => exact ((dat11 (Vr (V20 m outs)) c).arrAt_in 2 rfl _).trans (V21_of m outs c main_v182 (by decide)).symm
  | ⟨3, _⟩ => exact (h c).symm.trans (Function.update_self (Proc.devRef .tc main_v183 : DevRef τ sig) (outs 21 main_v183 c) (V20 m outs c)).symm

theorem hrest11 (c : Dev nD) : ∀ b, b ∉ Finset.univ.image (Pipeline.arrRef spec11) → Vr (V21 m outs) c b = Vr (V20 m outs) c b :=
  fun b hb => V21_of m outs c b fun hm => hb (by
    rw [List.mem_singleton] at hm; subst hm
    exact Finset.mem_image.mpr ⟨⟨3, by decide⟩, Finset.mem_univ _, rfl⟩)

end Cert.KernelIdeal.Fr

end
-- ==== Proof.KI.Vals.lean ====
import proofs.«102211_j33681133535938_1_alg».proof.Proof.KI.X0
import proofs.«102211_j33681133535938_1_alg».proof.Proof.KI.X1
import proofs.«102211_j33681133535938_1_alg».proof.Proof.KI.X2
import proofs.«102211_j33681133535938_1_alg».proof.Proof.KI.X3
import proofs.«102211_j33681133535938_1_alg».proof.Proof.KI.X4
import proofs.«102211_j33681133535938_1_alg».proof.Proof.KI.X5
import proofs.«102211_j33681133535938_1_alg».proof.Proof.KI.X6
import proofs.«102211_j33681133535938_1_alg».proof.Proof.KI.X7
import proofs.«102211_j33681133535938_1_alg».proof.Proof.KI.X8
import proofs.«102211_j33681133535938_1_alg».proof.Proof.KI.X9
import proofs.«102211_j33681133535938_1_alg».proof.Proof.KI.X10
import proofs.«102211_j33681133535938_1_alg».proof.Proof.KI.X11

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen

variable {F : FTy → Type} [FloatOps F]

/-! # Every region's proof data at its entry contents

The contents after each item are the generated valuations `V0 … V21`: a host stretch applies its operations, a region
replaces its output array by `outs`. Here `outs` is ANY family; `OutsOk` says that at each region's output it is what
that region's write-backs leave of the output array, computed from the region's entry contents. -/

variable (m : (ℓ : Loc nD τ sig) → Buf (Elt F) ℓ) (outs : Outs (F := F))

/-- Every region's proof data, each at its entry contents. -/
def pdats : (p : Fin 12) → (c : Dev nD) → Dat τ (Elt F) Unit ℕ (UR sig nD τ) ℕ (cfgs p) c
  | ⟨0, _⟩ => fun c => dat0 (Vr (V1 m)) c
  | ⟨1, _⟩ => fun c => dat1 (Vr (V2 m outs)) c
  | ⟨2, _⟩ => fun c => dat2 (Vr (V4 m outs)) c
  | ⟨3, _⟩ => fun c => dat3 (Vr (V6 m outs)) c
  | ⟨4, _⟩ => fun c => dat4 (Vr (V8 m outs)) c
  | ⟨5, _⟩ => fun c => dat5 (Vr (V9 m outs)) c
  | ⟨6, _⟩ => fun c => dat6 (Vr (V11 m outs)) c
  | ⟨7, _⟩ => fun c => dat7 (Vr (V13 m outs)) c
  | ⟨8, _⟩ => fun c => dat8 (Vr (V15 m outs)) c
  | ⟨9, _⟩ => fun c => dat9 (Vr (V16 m outs)) c
  | ⟨10, _⟩ => fun c => dat10 (Vr (V18 m outs)) c
  | ⟨11, _⟩ => fun c => dat11 (Vr (V20 m outs)) c

/-- At each region's output, `outs` is what the region leaves there. -/
structure OutsOk : Prop where
  h0 : ∀ c, outs 2 main_v33 c = (dat0 (Vr (V1 m)) c).arrAt 2 cfg0.N
  h1 : ∀ c, outs 3 main_v34 c = (dat1 (Vr (V2 m outs)) c).arrAt 2 cfg1.N
  h2 : ∀ c, outs 5 main_v79 c = (dat2 (Vr (V4 m outs)) c).arrAt 6 cfg2.N
  h3 : ∀ c, outs 7 main_v81 c = (dat3 (Vr (V6 m outs)) c).arrAt 3 cfg3.N
  h4 : ∀ c, outs 9 main_v84 c = (dat4 (Vr (V8 m outs)) c).arrAt 2 cfg4.N
  h5 : ∀ c, outs 10 main_v85 c = (dat5 (Vr (V9 m outs)) c).arrAt 2 cfg5.N
  h6 : ∀ c, outs 12 main_v130 c = (dat6 (Vr (V11 m outs)) c).arrAt 6 cfg6.N
  h7 : ∀ c, outs 14 main_v132 c = (dat7 (Vr (V13 m outs)) c).arrAt 3 cfg7.N
  h8 : ∀ c, outs 16 main_v135 c = (dat8 (Vr (V15 m outs)) c).arrAt 2 cfg8.N
  h9 : ∀ c, outs 17 main_v136 c = (dat9 (Vr (V16 m outs)) c).arrAt 2 cfg9.N
  h10 : ∀ c, outs 19 main_v181 c = (dat10 (Vr (V18 m outs)) c).arrAt 6 cfg10.N
  h11 : ∀ c, outs 21 main_v183 c = (dat11 (Vr (V20 m outs)) c).arrAt 3 cfg11.N

end Cert.KernelIdeal.Fr

end
-- ==== Proof.KI.SegsBase.lean ====
import proofs.«102211_j33681133535938_1_alg».proof.Proof.KI.Vals

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

/-! # The regions as segments of the program's run

Beside the buffers every segment carries the core's generator register at some state and its debts, at nothing. -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)

variable {m : (ℓ : Loc nD τ sig) → Buf (Elt F) ℓ} {outs : Outs (F := F)}

end Cert.KernelIdeal.Fr

end
-- ==== Proof.KI.SegsA.lean ====
import proofs.«102211_j33681133535938_1_alg».proof.Proof.KI.SegsBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable {m : (ℓ : Loc nD τ sig) → Buf (Elt F) ℓ} {outs : Outs (F := F)}

set_option backward.isDefEq.respectTransparency.types false in
/-- Region 0 over the thread state: entered from every unscoped buffer at `V1`, left at `V2`. Its arrays are
    split out of the unscoped buffers and put back at the exit contents; the generator register goes into the
    pipeline's invariant and comes back; nothing is owed; the kernel has no semaphore of its own. -/
def reg0 (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (V1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (Vr (V1 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (Vr (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (Vr (V1 m) c) (Vr (V2 m outs) c) ((pdats m outs 0 c).arrAt · cfg0.N) (hF0 h.h0 c) (hrest0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `V2`, left at `V3`. Its arrays are
    split out of the unscoped buffers and put back at the exit contents; the generator register goes into the
    pipeline's invariant and comes back; nothing is owed; the kernel has no semaphore of its own. -/
def reg1 (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (V2 m outs)) c).loose
  hwaits := Pipeline.hwaits_of_owed_zero _ _ _ _ L lv 1 fun _ _ => rfl
  pre c := iprop(StableHlo.held (c : Thread nD τ) (Pipeline.ucRefs τ sig) (V2 m outs c) ∗ R c)
  post c := iprop(StableHlo.held (c : Thread nD τ) (Pipeline.ucRefs τ sig) (V3 m outs c) ∗ R c)
  X c := iprop(∃ r, prngReg c r)
  Y c := iprop(∃ r, prngReg c r)
  Z c := Pipeline.unscopedRest (Ix := Unit) (Name := ℕ) (U := UR sig nD τ) (Lvl := ℕ) spec1 c (Vr (V2 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (Vr (V2 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (Vr (V2 m outs) c) (Vr (V3 m outs) c) ((pdats m outs 1 c).arrAt · cfg1.N) (hF1 h.h1 c) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `V4`, left at `V5`. Its arrays are
    split out of the unscoped buffers and put back at the exit contents; the generator register goes into the
    pipeline's invariant and comes back; nothing is owed; the kernel has no semaphore of its own. -/
def reg2 (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr (V4 m outs)) c).loose
  hwaits := Pipeline.hwaits_of_owed_zero _ _ _ _ L lv 2 fun _ _ => rfl
  pre c := iprop(StableHlo.held (c : Thread nD τ) (Pipeline.ucRefs τ sig) (V4 m outs c) ∗ R c)
  post c := iprop(StableHlo.held (c : Thread nD τ) (Pipeline.ucRefs τ sig) (V5 m outs c) ∗ R c)
  X c := iprop(∃ r, prngReg c r)
  Y c := iprop(∃ r, prngReg c r)
  Z c := Pipeline.unscopedRest (Ix := Unit) (Name := ℕ) (U := UR sig nD τ) (Lvl := ℕ) spec2 c (Vr (V4 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (Vr (V4 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (Vr (V4 m outs) c) (Vr (V5 m outs) c) ((pdats m outs 2 c).arrAt · cfg2.N) (hF2 h.h2 c) (hrest2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `V6`, left at `V7`. Its arrays are
    split out of the unscoped buffers and put back at the exit contents; the generator register goes into the
    pipeline's invariant and comes back; nothing is owed; the kernel has no semaphore of its own. -/
def reg3 (h : OutsOk m outs) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr (V6 m outs)) c).loose
  hwaits := Pipeline.hwaits_of_owed_zero _ _ _ _ L lv 3 fun _ _ => rfl
  pre c := iprop(StableHlo.held (c : Thread nD τ) (Pipeline.ucRefs τ sig) (V6 m outs c) ∗ R c)
  post c := iprop(StableHlo.held (c : Thread nD τ) (Pipeline.ucRefs τ sig) (V7 m outs c) ∗ R c)
  X c := iprop(∃ r, prngReg c r)
  Y c := iprop(∃ r, prngReg c r)
  Z c := Pipeline.unscopedRest (Ix := Unit) (Name := ℕ) (U := UR sig nD τ) (Lvl := ℕ) spec3 c (Vr (V6 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (Vr (V6 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (Vr (V6 m outs) c) (Vr (V7 m outs) c) ((pdats m outs 3 c).arrAt · cfg3.N) (hF3 h.h3 c) (hrest3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.SegsB.lean ====
import proofs.«102211_j33681133535938_1_alg».proof.Proof.KI.SegsBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable {m : (ℓ : Loc nD τ sig) → Buf (Elt F) ℓ} {outs : Outs (F := F)}

set_option backward.isDefEq.respectTransparency.types false in
/-- Region 4 over the thread state: entered from every unscoped buffer at `V8`, left at `V9`. Its arrays are
    split out of the unscoped buffers and put back at the exit contents; the generator register goes into the
    pipeline's invariant and comes back; nothing is owed; the kernel has no semaphore of its own. -/
def reg4 (h : OutsOk m outs) : Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr (V8 m outs)) c).loose
  hwaits := Pipeline.hwaits_of_owed_zero _ _ _ _ L lv 4 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec4 c (Vr (V8 m outs) c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (Vr (V8 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (Vr (V8 m outs) c) (Vr (V9 m outs) c) ((pdats m outs 4 c).arrAt · cfg4.N) (hF4 h.h4 c) (hrest4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `V9`, left at `V10`. Its arrays are
    split out of the unscoped buffers and put back at the exit contents; the generator register goes into the
    pipeline's invariant and comes back; nothing is owed; the kernel has no semaphore of its own. -/
def reg5 (h : OutsOk m outs) : Pipeline.RegionSeg (pcfgs (F := F)) adm (pdats m outs) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr (V9 m outs)) c).loose
  hwaits := Pipeline.hwaits_of_owed_zero _ _ _ _ L lv 5 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec5 c (Vr (V9 m outs) c)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (Vr (V9 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (Vr (V9 m outs) c) (Vr (V10 m outs) c) ((pdats m outs 5 c).arrAt · cfg5.N) (hF5 h.h5 c) (hrest5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `V11`, left at `V12`. Its arrays are
    split out of the unscoped buffers and put back at the exit contents; the generator register goes into the
    pipeline's invariant and comes back; nothing is owed; the kernel has no semaphore of its own. -/
def reg6 (h : OutsOk m outs) : Pipeline.RegionSeg (pcfgs (F := F)) adm (pdats m outs) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vr (V11 m outs)) c).loose
  hwaits := Pipeline.hwaits_of_owed_zero _ _ _ _ L lv 6 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec6 c (Vr (V11 m outs) c)
  hentry c := by
    rw [Pipeline.ownSems0_none]
    have hsplit := Pipeline.arrays_of_unscopedBufs (p := 6) (pcfgs (F := F)) adm (pdats m outs) launch6.win launch6.arr_whole c
      ((pdats m outs 6 c).share_full fun _ => rfl) (Vr (V11 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun _ => rfl)
      (Vr (V11 m outs) c) (Vr (V12 m outs) c) ((pdats m outs 6 c).arrAt · cfg6.N) (hF6 h.h6 c) (hrest6 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `V13`, left at `V14`. Its arrays are
    split out of the unscoped buffers and put back at the exit contents; the generator register goes into the
    pipeline's invariant and comes back; nothing is owed; the kernel has no semaphore of its own. -/
def reg7 (h : OutsOk m outs) : Pipeline.RegionSeg (pcfgs (F := F)) adm (pdats m outs) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vr (V13 m outs)) c).loose
  hwaits := Pipeline.hwaits_of_owed_zero _ _ _ _ L lv 7 fun _ _ => rfl
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec7 c (Vr (V13 m outs) c)
  hentry c := by
    rw [Pipeline.ownSems0_none]
    have hsplit := Pipeline.arrays_of_unscopedBufs (p := 7) (pcfgs (F := F)) adm (pdats m outs) launch7.win launch7.arr_whole c
      ((pdats m outs 7 c).share_full fun _ => rfl) (Vr (V13 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun _ => rfl)
      (Vr (V13 m outs) c) (Vr (V14 m outs) c) ((pdats m outs 7 c).arrAt · cfg7.N) (hF7 h.h7 c) (hrest7 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.SegsC.lean ====
import proofs.«102211_j33681133535938_1_alg».proof.Proof.KI.SegsBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable {m : (ℓ : Loc nD τ sig) → Buf (Elt F) ℓ} {outs : Outs (F := F)}

set_option backward.isDefEq.respectTransparency.types false in
/-- Region 8 over the thread state: entered from every unscoped buffer at `V15`, left at `V16`. Its arrays are
    split out of the unscoped buffers and put back at the exit contents; the generator register goes into the
    pipeline's invariant and comes back; nothing is owed; the kernel has no semaphore of its own. -/
def reg8 (h : OutsOk m outs) : Pipeline.RegionSeg (pcfgs (F := F)) adm (pdats m outs) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vr (V15 m outs)) c).loose
  hwaits := Pipeline.hwaits_of_owed_zero _ _ _ _ L lv 8 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec8 c (Vr (V15 m outs) c)
  hentry c := by
    rw [Pipeline.ownSems0_none]
    have hsplit := Pipeline.arrays_of_unscopedBufs (p := 8) (pcfgs (F := F)) adm (pdats m outs) launch8.win launch8.arr_whole c
      ((pdats m outs 8 c).share_full fun _ => rfl) (Vr (V15 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m outs 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m outs) ((pdats m outs 8 c).share_full fun _ => rfl)
      (Vr (V15 m outs) c) (Vr (V16 m outs) c) ((pdats m outs 8 c).arrAt · cfg8.N) (hF8 h.h8 c) (hrest8 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `V16`, left at `V17`. Its arrays are
    split out of the unscoped buffers and put back at the exit contents; the generator register goes into the
    pipeline's invariant and comes back; nothing is owed; the kernel has no semaphore of its own. -/
def reg9 (h : OutsOk m outs) : Pipeline.RegionSeg (pcfgs (F := F)) adm (pdats m outs) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vr (V16 m outs)) c).loose
  hwaits := Pipeline.hwaits_of_owed_zero _ _ _ _ L lv 9 fun _ _ => rfl
  pre c := iprop(StableHlo.held (c : Thread nD τ) (Pipeline.ucRefs τ sig) (V16 m outs c) ∗ R c)
  post c := iprop(StableHlo.held (c : Thread nD τ) (Pipeline.ucRefs τ sig) (V17 m outs c) ∗ R c)
  X c := iprop(∃ r, prngReg c r)
  Y c := iprop(∃ r, prngReg c r)
  Z c := Pipeline.unscopedRest (Ix := Unit) (Name := ℕ) (U := UR sig nD τ) (Lvl := ℕ) spec9 c (Vr (V16 m outs) c)
  hentry c := by
    rw [Pipeline.ownSems0_none]
    have hsplit := Pipeline.arrays_of_unscopedBufs (p := 9) (pcfgs (F := F)) adm (pdats m outs) launch9.win launch9.arr_whole c
      ((pdats m outs 9 c).share_full fun _ => rfl) (Vr (V16 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m outs 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m outs) ((pdats m outs 9 c).share_full fun _ => rfl)
      (Vr (V16 m outs) c) (Vr (V17 m outs) c) ((pdats m outs 9 c).arrAt · cfg9.N) (hF9 h.h9 c) (hrest9 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `V18`, left at `V19`. Its arrays are
    split out of the unscoped buffers and put back at the exit contents; the generator register goes into the
    pipeline's invariant and comes back; nothing is owed; the kernel has no semaphore of its own. -/
def reg10 (h : OutsOk m outs) : Pipeline.RegionSeg (pcfgs (F := F)) adm (pdats m outs) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vr (V18 m outs)) c).loose
  hwaits := Pipeline.hwaits_of_owed_zero _ _ _ _ L lv 10 fun _ _ => rfl
  pre c := iprop(StableHlo.held (c : Thread nD τ) (Pipeline.ucRefs τ sig) (V18 m outs c) ∗ R c)
  post c := iprop(StableHlo.held (c : Thread nD τ) (Pipeline.ucRefs τ sig) (V19 m outs c) ∗ R c)
  X c := iprop(∃ r, prngReg c r)
  Y c := iprop(∃ r, prngReg c r)
  Z c := Pipeline.unscopedRest (Ix := Unit) (Name := ℕ) (U := UR sig nD τ) (Lvl := ℕ) spec10 c (Vr (V18 m outs) c)
  hentry c := by
    rw [Pipeline.ownSems0_none]
    have hsplit := Pipeline.arrays_of_unscopedBufs (p := 10) (pcfgs (F := F)) adm (pdats m outs) launch10.win launch10.arr_whole c
      ((pdats m outs 10 c).share_full fun _ => rfl) (Vr (V18 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m outs 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m outs) ((pdats m outs 10 c).share_full fun _ => rfl)
      (Vr (V18 m outs) c) (Vr (V19 m outs) c) ((pdats m outs 10 c).arrAt · cfg10.N) (hF10 h.h10 c) (hrest10 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at `V20`, left at `V21`. Its arrays are
    split out of the unscoped buffers and put back at the exit contents; the generator register goes into the
    pipeline's invariant and comes back; nothing is owed; the kernel has no semaphore of its own. -/
def reg11 (h : OutsOk m outs) : Pipeline.RegionSeg (pcfgs (F := F)) adm (pdats m outs) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vr (V20 m outs)) c).loose
  hwaits := Pipeline.hwaits_of_owed_zero _ _ _ _ L lv 11 fun _ _ => rfl
  pre c := iprop(StableHlo.held (c : Thread nD τ) (Pipeline.ucRefs τ sig) (V20 m outs c) ∗ R c)
  post c := iprop(StableHlo.held (c : Thread nD τ) (Pipeline.ucRefs τ sig) (V21 m outs c) ∗ R c)
  X c := iprop(∃ r, prngReg c r)
  Y c := iprop(∃ r, prngReg c r)
  Z c := Pipeline.unscopedRest (Ix := Unit) (Name := ℕ) (U := UR sig nD τ) (Lvl := ℕ) spec11 c (Vr (V20 m outs) c)
  hentry c := by
    rw [Pipeline.ownSems0_none]
    have hsplit := Pipeline.arrays_of_unscopedBufs (p := 11) (pcfgs (F := F)) adm (pdats m outs) launch11.win launch11.arr_whole c
      ((pdats m outs 11 c).share_full fun _ => rfl) (Vr (V20 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m outs 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m outs) ((pdats m outs 11 c).share_full fun _ => rfl)
      (Vr (V20 m outs) c) (Vr (V21 m outs) c) ((pdats m outs 11 c).arrAt · cfg11.N) (hF11 h.h11 c) (hrest11 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run.lean ====
import proofs.«102211_j33681133535938_1_alg».proof.Proof.KI.SegsA
import proofs.«102211_j33681133535938_1_alg».proof.Proof.KI.SegsB
import proofs.«102211_j33681133535938_1_alg».proof.Proof.KI.SegsC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable {m : (ℓ : Loc nD τ sig) → Buf (Elt F) ℓ} {outs : Outs (F := F)}

/-! # The run of the whole program

Every weakly fair execution of the program from memory `m` terminates, and every final memory holds each unscoped
buffer at the last valuation `V21`: the launch, the host stretches and the twelve regions chained as segments. -/

/-- The last region's exit state, regrouped: the buffers and the generator register beside the core's debts. -/
theorem last_state (c : Dev nD) (W : Valuation τ sig (Elt F)) :
    (iprop(StableHlo.held (c : Thread nD τ) (Pipeline.ucRefs τ sig) W ∗ R c) : sProp 𝕄)
      ⊢ iprop((StableHlo.held (c : Thread nD τ) (Pipeline.ucRefs τ sig) W ∗ ∃ r, prngReg c r)
          ∗ ∃ W', owes (c : Thread nD τ) (0 : CellTallies nD τ sig Unit) W') := by
  iintro ⟨Hh, Hp, HO⟩
  isplitl [Hh Hp]
  · isplitl [Hh]; · iexact Hh
    iexact Hp
  iexact HO

set_option backward.isDefEq.respectTransparency.types false in
theorem run_all (ρ : Dev nD → PrngReg) (h : OutsOk m outs) :
    θ_run defs (onTc (τ := τ) (main (F := F))) ⟨m, fun _ => 0, ρ⟩
      (fun r => ∀ c : Dev nD, ∀ b ∈ Pipeline.ucRefs τ sig, r.2.mem (((c : Thread nD τ)).1, b) = V21 m outs c b) := by
  refine Pipeline.θ_run_regions_kit_dev (pcfgs (F := F)) adm (pdats m outs) () cellOf_inj emb₁ defs₀ 𝒱₀ L lv m ρ main
    (segs m outs 𝒱₀ L lv (fun _ => R) () (pdats m outs) (reg0 h) (reg1 h) (reg2 h) (reg3 h) (reg4 h) (reg5 h) (reg6 h) (reg7 h) (reg8 h) (reg9 h) (reg10 h) (reg11 h))
    (fun c Q => by
      rewrite [main_chain c, Seg.run_eq_chain,
        show (segs m outs 𝒱₀ L lv (fun _ => R) () (pdats m outs) (reg0 h) (reg1 h) (reg2 h) (reg3 h) (reg4 h) (reg5 h) (reg6 h) (reg7 h) (reg8 h) (reg9 h) (reg10 h) (reg11 h) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          Prog.lift (.customCall (Pipeline.entry 10) ()),
          StableHlo.seq hostOps11,
          Prog.lift (.customCall (Pipeline.entry 11) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V21 m outs c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, .rfl, last_state c _⟩)
    (hinit := ?_)
    (QY := fun c s => ∀ b ∈ Pipeline.ucRefs τ sig, s.mem (((c : Thread nD τ)).1, b) = V21 m outs c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (V21 m outs c) s')
    isplitl [Hh] <;> iassumption

end Cert.KernelIdeal.Fr

end
-- ==== Proof.KI.Outs.lean ====
import proofs.«102211_j33681133535938_1_alg».proof.Proof.KI.Vals

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! # The contents the regions leave, concretely

`U0 … U21` are the buffers' contents after each item of the program: a host stretch applies its operations; a region
replaces its output array by what its write-backs leave of it, computed from the contents the region is entered
from. `outs` reads them back, and with it the generated valuations `V0 … V21` ARE these. -/

abbrev U0 (c : Dev nD) : Valuation τ sig (Elt F) := fun b => m (c, b)
abbrev U1 (c : Dev nD) : Valuation τ sig (Elt F) := StableHlo.after hostOps0 (U0 m c)
def U2 (c : Dev nD) : Valuation τ sig (Elt F) :=
  Function.update (U1 m c) main_v33 ((dat0 (Vr (U1 m)) c).arrAt 2 cfg0.N)
def U3 (c : Dev nD) : Valuation τ sig (Elt F) :=
  Function.update (U2 m c) main_v34 ((dat1 (Vr (U2 m)) c).arrAt 2 cfg1.N)
abbrev U4 (c : Dev nD) : Valuation τ sig (Elt F) := StableHlo.after hostOps2 (U3 m c)
def U5 (c : Dev nD) : Valuation τ sig (Elt F) :=
  Function.update (U4 m c) main_v79 ((dat2 (Vr (U4 m)) c).arrAt 6 cfg2.N)
abbrev U6 (c : Dev nD) : Valuation τ sig (Elt F) := StableHlo.after hostOps3 (U5 m c)
def U7 (c : Dev nD) : Valuation τ sig (Elt F) :=
  Function.update (U6 m c) main_v81 ((dat3 (Vr (U6 m)) c).arrAt 3 cfg3.N)
abbrev U8 (c : Dev nD) : Valuation τ sig (Elt F) := StableHlo.after hostOps4 (U7 m c)
def U9 (c : Dev nD) : Valuation τ sig (Elt F) :=
  Function.update (U8 m c) main_v84 ((dat4 (Vr (U8 m)) c).arrAt 2 cfg4.N)
def U10 (c : Dev nD) : Valuation τ sig (Elt F) :=
  Function.update (U9 m c) main_v85 ((dat5 (Vr (U9 m)) c).arrAt 2 cfg5.N)
abbrev U11 (c : Dev nD) : Valuation τ sig (Elt F) := StableHlo.after hostOps6 (U10 m c)
def U12 (c : Dev nD) : Valuation τ sig (Elt F) :=
  Function.update (U11 m c) main_v130 ((dat6 (Vr (U11 m)) c).arrAt 6 cfg6.N)
abbrev U13 (c : Dev nD) : Valuation τ sig (Elt F) := StableHlo.after hostOps7 (U12 m c)
def U14 (c : Dev nD) : Valuation τ sig (Elt F) :=
  Function.update (U13 m c) main_v132 ((dat7 (Vr (U13 m)) c).arrAt 3 cfg7.N)
abbrev U15 (c : Dev nD) : Valuation τ sig (Elt F) := StableHlo.after hostOps8 (U14 m c)
def U16 (c : Dev nD) : Valuation τ sig (Elt F) :=
  Function.update (U15 m c) main_v135 ((dat8 (Vr (U15 m)) c).arrAt 2 cfg8.N)
def U17 (c : Dev nD) : Valuation τ sig (Elt F) :=
  Function.update (U16 m c) main_v136 ((dat9 (Vr (U16 m)) c).arrAt 2 cfg9.N)
abbrev U18 (c : Dev nD) : Valuation τ sig (Elt F) := StableHlo.after hostOps10 (U17 m c)
def U19 (c : Dev nD) : Valuation τ sig (Elt F) :=
  Function.update (U18 m c) main_v181 ((dat10 (Vr (U18 m)) c).arrAt 6 cfg10.N)
abbrev U20 (c : Dev nD) : Valuation τ sig (Elt F) := StableHlo.after hostOps11 (U19 m c)
def U21 (c : Dev nD) : Valuation τ sig (Elt F) :=
  Function.update (U20 m c) main_v183 ((dat11 (Vr (U20 m)) c).arrAt 3 cfg11.N)

/-- The contents after item `J − 1`, read at a reference. -/
def outs : Outs (F := F) := fun J r c =>
  match J with
  | 2 => U2 m c r
  | 3 => U3 m c r
  | 5 => U5 m c r
  | 7 => U7 m c r
  | 9 => U9 m c r
  | 10 => U10 m c r
  | 12 => U12 m c r
  | 14 => U14 m c r
  | 16 => U16 m c r
  | 17 => U17 m c r
  | 19 => U19 m c r
  | 21 => U21 m c r
  | _ => U0 m c r

theorem V1_eq : V1 m = U1 m := rfl
theorem V2_eq : V2 m (outs m) = U2 m := by
  funext c; show Function.update (V1 m c) main_v33 (U2 m c main_v33) = _
  rw [V1_eq]; simp only [U2, Function.update_self]
theorem V3_eq : V3 m (outs m) = U3 m := by
  funext c; show Function.update (V2 m (outs m) c) main_v34 (U3 m c main_v34) = _
  rw [V2_eq]; simp only [U3, Function.update_self]
theorem V4_eq : V4 m (outs m) = U4 m := by
  funext c; show StableHlo.after hostOps2 (V3 m (outs m) c) = _; rw [V3_eq]
theorem V5_eq : V5 m (outs m) = U5 m := by
  funext c; show Function.update (V4 m (outs m) c) main_v79 (U5 m c main_v79) = _
  rw [V4_eq]; simp only [U5, Function.update_self]
theorem V6_eq : V6 m (outs m) = U6 m := by
  funext c; show StableHlo.after hostOps3 (V5 m (outs m) c) = _; rw [V5_eq]
theorem V7_eq : V7 m (outs m) = U7 m := by
  funext c; show Function.update (V6 m (outs m) c) main_v81 (U7 m c main_v81) = _
  rw [V6_eq]; simp only [U7, Function.update_self]
theorem V8_eq : V8 m (outs m) = U8 m := by
  funext c; show StableHlo.after hostOps4 (V7 m (outs m) c) = _; rw [V7_eq]
theorem V9_eq : V9 m (outs m) = U9 m := by
  funext c; show Function.update (V8 m (outs m) c) main_v84 (U9 m c main_v84) = _
  rw [V8_eq]; simp only [U9, Function.update_self]
theorem V10_eq : V10 m (outs m) = U10 m := by
  funext c; show Function.update (V9 m (outs m) c) main_v85 (U10 m c main_v85) = _
  rw [V9_eq]; simp only [U10, Function.update_self]
theorem V11_eq : V11 m (outs m) = U11 m := by
  funext c; show StableHlo.after hostOps6 (V10 m (outs m) c) = _; rw [V10_eq]
theorem V12_eq : V12 m (outs m) = U12 m := by
  funext c; show Function.update (V11 m (outs m) c) main_v130 (U12 m c main_v130) = _
  rw [V11_eq]; simp only [U12, Function.update_self]
theorem V13_eq : V13 m (outs m) = U13 m := by
  funext c; show StableHlo.after hostOps7 (V12 m (outs m) c) = _; rw [V12_eq]
theorem V14_eq : V14 m (outs m) = U14 m := by
  funext c; show Function.update (V13 m (outs m) c) main_v132 (U14 m c main_v132) = _
  rw [V13_eq]; simp only [U14, Function.update_self]
theorem V15_eq : V15 m (outs m) = U15 m := by
  funext c; show StableHlo.after hostOps8 (V14 m (outs m) c) = _; rw [V14_eq]
theorem V16_eq : V16 m (outs m) = U16 m := by
  funext c; show Function.update (V15 m (outs m) c) main_v135 (U16 m c main_v135) = _
  rw [V15_eq]; simp only [U16, Function.update_self]
theorem V17_eq : V17 m (outs m) = U17 m := by
  funext c; show Function.update (V16 m (outs m) c) main_v136 (U17 m c main_v136) = _
  rw [V16_eq]; simp only [U17, Function.update_self]
theorem V18_eq : V18 m (outs m) = U18 m := by
  funext c; show StableHlo.after hostOps10 (V17 m (outs m) c) = _; rw [V17_eq]
theorem V19_eq : V19 m (outs m) = U19 m := by
  funext c; show Function.update (V18 m (outs m) c) main_v181 (U19 m c main_v181) = _
  rw [V18_eq]; simp only [U19, Function.update_self]
theorem V20_eq : V20 m (outs m) = U20 m := by
  funext c; show StableHlo.after hostOps11 (V19 m (outs m) c) = _; rw [V19_eq]
theorem V21_eq : V21 m (outs m) = U21 m := by
  funext c; show Function.update (V20 m (outs m) c) main_v183 (U21 m c main_v183) = _
  rw [V20_eq]; simp only [U21, Function.update_self]

/-- `outs` is, at each region's output, what that region leaves there. -/
theorem outsOk : OutsOk m (outs m) where
  h0 c := by
    show U2 m c main_v33 = _
    rw [V1_eq]; simp only [U2, Function.update_self]
  h1 c := by
    show U3 m c main_v34 = _
    rw [V2_eq]; simp only [U3, Function.update_self]
  h2 c := by
    show U5 m c main_v79 = _
    rw [V4_eq]; simp only [U5, Function.update_self]
  h3 c := by
    show U7 m c main_v81 = _
    rw [V6_eq]; simp only [U7, Function.update_self]
  h4 c := by
    show U9 m c main_v84 = _
    rw [V8_eq]; simp only [U9, Function.update_self]
  h5 c := by
    show U10 m c main_v85 = _
    rw [V9_eq]; simp only [U10, Function.update_self]
  h6 c := by
    show U12 m c main_v130 = _
    rw [V11_eq]; simp only [U12, Function.update_self]
  h7 c := by
    show U14 m c main_v132 = _
    rw [V13_eq]; simp only [U14, Function.update_self]
  h8 c := by
    show U16 m c main_v135 = _
    rw [V15_eq]; simp only [U16, Function.update_self]
  h9 c := by
    show U17 m c main_v136 = _
    rw [V16_eq]; simp only [U17, Function.update_self]
  h10 c := by
    show U19 m c main_v181 = _
    rw [V18_eq]; simp only [U19, Function.update_self]
  h11 c := by
    show U21 m c main_v183 = _
    rw [V20_eq]; simp only [U21, Function.update_self]

end Cert.KernelIdeal.Fr

end
-- ==== Proof.KI.Frames.lean ====
import proofs.«102211_j33681133535938_1_alg».proof.Proof.KI.Run
import proofs.«102211_j33681133535938_1_alg».proof.Proof.KI.Outs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, and every argument array ends as launched:
    no host stretch writes an argument and no region may change one, so the last valuation at an argument walks back
    to the launch memory. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c =>
    ⟨(h c (Proc.devRef .tc main_arg0) (mem_uc main_arg0 (by decide))).trans (V21_main_arg0 m (outs m) c),
     (h c (Proc.devRef .tc main_arg1) (mem_uc main_arg1 (by decide))).trans (V21_main_arg1 m (outs m) c),
     (h c (Proc.devRef .tc main_arg2) (mem_uc main_arg2 (by decide))).trans (V21_main_arg2 m (outs m) c),
     (h c (Proc.devRef .tc main_arg3) (mem_uc main_arg3 (by decide))).trans (V21_main_arg3 m (outs m) c),
     (h c (Proc.devRef .tc main_arg4) (mem_uc main_arg4 (by decide))).trans (V21_main_arg4 m (outs m) c),
     (h c (Proc.devRef .tc main_arg5) (mem_uc main_arg5 (by decide))).trans (V21_main_arg5 m (outs m) c),
     (h c (Proc.devRef .tc main_arg6) (mem_uc main_arg6 (by decide))).trans (V21_main_arg6 m (outs m) c),
     (h c (Proc.devRef .tc main_arg7) (mem_uc main_arg7 (by decide))).trans (V21_main_arg7 m (outs m) c),
     (h c (Proc.devRef .tc main_arg8) (mem_uc main_arg8 (by decide))).trans (V21_main_arg8 m (outs m) c),
     (h c (Proc.devRef .tc main_arg9) (mem_uc main_arg9 (by decide))).trans (V21_main_arg9 m (outs m) c),
     (h c (Proc.devRef .tc main_arg10) (mem_uc main_arg10 (by decide))).trans (V21_main_arg10 m (outs m) c),
     (h c (Proc.devRef .tc main_arg11) (mem_uc main_arg11 (by decide))).trans (V21_main_arg11 m (outs m) c),
     (h c (Proc.devRef .tc main_arg12) (mem_uc main_arg12 (by decide))).trans (V21_main_arg12 m (outs m) c),
     (h c (Proc.devRef .tc main_arg13) (mem_uc main_arg13 (by decide))).trans (V21_main_arg13 m (outs m) c),
     (h c (Proc.devRef .tc main_arg14) (mem_uc main_arg14 (by decide))).trans (V21_main_arg14 m (outs m) c),
     (h c (Proc.devRef .tc main_arg15) (mem_uc main_arg15 (by decide))).trans (V21_main_arg15 m (outs m) c),
     (h c (Proc.devRef .tc main_arg16) (mem_uc main_arg16 (by decide))).trans (V21_main_arg16 m (outs m) c),
     (h c (Proc.devRef .tc main_arg17) (mem_uc main_arg17 (by decide))).trans (V21_main_arg17 m (outs m) c),
     (h c (Proc.devRef .tc main_arg18) (mem_uc main_arg18 (by decide))).trans (V21_main_arg18 m (outs m) c),
     (h c (Proc.devRef .tc main_arg19) (mem_uc main_arg19 (by decide))).trans (V21_main_arg19 m (outs m) c),
     (h c (Proc.devRef .tc main_arg20) (mem_uc main_arg20 (by decide))).trans (V21_main_arg20 m (outs m) c),
     (h c (Proc.devRef .tc main_arg21) (mem_uc main_arg21 (by decide))).trans (V21_main_arg21 m (outs m) c),
     (h c (Proc.devRef .tc main_arg22) (mem_uc main_arg22 (by decide))).trans (V21_main_arg22 m (outs m) c),
     (h c (Proc.devRef .tc main_arg23) (mem_uc main_arg23 (by decide))).trans (V21_main_arg23 m (outs m) c),
     (h c (Proc.devRef .tc main_arg24) (mem_uc main_arg24 (by decide))).trans (V21_main_arg24 m (outs m) c),
     (h c (Proc.devRef .tc main_arg25) (mem_uc main_arg25 (by decide))).trans (V21_main_arg25 m (outs m) c),
     (h c (Proc.devRef .tc main_arg26) (mem_uc main_arg26 (by decide))).trans (V21_main_arg26 m (outs m) c),
     (h c (Proc.devRef .tc main_arg27) (mem_uc main_arg27 (by decide))).trans (V21_main_arg27 m (outs m) c),
     (h c (Proc.devRef .tc main_arg28) (mem_uc main_arg28 (by decide))).trans (V21_main_arg28 m (outs m) c),
     (h c (Proc.devRef .tc main_arg29) (mem_uc main_arg29 (by decide))).trans (V21_main_arg29 m (outs m) c),
     (h c (Proc.devRef .tc main_arg30) (mem_uc main_arg30 (by decide))).trans (V21_main_arg30 m (outs m) c),
     (h c (Proc.devRef .tc main_arg31) (mem_uc main_arg31 (by decide))).trans (V21_main_arg31 m (outs m) c)⟩)
    (run_all ρ (outsOk m))

end Cert.KernelIdeal.Fr

end
-- ==== Proof.LibDotRows.lean ====
import Idealize.ShloMosaic.PureOps.Ideal.Laws
import Idealize.ShloMosaic.Lib.ValueIdx

noncomputable section

open scoped BigOperators

/-! # A product of rows by rows, read at an index

A block product `[M,K] · [P,K]ᵀ`: both operands contract their SECOND axis, there is no batch axis, and the result's
two axes are the operands' first axes. At the ideal values, accumulated into the zero splat, its entry `(p, q)` is
`∑ k, l (p, k) * r (q, k)`. The dimension numbers are a parameter: the statement holds for every record of that form. -/

namespace Cert.LibDotRows

open Idealize.ShloMosaic Idealize.ShloMosaic.ValueIdx

variable {M K P : Nat} (d : DotDims ⟨2, ![M, K]⟩ ⟨2, ![P, K]⟩ ⟨2, ![M, P]⟩)

/-- The dimension numbers of a product of rows by rows: each operand contracts its second axis and keeps its first;
    no batch axes. -/
structure RowsByRows : Prop where
  lc : d.lhsContracting = [1]
  rc : d.rhsContracting = [1]
  ln : d.lhsNonContracting = [0]
  rn : d.rhsNonContracting = [0]
  lb : d.lhsBatch = []
  rb : d.rhsBatch = []

variable {d}

/-- The left operand's row is the result's row. -/
theorem lhsIdx_row (h : RowsByRows d) (j : (⟨2, ![M, P]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < 2) (hb : b < 2), a = b → (j ⟨a, ha⟩).val = (j ⟨b, hb⟩).val :=
    fun a b ha hb e => by subst e; rfl
  exact key _ 0 _ (by omega) (by simp [h.lb, h.ln])

/-- The right operand's row is the result's column. -/
theorem rhsIdx_row (h : RowsByRows d) (j : (⟨2, ![M, P]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < 2) (hb : b < 2), a = b → (j ⟨a, ha⟩).val = (j ⟨b, hb⟩).val :=
    fun a b ha hb e => by subst e; rfl
  exact key _ 1 _ (by omega) (by simp [h.lb, h.ln, h.rn])

theorem contr_rank (h : RowsByRows d) : d.contr.rank = 1 := by rw [d.rank_contr, h.lc]; rfl

theorem contr_size (h : RowsByRows d) : d.contr.size ⟨0, by rw [contr_rank h]; exact Nat.one_pos⟩ = K := by
  rw [d.size_contr 0 (by rw [h.lc]; exact Nat.one_pos)]
  simp [h.lc]

/-- THE PRODUCT AT AN ENTRY: row `p` of the left operand against row `q` of the right one. -/
theorem matmul_rows_apply (h : RowsByRows d) {φ₁ φ₂ : FTy} (prec : Option ContractPrecision)
    (lhs : FVec Ideal ⟨2, ![M, K]⟩ φ₁) (rhs : FVec Ideal ⟨2, ![P, K]⟩ φ₂) (p : Fin M) (q : Fin P) :
    FloatOps.matmul d prec lhs rhs (constant (F := Ideal) ⟨2, ![M, P]⟩ .f32 0x00000000#32) (ix2 p q)
      = ∑ k : Fin K, lhs (ix2 p k) * rhs (ix2 q k) := by
  rw [Ideal.matmul_constant_zero_apply, ← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhsIdx_row h _ _
      | ⟨1, _⟩ => exact (d.lhsIdx_val_of_single h.lc _ _).trans hk)
  have er : d.rhsIdx (ix2 p q) ((contrEquiv1 d K (contr_rank h) (contr_size h)).symm k) = ix2 q k :=
    funext fun a => Fin.ext (by
      match a with
      | ⟨0, _⟩ => exact rhsIdx_row h _ _
      | ⟨1, _⟩ => exact (d.rhsIdx_val_of_single h.rc _ _).trans hk)
  rw [el, er]

end Cert.LibDotRows

end
-- ==== Proof.KV.V0.lean ====
import proofs.«102211_j33681133535938_1_alg».proof.Proof.KI.R0
import proofs.«102211_j33681133535938_1_alg».proof.Proof.LibDotRows
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr Cert.LibDotRows

variable (V : (c : Dev nD) → (b : Ref sig .tc) → Buf (Elt Ideal) ((c : Thread nD τ).loc b))

/-! # Region 0, read: the product `X · Wᵀ` of a `40000 × 980` array by a `1024 × 980` table, entry by entry

The region walks the left operand in 20 blocks of 2000 rows; every point sees the whole table. Entry `(p, q)` of the
result is `∑ k, X (p, k) * W (q, k)`: the narrowing of the operands before the product is the identity on exact values,
and the product accumulates into zero. -/

/-- The whole result as one function of the two arrays. -/
def mm0 (X : S40000x980.Idx → EReal) (W : S1024x980.Idx → EReal) : S40000x1024.Idx → EReal :=
  fun i => ∑ k : Fin 980, X (ix2 (i 0) k) * W (ix2 (i 1) k)

/-- The left array and the table as the region finds them, at their literal index types. -/
abbrev xArr0 (c : Dev nD) : S40000x980.Idx → EReal := V c main_arg0
abbrev wArr0 (c : Dev nD) : S1024x980.Idx → EReal := V c main_v31

/-- The result array after the region's last point, at its literal index type. -/
abbrev oArr0 (c : Dev nD) : S40000x1024.Idx → EReal := (dat0 V c).arrAt 2 cfg0.N

theorem dotRows0 : RowsByRows dot_S2000x980_S1024x980_S2000x1024_1_1_0_0_n_n := ⟨rfl, rfl, rfl, rfl, rfl, rfl⟩

/-- The body's product of two loaded blocks at an entry: block row `p` against table row `q`. -/
theorem pay0_apply (x0 : Vec Ideal S2000x980 .f32) (x1 : Vec Ideal S1024x980 .f32) (p : Fin 2000) (q : Fin 1024) :
    k0_pay1 x0 x1 (ix2 p q) = ∑ k : Fin 980, x0 (ix2 p k) * x1 (ix2 q k) := by
  unfold k0_pay1
  simp only [shapeCast_self]
  exact matmul_rows_apply dotRows0 none _ _ p q

theorem hz0 : (![0, 0] : Fin 2 → Nat) = fun _ => 0 := funext fun a => by fin_cases a <;> rfl

/-- The printed index maps over the grid: the left operand's and the result's row blocks are the point's, every other
    block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed0_eq (c : Dev nD) (t : Fin cfg0.N) :
    (dat0 V c).flushed 2 t = ((cfg0.win 2).blk t).view.read (Elt Ideal) (mm0 (xArr0 V c) (wArr0 V c)) := by
  show (cfg0.win 2).cut (grid0.coords t) ((dat0 V c).after 2 t) = _
  rw [after0_2]
  unfold out0_2
  rw [View.canon_unit_zero hz0]
  simp only [View.ld_unit_zero (S := S2000x980) hz0, View.ld_unit_zero (S := S1024x980) hz0]
  obtain ⟨e0, e1, e2, e3, e4, e5⟩ := idx_facts0 t
  funext j
  obtain ⟨p, q, rfl⟩ : ∃ (p : Fin 2000) (q : Fin 1024), j = ix2 p q := ⟨j 0, j 1, eq_ix2 j⟩
  refine (pay0_apply (iblk0 V c 0 t) (iblk0 V c 1 t) p q).trans ?_
  show ∑ k : Fin 980, xArr0 V c (((cfg0.win 0).blk t).view.emb (ix2 p k)) * wArr0 V c (((cfg0.win 1).blk t).view.emb (ix2 q k))
    = ∑ k : Fin 980, xArr0 V c (ix2 ((((cfg0.win 2).blk t).view.emb (ix2 p q)) 0) k) * wArr0 V c (ix2 ((((cfg0.win 2).blk t).view.emb (ix2 p q)) 1) k)
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 980 + 1 * k.val = k.val; omega
  have h1 : ((cfg0.win 1).blk t).view.emb (ix2 q k) = ix2 ((((cfg0.win 2).blk t).view.emb (ix2 p q)) 1) k := by
    funext a; apply Fin.ext
    match a with
    | ⟨0, _⟩ => show win0_1.index t (0 : Fin 2) * 1024 + 1 * q.val = win0_2.index t (1 : Fin 2) * 1024 + 1 * q.val; omega
    | ⟨1, _⟩ => show win0_1.index t (1 : Fin 2) * 980 + 1 * k.val = k.val; omega
  exact congrArg₂ (fun a b => xArr0 V c a * wArr0 V c b) h0 h1

/-- An index of the result is in point `t`'s block iff each coordinate is in the block's range on its axis. -/
theorem mem_blk0 (t : Fin cfg0.N) (i : S40000x1024.Idx) :
    i ∈ ((cfg0.win 2).blk t).view.set ↔ ∀ a : Fin 2, win0_2.index t a * S2000x1024.size a ≤ (i a).val ∧ (i a).val < win0_2.index t a * S2000x1024.size a + S2000x1024.size a := by
  show i ∈ ((View.whole main_v33).slice (win0_2.rect t)).set ↔ _
  rw [View.set_slice_whole, Rect.mem_set_unit]
  exact Iff.rfl

/-- Row `r` of the result is written by point `r / 2000`. -/
theorem cover0 (i : S40000x1024.Idx) : ∃ t : Fin cfg0.N, (cfg0.win 2).flush t = true ∧ i ∈ ((cfg0.win 2).blk t).view.set := by
  have hi0 : (i 0).val < 40000 := (i 0).isLt
  have hi1 : (i 1).val < 1024 := (i 1).isLt
  have hN : cfg0.N = 20 := N_0
  let t : Fin cfg0.N := ⟨(i 0).val / 2000, by rw [hN]; omega⟩
  obtain ⟨e0, e1, e2, e3, e4, e5⟩ := idx_facts0 t
  have ht : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 1024 ≤ (i 1).val ∧ (i 1).val < win0_2.index t (1 : Fin 2) * 1024 + 1024; omega

/-- THE RESULT ARRAY after the region: the product of the two arrays as the region finds them. -/
theorem final_arr0 (c : Dev nD) :
    (dat0 V c).arrAt 2 cfg0.N = mm0 (xArr0 V c) (wArr0 V c) :=
  (dat0 V c).arrAt_eq_of_cover 2 (mm0 (xArr0 V c) (wArr0 V c)) (fun t _ => flushed0_eq V c t) (cover0)

/-- Entry `(p, q)` of the result: row `p` of the left array against row `q` of the table. -/
theorem final_mm0 (c : Dev nD) (p : Fin 40000) (q : Fin 1024) :
    oArr0 V c (ix2 p q) = ∑ k : Fin 980, xArr0 V c (ix2 p k) * wArr0 V c (ix2 q k) :=
  congrFun (final_arr0 V c) (ix2 p q)

end Cert.KernelIdeal.Val

end
-- ==== Proof.KV.V1.lean ====
import proofs.«102211_j33681133535938_1_alg».proof.Proof.KI.R1
import proofs.«102211_j33681133535938_1_alg».proof.Proof.LibDotRows
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr Cert.LibDotRows

variable (V : (c : Dev nD) → (b : Ref sig .tc) → Buf (Elt Ideal) ((c : Thread nD τ).loc b))

/-! # Region 1, read: the product `X · Wᵀ` of a `15000 × 5` array by a `512 × 5` table, entry by entry

The region walks the left operand in 5 blocks of 3000 rows; every point sees the whole table. Entry `(p, q)` of the
result is `∑ k, X (p, k) * W (q, k)`: the narrowing of the operands before the product is the identity on exact values,
and the product accumulates into zero. -/

/-- The whole result as one function of the two arrays. -/
def mm1 (X : S15000x5.Idx → EReal) (W : S512x5.Idx → EReal) : S15000x512.Idx → EReal :=
  fun i => ∑ k : Fin 5, X (ix2 (i 0) k) * W (ix2 (i 1) k)

/-- The left array and the table as the region finds them, at their literal index types. -/
abbrev xArr1 (c : Dev nD) : S15000x5.Idx → EReal := V c main_arg1
abbrev wArr1 (c : Dev nD) : S512x5.Idx → EReal := V c main_v32

/-- The result array after the region's last point, at its literal index type. -/
abbrev oArr1 (c : Dev nD) : S15000x512.Idx → EReal := (dat1 V c).arrAt 2 cfg1.N

theorem dotRows1 : RowsByRows dot_S3000x5_S512x5_S3000x512_1_1_0_0_n_n := ⟨rfl, rfl, rfl, rfl, rfl, rfl⟩

/-- The body's product of two loaded blocks at an entry: block row `p` against table row `q`. -/
theorem pay1_apply (x0 : Vec Ideal S3000x5 .f32) (x1 : Vec Ideal S512x5 .f32) (p : Fin 3000) (q : Fin 512) :
    k1_pay1 x0 x1 (ix2 p q) = ∑ k : Fin 5, x0 (ix2 p k) * x1 (ix2 q k) := by
  unfold k1_pay1
  simp only [shapeCast_self]
  exact matmul_rows_apply dotRows1 none _ _ p q

theorem hz1 : (![0, 0] : Fin 2 → Nat) = fun _ => 0 := funext fun a => by fin_cases a <;> rfl

/-- The printed index maps over the grid: the left operand's and the result's row blocks are the point's, every other
    block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays as the region finds them. -/
theorem flushed1_eq (c : Dev nD) (t : Fin cfg1.N) :
    (dat1 V c).flushed 2 t = ((cfg1.win 2).blk t).view.read (Elt Ideal) (mm1 (xArr1 V c) (wArr1 V c)) := by
  show (cfg1.win 2).cut (grid1.coords t) ((dat1 V c).after 2 t) = _
  rw [after1_2]
  unfold out1_2
  rw [View.canon_unit_zero hz1]
  simp only [View.ld_unit_zero (S := S3000x5) hz1, View.ld_unit_zero (S := S512x5) hz1]
  obtain ⟨e0, e1, e2, e3, e4, e5⟩ := idx_facts1 t
  funext j
  obtain ⟨p, q, rfl⟩ : ∃ (p : Fin 3000) (q : Fin 512), j = ix2 p q := ⟨j 0, j 1, eq_ix2 j⟩
  refine (pay1_apply (iblk1 V c 0 t) (iblk1 V c 1 t) p q).trans ?_
  show ∑ k : Fin 5, xArr1 V c (((cfg1.win 0).blk t).view.emb (ix2 p k)) * wArr1 V c (((cfg1.win 1).blk t).view.emb (ix2 q k))
    = ∑ k : Fin 5, xArr1 V c (ix2 ((((cfg1.win 2).blk t).view.emb (ix2 p q)) 0) k) * wArr1 V c (ix2 ((((cfg1.win 2).blk t).view.emb (ix2 p q)) 1) k)
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 3000 + 1 * p.val = win1_2.index t (0 : Fin 2) * 3000 + 1 * p.val; omega
    | ⟨1, _⟩ => show win1_0.index t (1 : Fin 2) * 5 + 1 * k.val = k.val; omega
  have h1 : ((cfg1.win 1).blk t).view.emb (ix2 q k) = ix2 ((((cfg1.win 2).blk t).view.emb (ix2 p q)) 1) k := by
    funext a; apply Fin.ext
    match a with
    | ⟨0, _⟩ => show win1_1.index t (0 : Fin 2) * 512 + 1 * q.val = win1_2.index t (1 : Fin 2) * 512 + 1 * q.val; omega
    | ⟨1, _⟩ => show win1_1.index t (1 : Fin 2) * 5 + 1 * k.val = k.val; omega
  exact congrArg₂ (fun a b => xArr1 V c a * wArr1 V c b) h0 h1

/-- An index of the result is in point `t`'s block iff each coordinate is in the block's range on its axis. -/
theorem mem_blk1 (t : Fin cfg1.N) (i : S15000x512.Idx) :
    i ∈ ((cfg1.win 2).blk t).view.set ↔ ∀ a : Fin 2, win1_2.index t a * S3000x512.size a ≤ (i a).val ∧ (i a).val < win1_2.index t a * S3000x512.size a + S3000x512.size a := by
  show i ∈ ((View.whole main_v34).slice (win1_2.rect t)).set ↔ _
  rw [View.set_slice_whole, Rect.mem_set_unit]
  exact Iff.rfl

/-- Row `r` of the result is written by point `r / 3000`. -/
theorem cover1 (i : S15000x512.Idx) : ∃ t : Fin cfg1.N, (cfg1.win 2).flush t = true ∧ i ∈ ((cfg1.win 2).blk t).view.set := by
  have hi0 : (i 0).val < 15000 := (i 0).isLt
  have hi1 : (i 1).val < 512 := (i 1).isLt
  have hN : cfg1.N = 5 := N_1
  let t : Fin cfg1.N := ⟨(i 0).val / 3000, by rw [hN]; omega⟩
  obtain ⟨e0, e1, e2, e3, e4, e5⟩ := idx_facts1 t
  have ht : t.val = (i 0).val / 3000 := rfl
  refine ⟨t, flush1_2 t, ?_⟩
  rw [mem_blk1]
  intro a
  match a with
  | ⟨0, _⟩ => show win1_2.index t (0 : Fin 2) * 3000 ≤ (i 0).val ∧ (i 0).val < win1_2.index t (0 : Fin 2) * 3000 + 3000; omega
  | ⟨1, _⟩ => show win1_2.index t (1 : Fin 2) * 512 ≤ (i 1).val ∧ (i 1).val < win1_2.index t (1 : Fin 2) * 512 + 512; omega

/-- THE RESULT ARRAY after the region: the product of the two arrays as the region finds them. -/
theorem final_arr1 (c : Dev nD) :
    (dat1 V c).arrAt 2 cfg1.N = mm1 (xArr1 V c) (wArr1 V c) :=
  (dat1 V c).arrAt_eq_of_cover 2 (mm1 (xArr1 V c) (wArr1 V c)) (fun t _ => flushed1_eq V c t) (cover1)

/-- Entry `(p, q)` of the result: row `p` of the left array against row `q` of the table. -/
theorem final_mm1 (c : Dev nD) (p : Fin 15000) (q : Fin 512) :
    oArr1 V c (ix2 p q) = ∑ k : Fin 5, xArr1 V c (ix2 p k) * wArr1 V c (ix2 q k) :=
  congrFun (final_arr1 V c) (ix2 p q)

end Cert.KernelIdeal.Val

end
-- ==== Proof.KV.Terms.lean ====
import proofs.«102211_j33681133535938_1_alg».proof.Proof.Gen.KernelIdeal
import Idealize.ShloMosaic.PureOps.Ideal
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.Sem
open Cert.KernelIdeal Cert.KernelIdeal.Gen

/-! # The host computations of the program, as named whole-array terms

Between the regions the program computes, per layer and per relation, a gather of the message table at the edges'
sources, a scatter-add at their destinations, and the product with the column of reciprocal edge counts. The terms are
written exactly as the program's operations compose, at the exact reals. -/

/-- Row 0 (the sources) and row 1 (the destinations) of the drug–drug edge table, as vectors. -/
def edgeRow0 (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000
def edgeRow1 (e : (⟨S2x600000, .i32⟩ : BufTy).Contents (Elt Ideal)) : (⟨S600000, .i32⟩ : BufTy).Contents (Elt Ideal) :=
  shapeCast S600000 (extractStridedSlice S1x600000 ![1, 0] e slices_S2x600000_S1x600000_1_0) shapeCasts_S1x600000_S600000

/-- A negative index counted from the end: `v + n` where `v < 0`, else `v`. -/
def wrap600000 (n : BitVec 32) (v : (⟨S600000, .i32⟩ : BufTy).Contents (Elt Ideal)) : (⟨S600000, .i32⟩ : BufTy).Contents (Elt Ideal) :=
  select (cmpi .slt v (broadcastInDim S600000 ![] bcast_S_S600000 (constantI S_ 32 0#32)))
    (addi v (broadcastInDim S600000 ![] bcast_S_S600000 (constantI S_ 32 n))) v
def wrap250000 (n : BitVec 32) (v : (⟨S250000, .i32⟩ : BufTy).Contents (Elt Ideal)) : (⟨S250000, .i32⟩ : BufTy).Contents (Elt Ideal) :=
  select (cmpi .slt v (broadcastInDim S250000 ![] bcast_S_S250000 (constantI S_ 32 0#32)))
    (addi v (broadcastInDim S250000 ![] bcast_S_S250000 (constantI S_ 32 n))) v

/-- The number of edges arriving at each node, per relation: a scatter-add of ones. -/
def cntDdi (e : (⟨S2x600000, .i32⟩ : BufTy).Contents (Elt Ideal)) : FVec Ideal S40000 .f32 :=
  Host.scatterAdd scatter_S40000_S600000x1_S600000_n_0_0_1
    (broadcastInDim S40000 ![] bcast_S_S40000 (constant (F := Ideal) S_ .f32 0x00000000#32))
    (broadcastInDim S600000x1 ![0] bcast_S600000_S600000x1_0 (edgeRow1 e))
    (broadcastInDim S600000 ![] bcast_S_S600000 (constant (F := Ideal) S_ .f32 0x3F800000#32))
def cntRev (s : (⟨S250000, .i32⟩ : BufTy).Contents (Elt Ideal)) : FVec Ideal S40000 .f32 :=
  Host.scatterAdd scatter_S40000_S250000x1_S250000_n_0_0_1
    (broadcastInDim S40000 ![] bcast_S_S40000 (constant (F := Ideal) S_ .f32 0x00000000#32))
    (broadcastInDim S250000x1 ![0] bcast_S250000_S250000x1_0 s)
    (broadcastInDim S250000 ![] bcast_S_S250000 (constant (F := Ideal) S_ .f32 0x3F800000#32))
def cntTgt (d : (⟨S250000, .i32⟩ : BufTy).Contents (Elt Ideal)) : FVec Ideal S15000 .f32 :=
  Host.scatterAdd scatter_S15000_S250000x1_S250000_n_0_0_1
    (broadcastInDim S15000 ![] bcast_S_S15000 (constant (F := Ideal) S_ .f32 0x00000000#32))
    (broadcastInDim S250000x1 ![0] bcast_S250000_S250000x1_0 d)
    (broadcastInDim S250000 ![] bcast_S_S250000 (constant (F := Ideal) S_ .f32 0x3F800000#32))

/-- The column of `1 / max(count, 1)`. -/
def invCol40000 (cnt : FVec Ideal S40000 .f32) : FVec Ideal S40000x1 .f32 :=
  broadcastInDim S40000x1 ![0] bcast_S40000_S40000x1_0
    (Host.divf (F := Ideal) (broadcastInDim S40000 ![] bcast_S_S40000 (constant (F := Ideal) S_ .f32 0x3F800000#32))
      (maximumf cnt (broadcastInDim S40000 ![] bcast_S_S40000 (constant (F := Ideal) S_ .f32 0x3F800000#32))))
def invCol15000 (cnt : FVec Ideal S15000 .f32) : FVec Ideal S15000x1 .f32 :=
  broadcastInDim S15000x1 ![0] bcast_S15000_S15000x1_0
    (Host.divf (F := Ideal) (broadcastInDim S15000 ![] bcast_S_S15000 (constant (F := Ideal) S_ .f32 0x3F800000#32))
      (maximumf cnt (broadcastInDim S15000 ![] bcast_S_S15000 (constant (F := Ideal) S_ .f32 0x3F800000#32))))

/-! ## Message width 256 -/

/-- Drug–drug relation: the messages of table `Y` gathered at every edge's source and summed at its destination. -/
def sumDdi256 (Y : FVec Ideal S40000x256 .f32) (src dst : (⟨S600000, .i32⟩ : BufTy).Contents (Elt Ideal)) : FVec Ideal S40000x256 .f32 :=
  Host.scatterAdd scatter_S40000x256_S600000x1_S600000x256_1_0_0_1
    (broadcastInDim S40000x256 ![] bcast_S_S40000x256 (constant (F := Ideal) S_ .f32 0x00000000#32))
    (broadcastInDim S600000x1 ![0] bcast_S600000_S600000x1_0 dst)
    (Host.gather gather_S40000x256_S600000x1_S600000x256_1_0_n_n_0_1_1256 Y
      (broadcastInDim S600000x1 ![0] bcast_S600000_S600000x1_0 (wrap600000 40000#32 src)))
/-- Reversed target relation: protein messages gathered at every edge's protein and summed at its drug. -/
def sumRev256 (Y : FVec Ideal S15000x256 .f32) (prot drug : (⟨S250000, .i32⟩ : BufTy).Contents (Elt Ideal)) : FVec Ideal S40000x256 .f32 :=
  Host.scatterAdd scatter_S40000x256_S250000x1_S250000x256_1_0_0_1
    (broadcastInDim S40000x256 ![] bcast_S_S40000x256 (constant (F := Ideal) S_ .f32 0x00000000#32))
    (broadcastInDim S250000x1 ![0] bcast_S250000_S250000x1_0 drug)
    (Host.gather gather_S15000x256_S250000x1_S250000x256_1_0_n_n_0_1_1256 Y
      (broadcastInDim S250000x1 ![0] bcast_S250000_S250000x1_0 (wrap250000 15000#32 prot)))
/-- Target relation: drug messages gathered at every edge's drug and summed at its protein. -/
def sumTgt256 (Y : FVec Ideal S40000x256 .f32) (drug prot : (⟨S250000, .i32⟩ : BufTy).Contents (Elt Ideal)) : FVec Ideal S15000x256 .f32 :=
  Host.scatterAdd scatter_S15000x256_S250000x1_S250000x256_1_0_0_1
    (broadcastInDim S15000x256 ![] bcast_S_S15000x256 (constant (F := Ideal) S_ .f32 0x00000000#32))
    (broadcastInDim S250000x1 ![0] bcast_S250000_S250000x1_0 prot)
    (Host.gather gather_S40000x256_S250000x1_S250000x256_1_0_n_n_0_1_1256 Y
      (broadcastInDim S250000x1 ![0] bcast_S250000_S250000x1_0 (wrap250000 40000#32 drug)))
/-- A sum table times the column of reciprocal counts repeated along the rows: the mean over the arriving edges. -/
def meanD256 (S : FVec Ideal S40000x256 .f32) (inv : FVec Ideal S40000x1 .f32) : FVec Ideal S40000x256 .f32 :=
  mulf S (broadcastInDim S40000x256 ![0, 1] bcast_S40000x1_S40000x256_0_1 inv)
def meanP256 (S : FVec Ideal S15000x256 .f32) (inv : FVec Ideal S15000x1 .f32) : FVec Ideal S15000x256 .f32 :=
  mulf S (broadcastInDim S15000x256 ![0, 1] bcast_S15000x1_S15000x256_0_1 inv)

/-! ## Message width 64 -/

/-- Drug–drug relation: the messages of table `Y` gathered at every edge's source and summed at its destination. -/
def sumDdi64 (Y : FVec Ideal S40000x64 .f32) (src dst : (⟨S600000, .i32⟩ : BufTy).Contents (Elt Ideal)) : FVec Ideal S40000x64 .f32 :=
  Host.scatterAdd scatter_S40000x64_S600000x1_S600000x64_1_0_0_1
    (broadcastInDim S40000x64 ![] bcast_S_S40000x64 (constant (F := Ideal) S_ .f32 0x00000000#32))
    (broadcastInDim S600000x1 ![0] bcast_S600000_S600000x1_0 dst)
    (Host.gather gather_S40000x64_S600000x1_S600000x64_1_0_n_n_0_1_164 Y
      (broadcastInDim S600000x1 ![0] bcast_S600000_S600000x1_0 (wrap600000 40000#32 src)))
/-- Reversed target relation: protein messages gathered at every edge's protein and summed at its drug. -/
def sumRev64 (Y : FVec Ideal S15000x64 .f32) (prot drug : (⟨S250000, .i32⟩ : BufTy).Contents (Elt Ideal)) : FVec Ideal S40000x64 .f32 :=
  Host.scatterAdd scatter_S40000x64_S250000x1_S250000x64_1_0_0_1
    (broadcastInDim S40000x64 ![] bcast_S_S40000x64 (constant (F := Ideal) S_ .f32 0x00000000#32))
    (broadcastInDim S250000x1 ![0] bcast_S250000_S250000x1_0 drug)
    (Host.gather gather_S15000x64_S250000x1_S250000x64_1_0_n_n_0_1_164 Y
      (broadcastInDim S250000x1 ![0] bcast_S250000_S250000x1_0 (wrap250000 15000#32 prot)))
/-- Target relation: drug messages gathered at every edge's drug and summed at its protein. -/
def sumTgt64 (Y : FVec Ideal S40000x64 .f32) (drug prot : (⟨S250000, .i32⟩ : BufTy).Contents (Elt Ideal)) : FVec Ideal S15000x64 .f32 :=
  Host.scatterAdd scatter_S15000x64_S250000x1_S250000x64_1_0_0_1
    (broadcastInDim S15000x64 ![] bcast_S_S15000x64 (constant (F := Ideal) S_ .f32 0x00000000#32))
    (broadcastInDim S250000x1 ![0] bcast_S250000_S250000x1_0 prot)
    (Host.gather gather_S40000x64_S250000x1_S250000x64_1_0_n_n_0_1_164 Y
      (broadcastInDim S250000x1 ![0] bcast_S250000_S250000x1_0 (wrap250000 40000#32 drug)))
/-- A sum table times the column of reciprocal counts repeated along the rows: the mean over the arriving edges. -/
def meanD64 (S : FVec Ideal S40000x64 .f32) (inv : FVec Ideal S40000x1 .f32) : FVec Ideal S40000x64 .f32 :=
  mulf S (broadcastInDim S40000x64 ![0, 1] bcast_S40000x1_S40000x64_0_1 inv)
def meanP64 (S : FVec Ideal S15000x64 .f32) (inv : FVec Ideal S15000x1 .f32) : FVec Ideal S15000x64 .f32 :=
  mulf S (broadcastInDim S15000x64 ![0, 1] bcast_S15000x1_S15000x64_0_1 inv)

end Cert.KernelIdeal.Val

end
-- ==== Proof.KV.H0.lean ====
import proofs.«102211_j33681133535938_1_alg».proof.Proof.Gen.KernelIdeal.Regions
import proofs.«102211_j33681133535938_1_alg».proof.Proof.KV.Terms
import Idealize.ShloMosaic.Lib.StableHlo.Run
import Idealize.ShloMosaic.Lib.Tactic

set_option maxRecDepth 16384

noncomputable section

namespace Cert.KernelIdeal.Val

open Idealize.ShloMosaic Idealize.ShloMosaic.TcCoe Idealize.ShloMosaic.Tactic
open Idealize.SL Idealize.SL.Sem
open Cert.KernelIdeal Cert.KernelIdeal.Gen

/-! # What the first host stretch leaves: the edge vectors, the reciprocal-count columns, the first layer's stacked weights -/
variable (m : (ℓ : Loc nD τ sig) → Buf (Elt Ideal) ℓ) (c : Dev nD)

set_option maxHeartbeats 4000000 in
theorem V1_v1 : (V1 m c main_v1 : (⟨S600000, .i32⟩ : BufTy).Contents (Elt Ideal)) = edgeRow0 (V0 m c main_arg29) := by
  dsimp only [V1, hostOps0]; after_results_simp <;> rfl
set_option maxHeartbeats 4000000 in
theorem V1_v3 : (V1 m c main_v3 : (⟨S600000, .i32⟩ : BufTy).Contents (Elt Ideal)) = edgeRow1 (V0 m c main_arg29) := by
  dsimp only [V1, hostOps0]; after_results_simp <;> rfl
set_option maxHeartbeats 4000000 in
theorem V1_v20 : (V1 m c main_v20 : FVec Ideal S40000x1 .f32) = invCol40000 (cntDdi (V0 m c main_arg29)) := by
  dsimp only [V1, hostOps0]; after_results_simp <;> rfl
set_option maxHeartbeats 4000000 in
theorem V1_v25 : (V1 m c main_v25 : FVec Ideal S40000x1 .f32) = invCol40000 (cntRev (V0 m c main_arg30)) := by
  dsimp only [V1, hostOps0]; after_results_simp <;> rfl
set_option maxHeartbeats 4000000 in
theorem V1_v30 : (V1 m c main_v30 : FVec Ideal S15000x1 .f32) = invCol15000 (cntTgt (V0 m c main_arg31)) := by
  dsimp only [V1, hostOps0]; after_results_simp <;> rfl
set_option maxHeartbeats 4000000 in
theorem V1_v31 : (V1 m c main_v31 : FVec Ideal S1024x980 .f32) =
    concatenate S1024x980 0 [⟨S256x980, V0 m c main_arg2⟩, ⟨S256x980, V0 m c main_arg4⟩, ⟨S256x980, V0 m c main_arg5⟩, ⟨S256x980, V0 m c main_arg10⟩]
      concatenates_S256x980_S256x980_S256x980_S256x980_S1024x980_d0 := by
  dsimp only [V1, hostOps0]; after_results_simp <;> rfl
set_option maxHeartbeats 4000000 in
theorem V1_v32 : (V1 m c main_v32 : FVec Ideal S512x5 .f32) =
    concatenate S512x5 0 [⟨S256x5, V0 m c main_arg8⟩, ⟨S256x5, V0 m c main_arg7⟩] concatenates_S256x5_S256x5_S512x5_d0 := by
  dsimp only [V1, hostOps0]; after_results_simp <;> rfl

end Cert.KernelIdeal.Val

end
-- ==== Proof.KV.Stack.lean ====
import Idealize.ShloMosaic.Lib.Pipeline.Value
import Idealize.ShloMosaic.Lib.ValueIdx

noncomputable section

namespace Cert.KernelIdeal.Val

open Idealize.ShloMosaic Idealize.ShloMosaic.ValueIdx

/-! # Tables stacked by rows, and three small laws of sums

Several `[o, b]` tables stacked along the rows into one `[n, b]` table: row `j * o + q` of the stack is row `q` of
table `j`. The two algebraic laws reorder the terms a combine body adds into the order the reference adds them. -/

/-- Row `j * o + q` of tables stacked along the rows is row `q` of table `j` (the tables before it have `j * o` rows
    together: `hpre`). -/
theorem stack_rows_apply {α : Type} {n o b : ℕ} (xs : List ((s : Shape) × (s.Idx → α)))
    (h : Shape.Concatenates (xs.map (·.1)) ⟨2, ![n, b]⟩ (0 : Fin 2)) (j : ℕ) (hj : j < xs.length)
    (x : (⟨2, ![o, b]⟩ : Shape).Idx → α) (hx : xs[j] = ⟨⟨2, ![o, b]⟩, x⟩)
    (hpre : (((xs.take j).map (·.1)).map fun s => if h : s.rank = (⟨2, ![n, b]⟩ : Shape).rank then s.size ((0 : Fin 2).cast h.symm) else 0).sum = j * o)
    (r : Fin n) (q : Fin o) (k : Fin b) (hr : r.val = j * o + q.val) :
    concatenate ⟨2, ![n, b]⟩ (0 : Fin 2) xs h (ix2 r k) = x (ix2 q k) :=
  concatenate_apply_piece (0 : Fin 2) xs h (ix2 r k) j hj ⟨2, ![o, b]⟩ x hx rfl (j * o) hpre (ix2 q k)
    (fun a ha => by
      match a with
      | ⟨0, _⟩ => exact absurd (Fin.ext rfl) ha
      | ⟨1, _⟩ => rfl)
    (by show j * o + q.val = r.val; omega)

/-- The body adds `a + aw + ab`; the reference adds `a + ab + aw`. -/
theorem three_terms (a aw ab z : EReal) : max ((a + aw) + ab) z = max ((a + ab) + aw) z := by
  rw [add_right_comm a aw ab]

/-- The body adds its six terms left to right; the reference adds the two relations' three terms each, then the two. -/
theorem six_terms (a aw ab b bw bb z : EReal) :
    max (((((a + aw) + ab) + b) + bw) + bb) z = max (((a + ab) + aw) + ((b + bb) + bw)) z := by
  rw [add_right_comm a aw ab, add_right_comm (a + ab + aw + b) bw bb, add_assoc (a + ab + aw) b bb,
    add_assoc (a + ab + aw) (b + bb) bw]

/-- The same two laws with each term replaced by an equal one. -/
theorem three_terms' {a aw ab a' aw' ab' z : EReal} (ha : a = a') (haw : aw = aw') (hab : ab = ab') :
    max ((a + aw) + ab) z = max ((a' + ab') + aw') z := by
  subst ha haw hab; exact three_terms _ _ _ _
theorem six_terms' {a aw ab b bw bb a' aw' ab' b' bw' bb' z : EReal} (ha : a = a') (haw : aw = aw') (hab : ab = ab')
    (hb : b = b') (hbw : bw = bw') (hbb : bb = bb') :
    max (((((a + aw) + ab) + b) + bw) + bb) z = max (((a' + ab') + aw') + ((b' + bb') + bw')) z := by
  subst ha haw hab hb hbw hbb; exact six_terms _ _ _ _ _ _ _

end Cert.KernelIdeal.Val

end
-- ==== Proof.KV.B1Tab.lean ====
import proofs.«102211_j33681133535938_1_alg».proof.Proof.KI.Vals
import proofs.«102211_j33681133535938_1_alg».proof.Proof.KV.V0
import proofs.«102211_j33681133535938_1_alg».proof.Proof.KV.V1
import proofs.«102211_j33681133535938_1_alg».proof.Proof.KV.H0
import proofs.«102211_j33681133535938_1_alg».proof.Proof.KV.Stack

set_option maxRecDepth 16384

noncomputable section

open scoped BigOperators

namespace Cert.KernelIdeal.Val.L1

open Cert.KernelIdeal.Val
open Idealize.ShloMosaic Idealize.ShloMosaic.TcCoe Idealize.ShloMosaic.ValueIdx
open Idealize.SL.Sem
open Cert.KernelIdeal Cert.KernelIdeal.Gen

/-! # Layer 1: the two product tables, column block by column block

The first two regions multiply the drug features `[40000, 980]` by the stack of four `[256, 980]` weight tables and the
protein features `[15000, 5]` by the stack of two `[256, 5]` tables. Entry `(p, j * 256 + q)` of a product table is
row `p` of the features against row `q` of table `j`: the column block `j` of the product table is the product with
table `j` alone. -/

variable (m : (ℓ : Loc nD τ sig) → Buf (Elt Ideal) ℓ) (outs : Outs (F := Ideal)) (c : Dev nD)

/-- The arrays at their literal index types: the two feature arrays and the six weight tables at launch, the two stacks
    after the first host stretch, the two product tables after the first two regions. -/
abbrev Xd : S40000x980.Idx → EReal := V0 m c main_arg0
abbrev Xp : S15000x5.Idx → EReal := V0 m c main_arg1
abbrev Wd : S1024x980.Idx → EReal := V1 m c main_v31
abbrev Wp : S512x5.Idx → EReal := V1 m c main_v32
abbrev Yd : S40000x1024.Idx → EReal := V3 m outs c main_v33
abbrev Yp : S15000x512.Idx → EReal := V3 m outs c main_v34
abbrev T2 : S256x980.Idx → EReal := V0 m c main_arg2
abbrev T4 : S256x980.Idx → EReal := V0 m c main_arg4
abbrev T5 : S256x980.Idx → EReal := V0 m c main_arg5
abbrev T10 : S256x980.Idx → EReal := V0 m c main_arg10
abbrev T8 : S256x5.Idx → EReal := V0 m c main_arg8
abbrev T7 : S256x5.Idx → EReal := V0 m c main_arg7

/-- Entry `(p, r)` of the drug-side product table: row `p` of the features against row `r` of the stack. -/
theorem Yd_at (h : Fr.OutsOk m outs) (p : Fin 40000) (r : Fin 1024) :
    Yd m outs c (ix2 p r) = ∑ k : Fin 980, Xd m c (ix2 p k) * Wd m c (ix2 r k) := by
  have e1 : Yd m outs c = oArr0 (Fr.Vr (V1 m)) c :=
    ((V3_of m outs c main_v33 (by decide)).trans (Function.update_self _ _ _)).trans (h.h0 c)
  have e2 : xArr0 (Fr.Vr (V1 m)) c = Xd m c := V1_of m c main_arg0 (by decide)
  refine ((congrFun e1 (ix2 p r)).trans (final_mm0 (Fr.Vr (V1 m)) c p r)).trans ?_
  exact Finset.sum_congr rfl fun k _ => congrArg (fun x => x * Wd m c (ix2 r k)) (congrFun e2 (ix2 p k))

/-- Entry `(p, r)` of the protein-side product table. -/
theorem Yp_at (h : Fr.OutsOk m outs) (p : Fin 15000) (r : Fin 512) :
    Yp m outs c (ix2 p r) = ∑ k : Fin 5, Xp m c (ix2 p k) * Wp m c (ix2 r k) := by
  have e1 : Yp m outs c = oArr1 (Fr.Vr (V2 m outs)) c :=
    (Function.update_self _ _ _).trans (h.h1 c)
  have e2 : xArr1 (Fr.Vr (V2 m outs)) c = Xp m c :=
    (V2_of m outs c main_arg1 (by decide)).trans (V1_of m c main_arg1 (by decide))
  have e3 : wArr1 (Fr.Vr (V2 m outs)) c = Wp m c := V2_of m outs c main_v32 (by decide)
  refine ((congrFun e1 (ix2 p r)).trans (final_mm1 (Fr.Vr (V2 m outs)) c p r)).trans ?_
  exact Finset.sum_congr rfl fun k _ => (congrArg (fun x => x * wArr1 (Fr.Vr (V2 m outs)) c (ix2 r k)) (congrFun e2 (ix2 p k))).trans
    (congrArg (fun w => Xp m c (ix2 p k) * w) (congrFun e3 (ix2 r k)))

/-! ## Rows of the stacks -/

theorem Wd_rows0 (q : Fin 256) (k : Fin 980) (r : Fin 1024) (hr : r.val = 0 * 256 + q.val) : Wd m c (ix2 r k) = T2 m c (ix2 q k) := by
  refine (congrFun (V1_v31 m c) (ix2 r k)).trans ?_
  exact stack_rows_apply _ _ 0 (by show 0 < 4; decide) _ rfl rfl r q k hr
theorem Wd_rows1 (q : Fin 256) (k : Fin 980) (r : Fin 1024) (hr : r.val = 1 * 256 + q.val) : Wd m c (ix2 r k) = T4 m c (ix2 q k) := by
  refine (congrFun (V1_v31 m c) (ix2 r k)).trans ?_
  exact stack_rows_apply _ _ 1 (by show 1 < 4; decide) _ rfl rfl r q k hr
theorem Wd_rows2 (q : Fin 256) (k : Fin 980) (r : Fin 1024) (hr : r.val = 2 * 256 + q.val) : Wd m c (ix2 r k) = T5 m c (ix2 q k) := by
  refine (congrFun (V1_v31 m c) (ix2 r k)).trans ?_
  exact stack_rows_apply _ _ 2 (by show 2 < 4; decide) _ rfl rfl r q k hr
theorem Wd_rows3 (q : Fin 256) (k : Fin 980) (r : Fin 1024) (hr : r.val = 3 * 256 + q.val) : Wd m c (ix2 r k) = T10 m c (ix2 q k) := by
  refine (congrFun (V1_v31 m c) (ix2 r k)).trans ?_
  exact stack_rows_apply _ _ 3 (by show 3 < 4; decide) _ rfl rfl r q k hr
theorem Wp_rows0 (q : Fin 256) (k : Fin 5) (r : Fin 512) (hr : r.val = 0 * 256 + q.val) : Wp m c (ix2 r k) = T8 m c (ix2 q k) := by
  refine (congrFun (V1_v32 m c) (ix2 r k)).trans ?_
  exact stack_rows_apply _ _ 0 (by show 0 < 2; decide) _ rfl rfl r q k hr
theorem Wp_rows1 (q : Fin 256) (k : Fin 5) (r : Fin 512) (hr : r.val = 1 * 256 + q.val) : Wp m c (ix2 r k) = T7 m c (ix2 q k) := by
  refine (congrFun (V1_v32 m c) (ix2 r k)).trans ?_
  exact stack_rows_apply _ _ 1 (by show 1 < 2; decide) _ rfl rfl r q k hr

/-! ## A column block of a product table is the product with one table -/

/-- Column block `j` of the drug-side product table at `(p, q)`, for any table `T` that rows `j * 256 …` of the stack hold. -/
theorem Yd_block (h : Fr.OutsOk m outs) (j : ℕ) (hj : j < 4) (hs : S40000x1024.Slices ![0, j * 256] S40000x256)
    (T : S256x980.Idx → EReal)
    (hT : ∀ (q : Fin 256) (k : Fin 980) (r : Fin 1024), r.val = j * 256 + q.val → Wd m c (ix2 r k) = T (ix2 q k))
    (p : Fin 40000) (q : Fin 256) :
    extractStridedSlice S40000x256 ![0, j * 256] (Yd m outs c) hs (ix2 p q) = ∑ k : Fin 980, Xd m c (ix2 p k) * T (ix2 q k) := by
  have hq : q.val < 256 := q.isLt
  have hr : j * 256 + q.val < 1024 := by omega
  refine (extractStridedSlice_apply ![0, j * 256] (Yd m outs c) hs (ix2 p q) (ix2 p ⟨j * 256 + q.val, hr⟩) (fun a => ?_)).trans ?_
  · match a with
    | ⟨0, _⟩ => show p.val = 0 + p.val; omega
    | ⟨1, _⟩ => show j * 256 + q.val = j * 256 + q.val; rfl
  · refine (Yd_at m outs c h p ⟨j * 256 + q.val, hr⟩).trans ?_
    exact Finset.sum_congr rfl fun k _ => congrArg (fun w => Xd m c (ix2 p k) * w) (hT q k ⟨j * 256 + q.val, hr⟩ rfl)

/-- Column block `j` of the protein-side product table at `(p, q)`. -/
theorem Yp_block (h : Fr.OutsOk m outs) (j : ℕ) (hj : j < 2) (hs : S15000x512.Slices ![0, j * 256] S15000x256)
    (T : S256x5.Idx → EReal)
    (hT : ∀ (q : Fin 256) (k : Fin 5) (r : Fin 512), r.val = j * 256 + q.val → Wp m c (ix2 r k) = T (ix2 q k))
    (p : Fin 15000) (q : Fin 256) :
    extractStridedSlice S15000x256 ![0, j * 256] (Yp m outs c) hs (ix2 p q) = ∑ k : Fin 5, Xp m c (ix2 p k) * T (ix2 q k) := by
  have hq : q.val < 256 := q.isLt
  have hr : j * 256 + q.val < 512 := by omega
  refine (extractStridedSlice_apply ![0, j * 256] (Yp m outs c) hs (ix2 p q) (ix2 p ⟨j * 256 + q.val, hr⟩) (fun a => ?_)).trans ?_
  · match a with
    | ⟨0, _⟩ => show p.val = 0 + p.val; omega
    | ⟨1, _⟩ => show j * 256 + q.val = j * 256 + q.val; rfl
  · refine (Yp_at m outs c h p ⟨j * 256 + q.val, hr⟩).trans ?_
    exact Finset.sum_congr rfl fun k _ => congrArg (fun w => Xp m c (ix2 p k) * w) (hT q k ⟨j * 256 + q.val, hr⟩ rfl)

/-- The six column blocks the layer uses, with the printed offsets. -/
theorem ddi_msg_at (h : Fr.OutsOk m outs) (p : Fin 40000) (q : Fin 256) :
    extractStridedSlice S40000x256 ![0, 0] (Yd m outs c) slices_S40000x1024_S40000x256_0_0 (ix2 p q)
      = ∑ k : Fin 980, Xd m c (ix2 p k) * T2 m c (ix2 q k) :=
  Yd_block m outs c h 0 (by decide) slices_S40000x1024_S40000x256_0_0 (T2 m c) (Wd_rows0 m c) p q
theorem ddi_self_at (h : Fr.OutsOk m outs) (p : Fin 40000) (q : Fin 256) :
    extractStridedSlice S40000x256 ![0, 256] (Yd m outs c) slices_S40000x1024_S40000x256_0_256 (ix2 p q)
      = ∑ k : Fin 980, Xd m c (ix2 p k) * T4 m c (ix2 q k) :=
  Yd_block m outs c h 1 (by decide) slices_S40000x1024_S40000x256_0_256 (T4 m c) (Wd_rows1 m c) p q
theorem tgt_msg_at (h : Fr.OutsOk m outs) (p : Fin 40000) (q : Fin 256) :
    extractStridedSlice S40000x256 ![0, 512] (Yd m outs c) slices_S40000x1024_S40000x256_0_512 (ix2 p q)
      = ∑ k : Fin 980, Xd m c (ix2 p k) * T5 m c (ix2 q k) :=
  Yd_block m outs c h 2 (by decide) slices_S40000x1024_S40000x256_0_512 (T5 m c) (Wd_rows2 m c) p q
theorem rev_self_at (h : Fr.OutsOk m outs) (p : Fin 40000) (q : Fin 256) :
    extractStridedSlice S40000x256 ![0, 768] (Yd m outs c) slices_S40000x1024_S40000x256_0_768 (ix2 p q)
      = ∑ k : Fin 980, Xd m c (ix2 p k) * T10 m c (ix2 q k) :=
  Yd_block m outs c h 3 (by decide) slices_S40000x1024_S40000x256_0_768 (T10 m c) (Wd_rows3 m c) p q
theorem rev_msg_at (h : Fr.OutsOk m outs) (p : Fin 15000) (q : Fin 256) :
    extractStridedSlice S15000x256 ![0, 0] (Yp m outs c) slices_S15000x512_S15000x256_0_0 (ix2 p q)
      = ∑ k : Fin 5, Xp m c (ix2 p k) * T8 m c (ix2 q k) :=
  Yp_block m outs c h 0 (by decide) slices_S15000x512_S15000x256_0_0 (T8 m c) (Wp_rows0 m c) p q
theorem tgt_self_at (h : Fr.OutsOk m outs) (p : Fin 15000) (q : Fin 256) :
    extractStridedSlice S15000x256 ![0, 256] (Yp m outs c) slices_S15000x512_S15000x256_0_256 (ix2 p q)
      = ∑ k : Fin 5, Xp m c (ix2 p k) * T7 m c (ix2 q k) :=
  Yp_block m outs c h 1 (by decide) slices_S15000x512_S15000x256_0_256 (T7 m c) (Wp_rows1 m c) p q

end Cert.KernelIdeal.Val.L1

end
-- ==== Proof.KV.HL1Base.lean ====
import proofs.«102211_j33681133535938_1_alg».proof.Proof.KV.H0

set_option maxRecDepth 16384

noncomputable section

namespace Cert.KernelIdeal.Val.L1

open Cert.KernelIdeal.Val

open Idealize.ShloMosaic Idealize.ShloMosaic.TcCoe Idealize.ShloMosaic.Tactic
open Idealize.SL Idealize.SL.Sem
open Cert.KernelIdeal Cert.KernelIdeal.Gen

/-! # Layer 1: what the earlier items left where the layer's host stretch reads

The edge vectors, the reciprocal-count columns and the argument arrays are written (or launched) before the first region and
by no later item, so the stretch finds them as the first stretch (or the launch) left them. -/

variable (m : (ℓ : Loc nD τ sig) → Buf (Elt Ideal) ℓ) (outs : Outs (F := Ideal)) (c : Dev nD)
theorem src_ddi : (V3 m outs c main_v1 : (⟨S600000, .i32⟩ : BufTy).Contents (Elt Ideal)) = edgeRow0 (V0 m c main_arg29) :=
  (V3_of m outs c main_v1 (by decide)).trans <| (V2_of m outs c main_v1 (by decide)).trans <| V1_v1 m c
theorem dst_ddi : (V3 m outs c main_v3 : (⟨S600000, .i32⟩ : BufTy).Contents (Elt Ideal)) = edgeRow1 (V0 m c main_arg29) :=
  (V3_of m outs c main_v3 (by decide)).trans <| (V2_of m outs c main_v3 (by decide)).trans <| V1_v3 m c
theorem inv_ddi : (V3 m outs c main_v20 : FVec Ideal S40000x1 .f32) = invCol40000 (cntDdi (V0 m c main_arg29)) :=
  (V3_of m outs c main_v20 (by decide)).trans <| (V2_of m outs c main_v20 (by decide)).trans <| V1_v20 m c
theorem inv_rev : (V3 m outs c main_v25 : FVec Ideal S40000x1 .f32) = invCol40000 (cntRev (V0 m c main_arg30)) :=
  (V3_of m outs c main_v25 (by decide)).trans <| (V2_of m outs c main_v25 (by decide)).trans <| V1_v25 m c
theorem inv_tgt : (V3 m outs c main_v30 : FVec Ideal S15000x1 .f32) = invCol15000 (cntTgt (V0 m c main_arg31)) :=
  (V3_of m outs c main_v30 (by decide)).trans <| (V2_of m outs c main_v30 (by decide)).trans <| V1_v30 m c
theorem arg30_at : (V3 m outs c main_arg30 : (⟨S250000, .i32⟩ : BufTy).Contents (Elt Ideal)) = (V0 m c main_arg30) :=
  (V3_of m outs c main_arg30 (by decide)).trans <| (V2_of m outs c main_arg30 (by decide)).trans <| (V1_of m c main_arg30 (by decide)).trans <| rfl
theorem arg31_at : (V3 m outs c main_arg31 : (⟨S250000, .i32⟩ : BufTy).Contents (Elt Ideal)) = (V0 m c main_arg31) :=
  (V3_of m outs c main_arg31 (by decide)).trans <| (V2_of m outs c main_arg31 (by decide)).trans <| (V1_of m c main_arg31 (by decide)).trans <| rfl
theorem bias_d_at : (V3 m outs c main_arg3 : FVec Ideal S256 .f32) = (V0 m c main_arg3) :=
  (V3_of m outs c main_arg3 (by decide)).trans <| (V2_of m outs c main_arg3 (by decide)).trans <| (V1_of m c main_arg3 (by decide)).trans <| rfl
theorem bias_r_at : (V3 m outs c main_arg9 : FVec Ideal S256 .f32) = (V0 m c main_arg9) :=
  (V3_of m outs c main_arg9 (by decide)).trans <| (V2_of m outs c main_arg9 (by decide)).trans <| (V1_of m c main_arg9 (by decide)).trans <| rfl
theorem bias_t_at : (V5 m outs c main_arg6 : FVec Ideal S256 .f32) = (V0 m c main_arg6) :=
  (V5_of m outs c main_arg6 (by decide)).trans <| (V4_of m outs c main_arg6 (by decide)).trans <| (V3_of m outs c main_arg6 (by decide)).trans <| (V2_of m outs c main_arg6 (by decide)).trans <| (V1_of m c main_arg6 (by decide)).trans <| rfl
end Cert.KernelIdeal.Val.L1

end
-- ==== Proof.KV.HL1D.lean ====
import proofs.«102211_j33681133535938_1_alg».proof.Proof.KV.HL1Base

set_option maxRecDepth 16384

noncomputable section

namespace Cert.KernelIdeal.Val.L1

open Cert.KernelIdeal.Val

open Idealize.ShloMosaic Idealize.ShloMosaic.TcCoe Idealize.ShloMosaic.Tactic
open Idealize.SL Idealize.SL.Sem
open Cert.KernelIdeal Cert.KernelIdeal.Gen

/-! # Layer 1, drug–drug relation: the mean of the gathered messages (first column block of the drug product), the self
    term (second column block) and the bias as a one-row table, as the drug-side combination finds them. -/

variable (m : (ℓ : Loc nD τ sig) → Buf (Elt Ideal) ℓ) (outs : Outs (F := Ideal)) (c : Dev nD)
set_option maxHeartbeats 4000000 in
theorem agg_ddi : (V4 m outs c main_v52 : FVec Ideal S40000x256 .f32) =
    meanD256 (sumDdi256 (extractStridedSlice S40000x256 ![0, 0] (V3 m outs c main_v33) slices_S40000x1024_S40000x256_0_0) (edgeRow0 (V0 m c main_arg29)) (edgeRow1 (V0 m c main_arg29))) (invCol40000 (cntDdi (V0 m c main_arg29))) := by
  rw [← inv_ddi m outs c, ← src_ddi m outs c, ← dst_ddi m outs c]; dsimp only [V4, hostOps2]; after_results_simp <;> rfl
set_option maxHeartbeats 4000000 in
theorem self_ddi : (V4 m outs c main_v36 : FVec Ideal S40000x256 .f32) = extractStridedSlice S40000x256 ![0, 256] (V3 m outs c main_v33) slices_S40000x1024_S40000x256_0_256 := by
  dsimp only [V4, hostOps2]; after_results_simp <;> rfl
set_option maxHeartbeats 4000000 in
theorem bias_ddi : (V4 m outs c main_v77 : FVec Ideal S1x256 .f32) = shapeCast S1x256 (V0 m c main_arg3) shapeCasts_S256_S1x256 := by
  rw [← bias_d_at m outs c]; dsimp only [V4, hostOps2]; after_results_simp <;> rfl
end Cert.KernelIdeal.Val.L1

end
-- ==== Proof.KV.HL1R.lean ====
import proofs.«102211_j33681133535938_1_alg».proof.Proof.KV.HL1Base

set_option maxRecDepth 16384

noncomputable section

namespace Cert.KernelIdeal.Val.L1

open Cert.KernelIdeal.Val

open Idealize.ShloMosaic Idealize.ShloMosaic.TcCoe Idealize.ShloMosaic.Tactic
open Idealize.SL Idealize.SL.Sem
open Cert.KernelIdeal Cert.KernelIdeal.Gen

/-! # Layer 1, reversed target relation: the mean of the gathered protein messages (first column block of the protein
    product), the self term (fourth column block of the drug product) and the bias row, as the drug-side combination finds them. -/

variable (m : (ℓ : Loc nD τ sig) → Buf (Elt Ideal) ℓ) (outs : Outs (F := Ideal)) (c : Dev nD)
set_option maxHeartbeats 4000000 in
theorem agg_rev : (V4 m outs c main_v64 : FVec Ideal S40000x256 .f32) =
    meanD256 (sumRev256 (extractStridedSlice S15000x256 ![0, 0] (V3 m outs c main_v34) slices_S15000x512_S15000x256_0_0) (V0 m c main_arg31) (V0 m c main_arg30)) (invCol40000 (cntRev (V0 m c main_arg30))) := by
  rw [← inv_rev m outs c, ← arg31_at m outs c, ← arg30_at m outs c]; dsimp only [V4, hostOps2]; after_results_simp <;> rfl
set_option maxHeartbeats 4000000 in
theorem self_rev : (V4 m outs c main_v38 : FVec Ideal S40000x256 .f32) = extractStridedSlice S40000x256 ![0, 768] (V3 m outs c main_v33) slices_S40000x1024_S40000x256_0_768 := by
  dsimp only [V4, hostOps2]; after_results_simp <;> rfl
set_option maxHeartbeats 4000000 in
theorem bias_rev : (V4 m outs c main_v78 : FVec Ideal S1x256 .f32) = shapeCast S1x256 (V0 m c main_arg9) shapeCasts_S256_S1x256 := by
  rw [← bias_r_at m outs c]; dsimp only [V4, hostOps2]; after_results_simp <;> rfl
end Cert.KernelIdeal.Val.L1

end
-- ==== Proof.KV.HL1T.lean ====
import proofs.«102211_j33681133535938_1_alg».proof.Proof.KV.HL1Base

set_option maxRecDepth 16384

noncomputable section

namespace Cert.KernelIdeal.Val.L1

open Cert.KernelIdeal.Val

open Idealize.ShloMosaic Idealize.ShloMosaic.TcCoe Idealize.ShloMosaic.Tactic
open Idealize.SL Idealize.SL.Sem
open Cert.KernelIdeal Cert.KernelIdeal.Gen

/-! # Layer 1, target relation: the mean of the gathered drug messages (third column block of the drug product), the self
    term (second column block of the protein product) and the bias row, as the protein-side combination finds them (two items
    after the stretch: neither the drug-side region nor the one-operation stretch in between writes the first two). -/

variable (m : (ℓ : Loc nD τ sig) → Buf (Elt Ideal) ℓ) (outs : Outs (F := Ideal)) (c : Dev nD)
set_option maxHeartbeats 4000000 in
theorem agg_tgt : (V6 m outs c main_v76 : FVec Ideal S15000x256 .f32) =
    meanP256 (sumTgt256 (extractStridedSlice S40000x256 ![0, 512] (V3 m outs c main_v33) slices_S40000x1024_S40000x256_0_512) (V0 m c main_arg30) (V0 m c main_arg31)) (invCol15000 (cntTgt (V0 m c main_arg31))) := by
  refine ((V6_of m outs c main_v76 (by decide)).trans <| V5_of m outs c main_v76 (by decide)).trans ?_
  rw [← inv_tgt m outs c, ← arg30_at m outs c, ← arg31_at m outs c]; dsimp only [V4, hostOps2]; after_results_simp <;> rfl
set_option maxHeartbeats 4000000 in
theorem self_tgt : (V6 m outs c main_v40 : FVec Ideal S15000x256 .f32) = extractStridedSlice S15000x256 ![0, 256] (V3 m outs c main_v34) slices_S15000x512_S15000x256_0_256 := by
  refine ((V6_of m outs c main_v40 (by decide)).trans <| V5_of m outs c main_v40 (by decide)).trans ?_
  dsimp only [V4, hostOps2]; after_results_simp <;> rfl
set_option maxHeartbeats 4000000 in
theorem bias_tgt : (V6 m outs c main_v80 : FVec Ideal S1x256 .f32) = shapeCast S1x256 (V0 m c main_arg6) shapeCasts_S256_S1x256 := by
  rw [← bias_t_at m outs c]; dsimp only [V6, hostOps3]; after_results_simp <;> rfl
end Cert.KernelIdeal.Val.L1

end
-- ==== Proof.KV.HL1.lean ====
import proofs.«102211_j33681133535938_1_alg».proof.Proof.KV.HL1D
import proofs.«102211_j33681133535938_1_alg».proof.Proof.KV.HL1R
import proofs.«102211_j33681133535938_1_alg».proof.Proof.KV.HL1T

/-! Layer 1: the nine arrays the two combinations read (the three relations' modules together). -/
-- ==== Proof.KV.PayB.lean ====
import proofs.«102211_j33681133535938_1_alg».proof.Proof.Gen.KernelIdeal.Skeleton
import Idealize.ShloMosaic.Lib.Pipeline.Value
import Idealize.ShloMosaic.Lib.ValueIdx

noncomputable section

namespace Cert.KernelIdeal.Val

open Idealize.ShloMosaic Idealize.ShloMosaic.ValueIdx
open Cert.KernelIdeal Cert.KernelIdeal.Gen

/-! # The combine bodies read at an index

Each combine body stores ONE value: the elementwise sum of its row blocks and of its bias rows (a `[1, o]` row added to
every row of the block), in the first two layers followed by the maximum with zero. Here that value is read at a row and a
column, at the exact instance, and restated over whole arrays. -/

/-! ## Region 2 -/

/-- The body's stored value at row `p`, column `q` of the block: the sum of the blocks and of the bias rows spread over the rows, then the maximum with zero;
    a bias row `[1, 256]` is read at `(0, q)`. -/
theorem k2_pay1_apply (x0 : Vec Ideal S2000x256 .f32) (x1 : Vec Ideal S2000x256 .f32) (x2 : Vec Ideal S1x256 .f32) (x3 : Vec Ideal S2000x256 .f32) (x4 : Vec Ideal S2000x256 .f32) (x5 : Vec Ideal S1x256 .f32) (p : Fin 2000) (q : Fin 256) :
    k2_pay1 (F := Ideal) x0 x1 x2 x3 x4 x5 (ix2 p q)
      = max (((((x0 (ix2 p q) + x1 (ix2 p q)) + x2 (ix2 0 q)) + x3 (ix2 p q)) + x4 (ix2 p q)) + x5 (ix2 0 q)) (Ideal.ofBits .f32 0x00000000#32) := by
  unfold k2_pay1
  simp only [shapeCast_self]
  show max (((((x0 (ix2 p q) + x1 (ix2 p q)) + broadcastTo S2000x256 x2 broadcasts_S1x256_S2000x256 (ix2 p q)) + x3 (ix2 p q)) + x4 (ix2 p q)) + broadcastTo S2000x256 x5 broadcasts_S1x256_S2000x256 (ix2 p q)) (Ideal.ofBits .f32 0x00000000#32) = _
  rw [broadcastTo_apply x2 broadcasts_S1x256_S2000x256 (ix2 p q) (ix2 0 q) (by intro a; match a with | ⟨0, _⟩ => rfl | ⟨1, _⟩ => rfl),
    broadcastTo_apply x5 broadcasts_S1x256_S2000x256 (ix2 p q) (ix2 0 q) (by intro a; match a with | ⟨0, _⟩ => rfl | ⟨1, _⟩ => rfl)]

/-- The same expression over whole arrays `[40000, 256]` (bias rows `[1, 256]`), index by index. -/
def G2 (A0 : S40000x256.Idx → Elt Ideal .f32) (A1 : S40000x256.Idx → Elt Ideal .f32) (A2 : S1x256.Idx → Elt Ideal .f32) (A3 : S40000x256.Idx → Elt Ideal .f32) (A4 : S40000x256.Idx → Elt Ideal .f32) (A5 : S1x256.Idx → Elt Ideal .f32) : S40000x256.Idx → Elt Ideal .f32 :=
  fun i => max (((((A0 i + A1 i) + A2 (ix2 (n0 := 1) (n1 := 256) 0 (i 1))) + A3 i) + A4 i) + A5 (ix2 (n0 := 1) (n1 := 256) 0 (i 1))) (Ideal.ofBits .f32 0x00000000#32)

theorem G2_apply (A0 : S40000x256.Idx → Elt Ideal .f32) (A1 : S40000x256.Idx → Elt Ideal .f32) (A2 : S1x256.Idx → Elt Ideal .f32) (A3 : S40000x256.Idx → Elt Ideal .f32) (A4 : S40000x256.Idx → Elt Ideal .f32) (A5 : S1x256.Idx → Elt Ideal .f32) (p : Fin 40000) (q : Fin 256) :
    G2 A0 A1 A2 A3 A4 A5 (ix2 p q) = max (((((A0 (ix2 p q) + A1 (ix2 p q)) + A2 (ix2 0 q)) + A3 (ix2 p q)) + A4 (ix2 p q)) + A5 (ix2 0 q)) (Ideal.ofBits .f32 0x00000000#32) := rfl

/-- One element of a block is the whole-array expression at the element's place in the array, once each loaded
    block agrees there with its array. -/
theorem cb2_point (A0 : S40000x256.Idx → Elt Ideal .f32) (A1 : S40000x256.Idx → Elt Ideal .f32) (A2 : S1x256.Idx → Elt Ideal .f32) (A3 : S40000x256.Idx → Elt Ideal .f32) (A4 : S40000x256.Idx → Elt Ideal .f32) (A5 : S1x256.Idx → Elt Ideal .f32)
    (x0 : Vec Ideal S2000x256 .f32) (x1 : Vec Ideal S2000x256 .f32) (x2 : Vec Ideal S1x256 .f32) (x3 : Vec Ideal S2000x256 .f32) (x4 : Vec Ideal S2000x256 .f32) (x5 : Vec Ideal S1x256 .f32) (y : S2000x256.Idx) (i : S40000x256.Idx)
    (h0 : x0 y = A0 i) (h1 : x1 y = A1 i) (h2 : x2 (ix2 (n0 := 1) (n1 := 256) 0 (y 1)) = A2 (ix2 (n0 := 1) (n1 := 256) 0 (i 1))) (h3 : x3 y = A3 i) (h4 : x4 y = A4 i) (h5 : x5 (ix2 (n0 := 1) (n1 := 256) 0 (y 1)) = A5 (ix2 (n0 := 1) (n1 := 256) 0 (i 1))) :
    k2_pay1 (F := Ideal) x0 x1 x2 x3 x4 x5 y = G2 A0 A1 A2 A3 A4 A5 i := by
  obtain ⟨p, q, rfl⟩ : ∃ (p : Fin 2000) (q : Fin 256), y = ix2 p q := ⟨y 0, y 1, eq_ix2 y⟩
  rw [k2_pay1_apply, h0, h1, h3, h4]
  have g2 : x2 (ix2 0 q) = A2 (ix2 (n0 := 1) (n1 := 256) 0 (i 1)) := h2
  have g5 : x5 (ix2 0 q) = A5 (ix2 (n0 := 1) (n1 := 256) 0 (i 1)) := h5
  rw [g2, g5]
  rfl

/-! ## Region 6 -/

/-- The body's stored value at row `p`, column `q` of the block: the sum of the blocks and of the bias rows spread over the rows, then the maximum with zero;
    a bias row `[1, 256]` is read at `(0, q)`. -/
theorem k6_pay1_apply (x0 : Vec Ideal S2000x256 .f32) (x1 : Vec Ideal S2000x256 .f32) (x2 : Vec Ideal S1x256 .f32) (x3 : Vec Ideal S2000x256 .f32) (x4 : Vec Ideal S2000x256 .f32) (x5 : Vec Ideal S1x256 .f32) (p : Fin 2000) (q : Fin 256) :
    k6_pay1 (F := Ideal) x0 x1 x2 x3 x4 x5 (ix2 p q)
      = max (((((x0 (ix2 p q) + x1 (ix2 p q)) + x2 (ix2 0 q)) + x3 (ix2 p q)) + x4 (ix2 p q)) + x5 (ix2 0 q)) (Ideal.ofBits .f32 0x00000000#32) := by
  unfold k6_pay1
  simp only [shapeCast_self]
  show max (((((x0 (ix2 p q) + x1 (ix2 p q)) + broadcastTo S2000x256 x2 broadcasts_S1x256_S2000x256 (ix2 p q)) + x3 (ix2 p q)) + x4 (ix2 p q)) + broadcastTo S2000x256 x5 broadcasts_S1x256_S2000x256 (ix2 p q)) (Ideal.ofBits .f32 0x00000000#32) = _
  rw [broadcastTo_apply x2 broadcasts_S1x256_S2000x256 (ix2 p q) (ix2 0 q) (by intro a; match a with | ⟨0, _⟩ => rfl | ⟨1, _⟩ => rfl),
    broadcastTo_apply x5 broadcasts_S1x256_S2000x256 (ix2 p q) (ix2 0 q) (by intro a; match a with | ⟨0, _⟩ => rfl | ⟨1, _⟩ => rfl)]

/-- The same expression over whole arrays `[40000, 256]` (bias rows `[1, 256]`), index by index. -/
def G6 (A0 : S40000x256.Idx → Elt Ideal .f32) (A1 : S40000x256.Idx → Elt Ideal .f32) (A2 : S1x256.Idx → Elt Ideal .f32) (A3 : S40000x256.Idx → Elt Ideal .f32) (A4 : S40000x256.Idx → Elt Ideal .f32) (A5 : S1x256.Idx → Elt Ideal .f32) : S40000x256.Idx → Elt Ideal .f32 :=
  fun i => max (((((A0 i + A1 i) + A2 (ix2 (n0 := 1) (n1 := 256) 0 (i 1))) + A3 i) + A4 i) + A5 (ix2 (n0 := 1) (n1 := 256) 0 (i 1))) (Ideal.ofBits .f32 0x00000000#32)

theorem G6_apply (A0 : S40000x256.Idx → Elt Ideal .f32) (A1 : S40000x256.Idx → Elt Ideal .f32) (A2 : S1x256.Idx → Elt Ideal .f32) (A3 : S40000x256.Idx → Elt Ideal .f32) (A4 : S40000x256.Idx → Elt Ideal .f32) (A5 : S1x256.Idx → Elt Ideal .f32) (p : Fin 40000) (q : Fin 256) :
    G6 A0 A1 A2 A3 A4 A5 (ix2 p q) = max (((((A0 (ix2 p q) + A1 (ix2 p q)) + A2 (ix2 0 q)) + A3 (ix2 p q)) + A4 (ix2 p q)) + A5 (ix2 0 q)) (Ideal.ofBits .f32 0x00000000#32) := rfl

/-- One element of a block is the whole-array expression at the element's place in the array, once each loaded
    block agrees there with its array. -/
theorem cb6_point (A0 : S40000x256.Idx → Elt Ideal .f32) (A1 : S40000x256.Idx → Elt Ideal .f32) (A2 : S1x256.Idx → Elt Ideal .f32) (A3 : S40000x256.Idx → Elt Ideal .f32) (A4 : S40000x256.Idx → Elt Ideal .f32) (A5 : S1x256.Idx → Elt Ideal .f32)
    (x0 : Vec Ideal S2000x256 .f32) (x1 : Vec Ideal S2000x256 .f32) (x2 : Vec Ideal S1x256 .f32) (x3 : Vec Ideal S2000x256 .f32) (x4 : Vec Ideal S2000x256 .f32) (x5 : Vec Ideal S1x256 .f32) (y : S2000x256.Idx) (i : S40000x256.Idx)
    (h0 : x0 y = A0 i) (h1 : x1 y = A1 i) (h2 : x2 (ix2 (n0 := 1) (n1 := 256) 0 (y 1)) = A2 (ix2 (n0 := 1) (n1 := 256) 0 (i 1))) (h3 : x3 y = A3 i) (h4 : x4 y = A4 i) (h5 : x5 (ix2 (n0 := 1) (n1 := 256) 0 (y 1)) = A5 (ix2 (n0 := 1) (n1 := 256) 0 (i 1))) :
    k6_pay1 (F := Ideal) x0 x1 x2 x3 x4 x5 y = G6 A0 A1 A2 A3 A4 A5 i := by
  obtain ⟨p, q, rfl⟩ : ∃ (p : Fin 2000) (q : Fin 256), y = ix2 p q := ⟨y 0, y 1, eq_ix2 y⟩
  rw [k6_pay1_apply, h0, h1, h3, h4]
  have g2 : x2 (ix2 0 q) = A2 (ix2 (n0 := 1) (n1 := 256) 0 (i 1)) := h2
  have g5 : x5 (ix2 0 q) = A5 (ix2 (n0 := 1) (n1 := 256) 0 (i 1)) := h5
  rw [g2, g5]
  rfl

/-! ## Region 10 -/

/-- The body's stored value at row `p`, column `q` of the block: the sum of the blocks and of the bias rows spread over the rows;
    a bias row `[1, 64]` is read at `(0, q)`. -/
theorem k10_pay1_apply (x0 : Vec Ideal S2000x64 .f32) (x1 : Vec Ideal S2000x64 .f32) (x2 : Vec Ideal S1x64 .f32) (x3 : Vec Ideal S2000x64 .f32) (x4 : Vec Ideal S2000x64 .f32) (x5 : Vec Ideal S1x64 .f32) (p : Fin 2000) (q : Fin 64) :
    k10_pay1 (F := Ideal) x0 x1 x2 x3 x4 x5 (ix2 p q)
      = (((((x0 (ix2 p q) + x1 (ix2 p q)) + x2 (ix2 0 q)) + x3 (ix2 p q)) + x4 (ix2 p q)) + x5 (ix2 0 q)) := by
  unfold k10_pay1
  simp only [shapeCast_self]
  show (((((x0 (ix2 p q) + x1 (ix2 p q)) + broadcastTo S2000x64 x2 broadcasts_S1x64_S2000x64 (ix2 p q)) + x3 (ix2 p q)) + x4 (ix2 p q)) + broadcastTo S2000x64 x5 broadcasts_S1x64_S2000x64 (ix2 p q)) = _
  rw [broadcastTo_apply x2 broadcasts_S1x64_S2000x64 (ix2 p q) (ix2 0 q) (by intro a; match a with | ⟨0, _⟩ => rfl | ⟨1, _⟩ => rfl),
    broadcastTo_apply x5 broadcasts_S1x64_S2000x64 (ix2 p q) (ix2 0 q) (by intro a; match a with | ⟨0, _⟩ => rfl | ⟨1, _⟩ => rfl)]

/-- The same expression over whole arrays `[40000, 64]` (bias rows `[1, 64]`), index by index. -/
def G10 (A0 : S40000x64.Idx → Elt Ideal .f32) (A1 : S40000x64.Idx → Elt Ideal .f32) (A2 : S1x64.Idx → Elt Ideal .f32) (A3 : S40000x64.Idx → Elt Ideal .f32) (A4 : S40000x64.Idx → Elt Ideal .f32) (A5 : S1x64.Idx → Elt Ideal .f32) : S40000x64.Idx → Elt Ideal .f32 :=
  fun i => (((((A0 i + A1 i) + A2 (ix2 (n0 := 1) (n1 := 64) 0 (i 1))) + A3 i) + A4 i) + A5 (ix2 (n0 := 1) (n1 := 64) 0 (i 1)))

theorem G10_apply (A0 : S40000x64.Idx → Elt Ideal .f32) (A1 : S40000x64.Idx → Elt Ideal .f32) (A2 : S1x64.Idx → Elt Ideal .f32) (A3 : S40000x64.Idx → Elt Ideal .f32) (A4 : S40000x64.Idx → Elt Ideal .f32) (A5 : S1x64.Idx → Elt Ideal .f32) (p : Fin 40000) (q : Fin 64) :
    G10 A0 A1 A2 A3 A4 A5 (ix2 p q) = (((((A0 (ix2 p q) + A1 (ix2 p q)) + A2 (ix2 0 q)) + A3 (ix2 p q)) + A4 (ix2 p q)) + A5 (ix2 0 q)) := rfl

/-- One element of a block is the whole-array expression at the element's place in the array, once each loaded
    block agrees there with its array. -/
theorem cb10_point (A0 : S40000x64.Idx → Elt Ideal .f32) (A1 : S40000x64.Idx → Elt Ideal .f32) (A2 : S1x64.Idx → Elt Ideal .f32) (A3 : S40000x64.Idx → Elt Ideal .f32) (A4 : S40000x64.Idx → Elt Ideal .f32) (A5 : S1x64.Idx → Elt Ideal .f32)
    (x0 : Vec Ideal S2000x64 .f32) (x1 : Vec Ideal S2000x64 .f32) (x2 : Vec Ideal S1x64 .f32) (x3 : Vec Ideal S2000x64 .f32) (x4 : Vec Ideal S2000x64 .f32) (x5 : Vec Ideal S1x64 .f32) (y : S2000x64.Idx) (i : S40000x64.Idx)
    (h0 : x0 y = A0 i) (h1 : x1 y = A1 i) (h2 : x2 (ix2 (n0 := 1) (n1 := 64) 0 (y 1)) = A2 (ix2 (n0 := 1) (n1 := 64) 0 (i 1))) (h3 : x3 y = A3 i) (h4 : x4 y = A4 i) (h5 : x5 (ix2 (n0 := 1) (n1 := 64) 0 (y 1)) = A5 (ix2 (n0 := 1) (n1 := 64) 0 (i 1))) :
    k10_pay1 (F := Ideal) x0 x1 x2 x3 x4 x5 y = G10 A0 A1 A2 A3 A4 A5 i := by
  obtain ⟨p, q, rfl⟩ : ∃ (p : Fin 2000) (q : Fin 64), y = ix2 p q := ⟨y 0, y 1, eq_ix2 y⟩
  rw [k10_pay1_apply, h0, h1, h3, h4]
  have g2 : x2 (ix2 0 q) = A2 (ix2 (n0 := 1) (n1 := 64) 0 (i 1)) := h2
  have g5 : x5 (ix2 0 q) = A5 (ix2 (n0 := 1) (n1 := 64) 0 (i 1)) := h5
  rw [g2, g5]
  rfl

end Cert.KernelIdeal.Val

end
-- ==== Proof.KV.Cb2.lean ====
import proofs.«102211_j33681133535938_1_alg».proof.Proof.KI.R2
import proofs.«102211_j33681133535938_1_alg».proof.Proof.KV.PayB
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-! # Region 2: the six-operand combination of the first layer, as one array

Grid point `t` of 20 works on rows `2000 t … 2000 t + 1999` of every `[40000, 256]` operand and of the result, and on the
whole of each `[1, 256]` bias row. So what point `t` writes back is block `t` of ONE function of the operand arrays,
`G2`, and as the 20 blocks tile the `40000` rows the result array ends holding `G2` everywhere. -/

theorem hz2 : (![0, 0] : Fin 2 → Nat) = fun _ => 0 := funext fun a => by fin_cases a <;> rfl

/-- The index maps over the grid: a row-block window is at block `(t, 0)`, a bias row at block `(0, 0)`. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0
    ∧ win2_4.index t (0 : Fin 2) = t.val
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

set_option maxHeartbeats 4000000 in
/-- What point `t` writes back is block `t` of `G2` of the arrays as the region finds them. -/
theorem flushed2_eq (c : Dev nD) (t : Fin cfg2.N) :
    (dat2 V c).flushed 6 t = ((cfg2.win 6).blk t).view.read (Elt Ideal) (G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz2]
  simp only [View.ld_unit_zero (S := S2000x256) hz2, View.ld_unit_zero (S := S1x256) hz2]
  obtain ⟨e0, e1, e2, e3, e4, e5, e6, e7, e8, e9, e10, e11, e12, e13⟩ := idx_facts2 t
  funext j
  show k2_pay1 (F := Ideal) (iblk2 V c 0 t) (iblk2 V c 1 t) (iblk2 V c 2 t) (iblk2 V c 3 t) (iblk2 V c 4 t) (iblk2 V c 5 t) j = G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 6).blk t).view.emb j)
  refine cb2_point (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (iblk2 V c 0 t) (iblk2 V c 1 t) (iblk2 V c 2 t) (iblk2 V c 3 t) (iblk2 V c 4 t) (iblk2 V c 5 t) j (((cfg2.win 6).blk t).view.emb j) ?_ ?_ ?_ ?_ ?_ ?_
  · -- window 0: the block of rows at the point's place
    show (V c (Pipeline.arrRef spec2 0)) (((cfg2.win 0).blk t).view.emb j) = (V c (Pipeline.arrRef spec2 0)) (((cfg2.win 6).blk t).view.emb j)
    refine congrArg (V c (Pipeline.arrRef spec2 0)) (funext fun a => Fin.ext ?_)
    match a with
    | ⟨0, _⟩ => show win2_0.index t (0 : Fin 2) * 2000 + 1 * (j 0).val = win2_6.index t (0 : Fin 2) * 2000 + 1 * (j 0).val; omega
    | ⟨1, _⟩ => show win2_0.index t (1 : Fin 2) * 256 + 1 * (j 1).val = win2_6.index t (1 : Fin 2) * 256 + 1 * (j 1).val; omega
  · -- window 1: the block of rows at the point's place
    show (V c (Pipeline.arrRef spec2 1)) (((cfg2.win 1).blk t).view.emb j) = (V c (Pipeline.arrRef spec2 1)) (((cfg2.win 6).blk t).view.emb j)
    refine congrArg (V c (Pipeline.arrRef spec2 1)) (funext fun a => Fin.ext ?_)
    match a with
    | ⟨0, _⟩ => show win2_1.index t (0 : Fin 2) * 2000 + 1 * (j 0).val = win2_6.index t (0 : Fin 2) * 2000 + 1 * (j 0).val; omega
    | ⟨1, _⟩ => show win2_1.index t (1 : Fin 2) * 256 + 1 * (j 1).val = win2_6.index t (1 : Fin 2) * 256 + 1 * (j 1).val; omega
  · -- window 2: the bias row, whole at every point
    show (V c (Pipeline.arrRef spec2 2)) (((cfg2.win 2).blk t).view.emb (ix2 (n0 := 1) (n1 := 256) 0 (j 1))) = (V c (Pipeline.arrRef spec2 2)) (ix2 (n0 := 1) (n1 := 256) 0 ((((cfg2.win 6).blk t).view.emb j) 1))
    refine congrArg (V c (Pipeline.arrRef spec2 2)) (funext fun a => Fin.ext ?_)
    match a with
    | ⟨0, _⟩ => show win2_2.index t (0 : Fin 2) * 1 + 1 * 0 = 0; omega
    | ⟨1, _⟩ => show win2_2.index t (1 : Fin 2) * 256 + 1 * (j 1).val = win2_6.index t (1 : Fin 2) * 256 + 1 * (j 1).val; omega
  · -- window 3: the block of rows at the point's place
    show (V c (Pipeline.arrRef spec2 3)) (((cfg2.win 3).blk t).view.emb j) = (V c (Pipeline.arrRef spec2 3)) (((cfg2.win 6).blk t).view.emb j)
    refine congrArg (V c (Pipeline.arrRef spec2 3)) (funext fun a => Fin.ext ?_)
    match a with
    | ⟨0, _⟩ => show win2_3.index t (0 : Fin 2) * 2000 + 1 * (j 0).val = win2_6.index t (0 : Fin 2) * 2000 + 1 * (j 0).val; omega
    | ⟨1, _⟩ => show win2_3.index t (1 : Fin 2) * 256 + 1 * (j 1).val = win2_6.index t (1 : Fin 2) * 256 + 1 * (j 1).val; omega
  · -- window 4: the block of rows at the point's place
    show (V c (Pipeline.arrRef spec2 4)) (((cfg2.win 4).blk t).view.emb j) = (V c (Pipeline.arrRef spec2 4)) (((cfg2.win 6).blk t).view.emb j)
    refine congrArg (V c (Pipeline.arrRef spec2 4)) (funext fun a => Fin.ext ?_)
    match a with
    | ⟨0, _⟩ => show win2_4.index t (0 : Fin 2) * 2000 + 1 * (j 0).val = win2_6.index t (0 : Fin 2) * 2000 + 1 * (j 0).val; omega
    | ⟨1, _⟩ => show win2_4.index t (1 : Fin 2) * 256 + 1 * (j 1).val = win2_6.index t (1 : Fin 2) * 256 + 1 * (j 1).val; omega
  · -- window 5: the bias row, whole at every point
    show (V c (Pipeline.arrRef spec2 5)) (((cfg2.win 5).blk t).view.emb (ix2 (n0 := 1) (n1 := 256) 0 (j 1))) = (V c (Pipeline.arrRef spec2 5)) (ix2 (n0 := 1) (n1 := 256) 0 ((((cfg2.win 6).blk t).view.emb j) 1))
    refine congrArg (V c (Pipeline.arrRef spec2 5)) (funext fun a => Fin.ext ?_)
    match a with
    | ⟨0, _⟩ => show win2_5.index t (0 : Fin 2) * 1 + 1 * 0 = 0; omega
    | ⟨1, _⟩ => show win2_5.index t (1 : Fin 2) * 256 + 1 * (j 1).val = win2_6.index t (1 : Fin 2) * 256 + 1 * (j 1).val; omega

/-- An index of the result array is in point `t`'s block iff each coordinate is in the block's range on its axis. -/
theorem mem_blk2 (t : Fin cfg2.N) (i : S40000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v79).slice (win2_6.rect t)).set ↔ _
  rw [View.set_slice_whole, Rect.mem_set_unit]
  exact Iff.rfl

/-- Row `r` is in the block of point `r / 2000`, which writes back: the 20 blocks cover the array. -/
theorem cover2 (i : S40000x256.Idx) :
    ∃ t : Fin cfg2.N, (cfg2.win 6).flush t = true ∧ i ∈ ((cfg2.win 6).blk t).view.set := by
  have hi0 : (i 0).val < 40000 := (i 0).isLt
  have hi1 : (i 1).val < 256 := (i 1).isLt
  obtain ⟨t, ht⟩ : ∃ t : Fin cfg2.N, t.val = (i 0).val / 2000 :=
    ⟨⟨(i 0).val / 2000, by show (i 0).val / 2000 < 20; omega⟩, rfl⟩
  obtain ⟨e0, e1, e2, e3, e4, e5, e6, e7, e8, e9, e10, e11, e12, e13⟩ := idx_facts2 t
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 256 ≤ (i 1).val ∧ (i 1).val < win2_6.index t (1 : Fin 2) * 256 + 256; omega

/-- The result array after the region is `G2` of the operand arrays as the region finds them. -/
theorem final2 (c : Dev nD) :
    (dat2 V c).arrAt 6 cfg2.N = G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 (G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) (fun t _ => flushed2_eq V c t) (cover2)

/-- The result array at row `p`, column `q`, in the body's own order of operations, over whatever the operand arrays
    are known to hold when the region is entered. -/
theorem final_cb2 (c : Dev nD) (a : S40000x256.Idx → Elt Ideal .f32) (aw : S40000x256.Idx → Elt Ideal .f32) (ab : S1x256.Idx → Elt Ideal .f32) (b : S40000x256.Idx → Elt Ideal .f32) (bw : S40000x256.Idx → Elt Ideal .f32) (bb : S1x256.Idx → Elt Ideal .f32)
    (ha : V c (Pipeline.arrRef spec2 0) = a)
    (haw : V c (Pipeline.arrRef spec2 1) = aw)
    (hab : V c (Pipeline.arrRef spec2 2) = ab)
    (hb : V c (Pipeline.arrRef spec2 3) = b)
    (hbw : V c (Pipeline.arrRef spec2 4) = bw)
    (hbb : V c (Pipeline.arrRef spec2 5) = bb)
    (p : Fin 40000) (q : Fin 256) :
    (dat2 (F := Ideal) V c).arrAt 6 cfg2.N (ix2 p q)
      = max (((((a (ix2 p q) + aw (ix2 p q)) + ab (ix2 0 q)) + b (ix2 p q)) + bw (ix2 p q)) + bb (ix2 0 q)) (Ideal.ofBits .f32 0x00000000#32) := by
  subst ha haw hab hb hbw hbb
  rw [final2]
  rfl

end Cert.KernelIdeal.Val

end
-- ==== Proof.KV.PayA.lean ====
import proofs.«102211_j33681133535938_1_alg».proof.Proof.Gen.KernelIdeal.Skeleton
import Idealize.ShloMosaic.Lib.Pipeline.Value
import Idealize.ShloMosaic.Lib.ValueIdx

noncomputable section

namespace Cert.KernelIdeal.Val

open Idealize.ShloMosaic Idealize.ShloMosaic.ValueIdx
open Cert.KernelIdeal Cert.KernelIdeal.Gen

/-! # The combine bodies read at an index

Each combine body stores ONE value: the elementwise sum of its row blocks and of its bias rows (a `[1, o]` row added to
every row of the block), in the first two layers followed by the maximum with zero. Here that value is read at a row and a
column, at the exact instance, and restated over whole arrays. -/

/-! ## Region 3 -/

/-- The body's stored value at row `p`, column `q` of the block: the sum of the blocks and of the bias rows spread over the rows, then the maximum with zero;
    a bias row `[1, 256]` is read at `(0, q)`. -/
theorem k3_pay1_apply (x0 : Vec Ideal S3000x256 .f32) (x1 : Vec Ideal S3000x256 .f32) (x2 : Vec Ideal S1x256 .f32) (p : Fin 3000) (q : Fin 256) :
    k3_pay1 (F := Ideal) x0 x1 x2 (ix2 p q)
      = max ((x0 (ix2 p q) + x1 (ix2 p q)) + x2 (ix2 0 q)) (Ideal.ofBits .f32 0x00000000#32) := by
  unfold k3_pay1
  simp only [shapeCast_self]
  show max ((x0 (ix2 p q) + x1 (ix2 p q)) + broadcastTo S3000x256 x2 broadcasts_S1x256_S3000x256 (ix2 p q)) (Ideal.ofBits .f32 0x00000000#32) = _
  rw [broadcastTo_apply x2 broadcasts_S1x256_S3000x256 (ix2 p q) (ix2 0 q) (by intro a; match a with | ⟨0, _⟩ => rfl | ⟨1, _⟩ => rfl)]

/-- The same expression over whole arrays `[15000, 256]` (bias rows `[1, 256]`), index by index. -/
def G3 (A0 : S15000x256.Idx → Elt Ideal .f32) (A1 : S15000x256.Idx → Elt Ideal .f32) (A2 : S1x256.Idx → Elt Ideal .f32) : S15000x256.Idx → Elt Ideal .f32 :=
  fun i => max ((A0 i + A1 i) + A2 (ix2 (n0 := 1) (n1 := 256) 0 (i 1))) (Ideal.ofBits .f32 0x00000000#32)

theorem G3_apply (A0 : S15000x256.Idx → Elt Ideal .f32) (A1 : S15000x256.Idx → Elt Ideal .f32) (A2 : S1x256.Idx → Elt Ideal .f32) (p : Fin 15000) (q : Fin 256) :
    G3 A0 A1 A2 (ix2 p q) = max ((A0 (ix2 p q) + A1 (ix2 p q)) + A2 (ix2 0 q)) (Ideal.ofBits .f32 0x00000000#32) := rfl

/-- One element of a block is the whole-array expression at the element's place in the array, once each loaded
    block agrees there with its array. -/
theorem cb3_point (A0 : S15000x256.Idx → Elt Ideal .f32) (A1 : S15000x256.Idx → Elt Ideal .f32) (A2 : S1x256.Idx → Elt Ideal .f32)
    (x0 : Vec Ideal S3000x256 .f32) (x1 : Vec Ideal S3000x256 .f32) (x2 : Vec Ideal S1x256 .f32) (y : S3000x256.Idx) (i : S15000x256.Idx)
    (h0 : x0 y = A0 i) (h1 : x1 y = A1 i) (h2 : x2 (ix2 (n0 := 1) (n1 := 256) 0 (y 1)) = A2 (ix2 (n0 := 1) (n1 := 256) 0 (i 1))) :
    k3_pay1 (F := Ideal) x0 x1 x2 y = G3 A0 A1 A2 i := by
  obtain ⟨p, q, rfl⟩ : ∃ (p : Fin 3000) (q : Fin 256), y = ix2 p q := ⟨y 0, y 1, eq_ix2 y⟩
  rw [k3_pay1_apply, h0, h1]
  have g2 : x2 (ix2 0 q) = A2 (ix2 (n0 := 1) (n1 := 256) 0 (i 1)) := h2
  rw [g2]
  rfl

/-! ## Region 7 -/

/-- The body's stored value at row `p`, column `q` of the block: the sum of the blocks and of the bias rows spread over the rows, then the maximum with zero;
    a bias row `[1, 256]` is read at `(0, q)`. -/
theorem k7_pay1_apply (x0 : Vec Ideal S3000x256 .f32) (x1 : Vec Ideal S3000x256 .f32) (x2 : Vec Ideal S1x256 .f32) (p : Fin 3000) (q : Fin 256) :
    k7_pay1 (F := Ideal) x0 x1 x2 (ix2 p q)
      = max ((x0 (ix2 p q) + x1 (ix2 p q)) + x2 (ix2 0 q)) (Ideal.ofBits .f32 0x00000000#32) := by
  unfold k7_pay1
  simp only [shapeCast_self]
  show max ((x0 (ix2 p q) + x1 (ix2 p q)) + broadcastTo S3000x256 x2 broadcasts_S1x256_S3000x256 (ix2 p q)) (Ideal.ofBits .f32 0x00000000#32) = _
  rw [broadcastTo_apply x2 broadcasts_S1x256_S3000x256 (ix2 p q) (ix2 0 q) (by intro a; match a with | ⟨0, _⟩ => rfl | ⟨1, _⟩ => rfl)]

/-- The same expression over whole arrays `[15000, 256]` (bias rows `[1, 256]`), index by index. -/
def G7 (A0 : S15000x256.Idx → Elt Ideal .f32) (A1 : S15000x256.Idx → Elt Ideal .f32) (A2 : S1x256.Idx → Elt Ideal .f32) : S15000x256.Idx → Elt Ideal .f32 :=
  fun i => max ((A0 i + A1 i) + A2 (ix2 (n0 := 1) (n1 := 256) 0 (i 1))) (Ideal.ofBits .f32 0x00000000#32)

theorem G7_apply (A0 : S15000x256.Idx → Elt Ideal .f32) (A1 : S15000x256.Idx → Elt Ideal .f32) (A2 : S1x256.Idx → Elt Ideal .f32) (p : Fin 15000) (q : Fin 256) :
    G7 A0 A1 A2 (ix2 p q) = max ((A0 (ix2 p q) + A1 (ix2 p q)) + A2 (ix2 0 q)) (Ideal.ofBits .f32 0x00000000#32) := rfl

/-- One element of a block is the whole-array expression at the element's place in the array, once each loaded
    block agrees there with its array. -/
theorem cb7_point (A0 : S15000x256.Idx → Elt Ideal .f32) (A1 : S15000x256.Idx → Elt Ideal .f32) (A2 : S1x256.Idx → Elt Ideal .f32)
    (x0 : Vec Ideal S3000x256 .f32) (x1 : Vec Ideal S3000x256 .f32) (x2 : Vec Ideal S1x256 .f32) (y : S3000x256.Idx) (i : S15000x256.Idx)
    (h0 : x0 y = A0 i) (h1 : x1 y = A1 i) (h2 : x2 (ix2 (n0 := 1) (n1 := 256) 0 (y 1)) = A2 (ix2 (n0 := 1) (n1 := 256) 0 (i 1))) :
    k7_pay1 (F := Ideal) x0 x1 x2 y = G7 A0 A1 A2 i := by
  obtain ⟨p, q, rfl⟩ : ∃ (p : Fin 3000) (q : Fin 256), y = ix2 p q := ⟨y 0, y 1, eq_ix2 y⟩
  rw [k7_pay1_apply, h0, h1]
  have g2 : x2 (ix2 0 q) = A2 (ix2 (n0 := 1) (n1 := 256) 0 (i 1)) := h2
  rw [g2]
  rfl

/-! ## Region 11 -/

/-- The body's stored value at row `p`, column `q` of the block: the sum of the blocks and of the bias rows spread over the rows;
    a bias row `[1, 64]` is read at `(0, q)`. -/
theorem k11_pay1_apply (x0 : Vec Ideal S3000x64 .f32) (x1 : Vec Ideal S3000x64 .f32) (x2 : Vec Ideal S1x64 .f32) (p : Fin 3000) (q : Fin 64) :
    k11_pay1 (F := Ideal) x0 x1 x2 (ix2 p q)
      = ((x0 (ix2 p q) + x1 (ix2 p q)) + x2 (ix2 0 q)) := by
  unfold k11_pay1
  simp only [shapeCast_self]
  show ((x0 (ix2 p q) + x1 (ix2 p q)) + broadcastTo S3000x64 x2 broadcasts_S1x64_S3000x64 (ix2 p q)) = _
  rw [broadcastTo_apply x2 broadcasts_S1x64_S3000x64 (ix2 p q) (ix2 0 q) (by intro a; match a with | ⟨0, _⟩ => rfl | ⟨1, _⟩ => rfl)]

/-- The same expression over whole arrays `[15000, 64]` (bias rows `[1, 64]`), index by index. -/
def G11 (A0 : S15000x64.Idx → Elt Ideal .f32) (A1 : S15000x64.Idx → Elt Ideal .f32) (A2 : S1x64.Idx → Elt Ideal .f32) : S15000x64.Idx → Elt Ideal .f32 :=
  fun i => ((A0 i + A1 i) + A2 (ix2 (n0 := 1) (n1 := 64) 0 (i 1)))

theorem G11_apply (A0 : S15000x64.Idx → Elt Ideal .f32) (A1 : S15000x64.Idx → Elt Ideal .f32) (A2 : S1x64.Idx → Elt Ideal .f32) (p : Fin 15000) (q : Fin 64) :
    G11 A0 A1 A2 (ix2 p q) = ((A0 (ix2 p q) + A1 (ix2 p q)) + A2 (ix2 0 q)) := rfl

/-- One element of a block is the whole-array expression at the element's place in the array, once each loaded
    block agrees there with its array. -/
theorem cb11_point (A0 : S15000x64.Idx → Elt Ideal .f32) (A1 : S15000x64.Idx → Elt Ideal .f32) (A2 : S1x64.Idx → Elt Ideal .f32)
    (x0 : Vec Ideal S3000x64 .f32) (x1 : Vec Ideal S3000x64 .f32) (x2 : Vec Ideal S1x64 .f32) (y : S3000x64.Idx) (i : S15000x64.Idx)
    (h0 : x0 y = A0 i) (h1 : x1 y = A1 i) (h2 : x2 (ix2 (n0 := 1) (n1 := 64) 0 (y 1)) = A2 (ix2 (n0 := 1) (n1 := 64) 0 (i 1))) :
    k11_pay1 (F := Ideal) x0 x1 x2 y = G11 A0 A1 A2 i := by
  obtain ⟨p, q, rfl⟩ : ∃ (p : Fin 3000) (q : Fin 64), y = ix2 p q := ⟨y 0, y 1, eq_ix2 y⟩
  rw [k11_pay1_apply, h0, h1]
  have g2 : x2 (ix2 0 q) = A2 (ix2 (n0 := 1) (n1 := 64) 0 (i 1)) := h2
  rw [g2]
  rfl

end Cert.KernelIdeal.Val

end
-- ==== Proof.KV.Cb3.lean ====
import proofs.«102211_j33681133535938_1_alg».proof.Proof.KI.R3
import proofs.«102211_j33681133535938_1_alg».proof.Proof.KV.PayA
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-! # Region 3: the three-operand combination of the first layer, as one array

Grid point `t` of 5 works on rows `3000 t … 3000 t + 2999` of every `[15000, 256]` operand and of the result, and on the
whole of each `[1, 256]` bias row. So what point `t` writes back is block `t` of ONE function of the operand arrays,
`G3`, and as the 5 blocks tile the `15000` rows the result array ends holding `G3` everywhere. -/

theorem hz3 : (![0, 0] : Fin 2 → Nat) = fun _ => 0 := funext fun a => by fin_cases a <;> rfl

/-- The index maps over the grid: a row-block window is at block `(t, 0)`, a bias row at block `(0, 0)`. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- What point `t` writes back is block `t` of `G3` of the arrays as the region finds them. -/
theorem flushed3_eq (c : Dev nD) (t : Fin cfg3.N) :
    (dat3 V c).flushed 3 t = ((cfg3.win 3).blk t).view.read (Elt Ideal) (G3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S3000x256) hz3, View.ld_unit_zero (S := S1x256) hz3]
  obtain ⟨e0, e1, e2, e3, e4, e5, e6, e7⟩ := idx_facts3 t
  funext j
  show k3_pay1 (F := Ideal) (iblk3 V c 0 t) (iblk3 V c 1 t) (iblk3 V c 2 t) j = G3 (V c (Pipeline.arrRef spec3 0)) (V c (Pipeline.arrRef spec3 1)) (V c (Pipeline.arrRef spec3 2)) (((cfg3.win 3).blk t).view.emb j)
  refine cb3_point (V c (Pipeline.arrRef spec3 0)) (V c (Pipeline.arrRef spec3 1)) (V c (Pipeline.arrRef spec3 2)) (iblk3 V c 0 t) (iblk3 V c 1 t) (iblk3 V c 2 t) j (((cfg3.win 3).blk t).view.emb j) ?_ ?_ ?_
  · -- window 0: the block of rows at the point's place
    show (V c (Pipeline.arrRef spec3 0)) (((cfg3.win 0).blk t).view.emb j) = (V c (Pipeline.arrRef spec3 0)) (((cfg3.win 3).blk t).view.emb j)
    refine congrArg (V c (Pipeline.arrRef spec3 0)) (funext fun a => Fin.ext ?_)
    match a with
    | ⟨0, _⟩ => show win3_0.index t (0 : Fin 2) * 3000 + 1 * (j 0).val = win3_3.index t (0 : Fin 2) * 3000 + 1 * (j 0).val; omega
    | ⟨1, _⟩ => show win3_0.index t (1 : Fin 2) * 256 + 1 * (j 1).val = win3_3.index t (1 : Fin 2) * 256 + 1 * (j 1).val; omega
  · -- window 1: the block of rows at the point's place
    show (V c (Pipeline.arrRef spec3 1)) (((cfg3.win 1).blk t).view.emb j) = (V c (Pipeline.arrRef spec3 1)) (((cfg3.win 3).blk t).view.emb j)
    refine congrArg (V c (Pipeline.arrRef spec3 1)) (funext fun a => Fin.ext ?_)
    match a with
    | ⟨0, _⟩ => show win3_1.index t (0 : Fin 2) * 3000 + 1 * (j 0).val = win3_3.index t (0 : Fin 2) * 3000 + 1 * (j 0).val; omega
    | ⟨1, _⟩ => show win3_1.index t (1 : Fin 2) * 256 + 1 * (j 1).val = win3_3.index t (1 : Fin 2) * 256 + 1 * (j 1).val; omega
  · -- window 2: the bias row, whole at every point
    show (V c (Pipeline.arrRef spec3 2)) (((cfg3.win 2).blk t).view.emb (ix2 (n0 := 1) (n1 := 256) 0 (j 1))) = (V c (Pipeline.arrRef spec3 2)) (ix2 (n0 := 1) (n1 := 256) 0 ((((cfg3.win 3).blk t).view.emb j) 1))
    refine congrArg (V c (Pipeline.arrRef spec3 2)) (funext fun a => Fin.ext ?_)
    match a with
    | ⟨0, _⟩ => show win3_2.index t (0 : Fin 2) * 1 + 1 * 0 = 0; omega
    | ⟨1, _⟩ => show win3_2.index t (1 : Fin 2) * 256 + 1 * (j 1).val = win3_3.index t (1 : Fin 2) * 256 + 1 * (j 1).val; omega

/-- An index of the result array is in point `t`'s block iff each coordinate is in the block's range on its axis. -/
theorem mem_blk3 (t : Fin cfg3.N) (i : S15000x256.Idx) :
    i ∈ ((cfg3.win 3).blk t).view.set ↔ ∀ a : Fin 2, win3_3.index t a * S3000x256.size a ≤ (i a).val ∧ (i a).val < win3_3.index t a * S3000x256.size a + S3000x256.size a := by
  show i ∈ ((View.whole main_v81).slice (win3_3.rect t)).set ↔ _
  rw [View.set_slice_whole, Rect.mem_set_unit]
  exact Iff.rfl

/-- Row `r` is in the block of point `r / 3000`, which writes back: the 5 blocks cover the array. -/
theorem cover3 (i : S15000x256.Idx) :
    ∃ t : Fin cfg3.N, (cfg3.win 3).flush t = true ∧ i ∈ ((cfg3.win 3).blk t).view.set := by
  have hi0 : (i 0).val < 15000 := (i 0).isLt
  have hi1 : (i 1).val < 256 := (i 1).isLt
  obtain ⟨t, ht⟩ : ∃ t : Fin cfg3.N, t.val = (i 0).val / 3000 :=
    ⟨⟨(i 0).val / 3000, by show (i 0).val / 3000 < 5; omega⟩, rfl⟩
  obtain ⟨e0, e1, e2, e3, e4, e5, e6, e7⟩ := idx_facts3 t
  refine ⟨t, flush3_3 t, ?_⟩
  rw [mem_blk3]
  intro a
  match a with
  | ⟨0, _⟩ => show win3_3.index t (0 : Fin 2) * 3000 ≤ (i 0).val ∧ (i 0).val < win3_3.index t (0 : Fin 2) * 3000 + 3000; omega
  | ⟨1, _⟩ => show win3_3.index t (1 : Fin 2) * 256 ≤ (i 1).val ∧ (i 1).val < win3_3.index t (1 : Fin 2) * 256 + 256; omega

/-- The result array after the region is `G3` of the operand arrays as the region finds them. -/
theorem final3 (c : Dev nD) :
    (dat3 V c).arrAt 3 cfg3.N = G3 (V c (Pipeline.arrRef spec3 0)) (V c (Pipeline.arrRef spec3 1)) (V c (Pipeline.arrRef spec3 2)) :=
  (dat3 V c).arrAt_eq_of_cover 3 (G3 (V c (Pipeline.arrRef spec3 0)) (V c (Pipeline.arrRef spec3 1)) (V c (Pipeline.arrRef spec3 2))) (fun t _ => flushed3_eq V c t) (cover3)

/-- The result array at row `p`, column `q`, in the body's own order of operations, over whatever the operand arrays
    are known to hold when the region is entered. -/
theorem final_cb3 (c : Dev nD) (a : S15000x256.Idx → Elt Ideal .f32) (aw : S15000x256.Idx → Elt Ideal .f32) (ab : S1x256.Idx → Elt Ideal .f32)
    (ha : V c (Pipeline.arrRef spec3 0) = a)
    (haw : V c (Pipeline.arrRef spec3 1) = aw)
    (hab : V c (Pipeline.arrRef spec3 2) = ab)
    (p : Fin 15000) (q : Fin 256) :
    (dat3 (F := Ideal) V c).arrAt 3 cfg3.N (ix2 p q)
      = max ((a (ix2 p q) + aw (ix2 p q)) + ab (ix2 0 q)) (Ideal.ofBits .f32 0x00000000#32) := by
  subst ha haw hab
  rw [final3]
  rfl

end Cert.KernelIdeal.Val

end
-- ==== Proof.LibPlacedColumn.lean ====
/-
  A vector of per-row values repeated over the columns of a table, the host's way.

  A length-a vector used against every column of an [a, p] table is first placed on the first axis of an [a, 1] column
  (a broadcast that adds the unit axis) and then repeated along the second axis by an axis-by-axis broadcast. The repeated
  table holds, at (r, q), the vector's entry r, whatever the column q: the unit axis is read at 0 and the first axis keeps
  its coordinate. This is the column counterpart of a bias vector placed as a row and repeated over the rows.
-/
import Idealize.ShloMosaic.Lib.Pipeline.Value
import Idealize.ShloMosaic.Lib.ValueIdx

noncomputable section

namespace Cert.LibPlacedColumn

open Idealize.ShloMosaic Idealize.ShloMosaic.ValueIdx

variable {α : Type}

/-- A vector placed on the first axis of an [a, 1] column, the column then broadcast axis by axis to [a, p]: at (r, q) the
    vector at r. -/
theorem placed_column_apply {a p : ℕ} (v : (⟨1, ![a]⟩ : Shape).Idx → α)
    (g1 : (⟨1, ![a]⟩ : Shape).BroadcastsInDim ⟨2, ![a, 1]⟩ ![0])
    (g2 : (⟨2, ![a, 1]⟩ : Shape).BroadcastsInDim ⟨2, ![a, p]⟩ ![0, 1]) (r : Fin a) (q : Fin p) :
    broadcastInDim ⟨2, ![a, p]⟩ ![0, 1] g2 (broadcastInDim ⟨2, ![a, 1]⟩ ![0] g1 v) (ix2 r q) = v (ix1 r) := by
  refine (broadcastInDim_apply ![0, 1] g2 _ (ix2 r q) (ix2 r (0 : Fin 1)) fun ax => ?_).trans ?_
  · match ax with
    | ⟨0, _⟩ =>
      show r.val = if a = 1 then 0 else r.val
      split
      · have := r.isLt; omega
      · rfl
    | ⟨1, _⟩ => rfl
  · refine broadcastInDim_apply ![0] g1 v (ix2 r (0 : Fin 1)) (ix1 r) fun ax => ?_
    match ax with
    | ⟨0, _⟩ =>
      show r.val = if a = 1 then 0 else r.val
      split
      · have := r.isLt; omega
      · rfl

end Cert.LibPlacedColumn

end
-- ==== Proof.LibBiasRow.lean ====
/-
  A bias vector used against every row of a table, and a scalar filling a table.

  A length-b vector added to every row of an [a, b] table is first made a [1, b] row and then repeated along the rows.
  Whether the row is made by a reshape and repeated by a trailing-axes broadcast, or made by placing the vector's axis
  on the table's second axis and repeated by an axis-by-axis broadcast, the repeated table holds at (p, k) the vector's
  entry k. A scalar broadcast to a table holds the scalar everywhere.
-/
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

variable {α : Type}

/-- The vector placed on the second axis of a [1, b] row, the row then broadcast axis by axis to [a, b]: at (p, k) the
    vector at k. -/
theorem placed_row_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (k : Fin b) :
    broadcastInDim ⟨2, ![a, b]⟩ ![0, 1] h2 (broadcastInDim ⟨2, ![1, b]⟩ ![1] h1 x) (ix2 p k) = x (ix1 k) := by
  refine (broadcastInDim_apply ![0, 1] h2 _ (ix2 p k) (ix2 (0 : Fin 1) k) fun ax => ?_).trans ?_
  · match ax with
    | ⟨0, _⟩ => rfl
    | ⟨1, _⟩ =>
      show k.val = if b = 1 then 0 else k.val
      split
      · have := k.isLt; omega
      · rfl
  · refine broadcastInDim_apply ![1] h1 x (ix2 (0 : Fin 1) k) (ix1 k) fun ax => ?_
    match ax with
    | ⟨0, _⟩ =>
      show k.val = if b = 1 then 0 else k.val
      split
      · have := k.isLt; omega
      · rfl

/-- The vector reshaped to a [1, b] row, the row then broadcast over the leading axis to [a, b]: at (p, k) the vector
    at k. -/
theorem reshaped_row_apply {a b : ℕ} (x : (⟨1, ![b]⟩ : Shape).Idx → α)
    (h1 : (⟨1, ![b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ x h1) h2 (ix2 p k) = x (ix1 k) := by
  refine (broadcastTo_apply _ h2 (ix2 p k) (ix2 (0 : Fin 1) k) fun ax => ?_).trans (shapeCast_a_1a_apply x h1 0 k)
  match ax with
  | ⟨0, _⟩ => rfl
  | ⟨1, _⟩ =>
    show k.val = if b = 1 then 0 else k.val
    split
    · have := k.isLt; omega
    · rfl

/-- A scalar broadcast to any shape holds the scalar at every index. -/
theorem fill_apply {t : Shape} (z : (⟨0, ![]⟩ : Shape).Idx → α) (h : (⟨0, ![]⟩ : Shape).BroadcastsInDim t ![]) (j : t.Idx) :
    broadcastInDim t ![] h z j = z ix0 :=
  broadcastInDim_apply ![] h z j ix0 fun ax => ax.elim0

end Cert.LibBiasRow

end
-- ==== Proof.LibMeanColumn.lean ====
/-
  The mean over arriving edges, two ways. A table of sums `S` over [n, o] and a vector of counts over [n]: the column of
  reciprocals `1 / max(count, 1)`, placed on the first axis of an [n, 1] column and repeated along the rows, times `S`,
  is at (p, q) the quotient `S(p, q) / max(count(p), 1)` on the extended reals — the divisor is at least one, so it is not
  zero, and off zero the quotient is the product with the inverse. No finiteness of the sums or the counts is used.
-/
import Idealize.ShloMosaic.Lib.IdealHost
import Idealize.ShloMosaic.Lib.ValueIdx
import Idealize.ShloMosaic.Lib.Pipeline.Value
import proofs.«102211_j33681133535938_1_alg».proof.Proof.LibPlacedColumn
import proofs.«102211_j33681133535938_1_alg».proof.Proof.LibBiasRow

noncomputable section

namespace Cert.LibMeanColumn

open Idealize.ShloMosaic Idealize.ShloMosaic.ValueIdx

/-- `max(x, 1)` is not zero on the extended reals. -/
theorem max_one_ne_zero (x : EReal) : max x 1 ≠ 0 :=
  ne_of_gt (lt_of_lt_of_le zero_lt_one (le_max_right _ _))

/-- The product of a table with the repeated column of reciprocals of `max(count, 1)`, at (p, q), is the quotient of the
    table's entry by `max(count(p), 1)`. `u` is the scalar one the program broadcasts. -/
theorem mean_by_reciprocal_column_apply {n o : ℕ} (S : FVec Ideal ⟨2, ![n, o]⟩ .f32) (cnt : FVec Ideal ⟨1, ![n]⟩ .f32)
    (u : FVec Ideal ⟨0, ![]⟩ .f32) (hu : u ix0 = 1)
    (g0 : (⟨0, ![]⟩ : Shape).BroadcastsInDim ⟨1, ![n]⟩ ![])
    (g1 : (⟨1, ![n]⟩ : Shape).BroadcastsInDim ⟨2, ![n, 1]⟩ ![0])
    (g2 : (⟨2, ![n, 1]⟩ : Shape).BroadcastsInDim ⟨2, ![n, o]⟩ ![0, 1]) (p : Fin n) (q : Fin o) :
    mulf S (broadcastInDim ⟨2, ![n, o]⟩ ![0, 1] g2 (broadcastInDim ⟨2, ![n, 1]⟩ ![0] g1
      (Host.divf (F := Ideal) (broadcastInDim ⟨1, ![n]⟩ ![] g0 u) (maximumf cnt (broadcastInDim ⟨1, ![n]⟩ ![] g0 u))))) (ix2 p q)
      = Ideal.div (S (ix2 p q)) (max (cnt (ix1 p)) 1) := by
  rw [mulf_apply, Cert.LibPlacedColumn.placed_column_apply, hostDivf_apply, maximumf_apply,
    Cert.LibBiasRow.fill_apply, hu]
  exact Ideal.mul_one_div (max_one_ne_zero _)

end Cert.LibMeanColumn

end
-- ==== Proof.KV.B1K.lean ====
import proofs.«102211_j33681133535938_1_alg».proof.Proof.KV.B1Tab
import proofs.«102211_j33681133535938_1_alg».proof.Proof.KV.HL1
import proofs.«102211_j33681133535938_1_alg».proof.Proof.KV.Cb2
import proofs.«102211_j33681133535938_1_alg».proof.Proof.KV.Cb3
import proofs.«102211_j33681133535938_1_alg».proof.Proof.LibMeanColumn
import Idealize.ShloMosaic.Lib.Pipeline.Value
import Idealize.ShloMosaic.Lib.ValueIdx
import Idealize.ShloMosaic.Lib.ValueLayout
import Idealize.ShloMosaic.Lib.IdealHost

set_option maxRecDepth 16384

noncomputable section

open scoped BigOperators

namespace Cert.KernelIdeal.Val.L1

open Cert.KernelIdeal.Val
open Idealize.ShloMosaic Idealize.ShloMosaic.TcCoe Idealize.ShloMosaic.ValueIdx
open Idealize.SL.Sem
open Cert.KernelIdeal Cert.KernelIdeal.Gen

/-! # Layer 1 on the kernel's side, entry by entry

Each combination's result at `(p, q)`, in the body's own order of additions: per relation the sum over the arriving
edges divided by the larger of the count and one, the self term as a sum over the feature axis, and the bias. The sums
over the edges and the counts stay whole-array terms. -/

/-! ## The mean over the arriving edges, and a bias as a one-row table -/

/-- A table of sums times the repeated column of reciprocal counts, at `(p, q)`: the sum over the larger of the count and one. -/
theorem mean_d_apply (S : FVec Ideal S40000x256 .f32) (cnt : FVec Ideal S40000 .f32) (p : Fin 40000) (q : Fin 256) :
    meanD256 S (invCol40000 cnt) (ix2 p q) = Ideal.div (S (ix2 p q)) (max (cnt (ix1 p)) 1) := by
  unfold meanD256 invCol40000
  exact Cert.LibMeanColumn.mean_by_reciprocal_column_apply S cnt (constant (F := Ideal) S_ .f32 0x3F800000#32) Ideal.ofBits_one_f32
    bcast_S_S40000 bcast_S40000_S40000x1_0 bcast_S40000x1_S40000x256_0_1 p q
theorem mean_p_apply (S : FVec Ideal S15000x256 .f32) (cnt : FVec Ideal S15000 .f32) (p : Fin 15000) (q : Fin 256) :
    meanP256 S (invCol15000 cnt) (ix2 p q) = Ideal.div (S (ix2 p q)) (max (cnt (ix1 p)) 1) := by
  unfold meanP256 invCol15000
  exact Cert.LibMeanColumn.mean_by_reciprocal_column_apply S cnt (constant (F := Ideal) S_ .f32 0x3F800000#32) Ideal.ofBits_one_f32
    bcast_S_S15000 bcast_S15000_S15000x1_0 bcast_S15000x1_S15000x256_0_1 p q
/-- A bias vector reshaped to a one-row table holds, at `(0, q)`, its entry `q`. -/
theorem bias_row_apply (b : FVec Ideal S256 .f32) (q : Fin 256) :
    shapeCast S1x256 b shapeCasts_S256_S1x256 (ix2 (0 : Fin 1) q) = b (ix1 q) :=
  shapeCast_a_1a_apply b shapeCasts_S256_S1x256 0 q

/-- Equal terms in equal places: the three-term and the six-term sums under the maximum. -/
theorem three_congr {a aw ab a' aw' ab' z : EReal} (ha : a = a') (haw : aw = aw') (hab : ab = ab') :
    max ((a + aw) + ab) z = max ((a' + aw') + ab') z := by subst ha haw hab; rfl
theorem six_congr {a aw ab b bw bb a' aw' ab' b' bw' bb' z : EReal} (ha : a = a') (haw : aw = aw') (hab : ab = ab')
    (hb : b = b') (hbw : bw = bw') (hbb : bb = bb') :
    max (((((a + aw) + ab) + b) + bw) + bb) z = max (((((a' + aw') + ab') + b') + bw') + bb') z := by
  subst ha haw hab hb hbw hbb; rfl

variable (m : (ℓ : Loc nD τ sig) → Buf (Elt Ideal) ℓ) (outs : Outs (F := Ideal)) (c : Dev nD)

/-- The three biases at launch, at their literal index type. -/
abbrev B3 : S256.Idx → EReal := V0 m c main_arg3
abbrev B6 : S256.Idx → EReal := V0 m c main_arg6
abbrev B9 : S256.Idx → EReal := V0 m c main_arg9

/-- The protein side at `(p, q)`. -/
theorem npo_kernel (h : Fr.OutsOk m outs) (p : Fin 15000) (q : Fin 256) :
    (V7 m outs c main_v81 : FVec Ideal S15000x256 .f32) (ix2 p q) =
      max ((Ideal.div (sumTgt256 (extractStridedSlice S40000x256 ![0, 512] (V3 m outs c main_v33) slices_S40000x1024_S40000x256_0_512) (V0 m c main_arg30) (V0 m c main_arg31) (ix2 p q)) (max (cntTgt (V0 m c main_arg31) (ix1 p)) 1)
        + ∑ k : Fin 5, Xp m c (ix2 p k) * T7 m c (ix2 q k)) + B6 m c (ix1 q)) (Ideal.ofBits .f32 0x00000000#32) := by
  have e : (V7 m outs c main_v81 : FVec Ideal S15000x256 .f32) = (Fr.dat3 (Fr.Vr (V6 m outs)) c).arrAt 3 cfg3.N :=
    (Function.update_self _ _ _).trans (h.h3 c)
  refine ((congrFun e (ix2 p q)).trans (final_cb3 (Fr.Vr (V6 m outs)) c _ _ _ (agg_tgt m outs c) (self_tgt m outs c) (bias_tgt m outs c) p q)).trans ?_
  exact three_congr (mean_p_apply _ _ p q) (tgt_self_at m outs c h p q) (bias_row_apply (V0 m c main_arg6) q)

/-- The drug side at `(p, q)`. -/
theorem nd_kernel (h : Fr.OutsOk m outs) (p : Fin 40000) (q : Fin 256) :
    (V5 m outs c main_v79 : FVec Ideal S40000x256 .f32) (ix2 p q) =
      max (((((Ideal.div (sumDdi256 (extractStridedSlice S40000x256 ![0, 0] (V3 m outs c main_v33) slices_S40000x1024_S40000x256_0_0) (edgeRow0 (V0 m c main_arg29)) (edgeRow1 (V0 m c main_arg29)) (ix2 p q)) (max (cntDdi (V0 m c main_arg29) (ix1 p)) 1)
        + ∑ k : Fin 980, Xd m c (ix2 p k) * T4 m c (ix2 q k)) + B3 m c (ix1 q))
        + Ideal.div (sumRev256 (extractStridedSlice S15000x256 ![0, 0] (V3 m outs c main_v34) slices_S15000x512_S15000x256_0_0) (V0 m c main_arg31) (V0 m c main_arg30) (ix2 p q)) (max (cntRev (V0 m c main_arg30) (ix1 p)) 1))
        + ∑ k : Fin 980, Xd m c (ix2 p k) * T10 m c (ix2 q k)) + B9 m c (ix1 q)) (Ideal.ofBits .f32 0x00000000#32) := by
  have e : (V5 m outs c main_v79 : FVec Ideal S40000x256 .f32) = (Fr.dat2 (Fr.Vr (V4 m outs)) c).arrAt 6 cfg2.N :=
    (Function.update_self _ _ _).trans (h.h2 c)
  refine ((congrFun e (ix2 p q)).trans (final_cb2 (Fr.Vr (V4 m outs)) c _ _ _ _ _ _ (agg_ddi m outs c) (self_ddi m outs c) (bias_ddi m outs c)
    (agg_rev m outs c) (self_rev m outs c) (bias_rev m outs c) p q)).trans ?_
  exact six_congr (mean_d_apply _ _ p q) (ddi_self_at m outs c h p q) (bias_row_apply (V0 m c main_arg3) q)
    (mean_d_apply _ _ p q) (rev_self_at m outs c h p q) (bias_row_apply (V0 m c main_arg9) q)

end Cert.KernelIdeal.Val.L1

end
-- ==== Proof.RV.L1.lean ====
import proofs.«102211_j33681133535938_1_alg».proof.Proof.RV.ReadP

noncomputable section

namespace Cert.ReferenceIdeal.RefVal

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-! # The reference's first layer, entry by entry -/

/-- The drug-to-drug messages before the gather: row `p` of the drug features against row `q` of the left weight. -/
theorem msg_ddi_1 (x0 : (⟨S40000x980, .f32⟩ : BufTy).Contents (Elt Ideal)) (x2 : (⟨S256x980, .f32⟩ : BufTy).Contents (Elt Ideal)) (p : Fin 40000) (q : Fin 256) :
    val_main_v5 (F := Ideal) x0 x2 (ix2 p q) =
      ∑ k : Fin 980, x0 (ix2 p k) * x2 (ix2 q k) := by
  simp only [val_main_v5_apply, val_main_v4_apply, Ideal.addf_def, Ideal.maximumf_def, Ideal.hostDivf_def, Ideal.ofBits_def]
  have s0 : (∑ k : Fin 980, x0 (lidx_main_v5 (ix2 p q) k) * x2 (idx_main_v4 (ridx_main_v5 (ix2 p q) k))) = ∑ k : Fin 980, x0 (ix2 p k) * x2 (ix2 q k) :=
    Finset.sum_congr rfl fun k _ => congrArg₂ (· * ·) (congrArg (x0) (funext fun a => Fin.ext (by match a with | ⟨0, _⟩ => rfl | ⟨1, _⟩ => rfl) : lidx_main_v5 (ix2 p q) k = ix2 p k)) (congrArg (x2) (funext fun a => Fin.ext (by match a with | ⟨0, _⟩ => rfl | ⟨1, _⟩ => rfl) : idx_main_v4 (ridx_main_v5 (ix2 p q) k) = ix2 q k))
  rw [s0]

/-- The protein-to-drug messages before the gather: row `p` of the protein features against row `q` of the left weight. -/
theorem msg_rev_1 (x1 : (⟨S15000x5, .f32⟩ : BufTy).Contents (Elt Ideal)) (x8 : (⟨S256x5, .f32⟩ : BufTy).Contents (Elt Ideal)) (p : Fin 15000) (q : Fin 256) :
    val_main_v32 (F := Ideal) x1 x8 (ix2 p q) =
      ∑ k : Fin 5, x1 (ix2 p k) * x8 (ix2 q k) := by
  simp only [val_main_v32_apply, val_main_v31_apply, Ideal.addf_def, Ideal.maximumf_def, Ideal.hostDivf_def, Ideal.ofBits_def]
  have s0 : (∑ k : Fin 5, x1 (lidx_main_v32 (ix2 p q) k) * x8 (idx_main_v31 (ridx_main_v32 (ix2 p q) k))) = ∑ k : Fin 5, x1 (ix2 p k) * x8 (ix2 q k) :=
    Finset.sum_congr rfl fun k _ => congrArg₂ (· * ·) (congrArg (x1) (funext fun a => Fin.ext (by match a with | ⟨0, _⟩ => rfl | ⟨1, _⟩ => rfl) : lidx_main_v32 (ix2 p q) k = ix2 p k)) (congrArg (x8) (funext fun a => Fin.ext (by match a with | ⟨0, _⟩ => rfl | ⟨1, _⟩ => rfl) : idx_main_v31 (ridx_main_v32 (ix2 p q) k) = ix2 q k))
  rw [s0]

/-- The drug-to-protein messages before the gather: row `p` of the drug features against row `q` of the left weight. -/
theorem msg_tgt_1 (x0 : (⟨S40000x980, .f32⟩ : BufTy).Contents (Elt Ideal)) (x5 : (⟨S256x980, .f32⟩ : BufTy).Contents (Elt Ideal)) (p : Fin 40000) (q : Fin 256) :
    val_main_v60 (F := Ideal) x0 x5 (ix2 p q) =
      ∑ k : Fin 980, x0 (ix2 p k) * x5 (ix2 q k) := by
  simp only [val_main_v60_apply, val_main_v59_apply, Ideal.addf_def, Ideal.maximumf_def, Ideal.hostDivf_def, Ideal.ofBits_def]
  have s0 : (∑ k : Fin 980, x0 (lidx_main_v60 (ix2 p q) k) * x5 (idx_main_v59 (ridx_main_v60 (ix2 p q) k))) = ∑ k : Fin 980, x0 (ix2 p k) * x5 (ix2 q k) :=
    Finset.sum_congr rfl fun k _ => congrArg₂ (· * ·) (congrArg (x0) (funext fun a => Fin.ext (by match a with | ⟨0, _⟩ => rfl | ⟨1, _⟩ => rfl) : lidx_main_v60 (ix2 p q) k = ix2 p k)) (congrArg (x5) (funext fun a => Fin.ext (by match a with | ⟨0, _⟩ => rfl | ⟨1, _⟩ => rfl) : idx_main_v59 (ridx_main_v60 (ix2 p q) k) = ix2 q k))
  rw [s0]

/-- The drug-to-drug contribution to the drug side at `(p, q)`: the scattered sum divided by the larger of the count and one, plus the bias, plus the root term `∑ₖ x(p,k)·W(q,k)` over the drug features. -/
theorem part_ddi_1 (x0 : (⟨S40000x980, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x29 : (⟨S2x600000, .i32⟩ : BufTy).Contents (Elt Ideal)) (p : Fin 40000) (q : Fin 256) :
    val_main_v30 (F := Ideal) x0 x2 x3 x4 x29 (ix2 p q) =
      ((Ideal.div (val_main_v15 (F := Ideal) x0 x2 x29 (ix2 p q)) (max (val_main_v19 (F := Ideal) x29 (ix1 p)) (Ideal.ofBits .f32 0x3F800000#32)) + x3 (ix1 q)) + ∑ k : Fin 980, x0 (ix2 p k) * x4 (ix2 q k)) := by
  simp only [val_main_v30_apply, val_main_v27_apply, val_main_v24_apply, val_main_v23_apply, val_main_v22_apply, val_main_v21_apply, val_main_v20_apply, val_main_cst_3_apply, val_main_v26_apply, val_main_v25_apply, val_main_v29_apply, val_main_v28_apply, Ideal.addf_def, Ideal.maximumf_def, Ideal.hostDivf_def, Ideal.ofBits_def]
  have h0 : idx_main_v22 (idx_main_v23 (ix2 p q)) = ix1 p := funext fun a => Fin.ext (by match a with | ⟨0, _⟩ => rfl)
  have h1 : idx_main_v25 (idx_main_v26 (ix2 p q)) = ix1 q := funext fun a => Fin.ext (by match a with | ⟨0, _⟩ => rfl)
  have s0 : (∑ k : Fin 980, x0 (lidx_main_v29 (ix2 p q) k) * x4 (idx_main_v28 (ridx_main_v29 (ix2 p q) k))) = ∑ k : Fin 980, x0 (ix2 p k) * x4 (ix2 q k) :=
    Finset.sum_congr rfl fun k _ => congrArg₂ (· * ·) (congrArg (x0) (funext fun a => Fin.ext (by match a with | ⟨0, _⟩ => rfl | ⟨1, _⟩ => rfl) : lidx_main_v29 (ix2 p q) k = ix2 p k)) (congrArg (x4) (funext fun a => Fin.ext (by match a with | ⟨0, _⟩ => rfl | ⟨1, _⟩ => rfl) : idx_main_v28 (ridx_main_v29 (ix2 p q) k) = ix2 q k))
  rw [h0, h1, s0]

/-- The protein-to-drug contribution to the drug side at `(p, q)`: the scattered sum divided by the larger of the count and one, plus the bias, plus the root term over the drug features. -/
theorem part_rev_1 (x0 : (⟨S40000x980, .f32⟩ : BufTy).Contents (Elt Ideal)) (x1 : (⟨S15000x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x30 : (⟨S250000, .i32⟩ : BufTy).Contents (Elt Ideal)) (x31 : (⟨S250000, .i32⟩ : BufTy).Contents (Elt Ideal)) (p : Fin 40000) (q : Fin 256) :
    val_main_v57 (F := Ideal) x0 x1 x8 x9 x10 x30 x31 (ix2 p q) =
      ((Ideal.div (val_main_v42 (F := Ideal) x1 x8 x30 x31 (ix2 p q)) (max (val_main_v46 (F := Ideal) x30 (ix1 p)) (Ideal.ofBits .f32 0x3F800000#32)) + x9 (ix1 q)) + ∑ k : Fin 980, x0 (ix2 p k) * x10 (ix2 q k)) := by
  simp only [val_main_v57_apply, val_main_v54_apply, val_main_v51_apply, val_main_v50_apply, val_main_v49_apply, val_main_v48_apply, val_main_v47_apply, val_main_cst_9_apply, val_main_v53_apply, val_main_v52_apply, val_main_v56_apply, val_main_v55_apply, Ideal.addf_def, Ideal.maximumf_def, Ideal.hostDivf_def, Ideal.ofBits_def]
  have h0 : idx_main_v49 (idx_main_v50 (ix2 p q)) = ix1 p := funext fun a => Fin.ext (by match a with | ⟨0, _⟩ => rfl)
  have h1 : idx_main_v52 (idx_main_v53 (ix2 p q)) = ix1 q := funext fun a => Fin.ext (by match a with | ⟨0, _⟩ => rfl)
  have s0 : (∑ k : Fin 980, x0 (lidx_main_v56 (ix2 p q) k) * x10 (idx_main_v55 (ridx_main_v56 (ix2 p q) k))) = ∑ k : Fin 980, x0 (ix2 p k) * x10 (ix2 q k) :=
    Finset.sum_congr rfl fun k _ => congrArg₂ (· * ·) (congrArg (x0) (funext fun a => Fin.ext (by match a with | ⟨0, _⟩ => rfl | ⟨1, _⟩ => rfl) : lidx_main_v56 (ix2 p q) k = ix2 p k)) (congrArg (x10) (funext fun a => Fin.ext (by match a with | ⟨0, _⟩ => rfl | ⟨1, _⟩ => rfl) : idx_main_v55 (ridx_main_v56 (ix2 p q) k) = ix2 q k))
  rw [h0, h1, s0]

/-- The drug side of layer 1 at `(p, q)`: the two edge types' contributions added; the sum is clamped below at zero. The scattered sums and the counts stay whole-array terms. -/
theorem ref_nd_1 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 40000) (q : Fin 256) :
    val_main_v86 (F := Ideal) x0 x1 x2 x3 x4 x8 x9 x10 x29 x30 x31 (ix2 p q) =
      max ((((Ideal.div (val_main_v15 (F := Ideal) x0 x2 x29 (ix2 p q)) (max (val_main_v19 (F := Ideal) x29 (ix1 p)) (Ideal.ofBits .f32 0x3F800000#32)) + x3 (ix1 q)) + ∑ k : Fin 980, x0 (ix2 p k) * x4 (ix2 q k)) + ((Ideal.div (val_main_v42 (F := Ideal) x1 x8 x30 x31 (ix2 p q)) (max (val_main_v46 (F := Ideal) x30 (ix1 p)) (Ideal.ofBits .f32 0x3F800000#32)) + x9 (ix1 q)) + ∑ k : Fin 980, x0 (ix2 p k) * x10 (ix2 q k)))) (Ideal.ofBits .f32 0x00000000#32) := by
  simp only [val_main_v86_apply, val_main_v58_apply, val_main_call0_v0_apply, val_main_call0_cst_apply, Ideal.addf_def, Ideal.maximumf_def, Ideal.ofBits_def]
  rw [part_ddi_1, part_rev_1]

/-- The drug-to-protein contribution to the protein side at `(p, q)`: the scattered sum divided by the larger of the count and one, plus the bias, plus the root term over the protein features. -/
theorem part_tgt_1 (x0 : (⟨S40000x980, .f32⟩ : BufTy).Contents (Elt Ideal)) (x1 : (⟨S15000x5, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x30 : (⟨S250000, .i32⟩ : BufTy).Contents (Elt Ideal)) (x31 : (⟨S250000, .i32⟩ : BufTy).Contents (Elt Ideal)) (p : Fin 15000) (q : Fin 256) :
    val_main_v85 (F := Ideal) x0 x1 x5 x6 x7 x30 x31 (ix2 p q) =
      ((Ideal.div (val_main_v70 (F := Ideal) x0 x5 x30 x31 (ix2 p q)) (max (val_main_v74 (F := Ideal) x31 (ix1 p)) (Ideal.ofBits .f32 0x3F800000#32)) + x6 (ix1 q)) + ∑ k : Fin 5, x1 (ix2 p k) * x7 (ix2 q k)) := by
  simp only [val_main_v85_apply, val_main_v82_apply, val_main_v79_apply, val_main_v78_apply, val_main_v77_apply, val_main_v76_apply, val_main_v75_apply, val_main_cst_15_apply, val_main_v81_apply, val_main_v80_apply, val_main_v84_apply, val_main_v83_apply, Ideal.addf_def, Ideal.maximumf_def, Ideal.hostDivf_def, Ideal.ofBits_def]
  have h0 : idx_main_v77 (idx_main_v78 (ix2 p q)) = ix1 p := funext fun a => Fin.ext (by match a with | ⟨0, _⟩ => rfl)
  have h1 : idx_main_v80 (idx_main_v81 (ix2 p q)) = ix1 q := funext fun a => Fin.ext (by match a with | ⟨0, _⟩ => rfl)
  have s0 : (∑ k : Fin 5, x1 (lidx_main_v84 (ix2 p q) k) * x7 (idx_main_v83 (ridx_main_v84 (ix2 p q) k))) = ∑ k : Fin 5, x1 (ix2 p k) * x7 (ix2 q k) :=
    Finset.sum_congr rfl fun k _ => congrArg₂ (· * ·) (congrArg (x1) (funext fun a => Fin.ext (by match a with | ⟨0, _⟩ => rfl | ⟨1, _⟩ => rfl) : lidx_main_v84 (ix2 p q) k = ix2 p k)) (congrArg (x7) (funext fun a => Fin.ext (by match a with | ⟨0, _⟩ => rfl | ⟨1, _⟩ => rfl) : idx_main_v83 (ridx_main_v84 (ix2 p q) k) = ix2 q k))
  rw [h0, h1, s0]

/-- The protein side of layer 1 at `(p, q)`: the drug-to-protein contribution; the sum is clamped below at zero. -/
theorem ref_npo_1 (x0 : (⟨S40000x980, .f32⟩ : BufTy).Contents (Elt Ideal)) (x1 : (⟨S15000x5, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x30 : (⟨S250000, .i32⟩ : BufTy).Contents (Elt Ideal)) (x31 : (⟨S250000, .i32⟩ : BufTy).Contents (Elt Ideal)) (p : Fin 15000) (q : Fin 256) :
    val_main_v87 (F := Ideal) x0 x1 x5 x6 x7 x30 x31 (ix2 p q) =
      max (((Ideal.div (val_main_v70 (F := Ideal) x0 x5 x30 x31 (ix2 p q)) (max (val_main_v74 (F := Ideal) x31 (ix1 p)) (Ideal.ofBits .f32 0x3F800000#32)) + x6 (ix1 q)) + ∑ k : Fin 5, x1 (ix2 p k) * x7 (ix2 q k))) (Ideal.ofBits .f32 0x00000000#32) := by
  simp only [val_main_v87_apply, val_main_call1_v0_apply, val_main_call1_cst_apply, Ideal.addf_def, Ideal.maximumf_def, Ideal.ofBits_def]
  rw [part_tgt_1]

end Cert.ReferenceIdeal.RefVal

end
-- ==== Proof.KV.Bridge1.lean ====
import proofs.«102211_j33681133535938_1_alg».proof.Proof.KV.B1K
import proofs.«102211_j33681133535938_1_alg».proof.Proof.RV.L1

set_option maxRecDepth 16384

noncomputable section

open scoped BigOperators

namespace Cert.KernelIdeal.Val.L1

open Cert.KernelIdeal.Val
open Idealize.ShloMosaic Idealize.ShloMosaic.TcCoe Idealize.ShloMosaic.ValueIdx
open Idealize.SL.Sem
open Cert.KernelIdeal Cert.KernelIdeal.Gen

/-! # Layer 1: the kernel's two results are the reference's

Both programs compute, per relation, the mean over the arriving edges of the gathered messages, a self term and a bias.
The kernel multiplies the features once by the stack of all weight tables and slices the product; the reference
multiplies table by table. The gathered-and-summed message tables are not read entry by entry: the message tables
under them are equal as whole arrays, so the sums over the edges are the same terms. What is left is the order in which
the terms are added. -/

/-! ## The programs' edge sums and counts are the same terms -/

section Terms
variable (x0 : FVec Ideal S40000x980 .f32) (x1 : FVec Ideal S15000x5 .f32) (x2 x5 : FVec Ideal S256x980 .f32)
  (x8 : FVec Ideal S256x5 .f32) (x29 : (⟨S2x600000, .i32⟩ : BufTy).Contents (Elt Ideal))
  (x30 x31 : (⟨S250000, .i32⟩ : BufTy).Contents (Elt Ideal))

theorem sumDdi_ref : sumDdi256 (Cert.ReferenceIdeal.Read.val_main_v5 (F := Ideal) x0 x2) (edgeRow0 x29) (edgeRow1 x29)
    = Cert.ReferenceIdeal.Read.val_main_v15 (F := Ideal) x0 x2 x29 := rfl
theorem cntDdi_ref : cntDdi x29 = Cert.ReferenceIdeal.Read.val_main_v19 (F := Ideal) x29 := rfl
theorem sumRev_ref : sumRev256 (Cert.ReferenceIdeal.Read.val_main_v32 (F := Ideal) x1 x8) x31 x30
    = Cert.ReferenceIdeal.Read.val_main_v42 (F := Ideal) x1 x8 x30 x31 := rfl
theorem cntRev_ref : cntRev x30 = Cert.ReferenceIdeal.Read.val_main_v46 (F := Ideal) x30 := rfl
theorem sumTgt_ref : sumTgt256 (Cert.ReferenceIdeal.Read.val_main_v60 (F := Ideal) x0 x5) x30 x31
    = Cert.ReferenceIdeal.Read.val_main_v70 (F := Ideal) x0 x5 x30 x31 := rfl
theorem cntTgt_ref : cntTgt x31 = Cert.ReferenceIdeal.Read.val_main_v74 (F := Ideal) x31 := rfl
end Terms

variable (m : (ℓ : Loc nD τ sig) → Buf (Elt Ideal) ℓ) (outs : Outs (F := Ideal)) (c : Dev nD)

/-! ## The message tables, as whole arrays -/

/-- The first column block of the drug-side product table is the reference's drug-to-drug message table. -/
theorem ddi_msg_eq (h : Fr.OutsOk m outs) :
    (extractStridedSlice S40000x256 ![0, 0] (V3 m outs c main_v33) slices_S40000x1024_S40000x256_0_0 : FVec Ideal S40000x256 .f32)
      = Cert.ReferenceIdeal.Read.val_main_v5 (F := Ideal) (V0 m c main_arg0) (V0 m c main_arg2) := by
  funext i
  obtain ⟨p, q, rfl⟩ : ∃ (p : Fin 40000) (q : Fin 256), i = ix2 p q := ⟨i 0, i 1, eq_ix2 i⟩
  exact (ddi_msg_at m outs c h p q).trans (Cert.ReferenceIdeal.RefVal.msg_ddi_1 (V0 m c main_arg0) (V0 m c main_arg2) p q).symm
/-- The first column block of the protein-side product table is the reference's protein-to-drug message table. -/
theorem rev_msg_eq (h : Fr.OutsOk m outs) :
    (extractStridedSlice S15000x256 ![0, 0] (V3 m outs c main_v34) slices_S15000x512_S15000x256_0_0 : FVec Ideal S15000x256 .f32)
      = Cert.ReferenceIdeal.Read.val_main_v32 (F := Ideal) (V0 m c main_arg1) (V0 m c main_arg8) := by
  funext i
  obtain ⟨p, q, rfl⟩ : ∃ (p : Fin 15000) (q : Fin 256), i = ix2 p q := ⟨i 0, i 1, eq_ix2 i⟩
  exact (rev_msg_at m outs c h p q).trans (Cert.ReferenceIdeal.RefVal.msg_rev_1 (V0 m c main_arg1) (V0 m c main_arg8) p q).symm
/-- The third column block of the drug-side product table is the reference's drug-to-protein message table. -/
theorem tgt_msg_eq (h : Fr.OutsOk m outs) :
    (extractStridedSlice S40000x256 ![0, 512] (V3 m outs c main_v33) slices_S40000x1024_S40000x256_0_512 : FVec Ideal S40000x256 .f32)
      = Cert.ReferenceIdeal.Read.val_main_v60 (F := Ideal) (V0 m c main_arg0) (V0 m c main_arg5) := by
  funext i
  obtain ⟨p, q, rfl⟩ : ∃ (p : Fin 40000) (q : Fin 256), i = ix2 p q := ⟨i 0, i 1, eq_ix2 i⟩
  exact (tgt_msg_at m outs c h p q).trans (Cert.ReferenceIdeal.RefVal.msg_tgt_1 (V0 m c main_arg0) (V0 m c main_arg5) p q).symm

/-! ## The two results -/

/-- The protein side: the third region's result is the reference's protein features after layer 1. -/
theorem npo_eq (h : Fr.OutsOk m outs) :
    (V7 m outs c main_v81 : FVec Ideal S15000x256 .f32)
      = Cert.ReferenceIdeal.Read.val_main_v87 (F := Ideal) (V0 m c main_arg0) (V0 m c main_arg1) (V0 m c main_arg5) (V0 m c main_arg6) (V0 m c main_arg7) (V0 m c main_arg30) (V0 m c main_arg31) := by
  funext i
  obtain ⟨p, q, rfl⟩ : ∃ (p : Fin 15000) (q : Fin 256), i = ix2 p q := ⟨i 0, i 1, eq_ix2 i⟩
  refine (npo_kernel m outs c h p q).trans ?_
  refine Eq.trans ?_ (Cert.ReferenceIdeal.RefVal.ref_npo_1 (V0 m c main_arg0) (V0 m c main_arg1) (V0 m c main_arg5) (V0 m c main_arg6) (V0 m c main_arg7) (V0 m c main_arg30) (V0 m c main_arg31) p q).symm
  refine three_terms' ?_ ?_ ?_
  · exact congrArg₂ Ideal.div
      (congrFun ((congrArg (fun Y => sumTgt256 Y (V0 m c main_arg30) (V0 m c main_arg31)) (tgt_msg_eq m outs c h)).trans
        (sumTgt_ref (V0 m c main_arg0) (V0 m c main_arg5) (V0 m c main_arg30) (V0 m c main_arg31))) (ix2 p q))
      (congrArg₂ (max : EReal → EReal → EReal) (congrFun (cntTgt_ref (V0 m c main_arg31)) (ix1 p)) Ideal.ofBits_one_f32.symm)
  · rfl
  · rfl

/-- The drug side: the second region's result is the reference's drug features after layer 1. -/
theorem nd_eq (h : Fr.OutsOk m outs) :
    (V5 m outs c main_v79 : FVec Ideal S40000x256 .f32)
      = Cert.ReferenceIdeal.Read.val_main_v86 (F := Ideal) (V0 m c main_arg0) (V0 m c main_arg1) (V0 m c main_arg2) (V0 m c main_arg3) (V0 m c main_arg4) (V0 m c main_arg8) (V0 m c main_arg9) (V0 m c main_arg10) (V0 m c main_arg29) (V0 m c main_arg30) (V0 m c main_arg31) := by
  funext i
  obtain ⟨p, q, rfl⟩ : ∃ (p : Fin 40000) (q : Fin 256), i = ix2 p q := ⟨i 0, i 1, eq_ix2 i⟩
  refine (nd_kernel m outs c h p q).trans ?_
  refine Eq.trans ?_ (Cert.ReferenceIdeal.RefVal.ref_nd_1 (V0 m c main_arg0) (V0 m c main_arg1) (V0 m c main_arg2) (V0 m c main_arg3) (V0 m c main_arg4) (V0 m c main_arg8) (V0 m c main_arg9) (V0 m c main_arg10) (V0 m c main_arg29) (V0 m c main_arg30) (V0 m c main_arg31) p q).symm
  refine six_terms' ?_ ?_ ?_ ?_ ?_ ?_
  · exact congrArg₂ Ideal.div
      (congrFun ((congrArg (fun Y => sumDdi256 Y (edgeRow0 (V0 m c main_arg29)) (edgeRow1 (V0 m c main_arg29))) (ddi_msg_eq m outs c h)).trans
        (sumDdi_ref (V0 m c main_arg0) (V0 m c main_arg2) (V0 m c main_arg29))) (ix2 p q))
      (congrArg₂ (max : EReal → EReal → EReal) (congrFun (cntDdi_ref (V0 m c main_arg29)) (ix1 p)) Ideal.ofBits_one_f32.symm)
  · rfl
  · rfl
  · exact congrArg₂ Ideal.div
      (congrFun ((congrArg (fun Y => sumRev256 Y (V0 m c main_arg31) (V0 m c main_arg30)) (rev_msg_eq m outs c h)).trans
        (sumRev_ref (V0 m c main_arg1) (V0 m c main_arg8) (V0 m c main_arg30) (V0 m c main_arg31))) (ix2 p q))
      (congrArg₂ (max : EReal → EReal → EReal) (congrFun (cntRev_ref (V0 m c main_arg30)) (ix1 p)) Ideal.ofBits_one_f32.symm)
  · rfl
  · rfl

end Cert.KernelIdeal.Val.L1

end
-- ==== Proof.KV.HL2Base.lean ====
import proofs.«102211_j33681133535938_1_alg».proof.Proof.KV.H0

set_option maxRecDepth 16384

noncomputable section

namespace Cert.KernelIdeal.Val.L2

open Cert.KernelIdeal.Val

open Idealize.ShloMosaic Idealize.ShloMosaic.TcCoe Idealize.ShloMosaic.Tactic
open Idealize.SL Idealize.SL.Sem
open Cert.KernelIdeal Cert.KernelIdeal.Gen

/-! # Layer 2: what the earlier items left where the layer's host stretch reads

The edge vectors, the reciprocal-count columns and the argument arrays are written (or launched) before the first region and
by no later item, so the stretch finds them as the first stretch (or the launch) left them. -/

variable (m : (ℓ : Loc nD τ sig) → Buf (Elt Ideal) ℓ) (outs : Outs (F := Ideal)) (c : Dev nD)
theorem src_ddi : (V10 m outs c main_v1 : (⟨S600000, .i32⟩ : BufTy).Contents (Elt Ideal)) = edgeRow0 (V0 m c main_arg29) :=
  (V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide)).trans <| V1_v1 m c
theorem dst_ddi : (V10 m outs c main_v3 : (⟨S600000, .i32⟩ : BufTy).Contents (Elt Ideal)) = edgeRow1 (V0 m c main_arg29) :=
  (V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans <| (V2_of m outs c main_v3 (by decide)).trans <| V1_v3 m c
theorem inv_ddi : (V10 m outs c main_v20 : FVec Ideal S40000x1 .f32) = invCol40000 (cntDdi (V0 m c main_arg29)) :=
  (V10_of m outs c main_v20 (by decide)).trans <| (V9_of m outs c main_v20 (by decide)).trans <| (V8_of m outs c main_v20 (by decide)).trans <| (V7_of m outs c main_v20 (by decide)).trans <| (V6_of m outs c main_v20 (by decide)).trans <| (V5_of m outs c main_v20 (by decide)).trans <| (V4_of m outs c main_v20 (by decide)).trans <| (V3_of m outs c main_v20 (by decide)).trans <| (V2_of m outs c main_v20 (by decide)).trans <| V1_v20 m c
theorem inv_rev : (V10 m outs c main_v25 : FVec Ideal S40000x1 .f32) = invCol40000 (cntRev (V0 m c main_arg30)) :=
  (V10_of m outs c main_v25 (by decide)).trans <| (V9_of m outs c main_v25 (by decide)).trans <| (V8_of m outs c main_v25 (by decide)).trans <| (V7_of m outs c main_v25 (by decide)).trans <| (V6_of m outs c main_v25 (by decide)).trans <| (V5_of m outs c main_v25 (by decide)).trans <| (V4_of m outs c main_v25 (by decide)).trans <| (V3_of m outs c main_v25 (by decide)).trans <| (V2_of m outs c main_v25 (by decide)).trans <| V1_v25 m c
theorem inv_tgt : (V10 m outs c main_v30 : FVec Ideal S15000x1 .f32) = invCol15000 (cntTgt (V0 m c main_arg31)) :=
  (V10_of m outs c main_v30 (by decide)).trans <| (V9_of m outs c main_v30 (by decide)).trans <| (V8_of m outs c main_v30 (by decide)).trans <| (V7_of m outs c main_v30 (by decide)).trans <| (V6_of m outs c main_v30 (by decide)).trans <| (V5_of m outs c main_v30 (by decide)).trans <| (V4_of m outs c main_v30 (by decide)).trans <| (V3_of m outs c main_v30 (by decide)).trans <| (V2_of m outs c main_v30 (by decide)).trans <| V1_v30 m c
theorem arg30_at : (V10 m outs c main_arg30 : (⟨S250000, .i32⟩ : BufTy).Contents (Elt Ideal)) = (V0 m c main_arg30) :=
  (V10_of m outs c main_arg30 (by decide)).trans <| (V9_of m outs c main_arg30 (by decide)).trans <| (V8_of m outs c main_arg30 (by decide)).trans <| (V7_of m outs c main_arg30 (by decide)).trans <| (V6_of m outs c main_arg30 (by decide)).trans <| (V5_of m outs c main_arg30 (by decide)).trans <| (V4_of m outs c main_arg30 (by decide)).trans <| (V3_of m outs c main_arg30 (by decide)).trans <| (V2_of m outs c main_arg30 (by decide)).trans <| (V1_of m c main_arg30 (by decide)).trans <| rfl
theorem arg31_at : (V10 m outs c main_arg31 : (⟨S250000, .i32⟩ : BufTy).Contents (Elt Ideal)) = (V0 m c main_arg31) :=
  (V10_of m outs c main_arg31 (by decide)).trans <| (V9_of m outs c main_arg31 (by decide)).trans <| (V8_of m outs c main_arg31 (by decide)).trans <| (V7_of m outs c main_arg31 (by decide)).trans <| (V6_of m outs c main_arg31 (by decide)).trans <| (V5_of m outs c main_arg31 (by decide)).trans <| (V4_of m outs c main_arg31 (by decide)).trans <| (V3_of m outs c main_arg31 (by decide)).trans <| (V2_of m outs c main_arg31 (by decide)).trans <| (V1_of m c main_arg31 (by decide)).trans <| rfl
theorem bias_d_at : (V10 m outs c main_arg12 : FVec Ideal S256 .f32) = (V0 m c main_arg12) :=
  (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m outs c main_arg12 (by decide)).trans <| (V2_of m outs c main_arg12 (by decide)).trans <| (V1_of m c main_arg12 (by decide)).trans <| rfl
theorem bias_r_at : (V10 m outs c main_arg18 : FVec Ideal S256 .f32) = (V0 m c main_arg18) :=
  (V10_of m outs c main_arg18 (by decide)).trans <| (V9_of m outs c main_arg18 (by decide)).trans <| (V8_of m outs c main_arg18 (by decide)).trans <| (V7_of m outs c main_arg18 (by decide)).trans <| (V6_of m outs c main_arg18 (by decide)).trans <| (V5_of m outs c main_arg18 (by decide)).trans <| (V4_of m outs c main_arg18 (by decide)).trans <| (V3_of m outs c main_arg18 (by decide)).trans <| (V2_of m outs c main_arg18 (by decide)).trans <| (V1_of m c main_arg18 (by decide)).trans <| rfl
theorem bias_t_at : (V12 m outs c main_arg15 : FVec Ideal S256 .f32) = (V0 m c main_arg15) :=
  (V12_of m outs c main_arg15 (by decide)).trans <| (V11_of m outs c main_arg15 (by decide)).trans <| (V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m outs c main_arg15 (by decide)).trans <| (V2_of m outs c main_arg15 (by decide)).trans <| (V1_of m c main_arg15 (by decide)).trans <| rfl
end Cert.KernelIdeal.Val.L2

end
-- ==== Proof.KV.HL2D.lean ====
import proofs.«102211_j33681133535938_1_alg».proof.Proof.KV.HL2Base

set_option maxRecDepth 16384

noncomputable section

namespace Cert.KernelIdeal.Val.L2

open Cert.KernelIdeal.Val

open Idealize.ShloMosaic Idealize.ShloMosaic.TcCoe Idealize.ShloMosaic.Tactic
open Idealize.SL Idealize.SL.Sem
open Cert.KernelIdeal Cert.KernelIdeal.Gen

/-! # Layer 2, drug–drug relation: the mean of the gathered messages (first column block of the drug product), the self
    term (second column block) and the bias as a one-row table, as the drug-side combination finds them. -/

variable (m : (ℓ : Loc nD τ sig) → Buf (Elt Ideal) ℓ) (outs : Outs (F := Ideal)) (c : Dev nD)
set_option maxHeartbeats 4000000 in
theorem agg_ddi : (V11 m outs c main_v103 : FVec Ideal S40000x256 .f32) =
    meanD256 (sumDdi256 (extractStridedSlice S40000x256 ![0, 0] (V10 m outs c main_v84) slices_S40000x1024_S40000x256_0_0) (edgeRow0 (V0 m c main_arg29)) (edgeRow1 (V0 m c main_arg29))) (invCol40000 (cntDdi (V0 m c main_arg29))) := by
  rw [← inv_ddi m outs c, ← src_ddi m outs c, ← dst_ddi m outs c]; dsimp only [V11, hostOps6]; after_results_simp <;> rfl
set_option maxHeartbeats 4000000 in
theorem self_ddi : (V11 m outs c main_v87 : FVec Ideal S40000x256 .f32) = extractStridedSlice S40000x256 ![0, 256] (V10 m outs c main_v84) slices_S40000x1024_S40000x256_0_256 := by
  dsimp only [V11, hostOps6]; after_results_simp <;> rfl
set_option maxHeartbeats 4000000 in
theorem bias_ddi : (V11 m outs c main_v128 : FVec Ideal S1x256 .f32) = shapeCast S1x256 (V0 m c main_arg12) shapeCasts_S256_S1x256 := by
  rw [← bias_d_at m outs c]; dsimp only [V11, hostOps6]; after_results_simp <;> rfl
end Cert.KernelIdeal.Val.L2

end
-- ==== Proof.KV.HL2R.lean ====
import proofs.«102211_j33681133535938_1_alg».proof.Proof.KV.HL2Base

set_option maxRecDepth 16384

noncomputable section

namespace Cert.KernelIdeal.Val.L2

open Cert.KernelIdeal.Val

open Idealize.ShloMosaic Idealize.ShloMosaic.TcCoe Idealize.ShloMosaic.Tactic
open Idealize.SL Idealize.SL.Sem
open Cert.KernelIdeal Cert.KernelIdeal.Gen

/-! # Layer 2, reversed target relation: the mean of the gathered protein messages (first column block of the protein
    product), the self term (fourth column block of the drug product) and the bias row, as the drug-side combination finds them. -/

variable (m : (ℓ : Loc nD τ sig) → Buf (Elt Ideal) ℓ) (outs : Outs (F := Ideal)) (c : Dev nD)
set_option maxHeartbeats 4000000 in
theorem agg_rev : (V11 m outs c main_v115 : FVec Ideal S40000x256 .f32) =
    meanD256 (sumRev256 (extractStridedSlice S15000x256 ![0, 0] (V10 m outs c main_v85) slices_S15000x512_S15000x256_0_0) (V0 m c main_arg31) (V0 m c main_arg30)) (invCol40000 (cntRev (V0 m c main_arg30))) := by
  rw [← inv_rev m outs c, ← arg31_at m outs c, ← arg30_at m outs c]; dsimp only [V11, hostOps6]; after_results_simp <;> rfl
set_option maxHeartbeats 4000000 in
theorem self_rev : (V11 m outs c main_v89 : FVec Ideal S40000x256 .f32) = extractStridedSlice S40000x256 ![0, 768] (V10 m outs c main_v84) slices_S40000x1024_S40000x256_0_768 := by
  dsimp only [V11, hostOps6]; after_results_simp <;> rfl
set_option maxHeartbeats 4000000 in
theorem bias_rev : (V11 m outs c main_v129 : FVec Ideal S1x256 .f32) = shapeCast S1x256 (V0 m c main_arg18) shapeCasts_S256_S1x256 := by
  rw [← bias_r_at m outs c]; dsimp only [V11, hostOps6]; after_results_simp <;> rfl
end Cert.KernelIdeal.Val.L2

end
-- ==== Proof.KV.HL2T.lean ====
import proofs.«102211_j33681133535938_1_alg».proof.Proof.KV.HL2Base

set_option maxRecDepth 16384

noncomputable section

namespace Cert.KernelIdeal.Val.L2

open Cert.KernelIdeal.Val

open Idealize.ShloMosaic Idealize.ShloMosaic.TcCoe Idealize.ShloMosaic.Tactic
open Idealize.SL Idealize.SL.Sem
open Cert.KernelIdeal Cert.KernelIdeal.Gen

/-! # Layer 2, target relation: the mean of the gathered drug messages (third column block of the drug product), the self
    term (second column block of the protein product) and the bias row, as the protein-side combination finds them (two items
    after the stretch: neither the drug-side region nor the one-operation stretch in between writes the first two). -/

variable (m : (ℓ : Loc nD τ sig) → Buf (Elt Ideal) ℓ) (outs : Outs (F := Ideal)) (c : Dev nD)
set_option maxHeartbeats 4000000 in
theorem agg_tgt : (V13 m outs c main_v127 : FVec Ideal S15000x256 .f32) =
    meanP256 (sumTgt256 (extractStridedSlice S40000x256 ![0, 512] (V10 m outs c main_v84) slices_S40000x1024_S40000x256_0_512) (V0 m c main_arg30) (V0 m c main_arg31)) (invCol15000 (cntTgt (V0 m c main_arg31))) := by
  refine ((V13_of m outs c main_v127 (by decide)).trans <| V12_of m outs c main_v127 (by decide)).trans ?_
  rw [← inv_tgt m outs c, ← arg30_at m outs c, ← arg31_at m outs c]; dsimp only [V11, hostOps6]; after_results_simp <;> rfl
set_option maxHeartbeats 4000000 in
theorem self_tgt : (V13 m outs c main_v91 : FVec Ideal S15000x256 .f32) = extractStridedSlice S15000x256 ![0, 256] (V10 m outs c main_v85) slices_S15000x512_S15000x256_0_256 := by
  refine ((V13_of m outs c main_v91 (by decide)).trans <| V12_of m outs c main_v91 (by decide)).trans ?_
  dsimp only [V11, hostOps6]; after_results_simp <;> rfl
set_option maxHeartbeats 4000000 in
theorem bias_tgt : (V13 m outs c main_v131 : FVec Ideal S1x256 .f32) = shapeCast S1x256 (V0 m c main_arg15) shapeCasts_S256_S1x256 := by
  rw [← bias_t_at m outs c]; dsimp only [V13, hostOps7]; after_results_simp <;> rfl
end Cert.KernelIdeal.Val.L2

end
-- ==== Proof.KV.HL2.lean ====
import proofs.«102211_j33681133535938_1_alg».proof.Proof.KV.HL2D
import proofs.«102211_j33681133535938_1_alg».proof.Proof.KV.HL2R
import proofs.«102211_j33681133535938_1_alg».proof.Proof.KV.HL2T

/-! Layer 2: the nine arrays the two combinations read (the three relations' modules together). -/
-- ==== Proof.KV.V4.lean ====
import proofs.«102211_j33681133535938_1_alg».proof.Proof.KI.R4
import proofs.«102211_j33681133535938_1_alg».proof.Proof.LibDotRows
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr Cert.LibDotRows

variable (V : (c : Dev nD) → (b : Ref sig .tc) → Buf (Elt Ideal) ((c : Thread nD τ).loc b))

/-! # Region 4, read: the product `X · Wᵀ` of a `40000 × 256` array by a `1024 × 256` table, entry by entry

The region walks the left operand in 20 blocks of 2000 rows; every point sees the whole table. Entry `(p, q)` of the
result is `∑ k, X (p, k) * W (q, k)`: the narrowing of the operands before the product is the identity on exact values,
and the product accumulates into zero. -/

/-- The whole result as one function of the two arrays. -/
def mm4 (X : S40000x256.Idx → EReal) (W : S1024x256.Idx → EReal) : S40000x1024.Idx → EReal :=
  fun i => ∑ k : Fin 256, X (ix2 (i 0) k) * W (ix2 (i 1) k)

/-- The left array and the table as the region finds them, at their literal index types. -/
abbrev xArr4 (c : Dev nD) : S40000x256.Idx → EReal := V c main_v79
abbrev wArr4 (c : Dev nD) : S1024x256.Idx → EReal := V c main_v82

/-- The result array after the region's last point, at its literal index type. -/
abbrev oArr4 (c : Dev nD) : S40000x1024.Idx → EReal := (dat4 V c).arrAt 2 cfg4.N

theorem dotRows4 : RowsByRows dot_S2000x256_S1024x256_S2000x1024_1_1_0_0_n_n := ⟨rfl, rfl, rfl, rfl, rfl, rfl⟩

/-- The body's product of two loaded blocks at an entry: block row `p` against table row `q`. -/
theorem pay4_apply (x0 : Vec Ideal S2000x256 .f32) (x1 : Vec Ideal S1024x256 .f32) (p : Fin 2000) (q : Fin 1024) :
    k4_pay1 x0 x1 (ix2 p q) = ∑ k : Fin 256, x0 (ix2 p k) * x1 (ix2 q k) := by
  unfold k4_pay1
  simp only [shapeCast_self]
  exact matmul_rows_apply dotRows4 none _ _ p q

theorem hz4 : (![0, 0] : Fin 2 → Nat) = fun _ => 0 := funext fun a => by fin_cases a <;> rfl

/-- The printed index maps over the grid: the left operand's and the result's row blocks are the point's, every other
    block index is zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two arrays as the region finds them. -/
theorem flushed4_eq (c : Dev nD) (t : Fin cfg4.N) :
    (dat4 V c).flushed 2 t = ((cfg4.win 2).blk t).view.read (Elt Ideal) (mm4 (xArr4 V c) (wArr4 V c)) := by
  show (cfg4.win 2).cut (grid4.coords t) ((dat4 V c).after 2 t) = _
  rw [after4_2]
  unfold out4_2
  rw [View.canon_unit_zero hz4]
  simp only [View.ld_unit_zero (S := S2000x256) hz4, View.ld_unit_zero (S := S1024x256) hz4]
  obtain ⟨e0, e1, e2, e3, e4, e5⟩ := idx_facts4 t
  funext j
  obtain ⟨p, q, rfl⟩ : ∃ (p : Fin 2000) (q : Fin 1024), j = ix2 p q := ⟨j 0, j 1, eq_ix2 j⟩
  refine (pay4_apply (iblk4 V c 0 t) (iblk4 V c 1 t) p q).trans ?_
  show ∑ k : Fin 256, xArr4 V c (((cfg4.win 0).blk t).view.emb (ix2 p k)) * wArr4 V c (((cfg4.win 1).blk t).view.emb (ix2 q k))
    = ∑ k : Fin 256, xArr4 V c (ix2 ((((cfg4.win 2).blk t).view.emb (ix2 p q)) 0) k) * wArr4 V c (ix2 ((((cfg4.win 2).blk t).view.emb (ix2 p q)) 1) k)
  refine Finset.sum_congr rfl fun k _ => ?_
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 256 + 1 * k.val = k.val; omega
  have h1 : ((cfg4.win 1).blk t).view.emb (ix2 q k) = ix2 ((((cfg4.win 2).blk t).view.emb (ix2 p q)) 1) k := by
    funext a; apply Fin.ext
    match a with
    | ⟨0, _⟩ => show win4_1.index t (0 : Fin 2) * 1024 + 1 * q.val = win4_2.index t (1 : Fin 2) * 1024 + 1 * q.val; omega
    | ⟨1, _⟩ => show win4_1.index t (1 : Fin 2) * 256 + 1 * k.val = k.val; omega
  exact congrArg₂ (fun a b => xArr4 V c a * wArr4 V c b) h0 h1

/-- An index of the result is in point `t`'s block iff each coordinate is in the block's range on its axis. -/
theorem mem_blk4 (t : Fin cfg4.N) (i : S40000x1024.Idx) :
    i ∈ ((cfg4.win 2).blk t).view.set ↔ ∀ a : Fin 2, win4_2.index t a * S2000x1024.size a ≤ (i a).val ∧ (i a).val < win4_2.index t a * S2000x1024.size a + S2000x1024.size a := by
  show i ∈ ((View.whole main_v84).slice (win4_2.rect t)).set ↔ _
  rw [View.set_slice_whole, Rect.mem_set_unit]
  exact Iff.rfl

/-- Row `r` of the result is written by point `r / 2000`. -/
theorem cover4 (i : S40000x1024.Idx) : ∃ t : Fin cfg4.N, (cfg4.win 2).flush t = true ∧ i ∈ ((cfg4.win 2).blk t).view.set := by
  have hi0 : (i 0).val < 40000 := (i 0).isLt
  have hi1 : (i 1).val < 1024 := (i 1).isLt
  have hN : cfg4.N = 20 := N_4
  let t : Fin cfg4.N := ⟨(i 0).val / 2000, by rw [hN]; omega⟩
  obtain ⟨e0, e1, e2, e3, e4, e5⟩ := idx_facts4 t
  have ht : t.val = (i 0).val / 2000 := rfl
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 1024 ≤ (i 1).val ∧ (i 1).val < win4_2.index t (1 : Fin 2) * 1024 + 1024; omega

/-- THE RESULT ARRAY after the region: the product of the two arrays as the region finds them. -/
theorem final_arr4 (c : Dev nD) :
    (dat4 V c).arrAt 2 cfg4.N = mm4 (xArr4 V c) (wArr4 V c) :=
  (dat4 V c).arrAt_eq_of_cover 2 (mm4 (xArr4 V c) (wArr4 V c)) (fun t _ => flushed4_eq V c t) (cover4)

/-- Entry `(p, q)` of the result: row `p` of the left array against row `q` of the table. -/
theorem final_mm4 (c : Dev nD) (p : Fin 40000) (q : Fin 1024) :
    oArr4 V c (ix2 p q) = ∑ k : Fin 256, xArr4 V c (ix2 p k) * wArr4 V c (ix2 q k) :=
  congrFun (final_arr4 V c) (ix2 p q)

end Cert.KernelIdeal.Val

end
-- ==== Proof.KV.V5.lean ====
import proofs.«102211_j33681133535938_1_alg».proof.Proof.KI.R5
import proofs.«102211_j33681133535938_1_alg».proof.Proof.LibDotRows
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr Cert.LibDotRows

variable (V : (c : Dev nD) → (b : Ref sig .tc) → Buf (Elt Ideal) ((c : Thread nD τ).loc b))

/-! # Region 5, read: the product `X · Wᵀ` of a `15000 × 256` array by a `512 × 256` table, entry by entry

The region walks the left operand in 5 blocks of 3000 rows; every point sees the whole table. Entry `(p, q)` of the
result is `∑ k, X (p, k) * W (q, k)`: the narrowing of the operands before the product is the identity on exact values,
and the product accumulates into zero. -/

/-- The whole result as one function of the two arrays. -/
def mm5 (X : S15000x256.Idx → EReal) (W : S512x256.Idx → EReal) : S15000x512.Idx → EReal :=
  fun i => ∑ k : Fin 256, X (ix2 (i 0) k) * W (ix2 (i 1) k)

/-- The left array and the table as the region finds them, at their literal index types. -/
abbrev xArr5 (c : Dev nD) : S15000x256.Idx → EReal := V c main_v81
abbrev wArr5 (c : Dev nD) : S512x256.Idx → EReal := V c main_v83

/-- The result array after the region's last point, at its literal index type. -/
abbrev oArr5 (c : Dev nD) : S15000x512.Idx → EReal := (dat5 V c).arrAt 2 cfg5.N

theorem dotRows5 : RowsByRows dot_S3000x256_S512x256_S3000x512_1_1_0_0_n_n := ⟨rfl, rfl, rfl, rfl, rfl, rfl⟩

/-- The body's product of two loaded blocks at an entry: block row `p` against table row `q`. -/
theorem pay5_apply (x0 : Vec Ideal S3000x256 .f32) (x1 : Vec Ideal S512x256 .f32) (p : Fin 3000) (q : Fin 512) :
    k5_pay1 x0 x1 (ix2 p q) = ∑ k : Fin 256, x0 (ix2 p k) * x1 (ix2 q k) := by
  unfold k5_pay1
  simp only [shapeCast_self]
  exact matmul_rows_apply dotRows5 none _ _ p q

theorem hz5 : (![0, 0] : Fin 2 → Nat) = fun _ => 0 := funext fun a => by fin_cases a <;> rfl

/-- The printed index maps over the grid: the left operand's and the result's row blocks are the point's, every other
    block index is zero. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the product of the two arrays as the region finds them. -/
theorem flushed5_eq (c : Dev nD) (t : Fin cfg5.N) :
    (dat5 V c).flushed 2 t = ((cfg5.win 2).blk t).view.read (Elt Ideal) (mm5 (xArr5 V c) (wArr5 V c)) := by
  show (cfg5.win 2).cut (grid5.coords t) ((dat5 V c).after 2 t) = _
  rw [after5_2]
  unfold out5_2
  rw [View.canon_unit_zero hz5]
  simp only [View.ld_unit_zero (S := S3000x256) hz5, View.ld_unit_zero (S := S512x256) hz5]
  obtain ⟨e0, e1, e2, e3, e4, e5⟩ := idx_facts5 t
  funext j
  obtain ⟨p, q, rfl⟩ : ∃ (p : Fin 3000) (q : Fin 512), j = ix2 p q := ⟨j 0, j 1, eq_ix2 j⟩
  refine (pay5_apply (iblk5 V c 0 t) (iblk5 V c 1 t) p q).trans ?_
  show ∑ k : Fin 256, xArr5 V c (((cfg5.win 0).blk t).view.emb (ix2 p k)) * wArr5 V c (((cfg5.win 1).blk t).view.emb (ix2 q k))
    = ∑ k : Fin 256, xArr5 V c (ix2 ((((cfg5.win 2).blk t).view.emb (ix2 p q)) 0) k) * wArr5 V c (ix2 ((((cfg5.win 2).blk t).view.emb (ix2 p q)) 1) k)
  refine Finset.sum_congr rfl fun k _ => ?_
  have h0 : ((cfg5.win 0).blk t).view.emb (ix2 p k) = ix2 ((((cfg5.win 2).blk t).view.emb (ix2 p q)) 0) k := by
    funext a; apply Fin.ext
    match a with
    | ⟨0, _⟩ => show win5_0.index t (0 : Fin 2) * 3000 + 1 * p.val = win5_2.index t (0 : Fin 2) * 3000 + 1 * p.val; omega
    | ⟨1, _⟩ => show win5_0.index t (1 : Fin 2) * 256 + 1 * k.val = k.val; omega
  have h1 : ((cfg5.win 1).blk t).view.emb (ix2 q k) = ix2 ((((cfg5.win 2).blk t).view.emb (ix2 p q)) 1) k := by
    funext a; apply Fin.ext
    match a with
    | ⟨0, _⟩ => show win5_1.index t (0 : Fin 2) * 512 + 1 * q.val = win5_2.index t (1 : Fin 2) * 512 + 1 * q.val; omega
    | ⟨1, _⟩ => show win5_1.index t (1 : Fin 2) * 256 + 1 * k.val = k.val; omega
  exact congrArg₂ (fun a b => xArr5 V c a * wArr5 V c b) h0 h1

/-- An index of the result is in point `t`'s block iff each coordinate is in the block's range on its axis. -/
theorem mem_blk5 (t : Fin cfg5.N) (i : S15000x512.Idx) :
    i ∈ ((cfg5.win 2).blk t).view.set ↔ ∀ a : Fin 2, win5_2.index t a * S3000x512.size a ≤ (i a).val ∧ (i a).val < win5_2.index t a * S3000x512.size a + S3000x512.size a := by
  show i ∈ ((View.whole main_v85).slice (win5_2.rect t)).set ↔ _
  rw [View.set_slice_whole, Rect.mem_set_unit]
  exact Iff.rfl

/-- Row `r` of the result is written by point `r / 3000`. -/
theorem cover5 (i : S15000x512.Idx) : ∃ t : Fin cfg5.N, (cfg5.win 2).flush t = true ∧ i ∈ ((cfg5.win 2).blk t).view.set := by
  have hi0 : (i 0).val < 15000 := (i 0).isLt
  have hi1 : (i 1).val < 512 := (i 1).isLt
  have hN : cfg5.N = 5 := N_5
  let t : Fin cfg5.N := ⟨(i 0).val / 3000, by rw [hN]; omega⟩
  obtain ⟨e0, e1, e2, e3, e4, e5⟩ := idx_facts5 t
  have ht : t.val = (i 0).val / 3000 := rfl
  refine ⟨t, flush5_2 t, ?_⟩
  rw [mem_blk5]
  intro a
  match a with
  | ⟨0, _⟩ => show win5_2.index t (0 : Fin 2) * 3000 ≤ (i 0).val ∧ (i 0).val < win5_2.index t (0 : Fin 2) * 3000 + 3000; omega
  | ⟨1, _⟩ => show win5_2.index t (1 : Fin 2) * 512 ≤ (i 1).val ∧ (i 1).val < win5_2.index t (1 : Fin 2) * 512 + 512; omega

/-- THE RESULT ARRAY after the region: the product of the two arrays as the region finds them. -/
theorem final_arr5 (c : Dev nD) :
    (dat5 V c).arrAt 2 cfg5.N = mm5 (xArr5 V c) (wArr5 V c) :=
  (dat5 V c).arrAt_eq_of_cover 2 (mm5 (xArr5 V c) (wArr5 V c)) (fun t _ => flushed5_eq V c t) (cover5)

/-- Entry `(p, q)` of the result: row `p` of the left array against row `q` of the table. -/
theorem final_mm5 (c : Dev nD) (p : Fin 15000) (q : Fin 512) :
    oArr5 V c (ix2 p q) = ∑ k : Fin 256, xArr5 V c (ix2 p k) * wArr5 V c (ix2 q k) :=
  congrFun (final_arr5 V c) (ix2 p q)

end Cert.KernelIdeal.Val

end
-- ==== Proof.KV.Cb6.lean ====
import proofs.«102211_j33681133535938_1_alg».proof.Proof.KI.R6
import proofs.«102211_j33681133535938_1_alg».proof.Proof.KV.PayB
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-! # Region 6: the six-operand combination of the second layer, as one array

Grid point `t` of 20 works on rows `2000 t … 2000 t + 1999` of every `[40000, 256]` operand and of the result, and on the
whole of each `[1, 256]` bias row. So what point `t` writes back is block `t` of ONE function of the operand arrays,
`G6`, and as the 20 blocks tile the `40000` rows the result array ends holding `G6` everywhere. -/

theorem hz6 : (![0, 0] : Fin 2 → Nat) = fun _ => 0 := funext fun a => by fin_cases a <;> rfl

/-- The index maps over the grid: a row-block window is at block `(t, 0)`, a bias row at block `(0, 0)`. -/
theorem idx_facts6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0
    ∧ win6_4.index t (0 : Fin 2) = t.val
    ∧ win6_4.index t (1 : Fin 2) = 0
    ∧ win6_5.index t (0 : Fin 2) = 0
    ∧ win6_5.index t (1 : Fin 2) = 0
    ∧ win6_6.index t (0 : Fin 2) = t.val
    ∧ win6_6.index t (1 : Fin 2) = 0 :=
  (by decide +kernel : ∀ t : Fin grid6.N, _)

set_option maxHeartbeats 4000000 in
/-- What point `t` writes back is block `t` of `G6` of the arrays as the region finds them. -/
theorem flushed6_eq (c : Dev nD) (t : Fin cfg6.N) :
    (dat6 V c).flushed 6 t = ((cfg6.win 6).blk t).view.read (Elt Ideal) (G6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) := by
  show (cfg6.win 6).cut (grid6.coords t) ((dat6 V c).after 6 t) = _
  rw [after6_6]
  unfold out6_6
  rw [View.canon_unit_zero hz6]
  simp only [View.ld_unit_zero (S := S2000x256) hz6, View.ld_unit_zero (S := S1x256) hz6]
  obtain ⟨e0, e1, e2, e3, e4, e5, e6, e7, e8, e9, e10, e11, e12, e13⟩ := idx_facts6 t
  funext j
  show k6_pay1 (F := Ideal) (iblk6 V c 0 t) (iblk6 V c 1 t) (iblk6 V c 2 t) (iblk6 V c 3 t) (iblk6 V c 4 t) (iblk6 V c 5 t) j = G6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (((cfg6.win 6).blk t).view.emb j)
  refine cb6_point (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (iblk6 V c 0 t) (iblk6 V c 1 t) (iblk6 V c 2 t) (iblk6 V c 3 t) (iblk6 V c 4 t) (iblk6 V c 5 t) j (((cfg6.win 6).blk t).view.emb j) ?_ ?_ ?_ ?_ ?_ ?_
  · -- window 0: the block of rows at the point's place
    show (V c (Pipeline.arrRef spec6 0)) (((cfg6.win 0).blk t).view.emb j) = (V c (Pipeline.arrRef spec6 0)) (((cfg6.win 6).blk t).view.emb j)
    refine congrArg (V c (Pipeline.arrRef spec6 0)) (funext fun a => Fin.ext ?_)
    match a with
    | ⟨0, _⟩ => show win6_0.index t (0 : Fin 2) * 2000 + 1 * (j 0).val = win6_6.index t (0 : Fin 2) * 2000 + 1 * (j 0).val; omega
    | ⟨1, _⟩ => show win6_0.index t (1 : Fin 2) * 256 + 1 * (j 1).val = win6_6.index t (1 : Fin 2) * 256 + 1 * (j 1).val; omega
  · -- window 1: the block of rows at the point's place
    show (V c (Pipeline.arrRef spec6 1)) (((cfg6.win 1).blk t).view.emb j) = (V c (Pipeline.arrRef spec6 1)) (((cfg6.win 6).blk t).view.emb j)
    refine congrArg (V c (Pipeline.arrRef spec6 1)) (funext fun a => Fin.ext ?_)
    match a with
    | ⟨0, _⟩ => show win6_1.index t (0 : Fin 2) * 2000 + 1 * (j 0).val = win6_6.index t (0 : Fin 2) * 2000 + 1 * (j 0).val; omega
    | ⟨1, _⟩ => show win6_1.index t (1 : Fin 2) * 256 + 1 * (j 1).val = win6_6.index t (1 : Fin 2) * 256 + 1 * (j 1).val; omega
  · -- window 2: the bias row, whole at every point
    show (V c (Pipeline.arrRef spec6 2)) (((cfg6.win 2).blk t).view.emb (ix2 (n0 := 1) (n1 := 256) 0 (j 1))) = (V c (Pipeline.arrRef spec6 2)) (ix2 (n0 := 1) (n1 := 256) 0 ((((cfg6.win 6).blk t).view.emb j) 1))
    refine congrArg (V c (Pipeline.arrRef spec6 2)) (funext fun a => Fin.ext ?_)
    match a with
    | ⟨0, _⟩ => show win6_2.index t (0 : Fin 2) * 1 + 1 * 0 = 0; omega
    | ⟨1, _⟩ => show win6_2.index t (1 : Fin 2) * 256 + 1 * (j 1).val = win6_6.index t (1 : Fin 2) * 256 + 1 * (j 1).val; omega
  · -- window 3: the block of rows at the point's place
    show (V c (Pipeline.arrRef spec6 3)) (((cfg6.win 3).blk t).view.emb j) = (V c (Pipeline.arrRef spec6 3)) (((cfg6.win 6).blk t).view.emb j)
    refine congrArg (V c (Pipeline.arrRef spec6 3)) (funext fun a => Fin.ext ?_)
    match a with
    | ⟨0, _⟩ => show win6_3.index t (0 : Fin 2) * 2000 + 1 * (j 0).val = win6_6.index t (0 : Fin 2) * 2000 + 1 * (j 0).val; omega
    | ⟨1, _⟩ => show win6_3.index t (1 : Fin 2) * 256 + 1 * (j 1).val = win6_6.index t (1 : Fin 2) * 256 + 1 * (j 1).val; omega
  · -- window 4: the block of rows at the point's place
    show (V c (Pipeline.arrRef spec6 4)) (((cfg6.win 4).blk t).view.emb j) = (V c (Pipeline.arrRef spec6 4)) (((cfg6.win 6).blk t).view.emb j)
    refine congrArg (V c (Pipeline.arrRef spec6 4)) (funext fun a => Fin.ext ?_)
    match a with
    | ⟨0, _⟩ => show win6_4.index t (0 : Fin 2) * 2000 + 1 * (j 0).val = win6_6.index t (0 : Fin 2) * 2000 + 1 * (j 0).val; omega
    | ⟨1, _⟩ => show win6_4.index t (1 : Fin 2) * 256 + 1 * (j 1).val = win6_6.index t (1 : Fin 2) * 256 + 1 * (j 1).val; omega
  · -- window 5: the bias row, whole at every point
    show (V c (Pipeline.arrRef spec6 5)) (((cfg6.win 5).blk t).view.emb (ix2 (n0 := 1) (n1 := 256) 0 (j 1))) = (V c (Pipeline.arrRef spec6 5)) (ix2 (n0 := 1) (n1 := 256) 0 ((((cfg6.win 6).blk t).view.emb j) 1))
    refine congrArg (V c (Pipeline.arrRef spec6 5)) (funext fun a => Fin.ext ?_)
    match a with
    | ⟨0, _⟩ => show win6_5.index t (0 : Fin 2) * 1 + 1 * 0 = 0; omega
    | ⟨1, _⟩ => show win6_5.index t (1 : Fin 2) * 256 + 1 * (j 1).val = win6_6.index t (1 : Fin 2) * 256 + 1 * (j 1).val; omega

/-- An index of the result array is in point `t`'s block iff each coordinate is in the block's range on its axis. -/
theorem mem_blk6 (t : Fin cfg6.N) (i : S40000x256.Idx) :
    i ∈ ((cfg6.win 6).blk t).view.set ↔ ∀ a : Fin 2, win6_6.index t a * S2000x256.size a ≤ (i a).val ∧ (i a).val < win6_6.index t a * S2000x256.size a + S2000x256.size a := by
  show i ∈ ((View.whole main_v130).slice (win6_6.rect t)).set ↔ _
  rw [View.set_slice_whole, Rect.mem_set_unit]
  exact Iff.rfl

/-- Row `r` is in the block of point `r / 2000`, which writes back: the 20 blocks cover the array. -/
theorem cover6 (i : S40000x256.Idx) :
    ∃ t : Fin cfg6.N, (cfg6.win 6).flush t = true ∧ i ∈ ((cfg6.win 6).blk t).view.set := by
  have hi0 : (i 0).val < 40000 := (i 0).isLt
  have hi1 : (i 1).val < 256 := (i 1).isLt
  obtain ⟨t, ht⟩ : ∃ t : Fin cfg6.N, t.val = (i 0).val / 2000 :=
    ⟨⟨(i 0).val / 2000, by show (i 0).val / 2000 < 20; omega⟩, rfl⟩
  obtain ⟨e0, e1, e2, e3, e4, e5, e6, e7, e8, e9, e10, e11, e12, e13⟩ := idx_facts6 t
  refine ⟨t, flush6_6 t, ?_⟩
  rw [mem_blk6]
  intro a
  match a with
  | ⟨0, _⟩ => show win6_6.index t (0 : Fin 2) * 2000 ≤ (i 0).val ∧ (i 0).val < win6_6.index t (0 : Fin 2) * 2000 + 2000; omega
  | ⟨1, _⟩ => show win6_6.index t (1 : Fin 2) * 256 ≤ (i 1).val ∧ (i 1).val < win6_6.index t (1 : Fin 2) * 256 + 256; omega

/-- The result array after the region is `G6` of the operand arrays as the region finds them. -/
theorem final6 (c : Dev nD) :
    (dat6 V c).arrAt 6 cfg6.N = G6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) :=
  (dat6 V c).arrAt_eq_of_cover 6 (G6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) (fun t _ => flushed6_eq V c t) (cover6)

/-- The result array at row `p`, column `q`, in the body's own order of operations, over whatever the operand arrays
    are known to hold when the region is entered. -/
theorem final_cb6 (c : Dev nD) (a : S40000x256.Idx → Elt Ideal .f32) (aw : S40000x256.Idx → Elt Ideal .f32) (ab : S1x256.Idx → Elt Ideal .f32) (b : S40000x256.Idx → Elt Ideal .f32) (bw : S40000x256.Idx → Elt Ideal .f32) (bb : S1x256.Idx → Elt Ideal .f32)
    (ha : V c (Pipeline.arrRef spec6 0) = a)
    (haw : V c (Pipeline.arrRef spec6 1) = aw)
    (hab : V c (Pipeline.arrRef spec6 2) = ab)
    (hb : V c (Pipeline.arrRef spec6 3) = b)
    (hbw : V c (Pipeline.arrRef spec6 4) = bw)
    (hbb : V c (Pipeline.arrRef spec6 5) = bb)
    (p : Fin 40000) (q : Fin 256) :
    (dat6 (F := Ideal) V c).arrAt 6 cfg6.N (ix2 p q)
      = max (((((a (ix2 p q) + aw (ix2 p q)) + ab (ix2 0 q)) + b (ix2 p q)) + bw (ix2 p q)) + bb (ix2 0 q)) (Ideal.ofBits .f32 0x00000000#32) := by
  subst ha haw hab hb hbw hbb
  rw [final6]
  rfl

end Cert.KernelIdeal.Val

end
-- ==== Proof.KV.Cb7.lean ====
import proofs.«102211_j33681133535938_1_alg».proof.Proof.KI.R7
import proofs.«102211_j33681133535938_1_alg».proof.Proof.KV.PayA
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-! # Region 7: the three-operand combination of the second layer, as one array

Grid point `t` of 5 works on rows `3000 t … 3000 t + 2999` of every `[15000, 256]` operand and of the result, and on the
whole of each `[1, 256]` bias row. So what point `t` writes back is block `t` of ONE function of the operand arrays,
`G7`, and as the 5 blocks tile the `15000` rows the result array ends holding `G7` everywhere. -/

theorem hz7 : (![0, 0] : Fin 2 → Nat) = fun _ => 0 := funext fun a => by fin_cases a <;> rfl

/-- The index maps over the grid: a row-block window is at block `(t, 0)`, a bias row at block `(0, 0)`. -/
theorem idx_facts7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

set_option maxHeartbeats 4000000 in
/-- What point `t` writes back is block `t` of `G7` of the arrays as the region finds them. -/
theorem flushed7_eq (c : Dev nD) (t : Fin cfg7.N) :
    (dat7 V c).flushed 3 t = ((cfg7.win 3).blk t).view.read (Elt Ideal) (G7 (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz7]
  simp only [View.ld_unit_zero (S := S3000x256) hz7, View.ld_unit_zero (S := S1x256) hz7]
  obtain ⟨e0, e1, e2, e3, e4, e5, e6, e7⟩ := idx_facts7 t
  funext j
  show k7_pay1 (F := Ideal) (iblk7 V c 0 t) (iblk7 V c 1 t) (iblk7 V c 2 t) j = G7 (V c (Pipeline.arrRef spec7 0)) (V c (Pipeline.arrRef spec7 1)) (V c (Pipeline.arrRef spec7 2)) (((cfg7.win 3).blk t).view.emb j)
  refine cb7_point (V c (Pipeline.arrRef spec7 0)) (V c (Pipeline.arrRef spec7 1)) (V c (Pipeline.arrRef spec7 2)) (iblk7 V c 0 t) (iblk7 V c 1 t) (iblk7 V c 2 t) j (((cfg7.win 3).blk t).view.emb j) ?_ ?_ ?_
  · -- window 0: the block of rows at the point's place
    show (V c (Pipeline.arrRef spec7 0)) (((cfg7.win 0).blk t).view.emb j) = (V c (Pipeline.arrRef spec7 0)) (((cfg7.win 3).blk t).view.emb j)
    refine congrArg (V c (Pipeline.arrRef spec7 0)) (funext fun a => Fin.ext ?_)
    match a with
    | ⟨0, _⟩ => show win7_0.index t (0 : Fin 2) * 3000 + 1 * (j 0).val = win7_3.index t (0 : Fin 2) * 3000 + 1 * (j 0).val; omega
    | ⟨1, _⟩ => show win7_0.index t (1 : Fin 2) * 256 + 1 * (j 1).val = win7_3.index t (1 : Fin 2) * 256 + 1 * (j 1).val; omega
  · -- window 1: the block of rows at the point's place
    show (V c (Pipeline.arrRef spec7 1)) (((cfg7.win 1).blk t).view.emb j) = (V c (Pipeline.arrRef spec7 1)) (((cfg7.win 3).blk t).view.emb j)
    refine congrArg (V c (Pipeline.arrRef spec7 1)) (funext fun a => Fin.ext ?_)
    match a with
    | ⟨0, _⟩ => show win7_1.index t (0 : Fin 2) * 3000 + 1 * (j 0).val = win7_3.index t (0 : Fin 2) * 3000 + 1 * (j 0).val; omega
    | ⟨1, _⟩ => show win7_1.index t (1 : Fin 2) * 256 + 1 * (j 1).val = win7_3.index t (1 : Fin 2) * 256 + 1 * (j 1).val; omega
  · -- window 2: the bias row, whole at every point
    show (V c (Pipeline.arrRef spec7 2)) (((cfg7.win 2).blk t).view.emb (ix2 (n0 := 1) (n1 := 256) 0 (j 1))) = (V c (Pipeline.arrRef spec7 2)) (ix2 (n0 := 1) (n1 := 256) 0 ((((cfg7.win 3).blk t).view.emb j) 1))
    refine congrArg (V c (Pipeline.arrRef spec7 2)) (funext fun a => Fin.ext ?_)
    match a with
    | ⟨0, _⟩ => show win7_2.index t (0 : Fin 2) * 1 + 1 * 0 = 0; omega
    | ⟨1, _⟩ => show win7_2.index t (1 : Fin 2) * 256 + 1 * (j 1).val = win7_3.index t (1 : Fin 2) * 256 + 1 * (j 1).val; omega

/-- An index of the result array is in point `t`'s block iff each coordinate is in the block's range on its axis. -/
theorem mem_blk7 (t : Fin cfg7.N) (i : S15000x256.Idx) :
    i ∈ ((cfg7.win 3).blk t).view.set ↔ ∀ a : Fin 2, win7_3.index t a * S3000x256.size a ≤ (i a).val ∧ (i a).val < win7_3.index t a * S3000x256.size a + S3000x256.size a := by
  show i ∈ ((View.whole main_v132).slice (win7_3.rect t)).set ↔ _
  rw [View.set_slice_whole, Rect.mem_set_unit]
  exact Iff.rfl

/-- Row `r` is in the block of point `r / 3000`, which writes back: the 5 blocks cover the array. -/
theorem cover7 (i : S15000x256.Idx) :
    ∃ t : Fin cfg7.N, (cfg7.win 3).flush t = true ∧ i ∈ ((cfg7.win 3).blk t).view.set := by
  have hi0 : (i 0).val < 15000 := (i 0).isLt
  have hi1 : (i 1).val < 256 := (i 1).isLt
  obtain ⟨t, ht⟩ : ∃ t : Fin cfg7.N, t.val = (i 0).val / 3000 :=
    ⟨⟨(i 0).val / 3000, by show (i 0).val / 3000 < 5; omega⟩, rfl⟩
  obtain ⟨e0, e1, e2, e3, e4, e5, e6, e7⟩ := idx_facts7 t
  refine ⟨t, flush7_3 t, ?_⟩
  rw [mem_blk7]
  intro a
  match a with
  | ⟨0, _⟩ => show win7_3.index t (0 : Fin 2) * 3000 ≤ (i 0).val ∧ (i 0).val < win7_3.index t (0 : Fin 2) * 3000 + 3000; omega
  | ⟨1, _⟩ => show win7_3.index t (1 : Fin 2) * 256 ≤ (i 1).val ∧ (i 1).val < win7_3.index t (1 : Fin 2) * 256 + 256; omega

/-- The result array after the region is `G7` of the operand arrays as the region finds them. -/
theorem final7 (c : Dev nD) :
    (dat7 V c).arrAt 3 cfg7.N = G7 (V c (Pipeline.arrRef spec7 0)) (V c (Pipeline.arrRef spec7 1)) (V c (Pipeline.arrRef spec7 2)) :=
  (dat7 V c).arrAt_eq_of_cover 3 (G7 (V c (Pipeline.arrRef spec7 0)) (V c (Pipeline.arrRef spec7 1)) (V c (Pipeline.arrRef spec7 2))) (fun t _ => flushed7_eq V c t) (cover7)

/-- The result array at row `p`, column `q`, in the body's own order of operations, over whatever the operand arrays
    are known to hold when the region is entered. -/
theorem final_cb7 (c : Dev nD) (a : S15000x256.Idx → Elt Ideal .f32) (aw : S15000x256.Idx → Elt Ideal .f32) (ab : S1x256.Idx → Elt Ideal .f32)
    (ha : V c (Pipeline.arrRef spec7 0) = a)
    (haw : V c (Pipeline.arrRef spec7 1) = aw)
    (hab : V c (Pipeline.arrRef spec7 2) = ab)
    (p : Fin 15000) (q : Fin 256) :
    (dat7 (F := Ideal) V c).arrAt 3 cfg7.N (ix2 p q)
      = max ((a (ix2 p q) + aw (ix2 p q)) + ab (ix2 0 q)) (Ideal.ofBits .f32 0x00000000#32) := by
  subst ha haw hab
  rw [final7]
  rfl

end Cert.KernelIdeal.Val

end
-- ==== Proof.KV.B2K.lean ====
import proofs.«102211_j33681133535938_1_alg».proof.Proof.KI.Vals
import proofs.«102211_j33681133535938_1_alg».proof.Proof.KV.HL2
import proofs.«102211_j33681133535938_1_alg».proof.Proof.KV.V4
import proofs.«102211_j33681133535938_1_alg».proof.Proof.KV.V5
import proofs.«102211_j33681133535938_1_alg».proof.Proof.KV.Cb6
import proofs.«102211_j33681133535938_1_alg».proof.Proof.KV.Cb7
import proofs.«102211_j33681133535938_1_alg».proof.Proof.LibMeanColumn
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic
import Idealize.ShloMosaic.Lib.ValueLayout

set_option maxRecDepth 16384

noncomputable section

open scoped BigOperators

namespace Cert.KernelIdeal.Val.L2

open Cert.KernelIdeal.Val

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Fr

/-! # Layer 2 on the kernel's side, entry by entry

The two product tables over the stacked weight tables, their column blocks, and the two combinations, over the first
layer's two results as whole arrays. A product table's column block `j` is the product with table `j` of the stack
alone: entry `(p, q)` of the block is `∑ₖ x(p,k)·Wⱼ(q,k)`. -/

variable (m : (ℓ : Loc nD τ sig) → Buf (Elt Ideal) ℓ) (outs : Outs (F := Ideal)) (c : Dev nD)

/-! ## The weight tables and the first layer's results where the two products read them -/

theorem arg11_at7 : (V7 m outs c main_arg11 : FVec Ideal S256x256 .f32) = (V0 m c main_arg11) :=
  (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide)).trans <| rfl
theorem arg13_at7 : (V7 m outs c main_arg13 : FVec Ideal S256x256 .f32) = (V0 m c main_arg13) :=
  (V7_of m outs c main_arg13 (by decide)).trans <| (V6_of m outs c main_arg13 (by decide)).trans <| (V5_of m outs c main_arg13 (by decide)).trans <| (V4_of m outs c main_arg13 (by decide)).trans <| (V3_of m outs c main_arg13 (by decide)).trans <| (V2_of m outs c main_arg13 (by decide)).trans <| (V1_of m c main_arg13 (by decide)).trans <| rfl
theorem arg14_at7 : (V7 m outs c main_arg14 : FVec Ideal S256x256 .f32) = (V0 m c main_arg14) :=
  (V7_of m outs c main_arg14 (by decide)).trans <| (V6_of m outs c main_arg14 (by decide)).trans <| (V5_of m outs c main_arg14 (by decide)).trans <| (V4_of m outs c main_arg14 (by decide)).trans <| (V3_of m outs c main_arg14 (by decide)).trans <| (V2_of m outs c main_arg14 (by decide)).trans <| (V1_of m c main_arg14 (by decide)).trans <| rfl
theorem arg19_at7 : (V7 m outs c main_arg19 : FVec Ideal S256x256 .f32) = (V0 m c main_arg19) :=
  (V7_of m outs c main_arg19 (by decide)).trans <| (V6_of m outs c main_arg19 (by decide)).trans <| (V5_of m outs c main_arg19 (by decide)).trans <| (V4_of m outs c main_arg19 (by decide)).trans <| (V3_of m outs c main_arg19 (by decide)).trans <| (V2_of m outs c main_arg19 (by decide)).trans <| (V1_of m c main_arg19 (by decide)).trans <| rfl
theorem arg17_at7 : (V7 m outs c main_arg17 : FVec Ideal S256x256 .f32) = (V0 m c main_arg17) :=
  (V7_of m outs c main_arg17 (by decide)).trans <| (V6_of m outs c main_arg17 (by decide)).trans <| (V5_of m outs c main_arg17 (by decide)).trans <| (V4_of m outs c main_arg17 (by decide)).trans <| (V3_of m outs c main_arg17 (by decide)).trans <| (V2_of m outs c main_arg17 (by decide)).trans <| (V1_of m c main_arg17 (by decide)).trans <| rfl
theorem arg16_at7 : (V7 m outs c main_arg16 : FVec Ideal S256x256 .f32) = (V0 m c main_arg16) :=
  (V7_of m outs c main_arg16 (by decide)).trans <| (V6_of m outs c main_arg16 (by decide)).trans <| (V5_of m outs c main_arg16 (by decide)).trans <| (V4_of m outs c main_arg16 (by decide)).trans <| (V3_of m outs c main_arg16 (by decide)).trans <| (V2_of m outs c main_arg16 (by decide)).trans <| (V1_of m c main_arg16 (by decide)).trans <| rfl

/-- The drug-side stack: the four tables that multiply the drug features, one above the other. -/
theorem stack_d : (V8 m outs c main_v82 : FVec Ideal S1024x256 .f32) =
    concatenate S1024x256 0 [⟨S256x256, V0 m c main_arg11⟩, ⟨S256x256, V0 m c main_arg13⟩, ⟨S256x256, V0 m c main_arg14⟩, ⟨S256x256, V0 m c main_arg19⟩] concatenates_S256x256_S256x256_S256x256_S256x256_S1024x256_d0 := by
  rw [← arg11_at7 m outs c, ← arg13_at7 m outs c, ← arg14_at7 m outs c, ← arg19_at7 m outs c]; dsimp only [V8, hostOps4]; after_results; rfl
/-- The protein-side stack: the two tables that multiply the protein features. -/
theorem stack_p : (V9 m outs c main_v83 : FVec Ideal S512x256 .f32) =
    concatenate S512x256 0 [⟨S256x256, V0 m c main_arg17⟩, ⟨S256x256, V0 m c main_arg16⟩] concatenates_S256x256_S256x256_S512x256_d0 := by
  refine (V9_of m outs c main_v83 (by decide)).trans ?_
  rw [← arg17_at7 m outs c, ← arg16_at7 m outs c]; dsimp only [V8, hostOps4]; after_results <;> rfl
/-- The drug product's left operand is still the first layer's drug result. -/
theorem xd_at8 : (V8 m outs c main_v79 : FVec Ideal S40000x256 .f32) = V5 m outs c main_v79 :=
  (V8_of m outs c main_v79 (by decide)).trans <| (V7_of m outs c main_v79 (by decide)).trans <| V6_of m outs c main_v79 (by decide)
/-- The protein product's left operand is still the first layer's protein result. -/
theorem xp_at9 : (V9 m outs c main_v81 : FVec Ideal S15000x256 .f32) = V7 m outs c main_v81 :=
  (V9_of m outs c main_v81 (by decide)).trans <| V8_of m outs c main_v81 (by decide)

/-! ## The two product tables -/

/-- The drug product table: the first layer's drug result times the transposed drug-side stack. -/
theorem prod_d (h : Fr.OutsOk m outs) (XD : FVec Ideal S40000x256 .f32)
    (hd : (V5 m outs c main_v79 : FVec Ideal S40000x256 .f32) = XD) :
    (V10 m outs c main_v84 : FVec Ideal S40000x1024 .f32) = mm4 XD (concatenate S1024x256 0 [⟨S256x256, V0 m c main_arg11⟩, ⟨S256x256, V0 m c main_arg13⟩, ⟨S256x256, V0 m c main_arg14⟩, ⟨S256x256, V0 m c main_arg19⟩] concatenates_S256x256_S256x256_S256x256_S256x256_S1024x256_d0) := by
  have e : (V9 m outs c main_v84 : FVec Ideal S40000x1024 .f32) = outs 9 main_v84 c := Function.update_self _ _ _
  refine (V10_of m outs c main_v84 (by decide)).trans <| e.trans <| (h.h4 c).trans <| (final_arr4 (Vr (V8 m outs)) c).trans ?_
  show mm4 (V8 m outs c main_v79) (V8 m outs c main_v82) = _
  rw [stack_d m outs c, xd_at8 m outs c, hd]
/-- The protein product table: the first layer's protein result times the transposed protein-side stack. -/
theorem prod_p (h : Fr.OutsOk m outs) (XP : FVec Ideal S15000x256 .f32)
    (hp : (V7 m outs c main_v81 : FVec Ideal S15000x256 .f32) = XP) :
    (V10 m outs c main_v85 : FVec Ideal S15000x512 .f32) = mm5 XP (concatenate S512x256 0 [⟨S256x256, V0 m c main_arg17⟩, ⟨S256x256, V0 m c main_arg16⟩] concatenates_S256x256_S256x256_S512x256_d0) := by
  have e : (V10 m outs c main_v85 : FVec Ideal S15000x512 .f32) = outs 10 main_v85 c := Function.update_self _ _ _
  refine e.trans <| (h.h5 c).trans <| (final_arr5 (Vr (V9 m outs)) c).trans ?_
  show mm5 (V9 m outs c main_v81) (V9 m outs c main_v83) = _
  rw [stack_p m outs c, xp_at9 m outs c, hp]

/-! ## A stack's rows, a table's column blocks -/

section Blocks
variable (W0 W1 W2 W3 : FVec Ideal S256x256 .f32)
/-- Rows 0 … 255 of the drug-side stack are its table 0. -/
theorem stack_d_rows0 (q : Fin 256) (k : Fin 256) (r : Fin 1024) (hr : r.val = 0 + q.val) :
    (concatenate S1024x256 0 [⟨S256x256, W0⟩, ⟨S256x256, W1⟩, ⟨S256x256, W2⟩, ⟨S256x256, W3⟩] concatenates_S256x256_S256x256_S256x256_S256x256_S1024x256_d0) (ix2 r k) = W0 (ix2 q k) :=
  concatenate_apply_piece (0 : Fin 2) _ _ (ix2 r k) 0 (by simp) S256x256 W0 rfl rfl 0 rfl (ix2 q k)
    (fun b hb => by
      match b with
      | ⟨0, _⟩ => exact absurd rfl hb
      | ⟨1, _⟩ => rfl)
    (by show 0 + q.val = r.val; omega)
/-- Rows 256 … 511 of the drug-side stack are its table 1. -/
theorem stack_d_rows1 (q : Fin 256) (k : Fin 256) (r : Fin 1024) (hr : r.val = 256 + q.val) :
    (concatenate S1024x256 0 [⟨S256x256, W0⟩, ⟨S256x256, W1⟩, ⟨S256x256, W2⟩, ⟨S256x256, W3⟩] concatenates_S256x256_S256x256_S256x256_S256x256_S1024x256_d0) (ix2 r k) = W1 (ix2 q k) :=
  concatenate_apply_piece (0 : Fin 2) _ _ (ix2 r k) 1 (by simp) S256x256 W1 rfl rfl 256 rfl (ix2 q k)
    (fun b hb => by
      match b with
      | ⟨0, _⟩ => exact absurd rfl hb
      | ⟨1, _⟩ => rfl)
    (by show 256 + q.val = r.val; omega)
/-- Rows 512 … 767 of the drug-side stack are its table 2. -/
theorem stack_d_rows2 (q : Fin 256) (k : Fin 256) (r : Fin 1024) (hr : r.val = 512 + q.val) :
    (concatenate S1024x256 0 [⟨S256x256, W0⟩, ⟨S256x256, W1⟩, ⟨S256x256, W2⟩, ⟨S256x256, W3⟩] concatenates_S256x256_S256x256_S256x256_S256x256_S1024x256_d0) (ix2 r k) = W2 (ix2 q k) :=
  concatenate_apply_piece (0 : Fin 2) _ _ (ix2 r k) 2 (by simp) S256x256 W2 rfl rfl 512 rfl (ix2 q k)
    (fun b hb => by
      match b with
      | ⟨0, _⟩ => exact absurd rfl hb
      | ⟨1, _⟩ => rfl)
    (by show 512 + q.val = r.val; omega)
/-- Rows 768 … 1023 of the drug-side stack are its table 3. -/
theorem stack_d_rows3 (q : Fin 256) (k : Fin 256) (r : Fin 1024) (hr : r.val = 768 + q.val) :
    (concatenate S1024x256 0 [⟨S256x256, W0⟩, ⟨S256x256, W1⟩, ⟨S256x256, W2⟩, ⟨S256x256, W3⟩] concatenates_S256x256_S256x256_S256x256_S256x256_S1024x256_d0) (ix2 r k) = W3 (ix2 q k) :=
  concatenate_apply_piece (0 : Fin 2) _ _ (ix2 r k) 3 (by simp) S256x256 W3 rfl rfl 768 rfl (ix2 q k)
    (fun b hb => by
      match b with
      | ⟨0, _⟩ => exact absurd rfl hb
      | ⟨1, _⟩ => rfl)
    (by show 768 + q.val = r.val; omega)
/-- Rows 0 … 255 of the protein-side stack are its table 0. -/
theorem stack_p_rows0 (q : Fin 256) (k : Fin 256) (r : Fin 512) (hr : r.val = 0 + q.val) :
    (concatenate S512x256 0 [⟨S256x256, W0⟩, ⟨S256x256, W1⟩] concatenates_S256x256_S256x256_S512x256_d0) (ix2 r k) = W0 (ix2 q k) :=
  concatenate_apply_piece (0 : Fin 2) _ _ (ix2 r k) 0 (by simp) S256x256 W0 rfl rfl 0 rfl (ix2 q k)
    (fun b hb => by
      match b with
      | ⟨0, _⟩ => exact absurd rfl hb
      | ⟨1, _⟩ => rfl)
    (by show 0 + q.val = r.val; omega)
/-- Rows 256 … 511 of the protein-side stack are its table 1. -/
theorem stack_p_rows1 (q : Fin 256) (k : Fin 256) (r : Fin 512) (hr : r.val = 256 + q.val) :
    (concatenate S512x256 0 [⟨S256x256, W0⟩, ⟨S256x256, W1⟩] concatenates_S256x256_S256x256_S512x256_d0) (ix2 r k) = W1 (ix2 q k) :=
  concatenate_apply_piece (0 : Fin 2) _ _ (ix2 r k) 1 (by simp) S256x256 W1 rfl rfl 256 rfl (ix2 q k)
    (fun b hb => by
      match b with
      | ⟨0, _⟩ => exact absurd rfl hb
      | ⟨1, _⟩ => rfl)
    (by show 256 + q.val = r.val; omega)

/-- Columns `off … off + 255` of a `[40000, 1024]` table, as a slice: at `(p, q)` the table at `(p, off + q)`. -/
theorem cols_d (Y : FVec Ideal S40000x1024 .f32) (off : ℕ) (h : S40000x1024.Slices ![0, off] S40000x256) (p : Fin 40000) (q : Fin 256)
    (r : Fin 1024) (hr : r.val = off + q.val) : extractStridedSlice S40000x256 ![0, off] Y h (ix2 p q) = Y (ix2 p r) :=
  extractStridedSlice_apply ![0, off] Y h (ix2 p q) (ix2 p r) fun ax => by
    match ax with
    | ⟨0, _⟩ => show p.val = 0 + p.val; omega
    | ⟨1, _⟩ => exact hr
/-- Columns `off … off + 255` of a `[15000, 512]` table, as a slice: at `(p, q)` the table at `(p, off + q)`. -/
theorem cols_p (Y : FVec Ideal S15000x512 .f32) (off : ℕ) (h : S15000x512.Slices ![0, off] S15000x256) (p : Fin 15000) (q : Fin 256)
    (r : Fin 512) (hr : r.val = off + q.val) : extractStridedSlice S15000x256 ![0, off] Y h (ix2 p q) = Y (ix2 p r) :=
  extractStridedSlice_apply ![0, off] Y h (ix2 p q) (ix2 p r) fun ax => by
    match ax with
    | ⟨0, _⟩ => show p.val = 0 + p.val; omega
    | ⟨1, _⟩ => exact hr

/-- Column block 0 of the drug product table at `(p, q)`: row `p` of the left operand against row `q` of table 0. -/
theorem block_d0 (XD : FVec Ideal S40000x256 .f32) (p : Fin 40000) (q : Fin 256) :
    extractStridedSlice S40000x256 ![0, 0] (mm4 XD (concatenate S1024x256 0 [⟨S256x256, W0⟩, ⟨S256x256, W1⟩, ⟨S256x256, W2⟩, ⟨S256x256, W3⟩] concatenates_S256x256_S256x256_S256x256_S256x256_S1024x256_d0)) slices_S40000x1024_S40000x256_0_0 (ix2 p q)
      = ∑ k : Fin 256, XD (ix2 p k) * W0 (ix2 q k) := by
  rw [cols_d _ 0 slices_S40000x1024_S40000x256_0_0 p q ⟨0 + q.val, by omega⟩ rfl]
  show ∑ k : Fin 256, XD (ix2 p k) * (concatenate S1024x256 0 [⟨S256x256, W0⟩, ⟨S256x256, W1⟩, ⟨S256x256, W2⟩, ⟨S256x256, W3⟩] concatenates_S256x256_S256x256_S256x256_S256x256_S1024x256_d0) (ix2 ⟨0 + q.val, by omega⟩ k) = _
  exact Finset.sum_congr rfl fun k _ => by rw [stack_d_rows0 W0 W1 W2 W3 q k _ rfl]
/-- Column block 1 of the drug product table at `(p, q)`: row `p` of the left operand against row `q` of table 1. -/
theorem block_d1 (XD : FVec Ideal S40000x256 .f32) (p : Fin 40000) (q : Fin 256) :
    extractStridedSlice S40000x256 ![0, 256] (mm4 XD (concatenate S1024x256 0 [⟨S256x256, W0⟩, ⟨S256x256, W1⟩, ⟨S256x256, W2⟩, ⟨S256x256, W3⟩] concatenates_S256x256_S256x256_S256x256_S256x256_S1024x256_d0)) slices_S40000x1024_S40000x256_0_256 (ix2 p q)
      = ∑ k : Fin 256, XD (ix2 p k) * W1 (ix2 q k) := by
  rw [cols_d _ 256 slices_S40000x1024_S40000x256_0_256 p q ⟨256 + q.val, by omega⟩ rfl]
  show ∑ k : Fin 256, XD (ix2 p k) * (concatenate S1024x256 0 [⟨S256x256, W0⟩, ⟨S256x256, W1⟩, ⟨S256x256, W2⟩, ⟨S256x256, W3⟩] concatenates_S256x256_S256x256_S256x256_S256x256_S1024x256_d0) (ix2 ⟨256 + q.val, by omega⟩ k) = _
  exact Finset.sum_congr rfl fun k _ => by rw [stack_d_rows1 W0 W1 W2 W3 q k _ rfl]
/-- Column block 2 of the drug product table at `(p, q)`: row `p` of the left operand against row `q` of table 2. -/
theorem block_d2 (XD : FVec Ideal S40000x256 .f32) (p : Fin 40000) (q : Fin 256) :
    extractStridedSlice S40000x256 ![0, 512] (mm4 XD (concatenate S1024x256 0 [⟨S256x256, W0⟩, ⟨S256x256, W1⟩, ⟨S256x256, W2⟩, ⟨S256x256, W3⟩] concatenates_S256x256_S256x256_S256x256_S256x256_S1024x256_d0)) slices_S40000x1024_S40000x256_0_512 (ix2 p q)
      = ∑ k : Fin 256, XD (ix2 p k) * W2 (ix2 q k) := by
  rw [cols_d _ 512 slices_S40000x1024_S40000x256_0_512 p q ⟨512 + q.val, by omega⟩ rfl]
  show ∑ k : Fin 256, XD (ix2 p k) * (concatenate S1024x256 0 [⟨S256x256, W0⟩, ⟨S256x256, W1⟩, ⟨S256x256, W2⟩, ⟨S256x256, W3⟩] concatenates_S256x256_S256x256_S256x256_S256x256_S1024x256_d0) (ix2 ⟨512 + q.val, by omega⟩ k) = _
  exact Finset.sum_congr rfl fun k _ => by rw [stack_d_rows2 W0 W1 W2 W3 q k _ rfl]
/-- Column block 3 of the drug product table at `(p, q)`: row `p` of the left operand against row `q` of table 3. -/
theorem block_d3 (XD : FVec Ideal S40000x256 .f32) (p : Fin 40000) (q : Fin 256) :
    extractStridedSlice S40000x256 ![0, 768] (mm4 XD (concatenate S1024x256 0 [⟨S256x256, W0⟩, ⟨S256x256, W1⟩, ⟨S256x256, W2⟩, ⟨S256x256, W3⟩] concatenates_S256x256_S256x256_S256x256_S256x256_S1024x256_d0)) slices_S40000x1024_S40000x256_0_768 (ix2 p q)
      = ∑ k : Fin 256, XD (ix2 p k) * W3 (ix2 q k) := by
  rw [cols_d _ 768 slices_S40000x1024_S40000x256_0_768 p q ⟨768 + q.val, by omega⟩ rfl]
  show ∑ k : Fin 256, XD (ix2 p k) * (concatenate S1024x256 0 [⟨S256x256, W0⟩, ⟨S256x256, W1⟩, ⟨S256x256, W2⟩, ⟨S256x256, W3⟩] concatenates_S256x256_S256x256_S256x256_S256x256_S1024x256_d0) (ix2 ⟨768 + q.val, by omega⟩ k) = _
  exact Finset.sum_congr rfl fun k _ => by rw [stack_d_rows3 W0 W1 W2 W3 q k _ rfl]
/-- Column block 0 of the protein product table at `(p, q)`: row `p` of the left operand against row `q` of table 0. -/
theorem block_p0 (XP : FVec Ideal S15000x256 .f32) (p : Fin 15000) (q : Fin 256) :
    extractStridedSlice S15000x256 ![0, 0] (mm5 XP (concatenate S512x256 0 [⟨S256x256, W0⟩, ⟨S256x256, W1⟩] concatenates_S256x256_S256x256_S512x256_d0)) slices_S15000x512_S15000x256_0_0 (ix2 p q)
      = ∑ k : Fin 256, XP (ix2 p k) * W0 (ix2 q k) := by
  rw [cols_p _ 0 slices_S15000x512_S15000x256_0_0 p q ⟨0 + q.val, by omega⟩ rfl]
  show ∑ k : Fin 256, XP (ix2 p k) * (concatenate S512x256 0 [⟨S256x256, W0⟩, ⟨S256x256, W1⟩] concatenates_S256x256_S256x256_S512x256_d0) (ix2 ⟨0 + q.val, by omega⟩ k) = _
  exact Finset.sum_congr rfl fun k _ => by rw [stack_p_rows0 W0 W1 q k _ rfl]
/-- Column block 1 of the protein product table at `(p, q)`: row `p` of the left operand against row `q` of table 1. -/
theorem block_p1 (XP : FVec Ideal S15000x256 .f32) (p : Fin 15000) (q : Fin 256) :
    extractStridedSlice S15000x256 ![0, 256] (mm5 XP (concatenate S512x256 0 [⟨S256x256, W0⟩, ⟨S256x256, W1⟩] concatenates_S256x256_S256x256_S512x256_d0)) slices_S15000x512_S15000x256_0_256 (ix2 p q)
      = ∑ k : Fin 256, XP (ix2 p k) * W1 (ix2 q k) := by
  rw [cols_p _ 256 slices_S15000x512_S15000x256_0_256 p q ⟨256 + q.val, by omega⟩ rfl]
  show ∑ k : Fin 256, XP (ix2 p k) * (concatenate S512x256 0 [⟨S256x256, W0⟩, ⟨S256x256, W1⟩] concatenates_S256x256_S256x256_S512x256_d0) (ix2 ⟨256 + q.val, by omega⟩ k) = _
  exact Finset.sum_congr rfl fun k _ => by rw [stack_p_rows1 W0 W1 q k _ rfl]
end Blocks

/-! ## The mean over the arriving edges, and a bias as a one-row table -/

/-- A table of sums times the repeated column of reciprocal counts, at `(p, q)`: the sum over the larger of the count and one. -/
theorem mean_d_apply (S : FVec Ideal S40000x256 .f32) (cnt : FVec Ideal S40000 .f32) (p : Fin 40000) (q : Fin 256) :
    meanD256 S (invCol40000 cnt) (ix2 p q) = Ideal.div (S (ix2 p q)) (max (cnt (ix1 p)) 1) := by
  unfold meanD256 invCol40000
  exact Cert.LibMeanColumn.mean_by_reciprocal_column_apply S cnt (constant (F := Ideal) S_ .f32 0x3F800000#32) Ideal.ofBits_one_f32
    bcast_S_S40000 bcast_S40000_S40000x1_0 bcast_S40000x1_S40000x256_0_1 p q
theorem mean_p_apply (S : FVec Ideal S15000x256 .f32) (cnt : FVec Ideal S15000 .f32) (p : Fin 15000) (q : Fin 256) :
    meanP256 S (invCol15000 cnt) (ix2 p q) = Ideal.div (S (ix2 p q)) (max (cnt (ix1 p)) 1) := by
  unfold meanP256 invCol15000
  exact Cert.LibMeanColumn.mean_by_reciprocal_column_apply S cnt (constant (F := Ideal) S_ .f32 0x3F800000#32) Ideal.ofBits_one_f32
    bcast_S_S15000 bcast_S15000_S15000x1_0 bcast_S15000x1_S15000x256_0_1 p q
/-- A bias vector reshaped to a one-row table holds, at `(0, q)`, its entry `q`. -/
theorem bias_row_apply (b : FVec Ideal S256 .f32) (q : Fin 256) :
    shapeCast S1x256 b shapeCasts_S256_S1x256 (ix2 (0 : Fin 1) q) = b (ix1 q) :=
  shapeCast_a_1a_apply b shapeCasts_S256_S1x256 0 q

/-! ## The two combinations -/

/-- The drug side of layer 2 at `(p, q)`, in the body's own order of additions, clamped below at zero. -/
theorem nd_kernel (h : Fr.OutsOk m outs) (XD : FVec Ideal S40000x256 .f32) (hd : (V5 m outs c main_v79 : FVec Ideal S40000x256 .f32) = XD)
    (XP : FVec Ideal S15000x256 .f32) (hp : (V7 m outs c main_v81 : FVec Ideal S15000x256 .f32) = XP) (p : Fin 40000) (q : Fin 256) :
    (V12 m outs c main_v130 : FVec Ideal S40000x256 .f32) (ix2 p q) =
      max ((((((Ideal.div (sumDdi256 (extractStridedSlice S40000x256 ![0, 0] (mm4 XD (concatenate S1024x256 0 [⟨S256x256, V0 m c main_arg11⟩, ⟨S256x256, V0 m c main_arg13⟩, ⟨S256x256, V0 m c main_arg14⟩, ⟨S256x256, V0 m c main_arg19⟩] concatenates_S256x256_S256x256_S256x256_S256x256_S1024x256_d0)) slices_S40000x1024_S40000x256_0_0) (edgeRow0 (V0 m c main_arg29)) (edgeRow1 (V0 m c main_arg29)) (ix2 p q)) (max (cntDdi (V0 m c main_arg29) (ix1 p)) 1)
        + ∑ k : Fin 256, XD (ix2 p k) * (V0 m c main_arg13) (ix2 q k)) + (V0 m c main_arg12) (ix1 q))
        + Ideal.div (sumRev256 (extractStridedSlice S15000x256 ![0, 0] (mm5 XP (concatenate S512x256 0 [⟨S256x256, V0 m c main_arg17⟩, ⟨S256x256, V0 m c main_arg16⟩] concatenates_S256x256_S256x256_S512x256_d0)) slices_S15000x512_S15000x256_0_0) (V0 m c main_arg31) (V0 m c main_arg30) (ix2 p q)) (max (cntRev (V0 m c main_arg30) (ix1 p)) 1))
        + ∑ k : Fin 256, XD (ix2 p k) * (V0 m c main_arg19) (ix2 q k)) + (V0 m c main_arg18) (ix1 q))) (Ideal.ofBits .f32 0x00000000#32) := by
  have e : (V12 m outs c main_v130 : FVec Ideal S40000x256 .f32) = outs 12 main_v130 c := Function.update_self _ _ _
  rw [e, h.h6 c, final_cb6 (Vr (V11 m outs)) c _ _ _ _ _ _ (agg_ddi m outs c) (self_ddi m outs c) (bias_ddi m outs c) (agg_rev m outs c) (self_rev m outs c) (bias_rev m outs c) p q,
    prod_d m outs c h XD hd, prod_p m outs c h XP hp, mean_d_apply, mean_d_apply, block_d1, block_d3, bias_row_apply, bias_row_apply]

/-- The protein side of layer 2 at `(p, q)`, in the body's own order of additions, clamped below at zero. -/
theorem npo_kernel (h : Fr.OutsOk m outs) (XD : FVec Ideal S40000x256 .f32) (hd : (V5 m outs c main_v79 : FVec Ideal S40000x256 .f32) = XD)
    (XP : FVec Ideal S15000x256 .f32) (hp : (V7 m outs c main_v81 : FVec Ideal S15000x256 .f32) = XP) (p : Fin 15000) (q : Fin 256) :
    (V14 m outs c main_v132 : FVec Ideal S15000x256 .f32) (ix2 p q) =
      max (((Ideal.div (sumTgt256 (extractStridedSlice S40000x256 ![0, 512] (mm4 XD (concatenate S1024x256 0 [⟨S256x256, V0 m c main_arg11⟩, ⟨S256x256, V0 m c main_arg13⟩, ⟨S256x256, V0 m c main_arg14⟩, ⟨S256x256, V0 m c main_arg19⟩] concatenates_S256x256_S256x256_S256x256_S256x256_S1024x256_d0)) slices_S40000x1024_S40000x256_0_512) (V0 m c main_arg30) (V0 m c main_arg31) (ix2 p q)) (max (cntTgt (V0 m c main_arg31) (ix1 p)) 1)
        + ∑ k : Fin 256, XP (ix2 p k) * (V0 m c main_arg16) (ix2 q k)) + (V0 m c main_arg15) (ix1 q))) (Ideal.ofBits .f32 0x00000000#32) := by
  have e : (V14 m outs c main_v132 : FVec Ideal S15000x256 .f32) = outs 14 main_v132 c := Function.update_self _ _ _
  rw [e, h.h7 c, final_cb7 (Vr (V13 m outs)) c _ _ _ (agg_tgt m outs c) (self_tgt m outs c) (bias_tgt m outs c) p q,
    prod_d m outs c h XD hd, prod_p m outs c h XP hp, mean_p_apply, block_p1, bias_row_apply]

end Cert.KernelIdeal.Val.L2

end
-- ==== Proof.RV.L2.lean ====
import proofs.«102211_j33681133535938_1_alg».proof.Proof.RV.ReadP

noncomputable section

namespace Cert.ReferenceIdeal.RefVal

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-! # The reference's layer 2, entry by entry, over layer 1's two results as whole arrays -/

/-- The drug-to-drug messages before the gather: row `p` of the first layer's drug result against row `q` of the left weight. -/
theorem msg_ddi_2 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 40000) (q : Fin 256) :
    val_main_v89 (F := Ideal) x0 x1 x2 x3 x4 x8 x9 x10 x11 x29 x30 x31 (ix2 p q) =
      ∑ k : Fin 256, val_main_v86 (F := Ideal) x0 x1 x2 x3 x4 x8 x9 x10 x29 x30 x31 (ix2 p k) * x11 (ix2 q k) := by
  simp only [val_main_v89_apply, val_main_v88_apply, Ideal.addf_def, Ideal.maximumf_def, Ideal.hostDivf_def, Ideal.ofBits_def]
  have s0 : (∑ k : Fin 256, val_main_v86 (F := Ideal) x0 x1 x2 x3 x4 x8 x9 x10 x29 x30 x31 (lidx_main_v89 (ix2 p q) k) * x11 (idx_main_v88 (ridx_main_v89 (ix2 p q) k))) = ∑ k : Fin 256, val_main_v86 (F := Ideal) x0 x1 x2 x3 x4 x8 x9 x10 x29 x30 x31 (ix2 p k) * x11 (ix2 q k) :=
    Finset.sum_congr rfl fun k _ => congrArg₂ (· * ·) (congrArg (val_main_v86 (F := Ideal) x0 x1 x2 x3 x4 x8 x9 x10 x29 x30 x31) (funext fun a => Fin.ext (by match a with | ⟨0, _⟩ => rfl | ⟨1, _⟩ => rfl) : lidx_main_v89 (ix2 p q) k = ix2 p k)) (congrArg (x11) (funext fun a => Fin.ext (by match a with | ⟨0, _⟩ => rfl | ⟨1, _⟩ => rfl) : idx_main_v88 (ridx_main_v89 (ix2 p q) k) = ix2 q k))
  rw [s0]

/-- The protein-to-drug messages before the gather: row `p` of the first layer's protein result against row `q` of the left weight. -/
theorem msg_rev_2 (x0 : (⟨S40000x980, .f32⟩ : BufTy).Contents (Elt Ideal)) (x1 : (⟨S15000x5, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x17 : (⟨S256x256, .f32⟩ : BufTy).Contents (Elt Ideal)) (x30 : (⟨S250000, .i32⟩ : BufTy).Contents (Elt Ideal)) (x31 : (⟨S250000, .i32⟩ : BufTy).Contents (Elt Ideal)) (p : Fin 15000) (q : Fin 256) :
    val_main_v116 (F := Ideal) x0 x1 x5 x6 x7 x17 x30 x31 (ix2 p q) =
      ∑ k : Fin 256, val_main_v87 (F := Ideal) x0 x1 x5 x6 x7 x30 x31 (ix2 p k) * x17 (ix2 q k) := by
  simp only [val_main_v116_apply, val_main_v115_apply, Ideal.addf_def, Ideal.maximumf_def, Ideal.hostDivf_def, Ideal.ofBits_def]
  have s0 : (∑ k : Fin 256, val_main_v87 (F := Ideal) x0 x1 x5 x6 x7 x30 x31 (lidx_main_v116 (ix2 p q) k) * x17 (idx_main_v115 (ridx_main_v116 (ix2 p q) k))) = ∑ k : Fin 256, val_main_v87 (F := Ideal) x0 x1 x5 x6 x7 x30 x31 (ix2 p k) * x17 (ix2 q k) :=
    Finset.sum_congr rfl fun k _ => congrArg₂ (· * ·) (congrArg (val_main_v87 (F := Ideal) x0 x1 x5 x6 x7 x30 x31) (funext fun a => Fin.ext (by match a with | ⟨0, _⟩ => rfl | ⟨1, _⟩ => rfl) : lidx_main_v116 (ix2 p q) k = ix2 p k)) (congrArg (x17) (funext fun a => Fin.ext (by match a with | ⟨0, _⟩ => rfl | ⟨1, _⟩ => rfl) : idx_main_v115 (ridx_main_v116 (ix2 p q) k) = ix2 q k))
  rw [s0]

/-- The drug-to-protein messages before the gather: row `p` of the first layer's drug result against row `q` of the left weight. -/
theorem msg_tgt_2 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x14 : (⟨S256x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 40000) (q : Fin 256) :
    val_main_v144 (F := Ideal) x0 x1 x2 x3 x4 x8 x9 x10 x14 x29 x30 x31 (ix2 p q) =
      ∑ k : Fin 256, val_main_v86 (F := Ideal) x0 x1 x2 x3 x4 x8 x9 x10 x29 x30 x31 (ix2 p k) * x14 (ix2 q k) := by
  simp only [val_main_v144_apply, val_main_v143_apply, Ideal.addf_def, Ideal.maximumf_def, Ideal.hostDivf_def, Ideal.ofBits_def]
  have s0 : (∑ k : Fin 256, val_main_v86 (F := Ideal) x0 x1 x2 x3 x4 x8 x9 x10 x29 x30 x31 (lidx_main_v144 (ix2 p q) k) * x14 (idx_main_v143 (ridx_main_v144 (ix2 p q) k))) = ∑ k : Fin 256, val_main_v86 (F := Ideal) x0 x1 x2 x3 x4 x8 x9 x10 x29 x30 x31 (ix2 p k) * x14 (ix2 q k) :=
    Finset.sum_congr rfl fun k _ => congrArg₂ (· * ·) (congrArg (val_main_v86 (F := Ideal) x0 x1 x2 x3 x4 x8 x9 x10 x29 x30 x31) (funext fun a => Fin.ext (by match a with | ⟨0, _⟩ => rfl | ⟨1, _⟩ => rfl) : lidx_main_v144 (ix2 p q) k = ix2 p k)) (congrArg (x14) (funext fun a => Fin.ext (by match a with | ⟨0, _⟩ => rfl | ⟨1, _⟩ => rfl) : idx_main_v143 (ridx_main_v144 (ix2 p q) k) = ix2 q k))
  rw [s0]

/-- The drug-to-drug contribution to the drug side at `(p, q)`: the scattered sum divided by the larger of the count and one, plus the bias, plus the root term `∑ₖ x(p,k)·W(q,k)` over the first layer's drug result. -/
theorem part_ddi_2 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 40000) (q : Fin 256) :
    val_main_v114 (F := Ideal) x0 x1 x2 x3 x4 x8 x9 x10 x11 x12 x13 x29 x30 x31 (ix2 p q) =
      ((Ideal.div (val_main_v99 (F := Ideal) x0 x1 x2 x3 x4 x8 x9 x10 x11 x29 x30 x31 (ix2 p q)) (max (val_main_v103 (F := Ideal) x29 (ix1 p)) (Ideal.ofBits .f32 0x3F800000#32)) + x12 (ix1 q)) + ∑ k : Fin 256, val_main_v86 (F := Ideal) x0 x1 x2 x3 x4 x8 x9 x10 x29 x30 x31 (ix2 p k) * x13 (ix2 q k)) := by
  simp only [val_main_v114_apply, val_main_v111_apply, val_main_v108_apply, val_main_v107_apply, val_main_v106_apply, val_main_v105_apply, val_main_v104_apply, val_main_cst_21_apply, val_main_v110_apply, val_main_v109_apply, val_main_v113_apply, val_main_v112_apply, Ideal.addf_def, Ideal.maximumf_def, Ideal.hostDivf_def, Ideal.ofBits_def]
  have h0 : idx_main_v106 (idx_main_v107 (ix2 p q)) = ix1 p := funext fun a => Fin.ext (by match a with | ⟨0, _⟩ => rfl)
  have h1 : idx_main_v109 (idx_main_v110 (ix2 p q)) = ix1 q := funext fun a => Fin.ext (by match a with | ⟨0, _⟩ => rfl)
  have s0 : (∑ k : Fin 256, val_main_v86 (F := Ideal) x0 x1 x2 x3 x4 x8 x9 x10 x29 x30 x31 (lidx_main_v113 (ix2 p q) k) * x13 (idx_main_v112 (ridx_main_v113 (ix2 p q) k))) = ∑ k : Fin 256, val_main_v86 (F := Ideal) x0 x1 x2 x3 x4 x8 x9 x10 x29 x30 x31 (ix2 p k) * x13 (ix2 q k) :=
    Finset.sum_congr rfl fun k _ => congrArg₂ (· * ·) (congrArg (val_main_v86 (F := Ideal) x0 x1 x2 x3 x4 x8 x9 x10 x29 x30 x31) (funext fun a => Fin.ext (by match a with | ⟨0, _⟩ => rfl | ⟨1, _⟩ => rfl) : lidx_main_v113 (ix2 p q) k = ix2 p k)) (congrArg (x13) (funext fun a => Fin.ext (by match a with | ⟨0, _⟩ => rfl | ⟨1, _⟩ => rfl) : idx_main_v112 (ridx_main_v113 (ix2 p q) k) = ix2 q k))
  rw [h0, h1, s0]

/-- The protein-to-drug contribution to the drug side at `(p, q)`: the scattered sum divided by the larger of the count and one, plus the bias, plus the root term over the first layer's drug result. -/
theorem part_rev_2 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x17 : (⟨S256x256, .f32⟩ : BufTy).Contents (Elt Ideal)) (x18 : (⟨S256, .f32⟩ : BufTy).Contents (Elt Ideal)) (x19 : (⟨S256x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 40000) (q : Fin 256) :
    val_main_v141 (F := Ideal) x0 x1 x2 x3 x4 x5 x6 x7 x8 x9 x10 x17 x18 x19 x29 x30 x31 (ix2 p q) =
      ((Ideal.div (val_main_v126 (F := Ideal) x0 x1 x5 x6 x7 x17 x30 x31 (ix2 p q)) (max (val_main_v130 (F := Ideal) x30 (ix1 p)) (Ideal.ofBits .f32 0x3F800000#32)) + x18 (ix1 q)) + ∑ k : Fin 256, val_main_v86 (F := Ideal) x0 x1 x2 x3 x4 x8 x9 x10 x29 x30 x31 (ix2 p k) * x19 (ix2 q k)) := by
  simp only [val_main_v141_apply, val_main_v138_apply, val_main_v135_apply, val_main_v134_apply, val_main_v133_apply, val_main_v132_apply, val_main_v131_apply, val_main_cst_27_apply, val_main_v137_apply, val_main_v136_apply, val_main_v140_apply, val_main_v139_apply, Ideal.addf_def, Ideal.maximumf_def, Ideal.hostDivf_def, Ideal.ofBits_def]
  have h0 : idx_main_v133 (idx_main_v134 (ix2 p q)) = ix1 p := funext fun a => Fin.ext (by match a with | ⟨0, _⟩ => rfl)
  have h1 : idx_main_v136 (idx_main_v137 (ix2 p q)) = ix1 q := funext fun a => Fin.ext (by match a with | ⟨0, _⟩ => rfl)
  have s0 : (∑ k : Fin 256, val_main_v86 (F := Ideal) x0 x1 x2 x3 x4 x8 x9 x10 x29 x30 x31 (lidx_main_v140 (ix2 p q) k) * x19 (idx_main_v139 (ridx_main_v140 (ix2 p q) k))) = ∑ k : Fin 256, val_main_v86 (F := Ideal) x0 x1 x2 x3 x4 x8 x9 x10 x29 x30 x31 (ix2 p k) * x19 (ix2 q k) :=
    Finset.sum_congr rfl fun k _ => congrArg₂ (· * ·) (congrArg (val_main_v86 (F := Ideal) x0 x1 x2 x3 x4 x8 x9 x10 x29 x30 x31) (funext fun a => Fin.ext (by match a with | ⟨0, _⟩ => rfl | ⟨1, _⟩ => rfl) : lidx_main_v140 (ix2 p q) k = ix2 p k)) (congrArg (x19) (funext fun a => Fin.ext (by match a with | ⟨0, _⟩ => rfl | ⟨1, _⟩ => rfl) : idx_main_v139 (ridx_main_v140 (ix2 p q) k) = ix2 q k))
  rw [h0, h1, s0]

/-- The drug side of layer 2 at `(p, q)`: the two edge types' contributions added; the sum is clamped below at zero. The scattered sums and the counts stay whole-array terms. -/
theorem ref_nd_2 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x17 : (⟨S256x256, .f32⟩ : BufTy).Contents (Elt Ideal)) (x18 : (⟨S256, .f32⟩ : BufTy).Contents (Elt Ideal)) (x19 : (⟨S256x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 40000) (q : Fin 256) :
    val_main_v170 (F := Ideal) x0 x1 x2 x3 x4 x5 x6 x7 x8 x9 x10 x11 x12 x13 x17 x18 x19 x29 x30 x31 (ix2 p q) =
      max ((((Ideal.div (val_main_v99 (F := Ideal) x0 x1 x2 x3 x4 x8 x9 x10 x11 x29 x30 x31 (ix2 p q)) (max (val_main_v103 (F := Ideal) x29 (ix1 p)) (Ideal.ofBits .f32 0x3F800000#32)) + x12 (ix1 q)) + ∑ k : Fin 256, val_main_v86 (F := Ideal) x0 x1 x2 x3 x4 x8 x9 x10 x29 x30 x31 (ix2 p k) * x13 (ix2 q k)) + ((Ideal.div (val_main_v126 (F := Ideal) x0 x1 x5 x6 x7 x17 x30 x31 (ix2 p q)) (max (val_main_v130 (F := Ideal) x30 (ix1 p)) (Ideal.ofBits .f32 0x3F800000#32)) + x18 (ix1 q)) + ∑ k : Fin 256, val_main_v86 (F := Ideal) x0 x1 x2 x3 x4 x8 x9 x10 x29 x30 x31 (ix2 p k) * x19 (ix2 q k)))) (Ideal.ofBits .f32 0x00000000#32) := by
  simp only [val_main_v170_apply, val_main_v142_apply, val_main_call2_v0_apply, val_main_call2_cst_apply, Ideal.addf_def, Ideal.maximumf_def, Ideal.ofBits_def]
  rw [part_ddi_2, part_rev_2]

/-- The drug-to-protein contribution to the protein side at `(p, q)`: the scattered sum divided by the larger of the count and one, plus the bias, plus the root term over the first layer's protein result. -/
theorem part_tgt_2 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 15000) (q : Fin 256) :
    val_main_v169 (F := Ideal) x0 x1 x2 x3 x4 x5 x6 x7 x8 x9 x10 x14 x15 x16 x29 x30 x31 (ix2 p q) =
      ((Ideal.div (val_main_v154 (F := Ideal) x0 x1 x2 x3 x4 x8 x9 x10 x14 x29 x30 x31 (ix2 p q)) (max (val_main_v158 (F := Ideal) x31 (ix1 p)) (Ideal.ofBits .f32 0x3F800000#32)) + x15 (ix1 q)) + ∑ k : Fin 256, val_main_v87 (F := Ideal) x0 x1 x5 x6 x7 x30 x31 (ix2 p k) * x16 (ix2 q k)) := by
  simp only [val_main_v169_apply, val_main_v166_apply, val_main_v163_apply, val_main_v162_apply, val_main_v161_apply, val_main_v160_apply, val_main_v159_apply, val_main_cst_33_apply, val_main_v165_apply, val_main_v164_apply, val_main_v168_apply, val_main_v167_apply, Ideal.addf_def, Ideal.maximumf_def, Ideal.hostDivf_def, Ideal.ofBits_def]
  have h0 : idx_main_v161 (idx_main_v162 (ix2 p q)) = ix1 p := funext fun a => Fin.ext (by match a with | ⟨0, _⟩ => rfl)
  have h1 : idx_main_v164 (idx_main_v165 (ix2 p q)) = ix1 q := funext fun a => Fin.ext (by match a with | ⟨0, _⟩ => rfl)
  have s0 : (∑ k : Fin 256, val_main_v87 (F := Ideal) x0 x1 x5 x6 x7 x30 x31 (lidx_main_v168 (ix2 p q) k) * x16 (idx_main_v167 (ridx_main_v168 (ix2 p q) k))) = ∑ k : Fin 256, val_main_v87 (F := Ideal) x0 x1 x5 x6 x7 x30 x31 (ix2 p k) * x16 (ix2 q k) :=
    Finset.sum_congr rfl fun k _ => congrArg₂ (· * ·) (congrArg (val_main_v87 (F := Ideal) x0 x1 x5 x6 x7 x30 x31) (funext fun a => Fin.ext (by match a with | ⟨0, _⟩ => rfl | ⟨1, _⟩ => rfl) : lidx_main_v168 (ix2 p q) k = ix2 p k)) (congrArg (x16) (funext fun a => Fin.ext (by match a with | ⟨0, _⟩ => rfl | ⟨1, _⟩ => rfl) : idx_main_v167 (ridx_main_v168 (ix2 p q) k) = ix2 q k))
  rw [h0, h1, s0]

/-- The protein side of layer 2 at `(p, q)`: the drug-to-protein contribution; the sum is clamped below at zero. -/
theorem ref_npo_2 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 15000) (q : Fin 256) :
    val_main_v171 (F := Ideal) x0 x1 x2 x3 x4 x5 x6 x7 x8 x9 x10 x14 x15 x16 x29 x30 x31 (ix2 p q) =
      max (((Ideal.div (val_main_v154 (F := Ideal) x0 x1 x2 x3 x4 x8 x9 x10 x14 x29 x30 x31 (ix2 p q)) (max (val_main_v158 (F := Ideal) x31 (ix1 p)) (Ideal.ofBits .f32 0x3F800000#32)) + x15 (ix1 q)) + ∑ k : Fin 256, val_main_v87 (F := Ideal) x0 x1 x5 x6 x7 x30 x31 (ix2 p k) * x16 (ix2 q k))) (Ideal.ofBits .f32 0x00000000#32) := by
  simp only [val_main_v171_apply, val_main_call3_v0_apply, val_main_call3_cst_apply, Ideal.addf_def, Ideal.maximumf_def, Ideal.ofBits_def]
  rw [part_tgt_2]

end Cert.ReferenceIdeal.RefVal

end
-- ==== Proof.KV.Bridge2.lean ====
import proofs.«102211_j33681133535938_1_alg».proof.Proof.KV.B2K
import proofs.«102211_j33681133535938_1_alg».proof.Proof.RV.L2
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic

set_option maxRecDepth 16384

noncomputable section

open scoped BigOperators

namespace Cert.KernelIdeal.Val.L2

open Cert.KernelIdeal.Val

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Fr

/-! # Layer 2: the kernel's two results are the reference's, given that the first layer's are -/

variable (m : (ℓ : Loc nD τ sig) → Buf (Elt Ideal) ℓ) (outs : Outs (F := Ideal)) (c : Dev nD)

/-! ## The gathered message tables agree as whole arrays

Each is a column block of a product table on the kernel's side and a product with one transposed weight table on the
reference's: entry `(p, q)` is on both sides `∑ₖ x(p,k)·W(q,k)`. -/

theorem msg_ddi_eq : extractStridedSlice S40000x256 ![0, 0] (mm4 (Cert.ReferenceIdeal.Read.val_main_v86 (F := Ideal) (V0 m c main_arg0) (V0 m c main_arg1) (V0 m c main_arg2) (V0 m c main_arg3) (V0 m c main_arg4) (V0 m c main_arg8) (V0 m c main_arg9) (V0 m c main_arg10) (V0 m c main_arg29) (V0 m c main_arg30) (V0 m c main_arg31)) (concatenate S1024x256 0 [⟨S256x256, V0 m c main_arg11⟩, ⟨S256x256, V0 m c main_arg13⟩, ⟨S256x256, V0 m c main_arg14⟩, ⟨S256x256, V0 m c main_arg19⟩] concatenates_S256x256_S256x256_S256x256_S256x256_S1024x256_d0)) slices_S40000x1024_S40000x256_0_0 = (Cert.ReferenceIdeal.Read.val_main_v89 (F := Ideal) (V0 m c main_arg0) (V0 m c main_arg1) (V0 m c main_arg2) (V0 m c main_arg3) (V0 m c main_arg4) (V0 m c main_arg8) (V0 m c main_arg9) (V0 m c main_arg10) (V0 m c main_arg11) (V0 m c main_arg29) (V0 m c main_arg30) (V0 m c main_arg31)) := by
  funext i
  obtain ⟨p, q, rfl⟩ : ∃ (p : Fin 40000) (q : Fin 256), i = ix2 p q := ⟨i 0, i 1, eq_ix2 i⟩
  exact (block_d0 _ _ _ _ _ p q).trans (Cert.ReferenceIdeal.RefVal.msg_ddi_2 _ _ _ _ _ _ _ _ _ _ _ _ p q).symm
theorem msg_tgt_eq : extractStridedSlice S40000x256 ![0, 512] (mm4 (Cert.ReferenceIdeal.Read.val_main_v86 (F := Ideal) (V0 m c main_arg0) (V0 m c main_arg1) (V0 m c main_arg2) (V0 m c main_arg3) (V0 m c main_arg4) (V0 m c main_arg8) (V0 m c main_arg9) (V0 m c main_arg10) (V0 m c main_arg29) (V0 m c main_arg30) (V0 m c main_arg31)) (concatenate S1024x256 0 [⟨S256x256, V0 m c main_arg11⟩, ⟨S256x256, V0 m c main_arg13⟩, ⟨S256x256, V0 m c main_arg14⟩, ⟨S256x256, V0 m c main_arg19⟩] concatenates_S256x256_S256x256_S256x256_S256x256_S1024x256_d0)) slices_S40000x1024_S40000x256_0_512 = (Cert.ReferenceIdeal.Read.val_main_v144 (F := Ideal) (V0 m c main_arg0) (V0 m c main_arg1) (V0 m c main_arg2) (V0 m c main_arg3) (V0 m c main_arg4) (V0 m c main_arg8) (V0 m c main_arg9) (V0 m c main_arg10) (V0 m c main_arg14) (V0 m c main_arg29) (V0 m c main_arg30) (V0 m c main_arg31)) := by
  funext i
  obtain ⟨p, q, rfl⟩ : ∃ (p : Fin 40000) (q : Fin 256), i = ix2 p q := ⟨i 0, i 1, eq_ix2 i⟩
  exact (block_d2 _ _ _ _ _ p q).trans (Cert.ReferenceIdeal.RefVal.msg_tgt_2 _ _ _ _ _ _ _ _ _ _ _ _ p q).symm
theorem msg_rev_eq : extractStridedSlice S15000x256 ![0, 0] (mm5 (Cert.ReferenceIdeal.Read.val_main_v87 (F := Ideal) (V0 m c main_arg0) (V0 m c main_arg1) (V0 m c main_arg5) (V0 m c main_arg6) (V0 m c main_arg7) (V0 m c main_arg30) (V0 m c main_arg31)) (concatenate S512x256 0 [⟨S256x256, V0 m c main_arg17⟩, ⟨S256x256, V0 m c main_arg16⟩] concatenates_S256x256_S256x256_S512x256_d0)) slices_S15000x512_S15000x256_0_0 = (Cert.ReferenceIdeal.Read.val_main_v116 (F := Ideal) (V0 m c main_arg0) (V0 m c main_arg1) (V0 m c main_arg5) (V0 m c main_arg6) (V0 m c main_arg7) (V0 m c main_arg17) (V0 m c main_arg30) (V0 m c main_arg31)) := by
  funext i
  obtain ⟨p, q, rfl⟩ : ∃ (p : Fin 15000) (q : Fin 256), i = ix2 p q := ⟨i 0, i 1, eq_ix2 i⟩
  exact (block_p0 _ _ _ p q).trans (Cert.ReferenceIdeal.RefVal.msg_rev_2 _ _ _ _ _ _ _ _ p q).symm

/-! ## so the scattered sums agree, the gather and the scatter-add being the same operations at the same edge tables -/

theorem sum_ddi_eq : sumDdi256 (extractStridedSlice S40000x256 ![0, 0] (mm4 (Cert.ReferenceIdeal.Read.val_main_v86 (F := Ideal) (V0 m c main_arg0) (V0 m c main_arg1) (V0 m c main_arg2) (V0 m c main_arg3) (V0 m c main_arg4) (V0 m c main_arg8) (V0 m c main_arg9) (V0 m c main_arg10) (V0 m c main_arg29) (V0 m c main_arg30) (V0 m c main_arg31)) (concatenate S1024x256 0 [⟨S256x256, V0 m c main_arg11⟩, ⟨S256x256, V0 m c main_arg13⟩, ⟨S256x256, V0 m c main_arg14⟩, ⟨S256x256, V0 m c main_arg19⟩] concatenates_S256x256_S256x256_S256x256_S256x256_S1024x256_d0)) slices_S40000x1024_S40000x256_0_0) (edgeRow0 (V0 m c main_arg29)) (edgeRow1 (V0 m c main_arg29)) = (Cert.ReferenceIdeal.Read.val_main_v99 (F := Ideal) (V0 m c main_arg0) (V0 m c main_arg1) (V0 m c main_arg2) (V0 m c main_arg3) (V0 m c main_arg4) (V0 m c main_arg8) (V0 m c main_arg9) (V0 m c main_arg10) (V0 m c main_arg11) (V0 m c main_arg29) (V0 m c main_arg30) (V0 m c main_arg31)) := by
  rw [msg_ddi_eq m c]; rfl
theorem sum_rev_eq : sumRev256 (extractStridedSlice S15000x256 ![0, 0] (mm5 (Cert.ReferenceIdeal.Read.val_main_v87 (F := Ideal) (V0 m c main_arg0) (V0 m c main_arg1) (V0 m c main_arg5) (V0 m c main_arg6) (V0 m c main_arg7) (V0 m c main_arg30) (V0 m c main_arg31)) (concatenate S512x256 0 [⟨S256x256, V0 m c main_arg17⟩, ⟨S256x256, V0 m c main_arg16⟩] concatenates_S256x256_S256x256_S512x256_d0)) slices_S15000x512_S15000x256_0_0) (V0 m c main_arg31) (V0 m c main_arg30) = (Cert.ReferenceIdeal.Read.val_main_v126 (F := Ideal) (V0 m c main_arg0) (V0 m c main_arg1) (V0 m c main_arg5) (V0 m c main_arg6) (V0 m c main_arg7) (V0 m c main_arg17) (V0 m c main_arg30) (V0 m c main_arg31)) := by
  rw [msg_rev_eq m c]; rfl
theorem sum_tgt_eq : sumTgt256 (extractStridedSlice S40000x256 ![0, 512] (mm4 (Cert.ReferenceIdeal.Read.val_main_v86 (F := Ideal) (V0 m c main_arg0) (V0 m c main_arg1) (V0 m c main_arg2) (V0 m c main_arg3) (V0 m c main_arg4) (V0 m c main_arg8) (V0 m c main_arg9) (V0 m c main_arg10) (V0 m c main_arg29) (V0 m c main_arg30) (V0 m c main_arg31)) (concatenate S1024x256 0 [⟨S256x256, V0 m c main_arg11⟩, ⟨S256x256, V0 m c main_arg13⟩, ⟨S256x256, V0 m c main_arg14⟩, ⟨S256x256, V0 m c main_arg19⟩] concatenates_S256x256_S256x256_S256x256_S256x256_S1024x256_d0)) slices_S40000x1024_S40000x256_0_512) (V0 m c main_arg30) (V0 m c main_arg31) = (Cert.ReferenceIdeal.Read.val_main_v154 (F := Ideal) (V0 m c main_arg0) (V0 m c main_arg1) (V0 m c main_arg2) (V0 m c main_arg3) (V0 m c main_arg4) (V0 m c main_arg8) (V0 m c main_arg9) (V0 m c main_arg10) (V0 m c main_arg14) (V0 m c main_arg29) (V0 m c main_arg30) (V0 m c main_arg31)) := by
  rw [msg_tgt_eq m c]; rfl
/-- The edge counts are the same scatter-adds of ones. -/
theorem cnt_ddi_eq : cntDdi (V0 m c main_arg29) = (Cert.ReferenceIdeal.Read.val_main_v103 (F := Ideal) (V0 m c main_arg29)) := rfl
theorem cnt_rev_eq : cntRev (V0 m c main_arg30) = (Cert.ReferenceIdeal.Read.val_main_v130 (F := Ideal) (V0 m c main_arg30)) := rfl
theorem cnt_tgt_eq : cntTgt (V0 m c main_arg31) = (Cert.ReferenceIdeal.Read.val_main_v158 (F := Ideal) (V0 m c main_arg31)) := rfl

/-! ## The two results -/

/-- The kernel's order of the six summands against the reference's. -/
theorem add_rearr6 (A AW AB B BW BB : EReal) : ((((A + AW) + AB) + B) + BW) + BB = ((A + AB) + AW) + ((B + BB) + BW) := by
  ac_rfl
/-- The kernel's order of the three summands against the reference's. -/
theorem add_rearr3 (A AW AB : EReal) : (A + AW) + AB = (A + AB) + AW := add_right_comm A AW AB

/-- The drug side: the kernel adds mean, root term and bias per edge type in turn, the reference adds the two edge types'
    subtotals; addition of extended reals is commutative and associative, and both clamp the total below at zero. -/
theorem nd_eq (h : Fr.OutsOk m outs)
    (hd : (V5 m outs c main_v79 : FVec Ideal S40000x256 .f32) = (Cert.ReferenceIdeal.Read.val_main_v86 (F := Ideal) (V0 m c main_arg0) (V0 m c main_arg1) (V0 m c main_arg2) (V0 m c main_arg3) (V0 m c main_arg4) (V0 m c main_arg8) (V0 m c main_arg9) (V0 m c main_arg10) (V0 m c main_arg29) (V0 m c main_arg30) (V0 m c main_arg31)))
    (hp : (V7 m outs c main_v81 : FVec Ideal S15000x256 .f32) = (Cert.ReferenceIdeal.Read.val_main_v87 (F := Ideal) (V0 m c main_arg0) (V0 m c main_arg1) (V0 m c main_arg5) (V0 m c main_arg6) (V0 m c main_arg7) (V0 m c main_arg30) (V0 m c main_arg31))) :
    (V12 m outs c main_v130 : FVec Ideal S40000x256 .f32) = (Cert.ReferenceIdeal.Read.val_main_v170 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg17) (V0 m c main_arg18) (V0 m c main_arg19) (V0 m c main_arg29) (V0 m c main_arg30) (V0 m c main_arg31)) := by
  funext i
  obtain ⟨p, q, rfl⟩ : ∃ (p : Fin 40000) (q : Fin 256), i = ix2 p q := ⟨i 0, i 1, eq_ix2 i⟩
  rw [nd_kernel m outs c h _ hd _ hp p q, Cert.ReferenceIdeal.RefVal.ref_nd_2, sum_ddi_eq m c, sum_rev_eq m c, cnt_ddi_eq m c, cnt_rev_eq m c,
    Ideal.ofBits_one_f32]
  refine congrArg (fun x => max x (Ideal.ofBits .f32 0x00000000#32)) ?_
  exact add_rearr6 _ _ _ _ _ _

/-- The protein side. -/
theorem npo_eq (h : Fr.OutsOk m outs)
    (hd : (V5 m outs c main_v79 : FVec Ideal S40000x256 .f32) = (Cert.ReferenceIdeal.Read.val_main_v86 (F := Ideal) (V0 m c main_arg0) (V0 m c main_arg1) (V0 m c main_arg2) (V0 m c main_arg3) (V0 m c main_arg4) (V0 m c main_arg8) (V0 m c main_arg9) (V0 m c main_arg10) (V0 m c main_arg29) (V0 m c main_arg30) (V0 m c main_arg31)))
    (hp : (V7 m outs c main_v81 : FVec Ideal S15000x256 .f32) = (Cert.ReferenceIdeal.Read.val_main_v87 (F := Ideal) (V0 m c main_arg0) (V0 m c main_arg1) (V0 m c main_arg5) (V0 m c main_arg6) (V0 m c main_arg7) (V0 m c main_arg30) (V0 m c main_arg31))) :
    (V14 m outs c main_v132 : FVec Ideal S15000x256 .f32) = (Cert.ReferenceIdeal.Read.val_main_v171 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg14) (V0 m c main_arg15) (V0 m c main_arg16) (V0 m c main_arg29) (V0 m c main_arg30) (V0 m c main_arg31)) := by
  funext i
  obtain ⟨p, q, rfl⟩ : ∃ (p : Fin 15000) (q : Fin 256), i = ix2 p q := ⟨i 0, i 1, eq_ix2 i⟩
  rw [npo_kernel m outs c h _ hd _ hp p q, Cert.ReferenceIdeal.RefVal.ref_npo_2, sum_tgt_eq m c, cnt_tgt_eq m c, Ideal.ofBits_one_f32]
  refine congrArg (fun x => max x (Ideal.ofBits .f32 0x00000000#32)) ?_
  exact add_rearr3 _ _ _

end Cert.KernelIdeal.Val.L2

end
-- ==== Proof.KV.HL3Base.lean ====
import proofs.«102211_j33681133535938_1_alg».proof.Proof.KV.H0

set_option maxRecDepth 16384

noncomputable section

namespace Cert.KernelIdeal.Val.L3

open Cert.KernelIdeal.Val

open Idealize.ShloMosaic Idealize.ShloMosaic.TcCoe Idealize.ShloMosaic.Tactic
open Idealize.SL Idealize.SL.Sem
open Cert.KernelIdeal Cert.KernelIdeal.Gen

/-! # Layer 3: what the earlier items left where the layer's host stretch reads

The edge vectors, the reciprocal-count columns and the argument arrays are written (or launched) before the first region and
by no later item, so the stretch finds them as the first stretch (or the launch) left them. -/

variable (m : (ℓ : Loc nD τ sig) → Buf (Elt Ideal) ℓ) (outs : Outs (F := Ideal)) (c : Dev nD)
theorem src_ddi : (V17 m outs c main_v1 : (⟨S600000, .i32⟩ : BufTy).Contents (Elt Ideal)) = edgeRow0 (V0 m c main_arg29) :=
  (V17_of m outs c main_v1 (by decide)).trans <| (V16_of m outs c main_v1 (by decide)).trans <| (V15_of m outs c main_v1 (by decide)).trans <| (V14_of m outs c main_v1 (by decide)).trans <| (V13_of m outs c main_v1 (by decide)).trans <| (V12_of m outs c main_v1 (by decide)).trans <| (V11_of m outs c main_v1 (by decide)).trans <| (V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide)).trans <| V1_v1 m c
theorem dst_ddi : (V17 m outs c main_v3 : (⟨S600000, .i32⟩ : BufTy).Contents (Elt Ideal)) = edgeRow1 (V0 m c main_arg29) :=
  (V17_of m outs c main_v3 (by decide)).trans <| (V16_of m outs c main_v3 (by decide)).trans <| (V15_of m outs c main_v3 (by decide)).trans <| (V14_of m outs c main_v3 (by decide)).trans <| (V13_of m outs c main_v3 (by decide)).trans <| (V12_of m outs c main_v3 (by decide)).trans <| (V11_of m outs c main_v3 (by decide)).trans <| (V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans <| (V2_of m outs c main_v3 (by decide)).trans <| V1_v3 m c
theorem inv_ddi : (V17 m outs c main_v20 : FVec Ideal S40000x1 .f32) = invCol40000 (cntDdi (V0 m c main_arg29)) :=
  (V17_of m outs c main_v20 (by decide)).trans <| (V16_of m outs c main_v20 (by decide)).trans <| (V15_of m outs c main_v20 (by decide)).trans <| (V14_of m outs c main_v20 (by decide)).trans <| (V13_of m outs c main_v20 (by decide)).trans <| (V12_of m outs c main_v20 (by decide)).trans <| (V11_of m outs c main_v20 (by decide)).trans <| (V10_of m outs c main_v20 (by decide)).trans <| (V9_of m outs c main_v20 (by decide)).trans <| (V8_of m outs c main_v20 (by decide)).trans <| (V7_of m outs c main_v20 (by decide)).trans <| (V6_of m outs c main_v20 (by decide)).trans <| (V5_of m outs c main_v20 (by decide)).trans <| (V4_of m outs c main_v20 (by decide)).trans <| (V3_of m outs c main_v20 (by decide)).trans <| (V2_of m outs c main_v20 (by decide)).trans <| V1_v20 m c
theorem inv_rev : (V17 m outs c main_v25 : FVec Ideal S40000x1 .f32) = invCol40000 (cntRev (V0 m c main_arg30)) :=
  (V17_of m outs c main_v25 (by decide)).trans <| (V16_of m outs c main_v25 (by decide)).trans <| (V15_of m outs c main_v25 (by decide)).trans <| (V14_of m outs c main_v25 (by decide)).trans <| (V13_of m outs c main_v25 (by decide)).trans <| (V12_of m outs c main_v25 (by decide)).trans <| (V11_of m outs c main_v25 (by decide)).trans <| (V10_of m outs c main_v25 (by decide)).trans <| (V9_of m outs c main_v25 (by decide)).trans <| (V8_of m outs c main_v25 (by decide)).trans <| (V7_of m outs c main_v25 (by decide)).trans <| (V6_of m outs c main_v25 (by decide)).trans <| (V5_of m outs c main_v25 (by decide)).trans <| (V4_of m outs c main_v25 (by decide)).trans <| (V3_of m outs c main_v25 (by decide)).trans <| (V2_of m outs c main_v25 (by decide)).trans <| V1_v25 m c
theorem inv_tgt : (V17 m outs c main_v30 : FVec Ideal S15000x1 .f32) = invCol15000 (cntTgt (V0 m c main_arg31)) :=
  (V17_of m outs c main_v30 (by decide)).trans <| (V16_of m outs c main_v30 (by decide)).trans <| (V15_of m outs c main_v30 (by decide)).trans <| (V14_of m outs c main_v30 (by decide)).trans <| (V13_of m outs c main_v30 (by decide)).trans <| (V12_of m outs c main_v30 (by decide)).trans <| (V11_of m outs c main_v30 (by decide)).trans <| (V10_of m outs c main_v30 (by decide)).trans <| (V9_of m outs c main_v30 (by decide)).trans <| (V8_of m outs c main_v30 (by decide)).trans <| (V7_of m outs c main_v30 (by decide)).trans <| (V6_of m outs c main_v30 (by decide)).trans <| (V5_of m outs c main_v30 (by decide)).trans <| (V4_of m outs c main_v30 (by decide)).trans <| (V3_of m outs c main_v30 (by decide)).trans <| (V2_of m outs c main_v30 (by decide)).trans <| V1_v30 m c
theorem arg30_at : (V17 m outs c main_arg30 : (⟨S250000, .i32⟩ : BufTy).Contents (Elt Ideal)) = (V0 m c main_arg30) :=
  (V17_of m outs c main_arg30 (by decide)).trans <| (V16_of m outs c main_arg30 (by decide)).trans <| (V15_of m outs c main_arg30 (by decide)).trans <| (V14_of m outs c main_arg30 (by decide)).trans <| (V13_of m outs c main_arg30 (by decide)).trans <| (V12_of m outs c main_arg30 (by decide)).trans <| (V11_of m outs c main_arg30 (by decide)).trans <| (V10_of m outs c main_arg30 (by decide)).trans <| (V9_of m outs c main_arg30 (by decide)).trans <| (V8_of m outs c main_arg30 (by decide)).trans <| (V7_of m outs c main_arg30 (by decide)).trans <| (V6_of m outs c main_arg30 (by decide)).trans <| (V5_of m outs c main_arg30 (by decide)).trans <| (V4_of m outs c main_arg30 (by decide)).trans <| (V3_of m outs c main_arg30 (by decide)).trans <| (V2_of m outs c main_arg30 (by decide)).trans <| (V1_of m c main_arg30 (by decide)).trans <| rfl
theorem arg31_at : (V17 m outs c main_arg31 : (⟨S250000, .i32⟩ : BufTy).Contents (Elt Ideal)) = (V0 m c main_arg31) :=
  (V17_of m outs c main_arg31 (by decide)).trans <| (V16_of m outs c main_arg31 (by decide)).trans <| (V15_of m outs c main_arg31 (by decide)).trans <| (V14_of m outs c main_arg31 (by decide)).trans <| (V13_of m outs c main_arg31 (by decide)).trans <| (V12_of m outs c main_arg31 (by decide)).trans <| (V11_of m outs c main_arg31 (by decide)).trans <| (V10_of m outs c main_arg31 (by decide)).trans <| (V9_of m outs c main_arg31 (by decide)).trans <| (V8_of m outs c main_arg31 (by decide)).trans <| (V7_of m outs c main_arg31 (by decide)).trans <| (V6_of m outs c main_arg31 (by decide)).trans <| (V5_of m outs c main_arg31 (by decide)).trans <| (V4_of m outs c main_arg31 (by decide)).trans <| (V3_of m outs c main_arg31 (by decide)).trans <| (V2_of m outs c main_arg31 (by decide)).trans <| (V1_of m c main_arg31 (by decide)).trans <| rfl
theorem bias_d_at : (V17 m outs c main_arg21 : FVec Ideal S64 .f32) = (V0 m c main_arg21) :=
  (V17_of m outs c main_arg21 (by decide)).trans <| (V16_of m outs c main_arg21 (by decide)).trans <| (V15_of m outs c main_arg21 (by decide)).trans <| (V14_of m outs c main_arg21 (by decide)).trans <| (V13_of m outs c main_arg21 (by decide)).trans <| (V12_of m outs c main_arg21 (by decide)).trans <| (V11_of m outs c main_arg21 (by decide)).trans <| (V10_of m outs c main_arg21 (by decide)).trans <| (V9_of m outs c main_arg21 (by decide)).trans <| (V8_of m outs c main_arg21 (by decide)).trans <| (V7_of m outs c main_arg21 (by decide)).trans <| (V6_of m outs c main_arg21 (by decide)).trans <| (V5_of m outs c main_arg21 (by decide)).trans <| (V4_of m outs c main_arg21 (by decide)).trans <| (V3_of m outs c main_arg21 (by decide)).trans <| (V2_of m outs c main_arg21 (by decide)).trans <| (V1_of m c main_arg21 (by decide)).trans <| rfl
theorem bias_r_at : (V17 m outs c main_arg27 : FVec Ideal S64 .f32) = (V0 m c main_arg27) :=
  (V17_of m outs c main_arg27 (by decide)).trans <| (V16_of m outs c main_arg27 (by decide)).trans <| (V15_of m outs c main_arg27 (by decide)).trans <| (V14_of m outs c main_arg27 (by decide)).trans <| (V13_of m outs c main_arg27 (by decide)).trans <| (V12_of m outs c main_arg27 (by decide)).trans <| (V11_of m outs c main_arg27 (by decide)).trans <| (V10_of m outs c main_arg27 (by decide)).trans <| (V9_of m outs c main_arg27 (by decide)).trans <| (V8_of m outs c main_arg27 (by decide)).trans <| (V7_of m outs c main_arg27 (by decide)).trans <| (V6_of m outs c main_arg27 (by decide)).trans <| (V5_of m outs c main_arg27 (by decide)).trans <| (V4_of m outs c main_arg27 (by decide)).trans <| (V3_of m outs c main_arg27 (by decide)).trans <| (V2_of m outs c main_arg27 (by decide)).trans <| (V1_of m c main_arg27 (by decide)).trans <| rfl
theorem bias_t_at : (V19 m outs c main_arg24 : FVec Ideal S64 .f32) = (V0 m c main_arg24) :=
  (V19_of m outs c main_arg24 (by decide)).trans <| (V18_of m outs c main_arg24 (by decide)).trans <| (V17_of m outs c main_arg24 (by decide)).trans <| (V16_of m outs c main_arg24 (by decide)).trans <| (V15_of m outs c main_arg24 (by decide)).trans <| (V14_of m outs c main_arg24 (by decide)).trans <| (V13_of m outs c main_arg24 (by decide)).trans <| (V12_of m outs c main_arg24 (by decide)).trans <| (V11_of m outs c main_arg24 (by decide)).trans <| (V10_of m outs c main_arg24 (by decide)).trans <| (V9_of m outs c main_arg24 (by decide)).trans <| (V8_of m outs c main_arg24 (by decide)).trans <| (V7_of m outs c main_arg24 (by decide)).trans <| (V6_of m outs c main_arg24 (by decide)).trans <| (V5_of m outs c main_arg24 (by decide)).trans <| (V4_of m outs c main_arg24 (by decide)).trans <| (V3_of m outs c main_arg24 (by decide)).trans <| (V2_of m outs c main_arg24 (by decide)).trans <| (V1_of m c main_arg24 (by decide)).trans <| rfl
end Cert.KernelIdeal.Val.L3

end
-- ==== Proof.KV.HL3D.lean ====
import proofs.«102211_j33681133535938_1_alg».proof.Proof.KV.HL3Base

set_option maxRecDepth 16384

noncomputable section

namespace Cert.KernelIdeal.Val.L3

open Cert.KernelIdeal.Val

open Idealize.ShloMosaic Idealize.ShloMosaic.TcCoe Idealize.ShloMosaic.Tactic
open Idealize.SL Idealize.SL.Sem
open Cert.KernelIdeal Cert.KernelIdeal.Gen

/-! # Layer 3, drug–drug relation: the mean of the gathered messages (first column block of the drug product), the self
    term (second column block) and the bias as a one-row table, as the drug-side combination finds them. -/

variable (m : (ℓ : Loc nD τ sig) → Buf (Elt Ideal) ℓ) (outs : Outs (F := Ideal)) (c : Dev nD)
set_option maxHeartbeats 4000000 in
theorem agg_ddi : (V18 m outs c main_v154 : FVec Ideal S40000x64 .f32) =
    meanD64 (sumDdi64 (extractStridedSlice S40000x64 ![0, 0] (V17 m outs c main_v135) slices_S40000x256_S40000x64_0_0) (edgeRow0 (V0 m c main_arg29)) (edgeRow1 (V0 m c main_arg29))) (invCol40000 (cntDdi (V0 m c main_arg29))) := by
  rw [← inv_ddi m outs c, ← src_ddi m outs c, ← dst_ddi m outs c]; dsimp only [V18, hostOps10]; after_results_simp <;> rfl
set_option maxHeartbeats 4000000 in
theorem self_ddi : (V18 m outs c main_v138 : FVec Ideal S40000x64 .f32) = extractStridedSlice S40000x64 ![0, 64] (V17 m outs c main_v135) slices_S40000x256_S40000x64_0_64 := by
  dsimp only [V18, hostOps10]; after_results_simp <;> rfl
set_option maxHeartbeats 4000000 in
theorem bias_ddi : (V18 m outs c main_v179 : FVec Ideal S1x64 .f32) = shapeCast S1x64 (V0 m c main_arg21) shapeCasts_S64_S1x64 := by
  rw [← bias_d_at m outs c]; dsimp only [V18, hostOps10]; after_results_simp <;> rfl
end Cert.KernelIdeal.Val.L3

end
-- ==== Proof.KV.HL3R.lean ====
import proofs.«102211_j33681133535938_1_alg».proof.Proof.KV.HL3Base

set_option maxRecDepth 16384

noncomputable section

namespace Cert.KernelIdeal.Val.L3

open Cert.KernelIdeal.Val

open Idealize.ShloMosaic Idealize.ShloMosaic.TcCoe Idealize.ShloMosaic.Tactic
open Idealize.SL Idealize.SL.Sem
open Cert.KernelIdeal Cert.KernelIdeal.Gen

/-! # Layer 3, reversed target relation: the mean of the gathered protein messages (first column block of the protein
    product), the self term (fourth column block of the drug product) and the bias row, as the drug-side combination finds them. -/

variable (m : (ℓ : Loc nD τ sig) → Buf (Elt Ideal) ℓ) (outs : Outs (F := Ideal)) (c : Dev nD)
set_option maxHeartbeats 4000000 in
theorem agg_rev : (V18 m outs c main_v166 : FVec Ideal S40000x64 .f32) =
    meanD64 (sumRev64 (extractStridedSlice S15000x64 ![0, 0] (V17 m outs c main_v136) slices_S15000x128_S15000x64_0_0) (V0 m c main_arg31) (V0 m c main_arg30)) (invCol40000 (cntRev (V0 m c main_arg30))) := by
  rw [← inv_rev m outs c, ← arg31_at m outs c, ← arg30_at m outs c]; dsimp only [V18, hostOps10]; after_results_simp <;> rfl
set_option maxHeartbeats 4000000 in
theorem self_rev : (V18 m outs c main_v140 : FVec Ideal S40000x64 .f32) = extractStridedSlice S40000x64 ![0, 192] (V17 m outs c main_v135) slices_S40000x256_S40000x64_0_192 := by
  dsimp only [V18, hostOps10]; after_results_simp <;> rfl
set_option maxHeartbeats 4000000 in
theorem bias_rev : (V18 m outs c main_v180 : FVec Ideal S1x64 .f32) = shapeCast S1x64 (V0 m c main_arg27) shapeCasts_S64_S1x64 := by
  rw [← bias_r_at m outs c]; dsimp only [V18, hostOps10]; after_results_simp <;> rfl
end Cert.KernelIdeal.Val.L3

end
-- ==== Proof.KV.HL3T.lean ====
import proofs.«102211_j33681133535938_1_alg».proof.Proof.KV.HL3Base

set_option maxRecDepth 16384

noncomputable section

namespace Cert.KernelIdeal.Val.L3

open Cert.KernelIdeal.Val

open Idealize.ShloMosaic Idealize.ShloMosaic.TcCoe Idealize.ShloMosaic.Tactic
open Idealize.SL Idealize.SL.Sem
open Cert.KernelIdeal Cert.KernelIdeal.Gen

/-! # Layer 3, target relation: the mean of the gathered drug messages (third column block of the drug product), the self
    term (second column block of the protein product) and the bias row, as the protein-side combination finds them (two items
    after the stretch: neither the drug-side region nor the one-operation stretch in between writes the first two). -/

variable (m : (ℓ : Loc nD τ sig) → Buf (Elt Ideal) ℓ) (outs : Outs (F := Ideal)) (c : Dev nD)
set_option maxHeartbeats 4000000 in
theorem agg_tgt : (V20 m outs c main_v178 : FVec Ideal S15000x64 .f32) =
    meanP64 (sumTgt64 (extractStridedSlice S40000x64 ![0, 128] (V17 m outs c main_v135) slices_S40000x256_S40000x64_0_128) (V0 m c main_arg30) (V0 m c main_arg31)) (invCol15000 (cntTgt (V0 m c main_arg31))) := by
  refine ((V20_of m outs c main_v178 (by decide)).trans <| V19_of m outs c main_v178 (by decide)).trans ?_
  rw [← inv_tgt m outs c, ← arg30_at m outs c, ← arg31_at m outs c]; dsimp only [V18, hostOps10]; after_results_simp <;> rfl
set_option maxHeartbeats 4000000 in
theorem self_tgt : (V20 m outs c main_v142 : FVec Ideal S15000x64 .f32) = extractStridedSlice S15000x64 ![0, 64] (V17 m outs c main_v136) slices_S15000x128_S15000x64_0_64 := by
  refine ((V20_of m outs c main_v142 (by decide)).trans <| V19_of m outs c main_v142 (by decide)).trans ?_
  dsimp only [V18, hostOps10]; after_results_simp <;> rfl
set_option maxHeartbeats 4000000 in
theorem bias_tgt : (V20 m outs c main_v182 : FVec Ideal S1x64 .f32) = shapeCast S1x64 (V0 m c main_arg24) shapeCasts_S64_S1x64 := by
  rw [← bias_t_at m outs c]; dsimp only [V20, hostOps11]; after_results_simp <;> rfl
end Cert.KernelIdeal.Val.L3

end
-- ==== Proof.KV.HL3.lean ====
import proofs.«102211_j33681133535938_1_alg».proof.Proof.KV.HL3D
import proofs.«102211_j33681133535938_1_alg».proof.Proof.KV.HL3R
import proofs.«102211_j33681133535938_1_alg».proof.Proof.KV.HL3T

/-! Layer 3: the nine arrays the two combinations read (the three relations' modules together). -/
-- ==== Proof.KV.V8.lean ====
import proofs.«102211_j33681133535938_1_alg».proof.Proof.KI.R8
import proofs.«102211_j33681133535938_1_alg».proof.Proof.LibDotRows
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr Cert.LibDotRows

variable (V : (c : Dev nD) → (b : Ref sig .tc) → Buf (Elt Ideal) ((c : Thread nD τ).loc b))

/-! # Region 8, read: the product `X · Wᵀ` of a `40000 × 256` array by a `256 × 256` table, entry by entry

The region walks the left operand in 20 blocks of 2000 rows; every point sees the whole table. Entry `(p, q)` of the
result is `∑ k, X (p, k) * W (q, k)`: the narrowing of the operands before the product is the identity on exact values,
and the product accumulates into zero. -/

/-- The whole result as one function of the two arrays. -/
def mm8 (X : S40000x256.Idx → EReal) (W : S256x256.Idx → EReal) : S40000x256.Idx → EReal :=
  fun i => ∑ k : Fin 256, X (ix2 (i 0) k) * W (ix2 (i 1) k)

/-- The left array and the table as the region finds them, at their literal index types. -/
abbrev xArr8 (c : Dev nD) : S40000x256.Idx → EReal := V c main_v130
abbrev wArr8 (c : Dev nD) : S256x256.Idx → EReal := V c main_v133

/-- The result array after the region's last point, at its literal index type. -/
abbrev oArr8 (c : Dev nD) : S40000x256.Idx → EReal := (dat8 V c).arrAt 2 cfg8.N

theorem dotRows8 : RowsByRows dot_S2000x256_S256x256_S2000x256_1_1_0_0_n_n := ⟨rfl, rfl, rfl, rfl, rfl, rfl⟩

/-- The body's product of two loaded blocks at an entry: block row `p` against table row `q`. -/
theorem pay8_apply (x0 : Vec Ideal S2000x256 .f32) (x1 : Vec Ideal S256x256 .f32) (p : Fin 2000) (q : Fin 256) :
    k8_pay1 x0 x1 (ix2 p q) = ∑ k : Fin 256, x0 (ix2 p k) * x1 (ix2 q k) := by
  unfold k8_pay1
  simp only [shapeCast_self]
  exact matmul_rows_apply dotRows8 none _ _ p q

theorem hz8 : (![0, 0] : Fin 2 → Nat) = fun _ => 0 := funext fun a => by fin_cases a <;> rfl

/-- The printed index maps over the grid: the left operand's and the result's row blocks are the point's, every other
    block index is zero. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point `t` writes back is block `t` of the product of the two arrays as the region finds them. -/
theorem flushed8_eq (c : Dev nD) (t : Fin cfg8.N) :
    (dat8 V c).flushed 2 t = ((cfg8.win 2).blk t).view.read (Elt Ideal) (mm8 (xArr8 V c) (wArr8 V c)) := by
  show (cfg8.win 2).cut (grid8.coords t) ((dat8 V c).after 2 t) = _
  rw [after8_2]
  unfold out8_2
  rw [View.canon_unit_zero hz8]
  simp only [View.ld_unit_zero (S := S2000x256) hz8, View.ld_unit_zero (S := S256x256) hz8]
  obtain ⟨e0, e1, e2, e3, e4, e5⟩ := idx_facts8 t
  funext j
  obtain ⟨p, q, rfl⟩ : ∃ (p : Fin 2000) (q : Fin 256), j = ix2 p q := ⟨j 0, j 1, eq_ix2 j⟩
  refine (pay8_apply (iblk8 V c 0 t) (iblk8 V c 1 t) p q).trans ?_
  show ∑ k : Fin 256, xArr8 V c (((cfg8.win 0).blk t).view.emb (ix2 p k)) * wArr8 V c (((cfg8.win 1).blk t).view.emb (ix2 q k))
    = ∑ k : Fin 256, xArr8 V c (ix2 ((((cfg8.win 2).blk t).view.emb (ix2 p q)) 0) k) * wArr8 V c (ix2 ((((cfg8.win 2).blk t).view.emb (ix2 p q)) 1) k)
  refine Finset.sum_congr rfl fun k _ => ?_
  have h0 : ((cfg8.win 0).blk t).view.emb (ix2 p k) = ix2 ((((cfg8.win 2).blk t).view.emb (ix2 p q)) 0) k := by
    funext a; apply Fin.ext
    match a with
    | ⟨0, _⟩ => show win8_0.index t (0 : Fin 2) * 2000 + 1 * p.val = win8_2.index t (0 : Fin 2) * 2000 + 1 * p.val; omega
    | ⟨1, _⟩ => show win8_0.index t (1 : Fin 2) * 256 + 1 * k.val = k.val; omega
  have h1 : ((cfg8.win 1).blk t).view.emb (ix2 q k) = ix2 ((((cfg8.win 2).blk t).view.emb (ix2 p q)) 1) k := by
    funext a; apply Fin.ext
    match a with
    | ⟨0, _⟩ => show win8_1.index t (0 : Fin 2) * 256 + 1 * q.val = win8_2.index t (1 : Fin 2) * 256 + 1 * q.val; omega
    | ⟨1, _⟩ => show win8_1.index t (1 : Fin 2) * 256 + 1 * k.val = k.val; omega
  exact congrArg₂ (fun a b => xArr8 V c a * wArr8 V c b) h0 h1

/-- An index of the result is in point `t`'s block iff each coordinate is in the block's range on its axis. -/
theorem mem_blk8 (t : Fin cfg8.N) (i : S40000x256.Idx) :
    i ∈ ((cfg8.win 2).blk t).view.set ↔ ∀ a : Fin 2, win8_2.index t a * S2000x256.size a ≤ (i a).val ∧ (i a).val < win8_2.index t a * S2000x256.size a + S2000x256.size a := by
  show i ∈ ((View.whole main_v135).slice (win8_2.rect t)).set ↔ _
  rw [View.set_slice_whole, Rect.mem_set_unit]
  exact Iff.rfl

/-- Row `r` of the result is written by point `r / 2000`. -/
theorem cover8 (i : S40000x256.Idx) : ∃ t : Fin cfg8.N, (cfg8.win 2).flush t = true ∧ i ∈ ((cfg8.win 2).blk t).view.set := by
  have hi0 : (i 0).val < 40000 := (i 0).isLt
  have hi1 : (i 1).val < 256 := (i 1).isLt
  have hN : cfg8.N = 20 := N_8
  let t : Fin cfg8.N := ⟨(i 0).val / 2000, by rw [hN]; omega⟩
  obtain ⟨e0, e1, e2, e3, e4, e5⟩ := idx_facts8 t
  have ht : t.val = (i 0).val / 2000 := rfl
  refine ⟨t, flush8_2 t, ?_⟩
  rw [mem_blk8]
  intro a
  match a with
  | ⟨0, _⟩ => show win8_2.index t (0 : Fin 2) * 2000 ≤ (i 0).val ∧ (i 0).val < win8_2.index t (0 : Fin 2) * 2000 + 2000; omega
  | ⟨1, _⟩ => show win8_2.index t (1 : Fin 2) * 256 ≤ (i 1).val ∧ (i 1).val < win8_2.index t (1 : Fin 2) * 256 + 256; omega

/-- THE RESULT ARRAY after the region: the product of the two arrays as the region finds them. -/
theorem final_arr8 (c : Dev nD) :
    (dat8 V c).arrAt 2 cfg8.N = mm8 (xArr8 V c) (wArr8 V c) :=
  (dat8 V c).arrAt_eq_of_cover 2 (mm8 (xArr8 V c) (wArr8 V c)) (fun t _ => flushed8_eq V c t) (cover8)

/-- Entry `(p, q)` of the result: row `p` of the left array against row `q` of the table. -/
theorem final_mm8 (c : Dev nD) (p : Fin 40000) (q : Fin 256) :
    oArr8 V c (ix2 p q) = ∑ k : Fin 256, xArr8 V c (ix2 p k) * wArr8 V c (ix2 q k) :=
  congrFun (final_arr8 V c) (ix2 p q)

end Cert.KernelIdeal.Val

end
-- ==== Proof.KV.V9.lean ====
import proofs.«102211_j33681133535938_1_alg».proof.Proof.KI.R9
import proofs.«102211_j33681133535938_1_alg».proof.Proof.LibDotRows
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Fr Cert.LibDotRows

variable (V : (c : Dev nD) → (b : Ref sig .tc) → Buf (Elt Ideal) ((c : Thread nD τ).loc b))

/-! # Region 9, read: the product `X · Wᵀ` of a `15000 × 256` array by a `128 × 256` table, entry by entry

The region walks the left operand in 5 blocks of 3000 rows; every point sees the whole table. Entry `(p, q)` of the
result is `∑ k, X (p, k) * W (q, k)`: the narrowing of the operands before the product is the identity on exact values,
and the product accumulates into zero. -/

/-- The whole result as one function of the two arrays. -/
def mm9 (X : S15000x256.Idx → EReal) (W : S128x256.Idx → EReal) : S15000x128.Idx → EReal :=
  fun i => ∑ k : Fin 256, X (ix2 (i 0) k) * W (ix2 (i 1) k)

/-- The left array and the table as the region finds them, at their literal index types. -/
abbrev xArr9 (c : Dev nD) : S15000x256.Idx → EReal := V c main_v132
abbrev wArr9 (c : Dev nD) : S128x256.Idx → EReal := V c main_v134

/-- The result array after the region's last point, at its literal index type. -/
abbrev oArr9 (c : Dev nD) : S15000x128.Idx → EReal := (dat9 V c).arrAt 2 cfg9.N

theorem dotRows9 : RowsByRows dot_S3000x256_S128x256_S3000x128_1_1_0_0_n_n := ⟨rfl, rfl, rfl, rfl, rfl, rfl⟩

/-- The body's product of two loaded blocks at an entry: block row `p` against table row `q`. -/
theorem pay9_apply (x0 : Vec Ideal S3000x256 .f32) (x1 : Vec Ideal S128x256 .f32) (p : Fin 3000) (q : Fin 128) :
    k9_pay1 x0 x1 (ix2 p q) = ∑ k : Fin 256, x0 (ix2 p k) * x1 (ix2 q k) := by
  unfold k9_pay1
  simp only [shapeCast_self]
  exact matmul_rows_apply dotRows9 none _ _ p q

theorem hz9 : (![0, 0] : Fin 2 → Nat) = fun _ => 0 := funext fun a => by fin_cases a <;> rfl

/-- The printed index maps over the grid: the left operand's and the result's row blocks are the point's, every other
    block index is zero. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point `t` writes back is block `t` of the product of the two arrays as the region finds them. -/
theorem flushed9_eq (c : Dev nD) (t : Fin cfg9.N) :
    (dat9 V c).flushed 2 t = ((cfg9.win 2).blk t).view.read (Elt Ideal) (mm9 (xArr9 V c) (wArr9 V c)) := by
  show (cfg9.win 2).cut (grid9.coords t) ((dat9 V c).after 2 t) = _
  rw [after9_2]
  unfold out9_2
  rw [View.canon_unit_zero hz9]
  simp only [View.ld_unit_zero (S := S3000x256) hz9, View.ld_unit_zero (S := S128x256) hz9]
  obtain ⟨e0, e1, e2, e3, e4, e5⟩ := idx_facts9 t
  funext j
  obtain ⟨p, q, rfl⟩ : ∃ (p : Fin 3000) (q : Fin 128), j = ix2 p q := ⟨j 0, j 1, eq_ix2 j⟩
  refine (pay9_apply (iblk9 V c 0 t) (iblk9 V c 1 t) p q).trans ?_
  show ∑ k : Fin 256, xArr9 V c (((cfg9.win 0).blk t).view.emb (ix2 p k)) * wArr9 V c (((cfg9.win 1).blk t).view.emb (ix2 q k))
    = ∑ k : Fin 256, xArr9 V c (ix2 ((((cfg9.win 2).blk t).view.emb (ix2 p q)) 0) k) * wArr9 V c (ix2 ((((cfg9.win 2).blk t).view.emb (ix2 p q)) 1) k)
  refine Finset.sum_congr rfl fun k _ => ?_
  have h0 : ((cfg9.win 0).blk t).view.emb (ix2 p k) = ix2 ((((cfg9.win 2).blk t).view.emb (ix2 p q)) 0) k := by
    funext a; apply Fin.ext
    match a with
    | ⟨0, _⟩ => show win9_0.index t (0 : Fin 2) * 3000 + 1 * p.val = win9_2.index t (0 : Fin 2) * 3000 + 1 * p.val; omega
    | ⟨1, _⟩ => show win9_0.index t (1 : Fin 2) * 256 + 1 * k.val = k.val; omega
  have h1 : ((cfg9.win 1).blk t).view.emb (ix2 q k) = ix2 ((((cfg9.win 2).blk t).view.emb (ix2 p q)) 1) k := by
    funext a; apply Fin.ext
    match a with
    | ⟨0, _⟩ => show win9_1.index t (0 : Fin 2) * 128 + 1 * q.val = win9_2.index t (1 : Fin 2) * 128 + 1 * q.val; omega
    | ⟨1, _⟩ => show win9_1.index t (1 : Fin 2) * 256 + 1 * k.val = k.val; omega
  exact congrArg₂ (fun a b => xArr9 V c a * wArr9 V c b) h0 h1

/-- An index of the result is in point `t`'s block iff each coordinate is in the block's range on its axis. -/
theorem mem_blk9 (t : Fin cfg9.N) (i : S15000x128.Idx) :
    i ∈ ((cfg9.win 2).blk t).view.set ↔ ∀ a : Fin 2, win9_2.index t a * S3000x128.size a ≤ (i a).val ∧ (i a).val < win9_2.index t a * S3000x128.size a + S3000x128.size a := by
  show i ∈ ((View.whole main_v136).slice (win9_2.rect t)).set ↔ _
  rw [View.set_slice_whole, Rect.mem_set_unit]
  exact Iff.rfl

/-- Row `r` of the result is written by point `r / 3000`. -/
theorem cover9 (i : S15000x128.Idx) : ∃ t : Fin cfg9.N, (cfg9.win 2).flush t = true ∧ i ∈ ((cfg9.win 2).blk t).view.set := by
  have hi0 : (i 0).val < 15000 := (i 0).isLt
  have hi1 : (i 1).val < 128 := (i 1).isLt
  have hN : cfg9.N = 5 := N_9
  let t : Fin cfg9.N := ⟨(i 0).val / 3000, by rw [hN]; omega⟩
  obtain ⟨e0, e1, e2, e3, e4, e5⟩ := idx_facts9 t
  have ht : t.val = (i 0).val / 3000 := rfl
  refine ⟨t, flush9_2 t, ?_⟩
  rw [mem_blk9]
  intro a
  match a with
  | ⟨0, _⟩ => show win9_2.index t (0 : Fin 2) * 3000 ≤ (i 0).val ∧ (i 0).val < win9_2.index t (0 : Fin 2) * 3000 + 3000; omega
  | ⟨1, _⟩ => show win9_2.index t (1 : Fin 2) * 128 ≤ (i 1).val ∧ (i 1).val < win9_2.index t (1 : Fin 2) * 128 + 128; omega

/-- THE RESULT ARRAY after the region: the product of the two arrays as the region finds them. -/
theorem final_arr9 (c : Dev nD) :
    (dat9 V c).arrAt 2 cfg9.N = mm9 (xArr9 V c) (wArr9 V c) :=
  (dat9 V c).arrAt_eq_of_cover 2 (mm9 (xArr9 V c) (wArr9 V c)) (fun t _ => flushed9_eq V c t) (cover9)

/-- Entry `(p, q)` of the result: row `p` of the left array against row `q` of the table. -/
theorem final_mm9 (c : Dev nD) (p : Fin 15000) (q : Fin 128) :
    oArr9 V c (ix2 p q) = ∑ k : Fin 256, xArr9 V c (ix2 p k) * wArr9 V c (ix2 q k) :=
  congrFun (final_arr9 V c) (ix2 p q)

end Cert.KernelIdeal.Val

end
-- ==== Proof.KV.Cb10.lean ====
import proofs.«102211_j33681133535938_1_alg».proof.Proof.KI.R10
import proofs.«102211_j33681133535938_1_alg».proof.Proof.KV.PayB
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-! # Region 10: the six-operand combination of the third layer, as one array

Grid point `t` of 20 works on rows `2000 t … 2000 t + 1999` of every `[40000, 64]` operand and of the result, and on the
whole of each `[1, 64]` bias row. So what point `t` writes back is block `t` of ONE function of the operand arrays,
`G10`, and as the 20 blocks tile the `40000` rows the result array ends holding `G10` everywhere. -/

theorem hz10 : (![0, 0] : Fin 2 → Nat) = fun _ => 0 := funext fun a => by fin_cases a <;> rfl

/-- The index maps over the grid: a row-block window is at block `(t, 0)`, a bias row at block `(0, 0)`. -/
theorem idx_facts10 : ∀ t : Fin cfg10.N, win10_0.index t (0 : Fin 2) = t.val
    ∧ win10_0.index t (1 : Fin 2) = 0
    ∧ win10_1.index t (0 : Fin 2) = t.val
    ∧ win10_1.index t (1 : Fin 2) = 0
    ∧ win10_2.index t (0 : Fin 2) = 0
    ∧ win10_2.index t (1 : Fin 2) = 0
    ∧ win10_3.index t (0 : Fin 2) = t.val
    ∧ win10_3.index t (1 : Fin 2) = 0
    ∧ win10_4.index t (0 : Fin 2) = t.val
    ∧ win10_4.index t (1 : Fin 2) = 0
    ∧ win10_5.index t (0 : Fin 2) = 0
    ∧ win10_5.index t (1 : Fin 2) = 0
    ∧ win10_6.index t (0 : Fin 2) = t.val
    ∧ win10_6.index t (1 : Fin 2) = 0 :=
  (by decide +kernel : ∀ t : Fin grid10.N, _)

set_option maxHeartbeats 4000000 in
/-- What point `t` writes back is block `t` of `G10` of the arrays as the region finds them. -/
theorem flushed10_eq (c : Dev nD) (t : Fin cfg10.N) :
    (dat10 V c).flushed 6 t = ((cfg10.win 6).blk t).view.read (Elt Ideal) (G10 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5))) := by
  show (cfg10.win 6).cut (grid10.coords t) ((dat10 V c).after 6 t) = _
  rw [after10_6]
  unfold out10_6
  rw [View.canon_unit_zero hz10]
  simp only [View.ld_unit_zero (S := S2000x64) hz10, View.ld_unit_zero (S := S1x64) hz10]
  obtain ⟨e0, e1, e2, e3, e4, e5, e6, e7, e8, e9, e10, e11, e12, e13⟩ := idx_facts10 t
  funext j
  show k10_pay1 (F := Ideal) (iblk10 V c 0 t) (iblk10 V c 1 t) (iblk10 V c 2 t) (iblk10 V c 3 t) (iblk10 V c 4 t) (iblk10 V c 5 t) j = G10 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (((cfg10.win 6).blk t).view.emb j)
  refine cb10_point (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (iblk10 V c 0 t) (iblk10 V c 1 t) (iblk10 V c 2 t) (iblk10 V c 3 t) (iblk10 V c 4 t) (iblk10 V c 5 t) j (((cfg10.win 6).blk t).view.emb j) ?_ ?_ ?_ ?_ ?_ ?_
  · -- window 0: the block of rows at the point's place
    show (V c (Pipeline.arrRef spec10 0)) (((cfg10.win 0).blk t).view.emb j) = (V c (Pipeline.arrRef spec10 0)) (((cfg10.win 6).blk t).view.emb j)
    refine congrArg (V c (Pipeline.arrRef spec10 0)) (funext fun a => Fin.ext ?_)
    match a with
    | ⟨0, _⟩ => show win10_0.index t (0 : Fin 2) * 2000 + 1 * (j 0).val = win10_6.index t (0 : Fin 2) * 2000 + 1 * (j 0).val; omega
    | ⟨1, _⟩ => show win10_0.index t (1 : Fin 2) * 64 + 1 * (j 1).val = win10_6.index t (1 : Fin 2) * 64 + 1 * (j 1).val; omega
  · -- window 1: the block of rows at the point's place
    show (V c (Pipeline.arrRef spec10 1)) (((cfg10.win 1).blk t).view.emb j) = (V c (Pipeline.arrRef spec10 1)) (((cfg10.win 6).blk t).view.emb j)
    refine congrArg (V c (Pipeline.arrRef spec10 1)) (funext fun a => Fin.ext ?_)
    match a with
    | ⟨0, _⟩ => show win10_1.index t (0 : Fin 2) * 2000 + 1 * (j 0).val = win10_6.index t (0 : Fin 2) * 2000 + 1 * (j 0).val; omega
    | ⟨1, _⟩ => show win10_1.index t (1 : Fin 2) * 64 + 1 * (j 1).val = win10_6.index t (1 : Fin 2) * 64 + 1 * (j 1).val; omega
  · -- window 2: the bias row, whole at every point
    show (V c (Pipeline.arrRef spec10 2)) (((cfg10.win 2).blk t).view.emb (ix2 (n0 := 1) (n1 := 64) 0 (j 1))) = (V c (Pipeline.arrRef spec10 2)) (ix2 (n0 := 1) (n1 := 64) 0 ((((cfg10.win 6).blk t).view.emb j) 1))
    refine congrArg (V c (Pipeline.arrRef spec10 2)) (funext fun a => Fin.ext ?_)
    match a with
    | ⟨0, _⟩ => show win10_2.index t (0 : Fin 2) * 1 + 1 * 0 = 0; omega
    | ⟨1, _⟩ => show win10_2.index t (1 : Fin 2) * 64 + 1 * (j 1).val = win10_6.index t (1 : Fin 2) * 64 + 1 * (j 1).val; omega
  · -- window 3: the block of rows at the point's place
    show (V c (Pipeline.arrRef spec10 3)) (((cfg10.win 3).blk t).view.emb j) = (V c (Pipeline.arrRef spec10 3)) (((cfg10.win 6).blk t).view.emb j)
    refine congrArg (V c (Pipeline.arrRef spec10 3)) (funext fun a => Fin.ext ?_)
    match a with
    | ⟨0, _⟩ => show win10_3.index t (0 : Fin 2) * 2000 + 1 * (j 0).val = win10_6.index t (0 : Fin 2) * 2000 + 1 * (j 0).val; omega
    | ⟨1, _⟩ => show win10_3.index t (1 : Fin 2) * 64 + 1 * (j 1).val = win10_6.index t (1 : Fin 2) * 64 + 1 * (j 1).val; omega
  · -- window 4: the block of rows at the point's place
    show (V c (Pipeline.arrRef spec10 4)) (((cfg10.win 4).blk t).view.emb j) = (V c (Pipeline.arrRef spec10 4)) (((cfg10.win 6).blk t).view.emb j)
    refine congrArg (V c (Pipeline.arrRef spec10 4)) (funext fun a => Fin.ext ?_)
    match a with
    | ⟨0, _⟩ => show win10_4.index t (0 : Fin 2) * 2000 + 1 * (j 0).val = win10_6.index t (0 : Fin 2) * 2000 + 1 * (j 0).val; omega
    | ⟨1, _⟩ => show win10_4.index t (1 : Fin 2) * 64 + 1 * (j 1).val = win10_6.index t (1 : Fin 2) * 64 + 1 * (j 1).val; omega
  · -- window 5: the bias row, whole at every point
    show (V c (Pipeline.arrRef spec10 5)) (((cfg10.win 5).blk t).view.emb (ix2 (n0 := 1) (n1 := 64) 0 (j 1))) = (V c (Pipeline.arrRef spec10 5)) (ix2 (n0 := 1) (n1 := 64) 0 ((((cfg10.win 6).blk t).view.emb j) 1))
    refine congrArg (V c (Pipeline.arrRef spec10 5)) (funext fun a => Fin.ext ?_)
    match a with
    | ⟨0, _⟩ => show win10_5.index t (0 : Fin 2) * 1 + 1 * 0 = 0; omega
    | ⟨1, _⟩ => show win10_5.index t (1 : Fin 2) * 64 + 1 * (j 1).val = win10_6.index t (1 : Fin 2) * 64 + 1 * (j 1).val; omega

/-- An index of the result array is in point `t`'s block iff each coordinate is in the block's range on its axis. -/
theorem mem_blk10 (t : Fin cfg10.N) (i : S40000x64.Idx) :
    i ∈ ((cfg10.win 6).blk t).view.set ↔ ∀ a : Fin 2, win10_6.index t a * S2000x64.size a ≤ (i a).val ∧ (i a).val < win10_6.index t a * S2000x64.size a + S2000x64.size a := by
  show i ∈ ((View.whole main_v181).slice (win10_6.rect t)).set ↔ _
  rw [View.set_slice_whole, Rect.mem_set_unit]
  exact Iff.rfl

/-- Row `r` is in the block of point `r / 2000`, which writes back: the 20 blocks cover the array. -/
theorem cover10 (i : S40000x64.Idx) :
    ∃ t : Fin cfg10.N, (cfg10.win 6).flush t = true ∧ i ∈ ((cfg10.win 6).blk t).view.set := by
  have hi0 : (i 0).val < 40000 := (i 0).isLt
  have hi1 : (i 1).val < 64 := (i 1).isLt
  obtain ⟨t, ht⟩ : ∃ t : Fin cfg10.N, t.val = (i 0).val / 2000 :=
    ⟨⟨(i 0).val / 2000, by show (i 0).val / 2000 < 20; omega⟩, rfl⟩
  obtain ⟨e0, e1, e2, e3, e4, e5, e6, e7, e8, e9, e10, e11, e12, e13⟩ := idx_facts10 t
  refine ⟨t, flush10_6 t, ?_⟩
  rw [mem_blk10]
  intro a
  match a with
  | ⟨0, _⟩ => show win10_6.index t (0 : Fin 2) * 2000 ≤ (i 0).val ∧ (i 0).val < win10_6.index t (0 : Fin 2) * 2000 + 2000; omega
  | ⟨1, _⟩ => show win10_6.index t (1 : Fin 2) * 64 ≤ (i 1).val ∧ (i 1).val < win10_6.index t (1 : Fin 2) * 64 + 64; omega

/-- The result array after the region is `G10` of the operand arrays as the region finds them. -/
theorem final10 (c : Dev nD) :
    (dat10 V c).arrAt 6 cfg10.N = G10 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) :=
  (dat10 V c).arrAt_eq_of_cover 6 (G10 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5))) (fun t _ => flushed10_eq V c t) (cover10)

/-- The result array at row `p`, column `q`, in the body's own order of operations, over whatever the operand arrays
    are known to hold when the region is entered. -/
theorem final_cb10 (c : Dev nD) (a : S40000x64.Idx → Elt Ideal .f32) (aw : S40000x64.Idx → Elt Ideal .f32) (ab : S1x64.Idx → Elt Ideal .f32) (b : S40000x64.Idx → Elt Ideal .f32) (bw : S40000x64.Idx → Elt Ideal .f32) (bb : S1x64.Idx → Elt Ideal .f32)
    (ha : V c (Pipeline.arrRef spec10 0) = a)
    (haw : V c (Pipeline.arrRef spec10 1) = aw)
    (hab : V c (Pipeline.arrRef spec10 2) = ab)
    (hb : V c (Pipeline.arrRef spec10 3) = b)
    (hbw : V c (Pipeline.arrRef spec10 4) = bw)
    (hbb : V c (Pipeline.arrRef spec10 5) = bb)
    (p : Fin 40000) (q : Fin 64) :
    (dat10 (F := Ideal) V c).arrAt 6 cfg10.N (ix2 p q)
      = (((((a (ix2 p q) + aw (ix2 p q)) + ab (ix2 0 q)) + b (ix2 p q)) + bw (ix2 p q)) + bb (ix2 0 q)) := by
  subst ha haw hab hb hbw hbb
  rw [final10]
  rfl

end Cert.KernelIdeal.Val

end
-- ==== Proof.KV.Cb11.lean ====
import proofs.«102211_j33681133535938_1_alg».proof.Proof.KI.R11
import proofs.«102211_j33681133535938_1_alg».proof.Proof.KV.PayA
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-! # Region 11: the three-operand combination of the third layer, as one array

Grid point `t` of 5 works on rows `3000 t … 3000 t + 2999` of every `[15000, 64]` operand and of the result, and on the
whole of each `[1, 64]` bias row. So what point `t` writes back is block `t` of ONE function of the operand arrays,
`G11`, and as the 5 blocks tile the `15000` rows the result array ends holding `G11` everywhere. -/

theorem hz11 : (![0, 0] : Fin 2 → Nat) = fun _ => 0 := funext fun a => by fin_cases a <;> rfl

/-- The index maps over the grid: a row-block window is at block `(t, 0)`, a bias row at block `(0, 0)`. -/
theorem idx_facts11 : ∀ t : Fin cfg11.N, win11_0.index t (0 : Fin 2) = t.val
    ∧ win11_0.index t (1 : Fin 2) = 0
    ∧ win11_1.index t (0 : Fin 2) = t.val
    ∧ win11_1.index t (1 : Fin 2) = 0
    ∧ win11_2.index t (0 : Fin 2) = 0
    ∧ win11_2.index t (1 : Fin 2) = 0
    ∧ win11_3.index t (0 : Fin 2) = t.val
    ∧ win11_3.index t (1 : Fin 2) = 0 :=
  (by decide +kernel : ∀ t : Fin grid11.N, _)

set_option maxHeartbeats 4000000 in
/-- What point `t` writes back is block `t` of `G11` of the arrays as the region finds them. -/
theorem flushed11_eq (c : Dev nD) (t : Fin cfg11.N) :
    (dat11 V c).flushed 3 t = ((cfg11.win 3).blk t).view.read (Elt Ideal) (G11 (V c (Pipeline.arrRef spec11 0)) (V c (Pipeline.arrRef spec11 1)) (V c (Pipeline.arrRef spec11 2))) := by
  show (cfg11.win 3).cut (grid11.coords t) ((dat11 V c).after 3 t) = _
  rw [after11_3]
  unfold out11_3
  rw [View.canon_unit_zero hz11]
  simp only [View.ld_unit_zero (S := S3000x64) hz11, View.ld_unit_zero (S := S1x64) hz11]
  obtain ⟨e0, e1, e2, e3, e4, e5, e6, e7⟩ := idx_facts11 t
  funext j
  show k11_pay1 (F := Ideal) (iblk11 V c 0 t) (iblk11 V c 1 t) (iblk11 V c 2 t) j = G11 (V c (Pipeline.arrRef spec11 0)) (V c (Pipeline.arrRef spec11 1)) (V c (Pipeline.arrRef spec11 2)) (((cfg11.win 3).blk t).view.emb j)
  refine cb11_point (V c (Pipeline.arrRef spec11 0)) (V c (Pipeline.arrRef spec11 1)) (V c (Pipeline.arrRef spec11 2)) (iblk11 V c 0 t) (iblk11 V c 1 t) (iblk11 V c 2 t) j (((cfg11.win 3).blk t).view.emb j) ?_ ?_ ?_
  · -- window 0: the block of rows at the point's place
    show (V c (Pipeline.arrRef spec11 0)) (((cfg11.win 0).blk t).view.emb j) = (V c (Pipeline.arrRef spec11 0)) (((cfg11.win 3).blk t).view.emb j)
    refine congrArg (V c (Pipeline.arrRef spec11 0)) (funext fun a => Fin.ext ?_)
    match a with
    | ⟨0, _⟩ => show win11_0.index t (0 : Fin 2) * 3000 + 1 * (j 0).val = win11_3.index t (0 : Fin 2) * 3000 + 1 * (j 0).val; omega
    | ⟨1, _⟩ => show win11_0.index t (1 : Fin 2) * 64 + 1 * (j 1).val = win11_3.index t (1 : Fin 2) * 64 + 1 * (j 1).val; omega
  · -- window 1: the block of rows at the point's place
    show (V c (Pipeline.arrRef spec11 1)) (((cfg11.win 1).blk t).view.emb j) = (V c (Pipeline.arrRef spec11 1)) (((cfg11.win 3).blk t).view.emb j)
    refine congrArg (V c (Pipeline.arrRef spec11 1)) (funext fun a => Fin.ext ?_)
    match a with
    | ⟨0, _⟩ => show win11_1.index t (0 : Fin 2) * 3000 + 1 * (j 0).val = win11_3.index t (0 : Fin 2) * 3000 + 1 * (j 0).val; omega
    | ⟨1, _⟩ => show win11_1.index t (1 : Fin 2) * 64 + 1 * (j 1).val = win11_3.index t (1 : Fin 2) * 64 + 1 * (j 1).val; omega
  · -- window 2: the bias row, whole at every point
    show (V c (Pipeline.arrRef spec11 2)) (((cfg11.win 2).blk t).view.emb (ix2 (n0 := 1) (n1 := 64) 0 (j 1))) = (V c (Pipeline.arrRef spec11 2)) (ix2 (n0 := 1) (n1 := 64) 0 ((((cfg11.win 3).blk t).view.emb j) 1))
    refine congrArg (V c (Pipeline.arrRef spec11 2)) (funext fun a => Fin.ext ?_)
    match a with
    | ⟨0, _⟩ => show win11_2.index t (0 : Fin 2) * 1 + 1 * 0 = 0; omega
    | ⟨1, _⟩ => show win11_2.index t (1 : Fin 2) * 64 + 1 * (j 1).val = win11_3.index t (1 : Fin 2) * 64 + 1 * (j 1).val; omega

/-- An index of the result array is in point `t`'s block iff each coordinate is in the block's range on its axis. -/
theorem mem_blk11 (t : Fin cfg11.N) (i : S15000x64.Idx) :
    i ∈ ((cfg11.win 3).blk t).view.set ↔ ∀ a : Fin 2, win11_3.index t a * S3000x64.size a ≤ (i a).val ∧ (i a).val < win11_3.index t a * S3000x64.size a + S3000x64.size a := by
  show i ∈ ((View.whole main_v183).slice (win11_3.rect t)).set ↔ _
  rw [View.set_slice_whole, Rect.mem_set_unit]
  exact Iff.rfl

/-- Row `r` is in the block of point `r / 3000`, which writes back: the 5 blocks cover the array. -/
theorem cover11 (i : S15000x64.Idx) :
    ∃ t : Fin cfg11.N, (cfg11.win 3).flush t = true ∧ i ∈ ((cfg11.win 3).blk t).view.set := by
  have hi0 : (i 0).val < 15000 := (i 0).isLt
  have hi1 : (i 1).val < 64 := (i 1).isLt
  obtain ⟨t, ht⟩ : ∃ t : Fin cfg11.N, t.val = (i 0).val / 3000 :=
    ⟨⟨(i 0).val / 3000, by show (i 0).val / 3000 < 5; omega⟩, rfl⟩
  obtain ⟨e0, e1, e2, e3, e4, e5, e6, e7⟩ := idx_facts11 t
  refine ⟨t, flush11_3 t, ?_⟩
  rw [mem_blk11]
  intro a
  match a with
  | ⟨0, _⟩ => show win11_3.index t (0 : Fin 2) * 3000 ≤ (i 0).val ∧ (i 0).val < win11_3.index t (0 : Fin 2) * 3000 + 3000; omega
  | ⟨1, _⟩ => show win11_3.index t (1 : Fin 2) * 64 ≤ (i 1).val ∧ (i 1).val < win11_3.index t (1 : Fin 2) * 64 + 64; omega

/-- The result array after the region is `G11` of the operand arrays as the region finds them. -/
theorem final11 (c : Dev nD) :
    (dat11 V c).arrAt 3 cfg11.N = G11 (V c (Pipeline.arrRef spec11 0)) (V c (Pipeline.arrRef spec11 1)) (V c (Pipeline.arrRef spec11 2)) :=
  (dat11 V c).arrAt_eq_of_cover 3 (G11 (V c (Pipeline.arrRef spec11 0)) (V c (Pipeline.arrRef spec11 1)) (V c (Pipeline.arrRef spec11 2))) (fun t _ => flushed11_eq V c t) (cover11)

/-- The result array at row `p`, column `q`, in the body's own order of operations, over whatever the operand arrays
    are known to hold when the region is entered. -/
theorem final_cb11 (c : Dev nD) (a : S15000x64.Idx → Elt Ideal .f32) (aw : S15000x64.Idx → Elt Ideal .f32) (ab : S1x64.Idx → Elt Ideal .f32)
    (ha : V c (Pipeline.arrRef spec11 0) = a)
    (haw : V c (Pipeline.arrRef spec11 1) = aw)
    (hab : V c (Pipeline.arrRef spec11 2) = ab)
    (p : Fin 15000) (q : Fin 64) :
    (dat11 (F := Ideal) V c).arrAt 3 cfg11.N (ix2 p q)
      = ((a (ix2 p q) + aw (ix2 p q)) + ab (ix2 0 q)) := by
  subst ha haw hab
  rw [final11]
  rfl

end Cert.KernelIdeal.Val

end
-- ==== Proof.KV.B3K.lean ====
import proofs.«102211_j33681133535938_1_alg».proof.Proof.KI.Vals
import proofs.«102211_j33681133535938_1_alg».proof.Proof.KV.HL3
import proofs.«102211_j33681133535938_1_alg».proof.Proof.KV.V8
import proofs.«102211_j33681133535938_1_alg».proof.Proof.KV.V9
import proofs.«102211_j33681133535938_1_alg».proof.Proof.KV.Cb10
import proofs.«102211_j33681133535938_1_alg».proof.Proof.KV.Cb11
import proofs.«102211_j33681133535938_1_alg».proof.Proof.LibMeanColumn
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic
import Idealize.ShloMosaic.Lib.ValueLayout

set_option maxRecDepth 16384

noncomputable section

open scoped BigOperators

namespace Cert.KernelIdeal.Val.L3

open Cert.KernelIdeal.Val

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Fr

/-! # Layer 3 on the kernel's side, entry by entry: the two product tables over the stacked weights, their column blocks, and the two combinations, over the second layer's results as whole arrays -/

variable (m : (ℓ : Loc nD τ sig) → Buf (Elt Ideal) ℓ) (outs : Outs (F := Ideal)) (c : Dev nD)

/-! ## The weight tables and the second layer's results where the two products read them -/

theorem arg20_at14 : (V14 m outs c main_arg20 : FVec Ideal S64x256 .f32) = (V0 m c main_arg20) :=
  (V14_of m outs c main_arg20 (by decide)).trans <| (V13_of m outs c main_arg20 (by decide)).trans <| (V12_of m outs c main_arg20 (by decide)).trans <| (V11_of m outs c main_arg20 (by decide)).trans <| (V10_of m outs c main_arg20 (by decide)).trans <| (V9_of m outs c main_arg20 (by decide)).trans <| (V8_of m outs c main_arg20 (by decide)).trans <| (V7_of m outs c main_arg20 (by decide)).trans <| (V6_of m outs c main_arg20 (by decide)).trans <| (V5_of m outs c main_arg20 (by decide)).trans <| (V4_of m outs c main_arg20 (by decide)).trans <| (V3_of m outs c main_arg20 (by decide)).trans <| (V2_of m outs c main_arg20 (by decide)).trans <| (V1_of m c main_arg20 (by decide)).trans <| rfl
theorem arg22_at14 : (V14 m outs c main_arg22 : FVec Ideal S64x256 .f32) = (V0 m c main_arg22) :=
  (V14_of m outs c main_arg22 (by decide)).trans <| (V13_of m outs c main_arg22 (by decide)).trans <| (V12_of m outs c main_arg22 (by decide)).trans <| (V11_of m outs c main_arg22 (by decide)).trans <| (V10_of m outs c main_arg22 (by decide)).trans <| (V9_of m outs c main_arg22 (by decide)).trans <| (V8_of m outs c main_arg22 (by decide)).trans <| (V7_of m outs c main_arg22 (by decide)).trans <| (V6_of m outs c main_arg22 (by decide)).trans <| (V5_of m outs c main_arg22 (by decide)).trans <| (V4_of m outs c main_arg22 (by decide)).trans <| (V3_of m outs c main_arg22 (by decide)).trans <| (V2_of m outs c main_arg22 (by decide)).trans <| (V1_of m c main_arg22 (by decide)).trans <| rfl
theorem arg23_at14 : (V14 m outs c main_arg23 : FVec Ideal S64x256 .f32) = (V0 m c main_arg23) :=
  (V14_of m outs c main_arg23 (by decide)).trans <| (V13_of m outs c main_arg23 (by decide)).trans <| (V12_of m outs c main_arg23 (by decide)).trans <| (V11_of m outs c main_arg23 (by decide)).trans <| (V10_of m outs c main_arg23 (by decide)).trans <| (V9_of m outs c main_arg23 (by decide)).trans <| (V8_of m outs c main_arg23 (by decide)).trans <| (V7_of m outs c main_arg23 (by decide)).trans <| (V6_of m outs c main_arg23 (by decide)).trans <| (V5_of m outs c main_arg23 (by decide)).trans <| (V4_of m outs c main_arg23 (by decide)).trans <| (V3_of m outs c main_arg23 (by decide)).trans <| (V2_of m outs c main_arg23 (by decide)).trans <| (V1_of m c main_arg23 (by decide)).trans <| rfl
theorem arg28_at14 : (V14 m outs c main_arg28 : FVec Ideal S64x256 .f32) = (V0 m c main_arg28) :=
  (V14_of m outs c main_arg28 (by decide)).trans <| (V13_of m outs c main_arg28 (by decide)).trans <| (V12_of m outs c main_arg28 (by decide)).trans <| (V11_of m outs c main_arg28 (by decide)).trans <| (V10_of m outs c main_arg28 (by decide)).trans <| (V9_of m outs c main_arg28 (by decide)).trans <| (V8_of m outs c main_arg28 (by decide)).trans <| (V7_of m outs c main_arg28 (by decide)).trans <| (V6_of m outs c main_arg28 (by decide)).trans <| (V5_of m outs c main_arg28 (by decide)).trans <| (V4_of m outs c main_arg28 (by decide)).trans <| (V3_of m outs c main_arg28 (by decide)).trans <| (V2_of m outs c main_arg28 (by decide)).trans <| (V1_of m c main_arg28 (by decide)).trans <| rfl
theorem arg26_at14 : (V14 m outs c main_arg26 : FVec Ideal S64x256 .f32) = (V0 m c main_arg26) :=
  (V14_of m outs c main_arg26 (by decide)).trans <| (V13_of m outs c main_arg26 (by decide)).trans <| (V12_of m outs c main_arg26 (by decide)).trans <| (V11_of m outs c main_arg26 (by decide)).trans <| (V10_of m outs c main_arg26 (by decide)).trans <| (V9_of m outs c main_arg26 (by decide)).trans <| (V8_of m outs c main_arg26 (by decide)).trans <| (V7_of m outs c main_arg26 (by decide)).trans <| (V6_of m outs c main_arg26 (by decide)).trans <| (V5_of m outs c main_arg26 (by decide)).trans <| (V4_of m outs c main_arg26 (by decide)).trans <| (V3_of m outs c main_arg26 (by decide)).trans <| (V2_of m outs c main_arg26 (by decide)).trans <| (V1_of m c main_arg26 (by decide)).trans <| rfl
theorem arg25_at14 : (V14 m outs c main_arg25 : FVec Ideal S64x256 .f32) = (V0 m c main_arg25) :=
  (V14_of m outs c main_arg25 (by decide)).trans <| (V13_of m outs c main_arg25 (by decide)).trans <| (V12_of m outs c main_arg25 (by decide)).trans <| (V11_of m outs c main_arg25 (by decide)).trans <| (V10_of m outs c main_arg25 (by decide)).trans <| (V9_of m outs c main_arg25 (by decide)).trans <| (V8_of m outs c main_arg25 (by decide)).trans <| (V7_of m outs c main_arg25 (by decide)).trans <| (V6_of m outs c main_arg25 (by decide)).trans <| (V5_of m outs c main_arg25 (by decide)).trans <| (V4_of m outs c main_arg25 (by decide)).trans <| (V3_of m outs c main_arg25 (by decide)).trans <| (V2_of m outs c main_arg25 (by decide)).trans <| (V1_of m c main_arg25 (by decide)).trans <| rfl

/-- The drug-side stack: the four tables that multiply the drug features, one above the other. -/
theorem stack_d : (V15 m outs c main_v133 : FVec Ideal S256x256 .f32) =
    concatenate S256x256 0 [⟨S64x256, V0 m c main_arg20⟩, ⟨S64x256, V0 m c main_arg22⟩, ⟨S64x256, V0 m c main_arg23⟩, ⟨S64x256, V0 m c main_arg28⟩] concatenates_S64x256_S64x256_S64x256_S64x256_S256x256_d0 := by
  rw [← arg20_at14 m outs c, ← arg22_at14 m outs c, ← arg23_at14 m outs c, ← arg28_at14 m outs c]; dsimp only [V15, hostOps8]; after_results; rfl
/-- The protein-side stack: the two tables that multiply the protein features. -/
theorem stack_p : (V16 m outs c main_v134 : FVec Ideal S128x256 .f32) =
    concatenate S128x256 0 [⟨S64x256, V0 m c main_arg26⟩, ⟨S64x256, V0 m c main_arg25⟩] concatenates_S64x256_S64x256_S128x256_d0 := by
  refine (V16_of m outs c main_v134 (by decide)).trans ?_
  rw [← arg26_at14 m outs c, ← arg25_at14 m outs c]; dsimp only [V15, hostOps8]; after_results
/-- The drug product's left operand is still the second layer's drug result. -/
theorem xd_at15 : (V15 m outs c main_v130 : FVec Ideal S40000x256 .f32) = V12 m outs c main_v130 :=
  (V15_of m outs c main_v130 (by decide)).trans <| (V14_of m outs c main_v130 (by decide)).trans <| V13_of m outs c main_v130 (by decide)
/-- The protein product's left operand is still the second layer's protein result. -/
theorem xp_at16 : (V16 m outs c main_v132 : FVec Ideal S15000x256 .f32) = V14 m outs c main_v132 :=
  (V16_of m outs c main_v132 (by decide)).trans <| V15_of m outs c main_v132 (by decide)

/-! ## The two product tables -/

/-- The drug product table: the second layer's drug result times the transposed drug-side stack. -/
theorem prod_d (h : Fr.OutsOk m outs) (XD : FVec Ideal S40000x256 .f32)
    (hd : (V12 m outs c main_v130 : FVec Ideal S40000x256 .f32) = XD) :
    (V17 m outs c main_v135 : FVec Ideal S40000x256 .f32) = mm8 XD (concatenate S256x256 0 [⟨S64x256, V0 m c main_arg20⟩, ⟨S64x256, V0 m c main_arg22⟩, ⟨S64x256, V0 m c main_arg23⟩, ⟨S64x256, V0 m c main_arg28⟩] concatenates_S64x256_S64x256_S64x256_S64x256_S256x256_d0) := by
  have e : (V16 m outs c main_v135 : FVec Ideal S40000x256 .f32) = outs 16 main_v135 c := Function.update_self _ _ _
  refine (V17_of m outs c main_v135 (by decide)).trans <| e.trans <| (h.h8 c).trans <| (final_arr8 (Vr (V15 m outs)) c).trans ?_
  show mm8 (V15 m outs c main_v130) (V15 m outs c main_v133) = _
  rw [stack_d m outs c, xd_at15 m outs c, hd]
/-- The protein product table: the second layer's protein result times the transposed protein-side stack. -/
theorem prod_p (h : Fr.OutsOk m outs) (XP : FVec Ideal S15000x256 .f32)
    (hp : (V14 m outs c main_v132 : FVec Ideal S15000x256 .f32) = XP) :
    (V17 m outs c main_v136 : FVec Ideal S15000x128 .f32) = mm9 XP (concatenate S128x256 0 [⟨S64x256, V0 m c main_arg26⟩, ⟨S64x256, V0 m c main_arg25⟩] concatenates_S64x256_S64x256_S128x256_d0) := by
  have e : (V17 m outs c main_v136 : FVec Ideal S15000x128 .f32) = outs 17 main_v136 c := Function.update_self _ _ _
  refine e.trans <| (h.h9 c).trans <| (final_arr9 (Vr (V16 m outs)) c).trans ?_
  show mm9 (V16 m outs c main_v132) (V16 m outs c main_v134) = _
  rw [stack_p m outs c, xp_at16 m outs c, hp]

/-! ## A stack's rows, a table's column blocks -/

section Blocks
variable (W0 W1 W2 W3 : FVec Ideal S64x256 .f32)
/-- Rows 0 … 63 of the drug-side stack are its table 0. -/
theorem stack_d_rows0 (q : Fin 64) (k : Fin 256) (r : Fin 256) (hr : r.val = 0 + q.val) :
    (concatenate S256x256 0 [⟨S64x256, W0⟩, ⟨S64x256, W1⟩, ⟨S64x256, W2⟩, ⟨S64x256, W3⟩] concatenates_S64x256_S64x256_S64x256_S64x256_S256x256_d0) (ix2 r k) = W0 (ix2 q k) :=
  concatenate_apply_piece (0 : Fin 2) _ _ (ix2 r k) 0 (by show (0 : ℕ) < 4; omega) S64x256 W0 rfl rfl 0 rfl (ix2 q k)
    (fun b hb => by
      match b with
      | ⟨0, _⟩ => exact absurd rfl hb
      | ⟨1, _⟩ => rfl)
    (by show 0 + q.val = r.val; omega)
/-- Rows 64 … 127 of the drug-side stack are its table 1. -/
theorem stack_d_rows1 (q : Fin 64) (k : Fin 256) (r : Fin 256) (hr : r.val = 64 + q.val) :
    (concatenate S256x256 0 [⟨S64x256, W0⟩, ⟨S64x256, W1⟩, ⟨S64x256, W2⟩, ⟨S64x256, W3⟩] concatenates_S64x256_S64x256_S64x256_S64x256_S256x256_d0) (ix2 r k) = W1 (ix2 q k) :=
  concatenate_apply_piece (0 : Fin 2) _ _ (ix2 r k) 1 (by show (1 : ℕ) < 4; omega) S64x256 W1 rfl rfl 64 rfl (ix2 q k)
    (fun b hb => by
      match b with
      | ⟨0, _⟩ => exact absurd rfl hb
      | ⟨1, _⟩ => rfl)
    (by show 64 + q.val = r.val; omega)
/-- Rows 128 … 191 of the drug-side stack are its table 2. -/
theorem stack_d_rows2 (q : Fin 64) (k : Fin 256) (r : Fin 256) (hr : r.val = 128 + q.val) :
    (concatenate S256x256 0 [⟨S64x256, W0⟩, ⟨S64x256, W1⟩, ⟨S64x256, W2⟩, ⟨S64x256, W3⟩] concatenates_S64x256_S64x256_S64x256_S64x256_S256x256_d0) (ix2 r k) = W2 (ix2 q k) :=
  concatenate_apply_piece (0 : Fin 2) _ _ (ix2 r k) 2 (by show (2 : ℕ) < 4; omega) S64x256 W2 rfl rfl 128 rfl (ix2 q k)
    (fun b hb => by
      match b with
      | ⟨0, _⟩ => exact absurd rfl hb
      | ⟨1, _⟩ => rfl)
    (by show 128 + q.val = r.val; omega)
/-- Rows 192 … 255 of the drug-side stack are its table 3. -/
theorem stack_d_rows3 (q : Fin 64) (k : Fin 256) (r : Fin 256) (hr : r.val = 192 + q.val) :
    (concatenate S256x256 0 [⟨S64x256, W0⟩, ⟨S64x256, W1⟩, ⟨S64x256, W2⟩, ⟨S64x256, W3⟩] concatenates_S64x256_S64x256_S64x256_S64x256_S256x256_d0) (ix2 r k) = W3 (ix2 q k) :=
  concatenate_apply_piece (0 : Fin 2) _ _ (ix2 r k) 3 (by show (3 : ℕ) < 4; omega) S64x256 W3 rfl rfl 192 rfl (ix2 q k)
    (fun b hb => by
      match b with
      | ⟨0, _⟩ => exact absurd rfl hb
      | ⟨1, _⟩ => rfl)
    (by show 192 + q.val = r.val; omega)
/-- Rows 0 … 63 of the protein-side stack are its table 0. -/
theorem stack_p_rows0 (q : Fin 64) (k : Fin 256) (r : Fin 128) (hr : r.val = 0 + q.val) :
    (concatenate S128x256 0 [⟨S64x256, W0⟩, ⟨S64x256, W1⟩] concatenates_S64x256_S64x256_S128x256_d0) (ix2 r k) = W0 (ix2 q k) :=
  concatenate_apply_piece (0 : Fin 2) _ _ (ix2 r k) 0 (by show (0 : ℕ) < 2; omega) S64x256 W0 rfl rfl 0 rfl (ix2 q k)
    (fun b hb => by
      match b with
      | ⟨0, _⟩ => exact absurd rfl hb
      | ⟨1, _⟩ => rfl)
    (by show 0 + q.val = r.val; omega)
/-- Rows 64 … 127 of the protein-side stack are its table 1. -/
theorem stack_p_rows1 (q : Fin 64) (k : Fin 256) (r : Fin 128) (hr : r.val = 64 + q.val) :
    (concatenate S128x256 0 [⟨S64x256, W0⟩, ⟨S64x256, W1⟩] concatenates_S64x256_S64x256_S128x256_d0) (ix2 r k) = W1 (ix2 q k) :=
  concatenate_apply_piece (0 : Fin 2) _ _ (ix2 r k) 1 (by show (1 : ℕ) < 2; omega) S64x256 W1 rfl rfl 64 rfl (ix2 q k)
    (fun b hb => by
      match b with
      | ⟨0, _⟩ => exact absurd rfl hb
      | ⟨1, _⟩ => rfl)
    (by show 64 + q.val = r.val; omega)

/-- Columns `off … off + 63` of a `[40000, 256]` table, as a slice: at `(p, q)` the table at `(p, off + q)`. -/
theorem cols_d (Y : FVec Ideal S40000x256 .f32) (off : ℕ) (h : S40000x256.Slices ![0, off] S40000x64) (p : Fin 40000) (q : Fin 64)
    (r : Fin 256) (hr : r.val = off + q.val) : extractStridedSlice S40000x64 ![0, off] Y h (ix2 p q) = Y (ix2 p r) :=
  extractStridedSlice_apply ![0, off] Y h (ix2 p q) (ix2 p r) fun ax => by
    match ax with
    | ⟨0, _⟩ => show p.val = 0 + p.val; omega
    | ⟨1, _⟩ => exact hr
/-- Columns `off … off + 63` of a `[15000, 128]` table, as a slice: at `(p, q)` the table at `(p, off + q)`. -/
theorem cols_p (Y : FVec Ideal S15000x128 .f32) (off : ℕ) (h : S15000x128.Slices ![0, off] S15000x64) (p : Fin 15000) (q : Fin 64)
    (r : Fin 128) (hr : r.val = off + q.val) : extractStridedSlice S15000x64 ![0, off] Y h (ix2 p q) = Y (ix2 p r) :=
  extractStridedSlice_apply ![0, off] Y h (ix2 p q) (ix2 p r) fun ax => by
    match ax with
    | ⟨0, _⟩ => show p.val = 0 + p.val; omega
    | ⟨1, _⟩ => exact hr

/-- Column block 0 of the drug product table at `(p, q)`: row `p` of the left operand against row `q` of table 0. -/
theorem block_d0 (XD : FVec Ideal S40000x256 .f32) (p : Fin 40000) (q : Fin 64) :
    extractStridedSlice S40000x64 ![0, 0] (mm8 XD (concatenate S256x256 0 [⟨S64x256, W0⟩, ⟨S64x256, W1⟩, ⟨S64x256, W2⟩, ⟨S64x256, W3⟩] concatenates_S64x256_S64x256_S64x256_S64x256_S256x256_d0)) slices_S40000x256_S40000x64_0_0 (ix2 p q)
      = ∑ k : Fin 256, XD (ix2 p k) * W0 (ix2 q k) := by
  rw [cols_d _ 0 slices_S40000x256_S40000x64_0_0 p q ⟨0 + q.val, by omega⟩ rfl]
  show ∑ k : Fin 256, XD (ix2 p k) * (concatenate S256x256 0 [⟨S64x256, W0⟩, ⟨S64x256, W1⟩, ⟨S64x256, W2⟩, ⟨S64x256, W3⟩] concatenates_S64x256_S64x256_S64x256_S64x256_S256x256_d0) (ix2 ⟨0 + q.val, by omega⟩ k) = _
  exact Finset.sum_congr rfl fun k _ => by rw [stack_d_rows0 W0 W1 W2 W3 q k _ rfl]
/-- Column block 1 of the drug product table at `(p, q)`: row `p` of the left operand against row `q` of table 1. -/
theorem block_d1 (XD : FVec Ideal S40000x256 .f32) (p : Fin 40000) (q : Fin 64) :
    extractStridedSlice S40000x64 ![0, 64] (mm8 XD (concatenate S256x256 0 [⟨S64x256, W0⟩, ⟨S64x256, W1⟩, ⟨S64x256, W2⟩, ⟨S64x256, W3⟩] concatenates_S64x256_S64x256_S64x256_S64x256_S256x256_d0)) slices_S40000x256_S40000x64_0_64 (ix2 p q)
      = ∑ k : Fin 256, XD (ix2 p k) * W1 (ix2 q k) := by
  rw [cols_d _ 64 slices_S40000x256_S40000x64_0_64 p q ⟨64 + q.val, by omega⟩ rfl]
  show ∑ k : Fin 256, XD (ix2 p k) * (concatenate S256x256 0 [⟨S64x256, W0⟩, ⟨S64x256, W1⟩, ⟨S64x256, W2⟩, ⟨S64x256, W3⟩] concatenates_S64x256_S64x256_S64x256_S64x256_S256x256_d0) (ix2 ⟨64 + q.val, by omega⟩ k) = _
  exact Finset.sum_congr rfl fun k _ => by rw [stack_d_rows1 W0 W1 W2 W3 q k _ rfl]
/-- Column block 2 of the drug product table at `(p, q)`: row `p` of the left operand against row `q` of table 2. -/
theorem block_d2 (XD : FVec Ideal S40000x256 .f32) (p : Fin 40000) (q : Fin 64) :
    extractStridedSlice S40000x64 ![0, 128] (mm8 XD (concatenate S256x256 0 [⟨S64x256, W0⟩, ⟨S64x256, W1⟩, ⟨S64x256, W2⟩, ⟨S64x256, W3⟩] concatenates_S64x256_S64x256_S64x256_S64x256_S256x256_d0)) slices_S40000x256_S40000x64_0_128 (ix2 p q)
      = ∑ k : Fin 256, XD (ix2 p k) * W2 (ix2 q k) := by
  rw [cols_d _ 128 slices_S40000x256_S40000x64_0_128 p q ⟨128 + q.val, by omega⟩ rfl]
  show ∑ k : Fin 256, XD (ix2 p k) * (concatenate S256x256 0 [⟨S64x256, W0⟩, ⟨S64x256, W1⟩, ⟨S64x256, W2⟩, ⟨S64x256, W3⟩] concatenates_S64x256_S64x256_S64x256_S64x256_S256x256_d0) (ix2 ⟨128 + q.val, by omega⟩ k) = _
  exact Finset.sum_congr rfl fun k _ => by rw [stack_d_rows2 W0 W1 W2 W3 q k _ rfl]
/-- Column block 3 of the drug product table at `(p, q)`: row `p` of the left operand against row `q` of table 3. -/
theorem block_d3 (XD : FVec Ideal S40000x256 .f32) (p : Fin 40000) (q : Fin 64) :
    extractStridedSlice S40000x64 ![0, 192] (mm8 XD (concatenate S256x256 0 [⟨S64x256, W0⟩, ⟨S64x256, W1⟩, ⟨S64x256, W2⟩, ⟨S64x256, W3⟩] concatenates_S64x256_S64x256_S64x256_S64x256_S256x256_d0)) slices_S40000x256_S40000x64_0_192 (ix2 p q)
      = ∑ k : Fin 256, XD (ix2 p k) * W3 (ix2 q k) := by
  rw [cols_d _ 192 slices_S40000x256_S40000x64_0_192 p q ⟨192 + q.val, by omega⟩ rfl]
  show ∑ k : Fin 256, XD (ix2 p k) * (concatenate S256x256 0 [⟨S64x256, W0⟩, ⟨S64x256, W1⟩, ⟨S64x256, W2⟩, ⟨S64x256, W3⟩] concatenates_S64x256_S64x256_S64x256_S64x256_S256x256_d0) (ix2 ⟨192 + q.val, by omega⟩ k) = _
  exact Finset.sum_congr rfl fun k _ => by rw [stack_d_rows3 W0 W1 W2 W3 q k _ rfl]
/-- Column block 0 of the protein product table at `(p, q)`: row `p` of the left operand against row `q` of table 0. -/
theorem block_p0 (XP : FVec Ideal S15000x256 .f32) (p : Fin 15000) (q : Fin 64) :
    extractStridedSlice S15000x64 ![0, 0] (mm9 XP (concatenate S128x256 0 [⟨S64x256, W0⟩, ⟨S64x256, W1⟩] concatenates_S64x256_S64x256_S128x256_d0)) slices_S15000x128_S15000x64_0_0 (ix2 p q)
      = ∑ k : Fin 256, XP (ix2 p k) * W0 (ix2 q k) := by
  rw [cols_p _ 0 slices_S15000x128_S15000x64_0_0 p q ⟨0 + q.val, by omega⟩ rfl]
  show ∑ k : Fin 256, XP (ix2 p k) * (concatenate S128x256 0 [⟨S64x256, W0⟩, ⟨S64x256, W1⟩] concatenates_S64x256_S64x256_S128x256_d0) (ix2 ⟨0 + q.val, by omega⟩ k) = _
  exact Finset.sum_congr rfl fun k _ => by rw [stack_p_rows0 W0 W1 q k _ rfl]
/-- Column block 1 of the protein product table at `(p, q)`: row `p` of the left operand against row `q` of table 1. -/
theorem block_p1 (XP : FVec Ideal S15000x256 .f32) (p : Fin 15000) (q : Fin 64) :
    extractStridedSlice S15000x64 ![0, 64] (mm9 XP (concatenate S128x256 0 [⟨S64x256, W0⟩, ⟨S64x256, W1⟩] concatenates_S64x256_S64x256_S128x256_d0)) slices_S15000x128_S15000x64_0_64 (ix2 p q)
      = ∑ k : Fin 256, XP (ix2 p k) * W1 (ix2 q k) := by
  rw [cols_p _ 64 slices_S15000x128_S15000x64_0_64 p q ⟨64 + q.val, by omega⟩ rfl]
  show ∑ k : Fin 256, XP (ix2 p k) * (concatenate S128x256 0 [⟨S64x256, W0⟩, ⟨S64x256, W1⟩] concatenates_S64x256_S64x256_S128x256_d0) (ix2 ⟨64 + q.val, by omega⟩ k) = _
  exact Finset.sum_congr rfl fun k _ => by rw [stack_p_rows1 W0 W1 q k _ rfl]
end Blocks

/-! ## The mean over the arriving edges, and a bias as a one-row table -/

/-- A table of sums times the repeated column of reciprocal counts, at `(p, q)`: the sum over the larger of the count and one. -/
theorem mean_d_apply (S : FVec Ideal S40000x64 .f32) (cnt : FVec Ideal S40000 .f32) (p : Fin 40000) (q : Fin 64) :
    meanD64 S (invCol40000 cnt) (ix2 p q) = Ideal.div (S (ix2 p q)) (max (cnt (ix1 p)) 1) := by
  unfold meanD64 invCol40000
  exact Cert.LibMeanColumn.mean_by_reciprocal_column_apply S cnt (constant (F := Ideal) S_ .f32 0x3F800000#32) Ideal.ofBits_one_f32
    bcast_S_S40000 bcast_S40000_S40000x1_0 bcast_S40000x1_S40000x64_0_1 p q
theorem mean_p_apply (S : FVec Ideal S15000x64 .f32) (cnt : FVec Ideal S15000 .f32) (p : Fin 15000) (q : Fin 64) :
    meanP64 S (invCol15000 cnt) (ix2 p q) = Ideal.div (S (ix2 p q)) (max (cnt (ix1 p)) 1) := by
  unfold meanP64 invCol15000
  exact Cert.LibMeanColumn.mean_by_reciprocal_column_apply S cnt (constant (F := Ideal) S_ .f32 0x3F800000#32) Ideal.ofBits_one_f32
    bcast_S_S15000 bcast_S15000_S15000x1_0 bcast_S15000x1_S15000x64_0_1 p q
/-- A bias vector reshaped to a one-row table holds, at `(0, q)`, its entry `q`. -/
theorem bias_row_apply (b : FVec Ideal S64 .f32) (q : Fin 64) :
    shapeCast S1x64 b shapeCasts_S64_S1x64 (ix2 (0 : Fin 1) q) = b (ix1 q) :=
  shapeCast_a_1a_apply b shapeCasts_S64_S1x64 0 q

/-! ## The two combinations -/

/-- The drug side of layer 3 at `(p, q)`, in the body's own order of additions. -/
theorem nd_kernel (h : Fr.OutsOk m outs) (XD : FVec Ideal S40000x256 .f32) (hd : (V12 m outs c main_v130 : FVec Ideal S40000x256 .f32) = XD)
    (XP : FVec Ideal S15000x256 .f32) (hp : (V14 m outs c main_v132 : FVec Ideal S15000x256 .f32) = XP) (p : Fin 40000) (q : Fin 64) :
    (V19 m outs c main_v181 : FVec Ideal S40000x64 .f32) (ix2 p q) =
      (((((Ideal.div (sumDdi64 (extractStridedSlice S40000x64 ![0, 0] (mm8 XD (concatenate S256x256 0 [⟨S64x256, V0 m c main_arg20⟩, ⟨S64x256, V0 m c main_arg22⟩, ⟨S64x256, V0 m c main_arg23⟩, ⟨S64x256, V0 m c main_arg28⟩] concatenates_S64x256_S64x256_S64x256_S64x256_S256x256_d0)) slices_S40000x256_S40000x64_0_0) (edgeRow0 (V0 m c main_arg29)) (edgeRow1 (V0 m c main_arg29)) (ix2 p q)) (max (cntDdi (V0 m c main_arg29) (ix1 p)) 1)
        + ∑ k : Fin 256, XD (ix2 p k) * (V0 m c main_arg22) (ix2 q k)) + (V0 m c main_arg21) (ix1 q))
        + Ideal.div (sumRev64 (extractStridedSlice S15000x64 ![0, 0] (mm9 XP (concatenate S128x256 0 [⟨S64x256, V0 m c main_arg26⟩, ⟨S64x256, V0 m c main_arg25⟩] concatenates_S64x256_S64x256_S128x256_d0)) slices_S15000x128_S15000x64_0_0) (V0 m c main_arg31) (V0 m c main_arg30) (ix2 p q)) (max (cntRev (V0 m c main_arg30) (ix1 p)) 1))
        + ∑ k : Fin 256, XD (ix2 p k) * (V0 m c main_arg28) (ix2 q k)) + (V0 m c main_arg27) (ix1 q)) := by
  have e : (V19 m outs c main_v181 : FVec Ideal S40000x64 .f32) = outs 19 main_v181 c := Function.update_self _ _ _
  rw [e, h.h10 c, final_cb10 (Vr (V18 m outs)) c _ _ _ _ _ _ (agg_ddi m outs c) (self_ddi m outs c) (bias_ddi m outs c) (agg_rev m outs c) (self_rev m outs c) (bias_rev m outs c) p q,
    prod_d m outs c h XD hd, prod_p m outs c h XP hp, mean_d_apply, mean_d_apply, block_d1, block_d3, bias_row_apply, bias_row_apply]

/-- The protein side of layer 3 at `(p, q)`, in the body's own order of additions. -/
theorem npo_kernel (h : Fr.OutsOk m outs) (XD : FVec Ideal S40000x256 .f32) (hd : (V12 m outs c main_v130 : FVec Ideal S40000x256 .f32) = XD)
    (XP : FVec Ideal S15000x256 .f32) (hp : (V14 m outs c main_v132 : FVec Ideal S15000x256 .f32) = XP) (p : Fin 15000) (q : Fin 64) :
    (V21 m outs c main_v183 : FVec Ideal S15000x64 .f32) (ix2 p q) =
      ((Ideal.div (sumTgt64 (extractStridedSlice S40000x64 ![0, 128] (mm8 XD (concatenate S256x256 0 [⟨S64x256, V0 m c main_arg20⟩, ⟨S64x256, V0 m c main_arg22⟩, ⟨S64x256, V0 m c main_arg23⟩, ⟨S64x256, V0 m c main_arg28⟩] concatenates_S64x256_S64x256_S64x256_S64x256_S256x256_d0)) slices_S40000x256_S40000x64_0_128) (V0 m c main_arg30) (V0 m c main_arg31) (ix2 p q)) (max (cntTgt (V0 m c main_arg31) (ix1 p)) 1)
        + ∑ k : Fin 256, XP (ix2 p k) * (V0 m c main_arg25) (ix2 q k)) + (V0 m c main_arg24) (ix1 q)) := by
  have e : (V21 m outs c main_v183 : FVec Ideal S15000x64 .f32) = outs 21 main_v183 c := Function.update_self _ _ _
  rw [e, h.h11 c, final_cb11 (Vr (V20 m outs)) c _ _ _ (agg_tgt m outs c) (self_tgt m outs c) (bias_tgt m outs c) p q,
    prod_d m outs c h XD hd, prod_p m outs c h XP hp, mean_p_apply, block_p1, bias_row_apply]

end Cert.KernelIdeal.Val.L3

end
-- ==== Proof.RV.L3.lean ====
import proofs.«102211_j33681133535938_1_alg».proof.Proof.RV.ReadP

noncomputable section

namespace Cert.ReferenceIdeal.RefVal

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-! # The reference's layer 3, entry by entry, over layer 2's two results as whole arrays -/

/-- The drug-to-drug messages before the gather: row `p` of the second layer's drug result against row `q` of the left weight. -/
theorem msg_ddi_3 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x17 : (⟨S256x256, .f32⟩ : BufTy).Contents (Elt Ideal)) (x18 : (⟨S256, .f32⟩ : BufTy).Contents (Elt Ideal)) (x19 : (⟨S256x256, .f32⟩ : BufTy).Contents (Elt Ideal)) (x20 : (⟨S64x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 40000) (q : Fin 64) :
    val_main_v173 (F := Ideal) x0 x1 x2 x3 x4 x5 x6 x7 x8 x9 x10 x11 x12 x13 x17 x18 x19 x20 x29 x30 x31 (ix2 p q) =
      ∑ k : Fin 256, val_main_v170 (F := Ideal) x0 x1 x2 x3 x4 x5 x6 x7 x8 x9 x10 x11 x12 x13 x17 x18 x19 x29 x30 x31 (ix2 p k) * x20 (ix2 q k) := by
  simp only [val_main_v173_apply, val_main_v172_apply, Ideal.addf_def, Ideal.maximumf_def, Ideal.hostDivf_def, Ideal.ofBits_def]
  have s0 : (∑ k : Fin 256, val_main_v170 (F := Ideal) x0 x1 x2 x3 x4 x5 x6 x7 x8 x9 x10 x11 x12 x13 x17 x18 x19 x29 x30 x31 (lidx_main_v173 (ix2 p q) k) * x20 (idx_main_v172 (ridx_main_v173 (ix2 p q) k))) = ∑ k : Fin 256, val_main_v170 (F := Ideal) x0 x1 x2 x3 x4 x5 x6 x7 x8 x9 x10 x11 x12 x13 x17 x18 x19 x29 x30 x31 (ix2 p k) * x20 (ix2 q k) :=
    Finset.sum_congr rfl fun k _ => congrArg₂ (· * ·) (congrArg (val_main_v170 (F := Ideal) x0 x1 x2 x3 x4 x5 x6 x7 x8 x9 x10 x11 x12 x13 x17 x18 x19 x29 x30 x31) (funext fun a => Fin.ext (by match a with | ⟨0, _⟩ => rfl | ⟨1, _⟩ => rfl) : lidx_main_v173 (ix2 p q) k = ix2 p k)) (congrArg (x20) (funext fun a => Fin.ext (by match a with | ⟨0, _⟩ => rfl | ⟨1, _⟩ => rfl) : idx_main_v172 (ridx_main_v173 (ix2 p q) k) = ix2 q k))
  rw [s0]

/-- The protein-to-drug messages before the gather: row `p` of the second layer's protein result against row `q` of the left weight. -/
theorem msg_rev_3 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x26 : (⟨S64x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 15000) (q : Fin 64) :
    val_main_v200 (F := Ideal) x0 x1 x2 x3 x4 x5 x6 x7 x8 x9 x10 x14 x15 x16 x26 x29 x30 x31 (ix2 p q) =
      ∑ k : Fin 256, val_main_v171 (F := Ideal) x0 x1 x2 x3 x4 x5 x6 x7 x8 x9 x10 x14 x15 x16 x29 x30 x31 (ix2 p k) * x26 (ix2 q k) := by
  simp only [val_main_v200_apply, val_main_v199_apply, Ideal.addf_def, Ideal.maximumf_def, Ideal.hostDivf_def, Ideal.ofBits_def]
  have s0 : (∑ k : Fin 256, val_main_v171 (F := Ideal) x0 x1 x2 x3 x4 x5 x6 x7 x8 x9 x10 x14 x15 x16 x29 x30 x31 (lidx_main_v200 (ix2 p q) k) * x26 (idx_main_v199 (ridx_main_v200 (ix2 p q) k))) = ∑ k : Fin 256, val_main_v171 (F := Ideal) x0 x1 x2 x3 x4 x5 x6 x7 x8 x9 x10 x14 x15 x16 x29 x30 x31 (ix2 p k) * x26 (ix2 q k) :=
    Finset.sum_congr rfl fun k _ => congrArg₂ (· * ·) (congrArg (val_main_v171 (F := Ideal) x0 x1 x2 x3 x4 x5 x6 x7 x8 x9 x10 x14 x15 x16 x29 x30 x31) (funext fun a => Fin.ext (by match a with | ⟨0, _⟩ => rfl | ⟨1, _⟩ => rfl) : lidx_main_v200 (ix2 p q) k = ix2 p k)) (congrArg (x26) (funext fun a => Fin.ext (by match a with | ⟨0, _⟩ => rfl | ⟨1, _⟩ => rfl) : idx_main_v199 (ridx_main_v200 (ix2 p q) k) = ix2 q k))
  rw [s0]

/-- The drug-to-protein messages before the gather: row `p` of the second layer's drug result against row `q` of the left weight. -/
theorem msg_tgt_3 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x17 : (⟨S256x256, .f32⟩ : BufTy).Contents (Elt Ideal)) (x18 : (⟨S256, .f32⟩ : BufTy).Contents (Elt Ideal)) (x19 : (⟨S256x256, .f32⟩ : BufTy).Contents (Elt Ideal)) (x23 : (⟨S64x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 40000) (q : Fin 64) :
    val_main_v228 (F := Ideal) x0 x1 x2 x3 x4 x5 x6 x7 x8 x9 x10 x11 x12 x13 x17 x18 x19 x23 x29 x30 x31 (ix2 p q) =
      ∑ k : Fin 256, val_main_v170 (F := Ideal) x0 x1 x2 x3 x4 x5 x6 x7 x8 x9 x10 x11 x12 x13 x17 x18 x19 x29 x30 x31 (ix2 p k) * x23 (ix2 q k) := by
  simp only [val_main_v228_apply, val_main_v227_apply, Ideal.addf_def, Ideal.maximumf_def, Ideal.hostDivf_def, Ideal.ofBits_def]
  have s0 : (∑ k : Fin 256, val_main_v170 (F := Ideal) x0 x1 x2 x3 x4 x5 x6 x7 x8 x9 x10 x11 x12 x13 x17 x18 x19 x29 x30 x31 (lidx_main_v228 (ix2 p q) k) * x23 (idx_main_v227 (ridx_main_v228 (ix2 p q) k))) = ∑ k : Fin 256, val_main_v170 (F := Ideal) x0 x1 x2 x3 x4 x5 x6 x7 x8 x9 x10 x11 x12 x13 x17 x18 x19 x29 x30 x31 (ix2 p k) * x23 (ix2 q k) :=
    Finset.sum_congr rfl fun k _ => congrArg₂ (· * ·) (congrArg (val_main_v170 (F := Ideal) x0 x1 x2 x3 x4 x5 x6 x7 x8 x9 x10 x11 x12 x13 x17 x18 x19 x29 x30 x31) (funext fun a => Fin.ext (by match a with | ⟨0, _⟩ => rfl | ⟨1, _⟩ => rfl) : lidx_main_v228 (ix2 p q) k = ix2 p k)) (congrArg (x23) (funext fun a => Fin.ext (by match a with | ⟨0, _⟩ => rfl | ⟨1, _⟩ => rfl) : idx_main_v227 (ridx_main_v228 (ix2 p q) k) = ix2 q k))
  rw [s0]

/-- The drug-to-drug contribution to the drug side at `(p, q)`: the scattered sum divided by the larger of the count and one, plus the bias, plus the root term `∑ₖ x(p,k)·W(q,k)` over the second layer's drug result. -/
theorem part_ddi_3 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x17 : (⟨S256x256, .f32⟩ : BufTy).Contents (Elt Ideal)) (x18 : (⟨S256, .f32⟩ : BufTy).Contents (Elt Ideal)) (x19 : (⟨S256x256, .f32⟩ : BufTy).Contents (Elt Ideal)) (x20 : (⟨S64x256, .f32⟩ : BufTy).Contents (Elt Ideal)) (x21 : (⟨S64, .f32⟩ : BufTy).Contents (Elt Ideal)) (x22 : (⟨S64x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 40000) (q : Fin 64) :
    val_main_v198 (F := Ideal) x0 x1 x2 x3 x4 x5 x6 x7 x8 x9 x10 x11 x12 x13 x17 x18 x19 x20 x21 x22 x29 x30 x31 (ix2 p q) =
      ((Ideal.div (val_main_v183 (F := Ideal) x0 x1 x2 x3 x4 x5 x6 x7 x8 x9 x10 x11 x12 x13 x17 x18 x19 x20 x29 x30 x31 (ix2 p q)) (max (val_main_v187 (F := Ideal) x29 (ix1 p)) (Ideal.ofBits .f32 0x3F800000#32)) + x21 (ix1 q)) + ∑ k : Fin 256, val_main_v170 (F := Ideal) x0 x1 x2 x3 x4 x5 x6 x7 x8 x9 x10 x11 x12 x13 x17 x18 x19 x29 x30 x31 (ix2 p k) * x22 (ix2 q k)) := by
  simp only [val_main_v198_apply, val_main_v195_apply, val_main_v192_apply, val_main_v191_apply, val_main_v190_apply, val_main_v189_apply, val_main_v188_apply, val_main_cst_39_apply, val_main_v194_apply, val_main_v193_apply, val_main_v197_apply, val_main_v196_apply, Ideal.addf_def, Ideal.maximumf_def, Ideal.hostDivf_def, Ideal.ofBits_def]
  have h0 : idx_main_v190 (idx_main_v191 (ix2 p q)) = ix1 p := funext fun a => Fin.ext (by match a with | ⟨0, _⟩ => rfl)
  have h1 : idx_main_v193 (idx_main_v194 (ix2 p q)) = ix1 q := funext fun a => Fin.ext (by match a with | ⟨0, _⟩ => rfl)
  have s0 : (∑ k : Fin 256, val_main_v170 (F := Ideal) x0 x1 x2 x3 x4 x5 x6 x7 x8 x9 x10 x11 x12 x13 x17 x18 x19 x29 x30 x31 (lidx_main_v197 (ix2 p q) k) * x22 (idx_main_v196 (ridx_main_v197 (ix2 p q) k))) = ∑ k : Fin 256, val_main_v170 (F := Ideal) x0 x1 x2 x3 x4 x5 x6 x7 x8 x9 x10 x11 x12 x13 x17 x18 x19 x29 x30 x31 (ix2 p k) * x22 (ix2 q k) :=
    Finset.sum_congr rfl fun k _ => congrArg₂ (· * ·) (congrArg (val_main_v170 (F := Ideal) x0 x1 x2 x3 x4 x5 x6 x7 x8 x9 x10 x11 x12 x13 x17 x18 x19 x29 x30 x31) (funext fun a => Fin.ext (by match a with | ⟨0, _⟩ => rfl | ⟨1, _⟩ => rfl) : lidx_main_v197 (ix2 p q) k = ix2 p k)) (congrArg (x22) (funext fun a => Fin.ext (by match a with | ⟨0, _⟩ => rfl | ⟨1, _⟩ => rfl) : idx_main_v196 (ridx_main_v197 (ix2 p q) k) = ix2 q k))
  rw [h0, h1, s0]

/-- The protein-to-drug contribution to the drug side at `(p, q)`: the scattered sum divided by the larger of the count and one, plus the bias, plus the root term over the second layer's drug result. -/
theorem part_rev_3 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256x256, .f32⟩ : BufTy).Contents (Elt Ideal)) (x18 : (⟨S256, .f32⟩ : BufTy).Contents (Elt Ideal)) (x19 : (⟨S256x256, .f32⟩ : BufTy).Contents (Elt Ideal)) (x26 : (⟨S64x256, .f32⟩ : BufTy).Contents (Elt Ideal)) (x27 : (⟨S64, .f32⟩ : BufTy).Contents (Elt Ideal)) (x28 : (⟨S64x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 40000) (q : Fin 64) :
    val_main_v225 (F := Ideal) x0 x1 x2 x3 x4 x5 x6 x7 x8 x9 x10 x11 x12 x13 x14 x15 x16 x17 x18 x19 x26 x27 x28 x29 x30 x31 (ix2 p q) =
      ((Ideal.div (val_main_v210 (F := Ideal) x0 x1 x2 x3 x4 x5 x6 x7 x8 x9 x10 x14 x15 x16 x26 x29 x30 x31 (ix2 p q)) (max (val_main_v214 (F := Ideal) x30 (ix1 p)) (Ideal.ofBits .f32 0x3F800000#32)) + x27 (ix1 q)) + ∑ k : Fin 256, val_main_v170 (F := Ideal) x0 x1 x2 x3 x4 x5 x6 x7 x8 x9 x10 x11 x12 x13 x17 x18 x19 x29 x30 x31 (ix2 p k) * x28 (ix2 q k)) := by
  simp only [val_main_v225_apply, val_main_v222_apply, val_main_v219_apply, val_main_v218_apply, val_main_v217_apply, val_main_v216_apply, val_main_v215_apply, val_main_cst_45_apply, val_main_v221_apply, val_main_v220_apply, val_main_v224_apply, val_main_v223_apply, Ideal.addf_def, Ideal.maximumf_def, Ideal.hostDivf_def, Ideal.ofBits_def]
  have h0 : idx_main_v217 (idx_main_v218 (ix2 p q)) = ix1 p := funext fun a => Fin.ext (by match a with | ⟨0, _⟩ => rfl)
  have h1 : idx_main_v220 (idx_main_v221 (ix2 p q)) = ix1 q := funext fun a => Fin.ext (by match a with | ⟨0, _⟩ => rfl)
  have s0 : (∑ k : Fin 256, val_main_v170 (F := Ideal) x0 x1 x2 x3 x4 x5 x6 x7 x8 x9 x10 x11 x12 x13 x17 x18 x19 x29 x30 x31 (lidx_main_v224 (ix2 p q) k) * x28 (idx_main_v223 (ridx_main_v224 (ix2 p q) k))) = ∑ k : Fin 256, val_main_v170 (F := Ideal) x0 x1 x2 x3 x4 x5 x6 x7 x8 x9 x10 x11 x12 x13 x17 x18 x19 x29 x30 x31 (ix2 p k) * x28 (ix2 q k) :=
    Finset.sum_congr rfl fun k _ => congrArg₂ (· * ·) (congrArg (val_main_v170 (F := Ideal) x0 x1 x2 x3 x4 x5 x6 x7 x8 x9 x10 x11 x12 x13 x17 x18 x19 x29 x30 x31) (funext fun a => Fin.ext (by match a with | ⟨0, _⟩ => rfl | ⟨1, _⟩ => rfl) : lidx_main_v224 (ix2 p q) k = ix2 p k)) (congrArg (x28) (funext fun a => Fin.ext (by match a with | ⟨0, _⟩ => rfl | ⟨1, _⟩ => rfl) : idx_main_v223 (ridx_main_v224 (ix2 p q) k) = ix2 q k))
  rw [h0, h1, s0]

/-- The drug side of layer 3 at `(p, q)`: the two edge types' contributions added (the last layer does not clamp). The scattered sums and the counts stay whole-array terms. -/
theorem ref_nd_3 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256x256, .f32⟩ : BufTy).Contents (Elt Ideal)) (x18 : (⟨S256, .f32⟩ : BufTy).Contents (Elt Ideal)) (x19 : (⟨S256x256, .f32⟩ : BufTy).Contents (Elt Ideal)) (x20 : (⟨S64x256, .f32⟩ : BufTy).Contents (Elt Ideal)) (x21 : (⟨S64, .f32⟩ : BufTy).Contents (Elt Ideal)) (x22 : (⟨S64x256, .f32⟩ : BufTy).Contents (Elt Ideal)) (x26 : (⟨S64x256, .f32⟩ : BufTy).Contents (Elt Ideal)) (x27 : (⟨S64, .f32⟩ : BufTy).Contents (Elt Ideal)) (x28 : (⟨S64x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 40000) (q : Fin 64) :
    val_main_v226 (F := Ideal) x0 x1 x2 x3 x4 x5 x6 x7 x8 x9 x10 x11 x12 x13 x14 x15 x16 x17 x18 x19 x20 x21 x22 x26 x27 x28 x29 x30 x31 (ix2 p q) =
      (((Ideal.div (val_main_v183 (F := Ideal) x0 x1 x2 x3 x4 x5 x6 x7 x8 x9 x10 x11 x12 x13 x17 x18 x19 x20 x29 x30 x31 (ix2 p q)) (max (val_main_v187 (F := Ideal) x29 (ix1 p)) (Ideal.ofBits .f32 0x3F800000#32)) + x21 (ix1 q)) + ∑ k : Fin 256, val_main_v170 (F := Ideal) x0 x1 x2 x3 x4 x5 x6 x7 x8 x9 x10 x11 x12 x13 x17 x18 x19 x29 x30 x31 (ix2 p k) * x22 (ix2 q k)) + ((Ideal.div (val_main_v210 (F := Ideal) x0 x1 x2 x3 x4 x5 x6 x7 x8 x9 x10 x14 x15 x16 x26 x29 x30 x31 (ix2 p q)) (max (val_main_v214 (F := Ideal) x30 (ix1 p)) (Ideal.ofBits .f32 0x3F800000#32)) + x27 (ix1 q)) + ∑ k : Fin 256, val_main_v170 (F := Ideal) x0 x1 x2 x3 x4 x5 x6 x7 x8 x9 x10 x11 x12 x13 x17 x18 x19 x29 x30 x31 (ix2 p k) * x28 (ix2 q k))) := by
  simp only [val_main_v226_apply, Ideal.addf_def, Ideal.maximumf_def, Ideal.ofBits_def]
  rw [part_ddi_3, part_rev_3]

/-- The protein side of layer 3 at `(p, q)`: the scattered sum divided by the larger of the count and one, plus the bias, plus the root term over the second layer's protein result (the last layer does not clamp). -/
theorem ref_npo_3 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256x256, .f32⟩ : BufTy).Contents (Elt Ideal)) (x18 : (⟨S256, .f32⟩ : BufTy).Contents (Elt Ideal)) (x19 : (⟨S256x256, .f32⟩ : BufTy).Contents (Elt Ideal)) (x23 : (⟨S64x256, .f32⟩ : BufTy).Contents (Elt Ideal)) (x24 : (⟨S64, .f32⟩ : BufTy).Contents (Elt Ideal)) (x25 : (⟨S64x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) (p : Fin 15000) (q : Fin 64) :
    val_main_v253 (F := Ideal) x0 x1 x2 x3 x4 x5 x6 x7 x8 x9 x10 x11 x12 x13 x14 x15 x16 x17 x18 x19 x23 x24 x25 x29 x30 x31 (ix2 p q) =
      ((Ideal.div (val_main_v238 (F := Ideal) x0 x1 x2 x3 x4 x5 x6 x7 x8 x9 x10 x11 x12 x13 x17 x18 x19 x23 x29 x30 x31 (ix2 p q)) (max (val_main_v242 (F := Ideal) x31 (ix1 p)) (Ideal.ofBits .f32 0x3F800000#32)) + x24 (ix1 q)) + ∑ k : Fin 256, val_main_v171 (F := Ideal) x0 x1 x2 x3 x4 x5 x6 x7 x8 x9 x10 x14 x15 x16 x29 x30 x31 (ix2 p k) * x25 (ix2 q k)) := by
  simp only [val_main_v253_apply, val_main_v250_apply, val_main_v247_apply, val_main_v246_apply, val_main_v245_apply, val_main_v244_apply, val_main_v243_apply, val_main_cst_51_apply, val_main_v249_apply, val_main_v248_apply, val_main_v252_apply, val_main_v251_apply, Ideal.addf_def, Ideal.maximumf_def, Ideal.hostDivf_def, Ideal.ofBits_def]
  have h0 : idx_main_v245 (idx_main_v246 (ix2 p q)) = ix1 p := funext fun a => Fin.ext (by match a with | ⟨0, _⟩ => rfl)
  have h1 : idx_main_v248 (idx_main_v249 (ix2 p q)) = ix1 q := funext fun a => Fin.ext (by match a with | ⟨0, _⟩ => rfl)
  have s0 : (∑ k : Fin 256, val_main_v171 (F := Ideal) x0 x1 x2 x3 x4 x5 x6 x7 x8 x9 x10 x14 x15 x16 x29 x30 x31 (lidx_main_v252 (ix2 p q) k) * x25 (idx_main_v251 (ridx_main_v252 (ix2 p q) k))) = ∑ k : Fin 256, val_main_v171 (F := Ideal) x0 x1 x2 x3 x4 x5 x6 x7 x8 x9 x10 x14 x15 x16 x29 x30 x31 (ix2 p k) * x25 (ix2 q k) :=
    Finset.sum_congr rfl fun k _ => congrArg₂ (· * ·) (congrArg (val_main_v171 (F := Ideal) x0 x1 x2 x3 x4 x5 x6 x7 x8 x9 x10 x14 x15 x16 x29 x30 x31) (funext fun a => Fin.ext (by match a with | ⟨0, _⟩ => rfl | ⟨1, _⟩ => rfl) : lidx_main_v252 (ix2 p q) k = ix2 p k)) (congrArg (x25) (funext fun a => Fin.ext (by match a with | ⟨0, _⟩ => rfl | ⟨1, _⟩ => rfl) : idx_main_v251 (ridx_main_v252 (ix2 p q) k) = ix2 q k))
  rw [h0, h1, s0]

end Cert.ReferenceIdeal.RefVal

end
-- ==== Proof.RV.Arrays.lean ====
import proofs.«102211_j33681133535938_1_alg».proof.Proof.RV.ReadP

noncomputable section

namespace Cert.ReferenceIdeal.RefVal

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-! # The reference's gathers, scatters and counts as whole-array terms. The gather and the scatter-add are not read at an index: each layer's aggregated messages are the scatter-add, into zeros at the edges' destination rows, of the rows of the per-node messages gathered at the edges' source rows. -/

/-- The drug-to-drug edges' source rows as the gather takes them: a negative entry is moved up by the number of rows, then one column is added. -/
theorem src_ddi (x29 : (⟨S2x600000, .i32⟩ : BufTy).Contents (Elt Ideal)) :
    val_main_v11 (F := Ideal) x29 = (broadcastInDim S600000x1 ![0] bcast_S600000_S600000x1_0 (select (cmpi .slt (shapeCast _ (extractStridedSlice S1x600000 ![0, 0] x29 slices_S2x600000_S1x600000_0_0) shapeCasts_S1x600000_S600000) (broadcastInDim S600000 ![] bcast_S_S600000 (constantI S_ 32 0#32))) (addi (shapeCast _ (extractStridedSlice S1x600000 ![0, 0] x29 slices_S2x600000_S1x600000_0_0) shapeCasts_S1x600000_S600000) (broadcastInDim S600000 ![] bcast_S_S600000 (constantI S_ 32 40000#32))) (shapeCast _ (extractStridedSlice S1x600000 ![0, 0] x29 slices_S2x600000_S1x600000_0_0) shapeCasts_S1x600000_S600000)) : (⟨S600000x1, .i32⟩ : BufTy).Contents (Elt Ideal)) := rfl

/-- The drug-to-drug edges' destination rows as the scatter-add takes them: one column added, nothing else. -/
theorem dst_ddi (x29 : (⟨S2x600000, .i32⟩ : BufTy).Contents (Elt Ideal)) :
    val_main_v14 (F := Ideal) x29 = (broadcastInDim S600000x1 ![0] bcast_S600000_S600000x1_0 (shapeCast _ (extractStridedSlice S1x600000 ![1, 0] x29 slices_S2x600000_S1x600000_1_0) shapeCasts_S1x600000_S600000) : (⟨S600000x1, .i32⟩ : BufTy).Contents (Elt Ideal)) := rfl

/-- How many drug-to-drug edges end at each row: ones scatter-added into zeros at the destination rows. -/
theorem cnt_ddi (x29 : (⟨S2x600000, .i32⟩ : BufTy).Contents (Elt Ideal)) :
    val_main_v19 (F := Ideal) x29 = (Host.scatterAdd scatter_S40000_S600000x1_S600000_n_0_0_1 (broadcastInDim S40000 ![] bcast_S_S40000 (constant (F := Ideal) S_ .f32 0x00000000#32)) (broadcastInDim S600000x1 ![0] bcast_S600000_S600000x1_0 (shapeCast _ (extractStridedSlice S1x600000 ![1, 0] x29 slices_S2x600000_S1x600000_1_0) shapeCasts_S1x600000_S600000)) (broadcastInDim S600000 ![] bcast_S_S600000 (constant (F := Ideal) S_ .f32 0x3F800000#32)) : FVec Ideal S40000 .f32) := rfl

/-- The protein-to-drug edges' source rows as the gather takes them: a negative entry is moved up by the number of rows, then one column is added. -/
theorem src_rev (x31 : (⟨S250000, .i32⟩ : BufTy).Contents (Elt Ideal)) :
    val_main_v38 (F := Ideal) x31 = (broadcastInDim S250000x1 ![0] bcast_S250000_S250000x1_0 (select (cmpi .slt x31 (broadcastInDim S250000 ![] bcast_S_S250000 (constantI S_ 32 0#32))) (addi x31 (broadcastInDim S250000 ![] bcast_S_S250000 (constantI S_ 32 15000#32))) x31) : (⟨S250000x1, .i32⟩ : BufTy).Contents (Elt Ideal)) := rfl

/-- The protein-to-drug edges' destination rows as the scatter-add takes them: one column added, nothing else. -/
theorem dst_rev (x30 : (⟨S250000, .i32⟩ : BufTy).Contents (Elt Ideal)) :
    val_main_v41 (F := Ideal) x30 = (broadcastInDim S250000x1 ![0] bcast_S250000_S250000x1_0 x30 : (⟨S250000x1, .i32⟩ : BufTy).Contents (Elt Ideal)) := rfl

/-- How many protein-to-drug edges end at each row: ones scatter-added into zeros at the destination rows. -/
theorem cnt_rev (x30 : (⟨S250000, .i32⟩ : BufTy).Contents (Elt Ideal)) :
    val_main_v46 (F := Ideal) x30 = (Host.scatterAdd scatter_S40000_S250000x1_S250000_n_0_0_1 (broadcastInDim S40000 ![] bcast_S_S40000 (constant (F := Ideal) S_ .f32 0x00000000#32)) (broadcastInDim S250000x1 ![0] bcast_S250000_S250000x1_0 x30) (broadcastInDim S250000 ![] bcast_S_S250000 (constant (F := Ideal) S_ .f32 0x3F800000#32)) : FVec Ideal S40000 .f32) := rfl

/-- The drug-to-protein edges' source rows as the gather takes them: a negative entry is moved up by the number of rows, then one column is added. -/
theorem src_tgt (x30 : (⟨S250000, .i32⟩ : BufTy).Contents (Elt Ideal)) :
    val_main_v66 (F := Ideal) x30 = (broadcastInDim S250000x1 ![0] bcast_S250000_S250000x1_0 (select (cmpi .slt x30 (broadcastInDim S250000 ![] bcast_S_S250000 (constantI S_ 32 0#32))) (addi x30 (broadcastInDim S250000 ![] bcast_S_S250000 (constantI S_ 32 40000#32))) x30) : (⟨S250000x1, .i32⟩ : BufTy).Contents (Elt Ideal)) := rfl

/-- The drug-to-protein edges' destination rows as the scatter-add takes them: one column added, nothing else. -/
theorem dst_tgt (x31 : (⟨S250000, .i32⟩ : BufTy).Contents (Elt Ideal)) :
    val_main_v69 (F := Ideal) x31 = (broadcastInDim S250000x1 ![0] bcast_S250000_S250000x1_0 x31 : (⟨S250000x1, .i32⟩ : BufTy).Contents (Elt Ideal)) := rfl

/-- How many drug-to-protein edges end at each row: ones scatter-added into zeros at the destination rows. -/
theorem cnt_tgt (x31 : (⟨S250000, .i32⟩ : BufTy).Contents (Elt Ideal)) :
    val_main_v74 (F := Ideal) x31 = (Host.scatterAdd scatter_S15000_S250000x1_S250000_n_0_0_1 (broadcastInDim S15000 ![] bcast_S_S15000 (constant (F := Ideal) S_ .f32 0x00000000#32)) (broadcastInDim S250000x1 ![0] bcast_S250000_S250000x1_0 x31) (broadcastInDim S250000 ![] bcast_S_S250000 (constant (F := Ideal) S_ .f32 0x3F800000#32)) : FVec Ideal S15000 .f32) := rfl

/-- Layer 1's aggregated drug-to-drug messages before the division by the count. -/
theorem agg_ddi_1 (x0 : (⟨S40000x980, .f32⟩ : BufTy).Contents (Elt Ideal)) (x2 : (⟨S256x980, .f32⟩ : BufTy).Contents (Elt Ideal)) (x29 : (⟨S2x600000, .i32⟩ : BufTy).Contents (Elt Ideal)) :
    val_main_v15 (F := Ideal) x0 x2 x29 = (Host.scatterAdd scatter_S40000x256_S600000x1_S600000x256_1_0_0_1 (val_main_v13 (F := Ideal)) (val_main_v14 (F := Ideal) x29) (Host.gather gather_S40000x256_S600000x1_S600000x256_1_0_n_n_0_1_1256 (val_main_v5 (F := Ideal) x0 x2) (val_main_v11 (F := Ideal) x29)) : FVec Ideal S40000x256 .f32) := rfl

/-- The array of zeros that scatter-add starts from. -/
theorem zeros_ddi_1 :
    val_main_v13 (F := Ideal) = (broadcastInDim S40000x256 ![] bcast_S_S40000x256 (constant (F := Ideal) S_ .f32 0x00000000#32) : FVec Ideal S40000x256 .f32) := rfl

/-- Layer 1's aggregated protein-to-drug messages before the division by the count. -/
theorem agg_rev_1 (x1 : (⟨S15000x5, .f32⟩ : BufTy).Contents (Elt Ideal)) (x8 : (⟨S256x5, .f32⟩ : BufTy).Contents (Elt Ideal)) (x30 : (⟨S250000, .i32⟩ : BufTy).Contents (Elt Ideal)) (x31 : (⟨S250000, .i32⟩ : BufTy).Contents (Elt Ideal)) :
    val_main_v42 (F := Ideal) x1 x8 x30 x31 = (Host.scatterAdd scatter_S40000x256_S250000x1_S250000x256_1_0_0_1 (val_main_v40 (F := Ideal)) (val_main_v41 (F := Ideal) x30) (Host.gather gather_S15000x256_S250000x1_S250000x256_1_0_n_n_0_1_1256 (val_main_v32 (F := Ideal) x1 x8) (val_main_v38 (F := Ideal) x31)) : FVec Ideal S40000x256 .f32) := rfl

/-- The array of zeros that scatter-add starts from. -/
theorem zeros_rev_1 :
    val_main_v40 (F := Ideal) = (broadcastInDim S40000x256 ![] bcast_S_S40000x256 (constant (F := Ideal) S_ .f32 0x00000000#32) : FVec Ideal S40000x256 .f32) := rfl

/-- Layer 1's aggregated drug-to-protein messages before the division by the count. -/
theorem agg_tgt_1 (x0 : (⟨S40000x980, .f32⟩ : BufTy).Contents (Elt Ideal)) (x5 : (⟨S256x980, .f32⟩ : BufTy).Contents (Elt Ideal)) (x30 : (⟨S250000, .i32⟩ : BufTy).Contents (Elt Ideal)) (x31 : (⟨S250000, .i32⟩ : BufTy).Contents (Elt Ideal)) :
    val_main_v70 (F := Ideal) x0 x5 x30 x31 = (Host.scatterAdd scatter_S15000x256_S250000x1_S250000x256_1_0_0_1 (val_main_v68 (F := Ideal)) (val_main_v69 (F := Ideal) x31) (Host.gather gather_S40000x256_S250000x1_S250000x256_1_0_n_n_0_1_1256 (val_main_v60 (F := Ideal) x0 x5) (val_main_v66 (F := Ideal) x30)) : FVec Ideal S15000x256 .f32) := rfl

/-- The array of zeros that scatter-add starts from. -/
theorem zeros_tgt_1 :
    val_main_v68 (F := Ideal) = (broadcastInDim S15000x256 ![] bcast_S_S15000x256 (constant (F := Ideal) S_ .f32 0x00000000#32) : FVec Ideal S15000x256 .f32) := rfl

/-- Layer 2's aggregated drug-to-drug messages before the division by the count. -/
theorem agg_ddi_2 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) :
    val_main_v99 (F := Ideal) x0 x1 x2 x3 x4 x8 x9 x10 x11 x29 x30 x31 = (Host.scatterAdd scatter_S40000x256_S600000x1_S600000x256_1_0_0_1 (val_main_v97 (F := Ideal)) (val_main_v98 (F := Ideal) x29) (Host.gather gather_S40000x256_S600000x1_S600000x256_1_0_n_n_0_1_1256 (val_main_v89 (F := Ideal) x0 x1 x2 x3 x4 x8 x9 x10 x11 x29 x30 x31) (val_main_v95 (F := Ideal) x29)) : FVec Ideal S40000x256 .f32) := rfl

/-- The array of zeros that scatter-add starts from. -/
theorem zeros_ddi_2 :
    val_main_v97 (F := Ideal) = (broadcastInDim S40000x256 ![] bcast_S_S40000x256 (constant (F := Ideal) S_ .f32 0x00000000#32) : FVec Ideal S40000x256 .f32) := rfl

/-- Layer 2 recomputes the source rows: the same term as layer 1's. -/
theorem src_ddi_2 (x29 : (⟨S2x600000, .i32⟩ : BufTy).Contents (Elt Ideal)) :
    val_main_v95 (F := Ideal) x29 = val_main_v11 (F := Ideal) x29 := rfl

/-- Layer 2 recomputes the destination rows: the same term as layer 1's. -/
theorem dst_ddi_2 (x29 : (⟨S2x600000, .i32⟩ : BufTy).Contents (Elt Ideal)) :
    val_main_v98 (F := Ideal) x29 = val_main_v14 (F := Ideal) x29 := rfl

/-- Layer 2 recomputes the counts: the same term as layer 1's. -/
theorem cnt_ddi_2 (x29 : (⟨S2x600000, .i32⟩ : BufTy).Contents (Elt Ideal)) :
    val_main_v103 (F := Ideal) x29 = val_main_v19 (F := Ideal) x29 := rfl

/-- Layer 2's aggregated protein-to-drug messages before the division by the count. -/
theorem agg_rev_2 (x0 : (⟨S40000x980, .f32⟩ : BufTy).Contents (Elt Ideal)) (x1 : (⟨S15000x5, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x17 : (⟨S256x256, .f32⟩ : BufTy).Contents (Elt Ideal)) (x30 : (⟨S250000, .i32⟩ : BufTy).Contents (Elt Ideal)) (x31 : (⟨S250000, .i32⟩ : BufTy).Contents (Elt Ideal)) :
    val_main_v126 (F := Ideal) x0 x1 x5 x6 x7 x17 x30 x31 = (Host.scatterAdd scatter_S40000x256_S250000x1_S250000x256_1_0_0_1 (val_main_v124 (F := Ideal)) (val_main_v125 (F := Ideal) x30) (Host.gather gather_S15000x256_S250000x1_S250000x256_1_0_n_n_0_1_1256 (val_main_v116 (F := Ideal) x0 x1 x5 x6 x7 x17 x30 x31) (val_main_v122 (F := Ideal) x31)) : FVec Ideal S40000x256 .f32) := rfl

/-- The array of zeros that scatter-add starts from. -/
theorem zeros_rev_2 :
    val_main_v124 (F := Ideal) = (broadcastInDim S40000x256 ![] bcast_S_S40000x256 (constant (F := Ideal) S_ .f32 0x00000000#32) : FVec Ideal S40000x256 .f32) := rfl

/-- Layer 2 recomputes the source rows: the same term as layer 1's. -/
theorem src_rev_2 (x31 : (⟨S250000, .i32⟩ : BufTy).Contents (Elt Ideal)) :
    val_main_v122 (F := Ideal) x31 = val_main_v38 (F := Ideal) x31 := rfl

/-- Layer 2 recomputes the destination rows: the same term as layer 1's. -/
theorem dst_rev_2 (x30 : (⟨S250000, .i32⟩ : BufTy).Contents (Elt Ideal)) :
    val_main_v125 (F := Ideal) x30 = val_main_v41 (F := Ideal) x30 := rfl

/-- Layer 2 recomputes the counts: the same term as layer 1's. -/
theorem cnt_rev_2 (x30 : (⟨S250000, .i32⟩ : BufTy).Contents (Elt Ideal)) :
    val_main_v130 (F := Ideal) x30 = val_main_v46 (F := Ideal) x30 := rfl

/-- Layer 2's aggregated drug-to-protein messages before the division by the count. -/
theorem agg_tgt_2 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x14 : (⟨S256x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) :
    val_main_v154 (F := Ideal) x0 x1 x2 x3 x4 x8 x9 x10 x14 x29 x30 x31 = (Host.scatterAdd scatter_S15000x256_S250000x1_S250000x256_1_0_0_1 (val_main_v152 (F := Ideal)) (val_main_v153 (F := Ideal) x31) (Host.gather gather_S40000x256_S250000x1_S250000x256_1_0_n_n_0_1_1256 (val_main_v144 (F := Ideal) x0 x1 x2 x3 x4 x8 x9 x10 x14 x29 x30 x31) (val_main_v150 (F := Ideal) x30)) : FVec Ideal S15000x256 .f32) := rfl

/-- The array of zeros that scatter-add starts from. -/
theorem zeros_tgt_2 :
    val_main_v152 (F := Ideal) = (broadcastInDim S15000x256 ![] bcast_S_S15000x256 (constant (F := Ideal) S_ .f32 0x00000000#32) : FVec Ideal S15000x256 .f32) := rfl

/-- Layer 2 recomputes the source rows: the same term as layer 1's. -/
theorem src_tgt_2 (x30 : (⟨S250000, .i32⟩ : BufTy).Contents (Elt Ideal)) :
    val_main_v150 (F := Ideal) x30 = val_main_v66 (F := Ideal) x30 := rfl

/-- Layer 2 recomputes the destination rows: the same term as layer 1's. -/
theorem dst_tgt_2 (x31 : (⟨S250000, .i32⟩ : BufTy).Contents (Elt Ideal)) :
    val_main_v153 (F := Ideal) x31 = val_main_v69 (F := Ideal) x31 := rfl

/-- Layer 2 recomputes the counts: the same term as layer 1's. -/
theorem cnt_tgt_2 (x31 : (⟨S250000, .i32⟩ : BufTy).Contents (Elt Ideal)) :
    val_main_v158 (F := Ideal) x31 = val_main_v74 (F := Ideal) x31 := rfl

/-- Layer 3's aggregated drug-to-drug messages before the division by the count. -/
theorem agg_ddi_3 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x17 : (⟨S256x256, .f32⟩ : BufTy).Contents (Elt Ideal)) (x18 : (⟨S256, .f32⟩ : BufTy).Contents (Elt Ideal)) (x19 : (⟨S256x256, .f32⟩ : BufTy).Contents (Elt Ideal)) (x20 : (⟨S64x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) :
    val_main_v183 (F := Ideal) x0 x1 x2 x3 x4 x5 x6 x7 x8 x9 x10 x11 x12 x13 x17 x18 x19 x20 x29 x30 x31 = (Host.scatterAdd scatter_S40000x64_S600000x1_S600000x64_1_0_0_1 (val_main_v181 (F := Ideal)) (val_main_v182 (F := Ideal) x29) (Host.gather gather_S40000x64_S600000x1_S600000x64_1_0_n_n_0_1_164 (val_main_v173 (F := Ideal) x0 x1 x2 x3 x4 x5 x6 x7 x8 x9 x10 x11 x12 x13 x17 x18 x19 x20 x29 x30 x31) (val_main_v179 (F := Ideal) x29)) : FVec Ideal S40000x64 .f32) := rfl

/-- The array of zeros that scatter-add starts from. -/
theorem zeros_ddi_3 :
    val_main_v181 (F := Ideal) = (broadcastInDim S40000x64 ![] bcast_S_S40000x64 (constant (F := Ideal) S_ .f32 0x00000000#32) : FVec Ideal S40000x64 .f32) := rfl

/-- Layer 3 recomputes the source rows: the same term as layer 1's. -/
theorem src_ddi_3 (x29 : (⟨S2x600000, .i32⟩ : BufTy).Contents (Elt Ideal)) :
    val_main_v179 (F := Ideal) x29 = val_main_v11 (F := Ideal) x29 := rfl

/-- Layer 3 recomputes the destination rows: the same term as layer 1's. -/
theorem dst_ddi_3 (x29 : (⟨S2x600000, .i32⟩ : BufTy).Contents (Elt Ideal)) :
    val_main_v182 (F := Ideal) x29 = val_main_v14 (F := Ideal) x29 := rfl

/-- Layer 3 recomputes the counts: the same term as layer 1's. -/
theorem cnt_ddi_3 (x29 : (⟨S2x600000, .i32⟩ : BufTy).Contents (Elt Ideal)) :
    val_main_v187 (F := Ideal) x29 = val_main_v19 (F := Ideal) x29 := rfl

/-- Layer 3's aggregated protein-to-drug messages before the division by the count. -/
theorem agg_rev_3 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x26 : (⟨S64x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) :
    val_main_v210 (F := Ideal) x0 x1 x2 x3 x4 x5 x6 x7 x8 x9 x10 x14 x15 x16 x26 x29 x30 x31 = (Host.scatterAdd scatter_S40000x64_S250000x1_S250000x64_1_0_0_1 (val_main_v208 (F := Ideal)) (val_main_v209 (F := Ideal) x30) (Host.gather gather_S15000x64_S250000x1_S250000x64_1_0_n_n_0_1_164 (val_main_v200 (F := Ideal) x0 x1 x2 x3 x4 x5 x6 x7 x8 x9 x10 x14 x15 x16 x26 x29 x30 x31) (val_main_v206 (F := Ideal) x31)) : FVec Ideal S40000x64 .f32) := rfl

/-- The array of zeros that scatter-add starts from. -/
theorem zeros_rev_3 :
    val_main_v208 (F := Ideal) = (broadcastInDim S40000x64 ![] bcast_S_S40000x64 (constant (F := Ideal) S_ .f32 0x00000000#32) : FVec Ideal S40000x64 .f32) := rfl

/-- Layer 3 recomputes the source rows: the same term as layer 1's. -/
theorem src_rev_3 (x31 : (⟨S250000, .i32⟩ : BufTy).Contents (Elt Ideal)) :
    val_main_v206 (F := Ideal) x31 = val_main_v38 (F := Ideal) x31 := rfl

/-- Layer 3 recomputes the destination rows: the same term as layer 1's. -/
theorem dst_rev_3 (x30 : (⟨S250000, .i32⟩ : BufTy).Contents (Elt Ideal)) :
    val_main_v209 (F := Ideal) x30 = val_main_v41 (F := Ideal) x30 := rfl

/-- Layer 3 recomputes the counts: the same term as layer 1's. -/
theorem cnt_rev_3 (x30 : (⟨S250000, .i32⟩ : BufTy).Contents (Elt Ideal)) :
    val_main_v214 (F := Ideal) x30 = val_main_v46 (F := Ideal) x30 := rfl

/-- Layer 3's aggregated drug-to-protein messages before the division by the count. -/
theorem agg_tgt_3 (x0 : (⟨S40000x980, .f32⟩ : BufTy).Contents (Elt Ideal)) (x1 : (⟨S15000x5, .f32⟩ : BufTy).Contents (Elt Ideal)) (x2 : (⟨S256x980, .f32⟩ : BufTy).Contents (Elt Ideal)) (x3 : (⟨S256, .f32⟩ : BufTy).Contents (Elt Ideal)) (x4 : (⟨S256x980, .f32⟩ : BufTy).Contents (Elt Ideal)) (x5 : (⟨S256x980, .f32⟩ : BufTy).Contents (Elt Ideal)) (x6 : (⟨S256, .f32⟩ : BufTy).Contents (Elt Ideal)) (x7 : (⟨S256x5, .f32⟩ : BufTy).Contents (Elt Ideal)) (x8 : (⟨S256x5, .f32⟩ : BufTy).Contents (Elt Ideal)) (x9 : (⟨S256, .f32⟩ : BufTy).Contents (Elt Ideal)) (x10 : (⟨S256x980, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x17 : (⟨S256x256, .f32⟩ : BufTy).Contents (Elt Ideal)) (x18 : (⟨S256, .f32⟩ : BufTy).Contents (Elt Ideal)) (x19 : (⟨S256x256, .f32⟩ : BufTy).Contents (Elt Ideal)) (x23 : (⟨S64x256, .f32⟩ : BufTy).Contents (Elt Ideal)) (x29 : (⟨S2x600000, .i32⟩ : BufTy).Contents (Elt Ideal)) (x30 : (⟨S250000, .i32⟩ : BufTy).Contents (Elt Ideal)) (x31 : (⟨S250000, .i32⟩ : BufTy).Contents (Elt Ideal)) :
    val_main_v238 (F := Ideal) x0 x1 x2 x3 x4 x5 x6 x7 x8 x9 x10 x11 x12 x13 x17 x18 x19 x23 x29 x30 x31 = (Host.scatterAdd scatter_S15000x64_S250000x1_S250000x64_1_0_0_1 (val_main_v236 (F := Ideal)) (val_main_v237 (F := Ideal) x31) (Host.gather gather_S40000x64_S250000x1_S250000x64_1_0_n_n_0_1_164 (val_main_v228 (F := Ideal) x0 x1 x2 x3 x4 x5 x6 x7 x8 x9 x10 x11 x12 x13 x17 x18 x19 x23 x29 x30 x31) (val_main_v234 (F := Ideal) x30)) : FVec Ideal S15000x64 .f32) := rfl

/-- The array of zeros that scatter-add starts from. -/
theorem zeros_tgt_3 :
    val_main_v236 (F := Ideal) = (broadcastInDim S15000x64 ![] bcast_S_S15000x64 (constant (F := Ideal) S_ .f32 0x00000000#32) : FVec Ideal S15000x64 .f32) := rfl

/-- Layer 3 recomputes the source rows: the same term as layer 1's. -/
theorem src_tgt_3 (x30 : (⟨S250000, .i32⟩ : BufTy).Contents (Elt Ideal)) :
    val_main_v234 (F := Ideal) x30 = val_main_v66 (F := Ideal) x30 := rfl

/-- Layer 3 recomputes the destination rows: the same term as layer 1's. -/
theorem dst_tgt_3 (x31 : (⟨S250000, .i32⟩ : BufTy).Contents (Elt Ideal)) :
    val_main_v237 (F := Ideal) x31 = val_main_v69 (F := Ideal) x31 := rfl

/-- Layer 3 recomputes the counts: the same term as layer 1's. -/
theorem cnt_tgt_3 (x31 : (⟨S250000, .i32⟩ : BufTy).Contents (Elt Ideal)) :
    val_main_v242 (F := Ideal) x31 = val_main_v74 (F := Ideal) x31 := rfl

end Cert.ReferenceIdeal.RefVal

end
-- ==== Proof.KV.Bridge3.lean ====
import proofs.«102211_j33681133535938_1_alg».proof.Proof.KV.B3K
import proofs.«102211_j33681133535938_1_alg».proof.Proof.RV.L3
import proofs.«102211_j33681133535938_1_alg».proof.Proof.RV.Arrays
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic

set_option maxRecDepth 16384

noncomputable section

open scoped BigOperators

namespace Cert.KernelIdeal.Val.L3

open Cert.KernelIdeal.Val

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Fr

/-! # Layer 3: the kernel's two results are the reference's, given that the second layer's are -/

variable (m : (ℓ : Loc nD τ sig) → Buf (Elt Ideal) ℓ) (outs : Outs (F := Ideal)) (c : Dev nD)

/-! ## The gathered message tables agree as whole arrays

Each is a column block of a product table on the kernel's side and a product with one transposed weight table on the
reference's: entry `(p, q)` is on both sides `∑ₖ x(p,k)·W(q,k)`. -/

theorem msg_ddi_eq : extractStridedSlice S40000x64 ![0, 0] (mm8 (Cert.ReferenceIdeal.Read.val_main_v170 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg17) (V0 m c main_arg18) (V0 m c main_arg19) (V0 m c main_arg29) (V0 m c main_arg30) (V0 m c main_arg31)) (concatenate S256x256 0 [⟨S64x256, V0 m c main_arg20⟩, ⟨S64x256, V0 m c main_arg22⟩, ⟨S64x256, V0 m c main_arg23⟩, ⟨S64x256, V0 m c main_arg28⟩] concatenates_S64x256_S64x256_S64x256_S64x256_S256x256_d0)) slices_S40000x256_S40000x64_0_0 = (Cert.ReferenceIdeal.Read.val_main_v173 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg17) (V0 m c main_arg18) (V0 m c main_arg19) (V0 m c main_arg20) (V0 m c main_arg29) (V0 m c main_arg30) (V0 m c main_arg31)) := by
  funext i
  obtain ⟨p, q, rfl⟩ : ∃ (p : Fin 40000) (q : Fin 64), i = ix2 p q := ⟨i 0, i 1, eq_ix2 i⟩
  exact (block_d0 _ _ _ _ _ p q).trans (Cert.ReferenceIdeal.RefVal.msg_ddi_3 _ _ _ _ _ _ _ _ _ _ _ _ _ _ _ _ _ _ _ _ _ p q).symm
theorem msg_tgt_eq : extractStridedSlice S40000x64 ![0, 128] (mm8 (Cert.ReferenceIdeal.Read.val_main_v170 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg17) (V0 m c main_arg18) (V0 m c main_arg19) (V0 m c main_arg29) (V0 m c main_arg30) (V0 m c main_arg31)) (concatenate S256x256 0 [⟨S64x256, V0 m c main_arg20⟩, ⟨S64x256, V0 m c main_arg22⟩, ⟨S64x256, V0 m c main_arg23⟩, ⟨S64x256, V0 m c main_arg28⟩] concatenates_S64x256_S64x256_S64x256_S64x256_S256x256_d0)) slices_S40000x256_S40000x64_0_128 = (Cert.ReferenceIdeal.Read.val_main_v228 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg17) (V0 m c main_arg18) (V0 m c main_arg19) (V0 m c main_arg23) (V0 m c main_arg29) (V0 m c main_arg30) (V0 m c main_arg31)) := by
  funext i
  obtain ⟨p, q, rfl⟩ : ∃ (p : Fin 40000) (q : Fin 64), i = ix2 p q := ⟨i 0, i 1, eq_ix2 i⟩
  exact (block_d2 _ _ _ _ _ p q).trans (Cert.ReferenceIdeal.RefVal.msg_tgt_3 _ _ _ _ _ _ _ _ _ _ _ _ _ _ _ _ _ _ _ _ _ p q).symm
theorem msg_rev_eq : extractStridedSlice S15000x64 ![0, 0] (mm9 (Cert.ReferenceIdeal.Read.val_main_v171 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg14) (V0 m c main_arg15) (V0 m c main_arg16) (V0 m c main_arg29) (V0 m c main_arg30) (V0 m c main_arg31)) (concatenate S128x256 0 [⟨S64x256, V0 m c main_arg26⟩, ⟨S64x256, V0 m c main_arg25⟩] concatenates_S64x256_S64x256_S128x256_d0)) slices_S15000x128_S15000x64_0_0 = (Cert.ReferenceIdeal.Read.val_main_v200 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg14) (V0 m c main_arg15) (V0 m c main_arg16) (V0 m c main_arg26) (V0 m c main_arg29) (V0 m c main_arg30) (V0 m c main_arg31)) := by
  funext i
  obtain ⟨p, q, rfl⟩ : ∃ (p : Fin 15000) (q : Fin 64), i = ix2 p q := ⟨i 0, i 1, eq_ix2 i⟩
  exact (block_p0 _ _ _ p q).trans (Cert.ReferenceIdeal.RefVal.msg_rev_3 _ _ _ _ _ _ _ _ _ _ _ _ _ _ _ _ _ _ p q).symm

/-! ## so the scattered sums agree, the gather and the scatter-add being the same operations at the same edge tables -/

theorem sum_ddi_eq : sumDdi64 (extractStridedSlice S40000x64 ![0, 0] (mm8 (Cert.ReferenceIdeal.Read.val_main_v170 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg17) (V0 m c main_arg18) (V0 m c main_arg19) (V0 m c main_arg29) (V0 m c main_arg30) (V0 m c main_arg31)) (concatenate S256x256 0 [⟨S64x256, V0 m c main_arg20⟩, ⟨S64x256, V0 m c main_arg22⟩, ⟨S64x256, V0 m c main_arg23⟩, ⟨S64x256, V0 m c main_arg28⟩] concatenates_S64x256_S64x256_S64x256_S64x256_S256x256_d0)) slices_S40000x256_S40000x64_0_0) (edgeRow0 (V0 m c main_arg29)) (edgeRow1 (V0 m c main_arg29)) = (Cert.ReferenceIdeal.Read.val_main_v183 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg17) (V0 m c main_arg18) (V0 m c main_arg19) (V0 m c main_arg20) (V0 m c main_arg29) (V0 m c main_arg30) (V0 m c main_arg31)) := by
  rw [msg_ddi_eq m c]; rfl
theorem sum_rev_eq : sumRev64 (extractStridedSlice S15000x64 ![0, 0] (mm9 (Cert.ReferenceIdeal.Read.val_main_v171 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg14) (V0 m c main_arg15) (V0 m c main_arg16) (V0 m c main_arg29) (V0 m c main_arg30) (V0 m c main_arg31)) (concatenate S128x256 0 [⟨S64x256, V0 m c main_arg26⟩, ⟨S64x256, V0 m c main_arg25⟩] concatenates_S64x256_S64x256_S128x256_d0)) slices_S15000x128_S15000x64_0_0) (V0 m c main_arg31) (V0 m c main_arg30) = (Cert.ReferenceIdeal.Read.val_main_v210 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg14) (V0 m c main_arg15) (V0 m c main_arg16) (V0 m c main_arg26) (V0 m c main_arg29) (V0 m c main_arg30) (V0 m c main_arg31)) := by
  rw [msg_rev_eq m c]; rfl
theorem sum_tgt_eq : sumTgt64 (extractStridedSlice S40000x64 ![0, 128] (mm8 (Cert.ReferenceIdeal.Read.val_main_v170 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg17) (V0 m c main_arg18) (V0 m c main_arg19) (V0 m c main_arg29) (V0 m c main_arg30) (V0 m c main_arg31)) (concatenate S256x256 0 [⟨S64x256, V0 m c main_arg20⟩, ⟨S64x256, V0 m c main_arg22⟩, ⟨S64x256, V0 m c main_arg23⟩, ⟨S64x256, V0 m c main_arg28⟩] concatenates_S64x256_S64x256_S64x256_S64x256_S256x256_d0)) slices_S40000x256_S40000x64_0_128) (V0 m c main_arg30) (V0 m c main_arg31) = (Cert.ReferenceIdeal.Read.val_main_v238 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg17) (V0 m c main_arg18) (V0 m c main_arg19) (V0 m c main_arg23) (V0 m c main_arg29) (V0 m c main_arg30) (V0 m c main_arg31)) := by
  rw [msg_tgt_eq m c]; rfl
/-- The edge counts are the same scatter-adds of ones. -/
theorem cnt_ddi_eq : cntDdi (V0 m c main_arg29) = (Cert.ReferenceIdeal.Read.val_main_v187 (F := Ideal) (V0 m c main_arg29)) := rfl
theorem cnt_rev_eq : cntRev (V0 m c main_arg30) = (Cert.ReferenceIdeal.Read.val_main_v214 (F := Ideal) (V0 m c main_arg30)) := rfl
theorem cnt_tgt_eq : cntTgt (V0 m c main_arg31) = (Cert.ReferenceIdeal.Read.val_main_v242 (F := Ideal) (V0 m c main_arg31)) := rfl

/-! ## Two laws of sums: the body adds its terms left to right, the reference per edge type -/

theorem three_sum (a aw ab : EReal) : ((a + aw) + ab) = ((a + ab) + aw) := add_right_comm a aw ab
theorem six_sum (a aw ab b bw bb : EReal) :
    (((((a + aw) + ab) + b) + bw) + bb) = ((a + ab) + aw) + ((b + bb) + bw) := by
  rw [add_right_comm a aw ab, add_right_comm (a + ab + aw + b) bw bb, add_assoc (a + ab + aw) b bb,
    add_assoc (a + ab + aw) (b + bb) bw]

/-! ## The two results -/

/-- The drug side: the kernel adds mean, root term and bias per edge type in turn, the reference adds the two edge types'
    subtotals; addition of extended reals is commutative and associative. -/
theorem nd_eq (h : Fr.OutsOk m outs)
    (hd : (V12 m outs c main_v130 : FVec Ideal S40000x256 .f32) = (Cert.ReferenceIdeal.Read.val_main_v170 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg17) (V0 m c main_arg18) (V0 m c main_arg19) (V0 m c main_arg29) (V0 m c main_arg30) (V0 m c main_arg31)))
    (hp : (V14 m outs c main_v132 : FVec Ideal S15000x256 .f32) = (Cert.ReferenceIdeal.Read.val_main_v171 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg14) (V0 m c main_arg15) (V0 m c main_arg16) (V0 m c main_arg29) (V0 m c main_arg30) (V0 m c main_arg31))) :
    (V19 m outs c main_v181 : FVec Ideal S40000x64 .f32) = (Cert.ReferenceIdeal.Read.val_main_v226 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) (V0 m c main_arg15) (V0 m c main_arg16) (V0 m c main_arg17) (V0 m c main_arg18) (V0 m c main_arg19) (V0 m c main_arg20) (V0 m c main_arg21) (V0 m c main_arg22) (V0 m c main_arg26) (V0 m c main_arg27) (V0 m c main_arg28) (V0 m c main_arg29) (V0 m c main_arg30) (V0 m c main_arg31)) := by
  funext i
  obtain ⟨p, q, rfl⟩ : ∃ (p : Fin 40000) (q : Fin 64), i = ix2 p q := ⟨i 0, i 1, eq_ix2 i⟩
  rw [nd_kernel m outs c h _ hd _ hp p q, Cert.ReferenceIdeal.RefVal.ref_nd_3, sum_ddi_eq m c, sum_rev_eq m c, cnt_ddi_eq m c, cnt_rev_eq m c,
    Ideal.ofBits_one_f32]
  exact six_sum _ _ _ _ _ _

/-- The protein side. -/
theorem npo_eq (h : Fr.OutsOk m outs)
    (hd : (V12 m outs c main_v130 : FVec Ideal S40000x256 .f32) = (Cert.ReferenceIdeal.Read.val_main_v170 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg17) (V0 m c main_arg18) (V0 m c main_arg19) (V0 m c main_arg29) (V0 m c main_arg30) (V0 m c main_arg31)))
    (hp : (V14 m outs c main_v132 : FVec Ideal S15000x256 .f32) = (Cert.ReferenceIdeal.Read.val_main_v171 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg14) (V0 m c main_arg15) (V0 m c main_arg16) (V0 m c main_arg29) (V0 m c main_arg30) (V0 m c main_arg31))) :
    (V21 m outs c main_v183 : FVec Ideal S15000x64 .f32) = (Cert.ReferenceIdeal.Read.val_main_v253 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) (V0 m c main_arg15) (V0 m c main_arg16) (V0 m c main_arg17) (V0 m c main_arg18) (V0 m c main_arg19) (V0 m c main_arg23) (V0 m c main_arg24) (V0 m c main_arg25) (V0 m c main_arg29) (V0 m c main_arg30) (V0 m c main_arg31)) := by
  funext i
  obtain ⟨p, q, rfl⟩ : ∃ (p : Fin 15000) (q : Fin 64), i = ix2 p q := ⟨i 0, i 1, eq_ix2 i⟩
  rw [npo_kernel m outs c h _ hd _ hp p q, Cert.ReferenceIdeal.RefVal.ref_npo_3, sum_tgt_eq m c, cnt_tgt_eq m c, Ideal.ofBits_one_f32]
  exact three_sum _ _ _

end Cert.KernelIdeal.Val.L3

end
-- ==== Proof.KV.Top.lean ====
import proofs.«102211_j33681133535938_1_alg».proof.Proof.KV.Bridge1
import proofs.«102211_j33681133535938_1_alg».proof.Proof.KV.Bridge2
import proofs.«102211_j33681133535938_1_alg».proof.Proof.KV.Bridge3
import proofs.«102211_j33681133535938_1_alg».proof.Proof.KI.Outs

set_option maxRecDepth 16384

noncomputable section

namespace Cert.KernelIdeal.Val

open Idealize.ShloMosaic Idealize.ShloMosaic.TcCoe Idealize.ShloMosaic.Tactic
open Idealize.SL Idealize.SL.Sem
open Cert.KernelIdeal Cert.KernelIdeal.Gen

open Cert.KernelIdeal.Fr
open Cert.ReferenceIdeal (main_v226)

/-! # The kernel's two results are the reference's

Layer by layer: the first layer's two tables are the reference's from the arguments; the second layer's from the
first's; the third's from the second's. The third layer's tables are the program's results: the protein table is
written by the last region, the drug table two items earlier and left alone since. -/

variable (m : (ℓ : Loc nD τ sig) → Buf (Elt Ideal) ℓ) (c : Dev nD)

theorem results_eq :
    (V21 m (outs m) c main_v181 : FVec Ideal S40000x64 .f32) = Cert.ReferenceIdeal.Read.val_main_v226 (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) (V0 m c main_arg15) (V0 m c main_arg16) (V0 m c main_arg17) (V0 m c main_arg18) (V0 m c main_arg19) (V0 m c main_arg20) (V0 m c main_arg21) (V0 m c main_arg22) (V0 m c main_arg26) (V0 m c main_arg27) (V0 m c main_arg28) (V0 m c main_arg29) (V0 m c main_arg30) (V0 m c main_arg31)
    ∧ (V21 m (outs m) c main_v183 : FVec Ideal S15000x64 .f32) = Cert.ReferenceIdeal.Read.val_main_v253 (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) (V0 m c main_arg15) (V0 m c main_arg16) (V0 m c main_arg17) (V0 m c main_arg18) (V0 m c main_arg19) (V0 m c main_arg23) (V0 m c main_arg24) (V0 m c main_arg25) (V0 m c main_arg29) (V0 m c main_arg30) (V0 m c main_arg31) := by
  have h := outsOk m
  have d1 := L1.nd_eq m (outs m) c h
  have p1 := L1.npo_eq m (outs m) c h
  have d2 := L2.nd_eq m (outs m) c h d1 p1
  have p2 := L2.npo_eq m (outs m) c h d1 p1
  have d3 := L3.nd_eq m (outs m) c h d2 p2
  have p3 := L3.npo_eq m (outs m) c h d2 p2
  exact ⟨((V21_of m (outs m) c main_v181 (by decide)).trans (V20_of m (outs m) c main_v181 (by decide))).trans d3, p3⟩

end Cert.KernelIdeal.Val

end
-- ==== Proof.lean ====
/- The proof of the certificate's claim.

   The program is a three-layer message-passing network over two node types (drugs, proteins) and three relations. Each
   layer computes, per relation, the mean over a node's arriving edges of a linear image of the source nodes' features,
   adds a bias and a linear image of the node's own features, sums the relations arriving at the node type, and (in the
   first two layers) clamps at zero. The kernel applies each layer's linear maps once per node, with the weight tables
   stacked by rows (two row-blocked matrix products), gathers and scatter-adds the narrow images on the host, multiplies
   by the reciprocal edge counts computed once, and combines the terms in two row-blocked pointwise regions. The reference
   applies one product per relation and divides by the counts.

   On the extended reals the two agree entry by entry: a column block of a product against row-stacked tables is the
   product against one table; off zero a quotient is the product with the inverse, and `max(count, 1)` is not zero;
   sums commute and associate. No finiteness of the inputs is used.

   The frames: each of the twelve regions runs its body once per grid point on whole staging buffers; the regions and
   the host stretches between them chain from the launch to the return; no item writes an argument. -/
import proofs.«102211_j33681133535938_1_alg».proof.Defs
import proofs.«102211_j33681133535938_1_alg».proof.Proof.Gen.Kernel
import proofs.«102211_j33681133535938_1_alg».proof.Proof.Gen.KernelIdeal
import proofs.«102211_j33681133535938_1_alg».proof.Proof.Gen.ReferenceIdeal
import proofs.«102211_j33681133535938_1_alg».proof.Proof.Gen.Pre_finite_inputs
import proofs.«102211_j33681133535938_1_alg».proof.Proof.KB.Frames
import proofs.«102211_j33681133535938_1_alg».proof.Proof.KI.Frames
import proofs.«102211_j33681133535938_1_alg».proof.Proof.KV.Top
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
/-- The reference has no region: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)
/-- The idealization rewrote nothing. -/
theorem preserves : Cert.preserves_Kernel_KernelIdeal := trivial

/-- Both programs run; the kernel's two result arrays are the last valuation at its result buffers, and the reference's
    are its stages' terms of arguments that agree with the kernel's: the same arrays. -/
theorem algebraic : Cert.algebraic_KernelIdeal_ReferenceIdeal := by
  intro m ρ m' ρ' _ hagree
  refine ⟨fun c => Cert.KernelIdeal.Gen.V21 m (Cert.KernelIdeal.Fr.outs m) c Cert.KernelIdeal.main_v181,
    fun c => Cert.KernelIdeal.Gen.V21 m (Cert.KernelIdeal.Fr.outs m) c Cert.KernelIdeal.main_v183, ?_, ?_⟩
  · exact (θ_run Cert.KernelIdeal.defs _ _).mono (fun r h c =>
      ⟨h c _ (Cert.KernelIdeal.Fr.mem_uc Cert.KernelIdeal.main_v181 (by decide)),
       h c _ (Cert.KernelIdeal.Fr.mem_uc Cert.KernelIdeal.main_v183 (by decide)),
       (h c _ (Cert.KernelIdeal.Fr.mem_uc Cert.KernelIdeal.main_arg0 (by decide))).trans (Cert.KernelIdeal.Gen.V21_main_arg0 m (Cert.KernelIdeal.Fr.outs m) c),
       (h c _ (Cert.KernelIdeal.Fr.mem_uc Cert.KernelIdeal.main_arg1 (by decide))).trans (Cert.KernelIdeal.Gen.V21_main_arg1 m (Cert.KernelIdeal.Fr.outs m) c),
       (h c _ (Cert.KernelIdeal.Fr.mem_uc Cert.KernelIdeal.main_arg2 (by decide))).trans (Cert.KernelIdeal.Gen.V21_main_arg2 m (Cert.KernelIdeal.Fr.outs m) c),
       (h c _ (Cert.KernelIdeal.Fr.mem_uc Cert.KernelIdeal.main_arg3 (by decide))).trans (Cert.KernelIdeal.Gen.V21_main_arg3 m (Cert.KernelIdeal.Fr.outs m) c),
       (h c _ (Cert.KernelIdeal.Fr.mem_uc Cert.KernelIdeal.main_arg4 (by decide))).trans (Cert.KernelIdeal.Gen.V21_main_arg4 m (Cert.KernelIdeal.Fr.outs m) c),
       (h c _ (Cert.KernelIdeal.Fr.mem_uc Cert.KernelIdeal.main_arg5 (by decide))).trans (Cert.KernelIdeal.Gen.V21_main_arg5 m (Cert.KernelIdeal.Fr.outs m) c),
       (h c _ (Cert.KernelIdeal.Fr.mem_uc Cert.KernelIdeal.main_arg6 (by decide))).trans (Cert.KernelIdeal.Gen.V21_main_arg6 m (Cert.KernelIdeal.Fr.outs m) c),
       (h c _ (Cert.KernelIdeal.Fr.mem_uc Cert.KernelIdeal.main_arg7 (by decide))).trans (Cert.KernelIdeal.Gen.V21_main_arg7 m (Cert.KernelIdeal.Fr.outs m) c),
       (h c _ (Cert.KernelIdeal.Fr.mem_uc Cert.KernelIdeal.main_arg8 (by decide))).trans (Cert.KernelIdeal.Gen.V21_main_arg8 m (Cert.KernelIdeal.Fr.outs m) c),
       (h c _ (Cert.KernelIdeal.Fr.mem_uc Cert.KernelIdeal.main_arg9 (by decide))).trans (Cert.KernelIdeal.Gen.V21_main_arg9 m (Cert.KernelIdeal.Fr.outs m) c),
       (h c _ (Cert.KernelIdeal.Fr.mem_uc Cert.KernelIdeal.main_arg10 (by decide))).trans (Cert.KernelIdeal.Gen.V21_main_arg10 m (Cert.KernelIdeal.Fr.outs m) c),
       (h c _ (Cert.KernelIdeal.Fr.mem_uc Cert.KernelIdeal.main_arg11 (by decide))).trans (Cert.KernelIdeal.Gen.V21_main_arg11 m (Cert.KernelIdeal.Fr.outs m) c),
       (h c _ (Cert.KernelIdeal.Fr.mem_uc Cert.KernelIdeal.main_arg12 (by decide))).trans (Cert.KernelIdeal.Gen.V21_main_arg12 m (Cert.KernelIdeal.Fr.outs m) c),
       (h c _ (Cert.KernelIdeal.Fr.mem_uc Cert.KernelIdeal.main_arg13 (by decide))).trans (Cert.KernelIdeal.Gen.V21_main_arg13 m (Cert.KernelIdeal.Fr.outs m) c),
       (h c _ (Cert.KernelIdeal.Fr.mem_uc Cert.KernelIdeal.main_arg14 (by decide))).trans (Cert.KernelIdeal.Gen.V21_main_arg14 m (Cert.KernelIdeal.Fr.outs m) c),
       (h c _ (Cert.KernelIdeal.Fr.mem_uc Cert.KernelIdeal.main_arg15 (by decide))).trans (Cert.KernelIdeal.Gen.V21_main_arg15 m (Cert.KernelIdeal.Fr.outs m) c),
       (h c _ (Cert.KernelIdeal.Fr.mem_uc Cert.KernelIdeal.main_arg16 (by decide))).trans (Cert.KernelIdeal.Gen.V21_main_arg16 m (Cert.KernelIdeal.Fr.outs m) c),
       (h c _ (Cert.KernelIdeal.Fr.mem_uc Cert.KernelIdeal.main_arg17 (by decide))).trans (Cert.KernelIdeal.Gen.V21_main_arg17 m (Cert.KernelIdeal.Fr.outs m) c),
       (h c _ (Cert.KernelIdeal.Fr.mem_uc Cert.KernelIdeal.main_arg18 (by decide))).trans (Cert.KernelIdeal.Gen.V21_main_arg18 m (Cert.KernelIdeal.Fr.outs m) c),
       (h c _ (Cert.KernelIdeal.Fr.mem_uc Cert.KernelIdeal.main_arg19 (by decide))).trans (Cert.KernelIdeal.Gen.V21_main_arg19 m (Cert.KernelIdeal.Fr.outs m) c),
       (h c _ (Cert.KernelIdeal.Fr.mem_uc Cert.KernelIdeal.main_arg20 (by decide))).trans (Cert.KernelIdeal.Gen.V21_main_arg20 m (Cert.KernelIdeal.Fr.outs m) c),
       (h c _ (Cert.KernelIdeal.Fr.mem_uc Cert.KernelIdeal.main_arg21 (by decide))).trans (Cert.KernelIdeal.Gen.V21_main_arg21 m (Cert.KernelIdeal.Fr.outs m) c),
       (h c _ (Cert.KernelIdeal.Fr.mem_uc Cert.KernelIdeal.main_arg22 (by decide))).trans (Cert.KernelIdeal.Gen.V21_main_arg22 m (Cert.KernelIdeal.Fr.outs m) c),
       (h c _ (Cert.KernelIdeal.Fr.mem_uc Cert.KernelIdeal.main_arg23 (by decide))).trans (Cert.KernelIdeal.Gen.V21_main_arg23 m (Cert.KernelIdeal.Fr.outs m) c),
       (h c _ (Cert.KernelIdeal.Fr.mem_uc Cert.KernelIdeal.main_arg24 (by decide))).trans (Cert.KernelIdeal.Gen.V21_main_arg24 m (Cert.KernelIdeal.Fr.outs m) c),
       (h c _ (Cert.KernelIdeal.Fr.mem_uc Cert.KernelIdeal.main_arg25 (by decide))).trans (Cert.KernelIdeal.Gen.V21_main_arg25 m (Cert.KernelIdeal.Fr.outs m) c),
       (h c _ (Cert.KernelIdeal.Fr.mem_uc Cert.KernelIdeal.main_arg26 (by decide))).trans (Cert.KernelIdeal.Gen.V21_main_arg26 m (Cert.KernelIdeal.Fr.outs m) c),
       (h c _ (Cert.KernelIdeal.Fr.mem_uc Cert.KernelIdeal.main_arg27 (by decide))).trans (Cert.KernelIdeal.Gen.V21_main_arg27 m (Cert.KernelIdeal.Fr.outs m) c),
       (h c _ (Cert.KernelIdeal.Fr.mem_uc Cert.KernelIdeal.main_arg28 (by decide))).trans (Cert.KernelIdeal.Gen.V21_main_arg28 m (Cert.KernelIdeal.Fr.outs m) c),
       (h c _ (Cert.KernelIdeal.Fr.mem_uc Cert.KernelIdeal.main_arg29 (by decide))).trans (Cert.KernelIdeal.Gen.V21_main_arg29 m (Cert.KernelIdeal.Fr.outs m) c),
       (h c _ (Cert.KernelIdeal.Fr.mem_uc Cert.KernelIdeal.main_arg30 (by decide))).trans (Cert.KernelIdeal.Gen.V21_main_arg30 m (Cert.KernelIdeal.Fr.outs m) c),
       (h c _ (Cert.KernelIdeal.Fr.mem_uc Cert.KernelIdeal.main_arg31 (by decide))).trans (Cert.KernelIdeal.Gen.V21_main_arg31 m (Cert.KernelIdeal.Fr.outs m) c)⟩)
      (Cert.KernelIdeal.Fr.run_all ρ (Cert.KernelIdeal.Fr.outsOk m))
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v226_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2]
      exact (Cert.KernelIdeal.Val.results_eq m c).1.symm
    · rw [Cert.ReferenceIdeal.Read.val_main_v253_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2]
      exact (Cert.KernelIdeal.Val.results_eq m c).2.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
